-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x1000 : Shape := ⟨3, ![4, 16384, 1000]⟩
abbrev S_ : Shape := ⟨0, ![]⟩

class Facts : Prop where
  bcast_S_S4x16384x1000 : S_.BroadcastsInDim S4x16384x1000 (![] : Fin 0 → Fin S4x16384x1000.rank)
  reducesTo_S4x16384x1000_S_d0_1_2 : S4x16384x1000.ReducesTo [0, 1, 2] S_
  h_S_ : 0 < S_.numel

variable [Facts]

def fn {F : FTy → Type} [FloatOps F] (main_arg0 : FVec F S4x16384x1000 .f32) : IVec S_ 1 :=
  let main_v0 : FVec F S4x16384x1000 .f32 := Host.absf main_arg0
  let main_cst : FVec F S_ .f32 := constant S_ .f32 0x7F800000#32
  let main_v1 : FVec F S4x16384x1000 .f32 := broadcastInDim S4x16384x1000 ![] bcast_S_S4x16384x1000 main_cst
  let main_v2 : IVec S4x16384x1000 1 := cmpf .olt main_v0 main_v1
  let main_c : IVec S_ 1 := constantI S_ 1 1#1
  let main_v3 : IVec S_ 1 := (fun x v => Host.reduce IntOp.andi x v reducesTo_S4x16384x1000_S_d0_1_2 h_S_) main_v2 main_c
  main_v3
-- ==== Kernel.lean ====
abbrev S4x16384x1000 : Shape := ⟨3, ![4, 16384, 1000]⟩
abbrev S16384 : Shape := ⟨1, ![16384]⟩
abbrev S16384x1000 : Shape := ⟨2, ![16384, 1000]⟩
abbrev S1x1024x1000 : Shape := ⟨3, ![1, 1024, 1000]⟩
abbrev S1024 : Shape := ⟨1, ![1024]⟩
abbrev S1024x1000 : Shape := ⟨2, ![1024, 1000]⟩
abbrev S1024x1 : Shape := ⟨2, ![1024, 1]⟩
abbrev S1x1024 : Shape := ⟨2, ![1, 1024]⟩
abbrev S65536x1000 : Shape := ⟨2, ![65536, 1000]⟩
abbrev S512 : Shape := ⟨1, ![512]⟩
abbrev S_ : Shape := ⟨0, ![]⟩
abbrev S512x1000 : Shape := ⟨2, ![512, 1000]⟩
abbrev S16 : Shape := ⟨1, ![16]⟩
abbrev S1 : Shape := ⟨1, ![1]⟩
abbrev S1x1000 : Shape := ⟨2, ![1, 1000]⟩

abbrev nBuf : Table → Nat
  | .hbm => 6
  | .local .tc .vmem => 12
  | .local .scVector .vmem => 1
  | _ => 0

abbrev bufTy : (tb : Table) → Fin (nBuf tb) → BufTy
  | .hbm, ⟨0, _⟩ => ⟨S4x16384x1000, .f32⟩
  | .hbm, ⟨1, _⟩ => ⟨S16384, .i32⟩
  | .hbm, ⟨2, _⟩ => ⟨S16384, .i32⟩
  | .hbm, ⟨3, _⟩ => ⟨S16384x1000, .f32⟩
  | .hbm, ⟨4, _⟩ => ⟨S65536x1000, .f32⟩
  | .hbm, ⟨5, _⟩ => ⟨S16384x1000, .f32⟩
  | .local .tc .vmem, ⟨0, _⟩ => ⟨S1x1024x1000, .f32⟩
  | .local .tc .vmem, ⟨1, _⟩ => ⟨S1x1024x1000, .f32⟩
  | .local .tc .vmem, ⟨2, _⟩ => ⟨S1x1024x1000, .f32⟩
  | .local .tc .vmem, ⟨3, _⟩ => ⟨S1x1024x1000, .f32⟩
  | .local .tc .vmem, ⟨4, _⟩ => ⟨S1x1024x1000, .f32⟩
  | .local .tc .vmem, ⟨5, _⟩ => ⟨S1x1024x1000, .f32⟩
  | .local .tc .vmem, ⟨6, _⟩ => ⟨S1024, .i32⟩
  | .local .tc .vmem, ⟨7, _⟩ => ⟨S1024, .i32⟩
  | .local .tc .vmem, ⟨8, _⟩ => ⟨S1024, .i32⟩
  | .local .tc .vmem, ⟨9, _⟩ => ⟨S1024, .i32⟩
  | .local .tc .vmem, ⟨10, _⟩ => ⟨S1024x1000, .f32⟩
  | .local .tc .vmem, ⟨11, _⟩ => ⟨S1024x1000, .f32⟩
  | .local .scVector .vmem, ⟨0, _⟩ => ⟨S512, .i32⟩
  | _, _ => ⟨S4x16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v1_scv : Ref sig .scVector := ⟨.hbm, 4, rfl⟩
abbrev main_v0_2_scv : Ref sig .scVector := ⟨.hbm, 3, rfl⟩
abbrev main_v0_1_scv : Ref sig .scVector := ⟨.hbm, 2, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
@[reducible] def k1_t1_loop : Scf.Loop 32 :=
  let c0_i32_4 : BitVec 32 := 0#32
  let c32_i32 : BitVec 32 := 32#32
  let v7 : BitVec 32 := Scalar.addi c0_i32_4 c32_i32
  let c1_i32 : BitVec 32 := 1#32
  ⟨c0_i32_4, v7, c1_i32⟩
def k1_off3 (k1_t1 : Fin k1_t1_loop.trips) : Fin 1 → Nat :=
  let c0_i32_4 : BitVec 32 := 0#32
  let c1_i32 : BitVec 32 := 1#32
  let arg9 : BitVec 32 := Scf.iv c0_i32_4 c1_i32 k1_t1
  let c16_i32 : BitVec 32 := 16#32
  let v8 : BitVec 32 := Scalar.muli arg9 c16_i32
  let v9 : Index := Scalar.indexCast v8
  ![v9.toNat]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_6 : BitVec 32 := 16#32
  let v14 : BitVec 32 := Scalar.muli arg9 c16_i32_6
  let v15 : BitVec 32 := Scalar.addi v2 v14
  let c0_i32_7 : BitVec 32 := 0#32
  let v16 : BitVec 32 := Scalar.addi v15 c0_i32_7
  let c0_i32_88 : BitVec 32 := 0#32
  ![v16.toNat, 0]
def k1_off5 (v13 : BitVec 32) : Fin 2 → Nat :=
  let c0_i32_89 : BitVec 32 := 0#32
  ![v13.toNat, 0]
def k1_cond1 (v13 : BitVec 32) : BitVec 1 :=
  let c49152_i32 : BitVec 32 := 49152#32
  let v17 : BitVec 1 := Scalar.cmpi .sge v13 c49152_i32
  let v18 : BitVec 32 := Scalar.extui v17
  let c0_i32_8 : BitVec 32 := 0#32
  let v19 : BitVec 1 := Scalar.cmpi .ne v18 c0_i32_8
  v19

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_9 : BitVec 32 := 16#32
  let v22 : BitVec 32 := Scalar.muli arg9 c16_i32_9
  let v23 : BitVec 32 := Scalar.addi v2 v22
  let c1_i32_10 : BitVec 32 := 1#32
  let v24 : BitVec 32 := Scalar.addi v23 c1_i32_10
  let c0_i32_88 : BitVec 32 := 0#32
  ![v24.toNat, 0]
def k1_off7 (v21 : BitVec 32) : Fin 2 → Nat :=
  let c0_i32_89 : BitVec 32 := 0#32
  ![v21.toNat, 0]
def k1_cond2 (v21 : BitVec 32) : BitVec 1 :=
  let c49152_i32_11 : BitVec 32 := 49152#32
  let v25 : BitVec 1 := Scalar.cmpi .sge v21 c49152_i32_11
  let v26 : BitVec 32 := Scalar.extui v25
  let c0_i32_12 : BitVec 32 := 0#32
  let v27 : BitVec 1 := Scalar.cmpi .ne v26 c0_i32_12
  v27

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_13 : BitVec 32 := 16#32
  let v30 : BitVec 32 := Scalar.muli arg9 c16_i32_13
  let v31 : BitVec 32 := Scalar.addi v2 v30
  let c2_i32_14 : BitVec 32 := 2#32
  let v32 : BitVec 32 := Scalar.addi v31 c2_i32_14
  let c0_i32_88 : BitVec 32 := 0#32
  ![v32.toNat, 0]
def k1_off9 (v29 : BitVec 32) : Fin 2 → Nat :=
  let c0_i32_89 : BitVec 32 := 0#32
  ![v29.toNat, 0]
def k1_cond3 (v29 : BitVec 32) : BitVec 1 :=
  let c49152_i32_15 : BitVec 32 := 49152#32
  let v33 : BitVec 1 := Scalar.cmpi .sge v29 c49152_i32_15
  let v34 : BitVec 32 := Scalar.extui v33
  let c0_i32_16 : BitVec 32 := 0#32
  let v35 : BitVec 1 := Scalar.cmpi .ne v34 c0_i32_16
  v35

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_17 : BitVec 32 := 16#32
  let v38 : BitVec 32 := Scalar.muli arg9 c16_i32_17
  let v39 : BitVec 32 := Scalar.addi v2 v38
  let c3_i32 : BitVec 32 := 3#32
  let v40 : BitVec 32 := Scalar.addi v39 c3_i32
  let c0_i32_88 : BitVec 32 := 0#32
  ![v40.toNat, 0]
def k1_off11 (v37 : BitVec 32) : Fin 2 → Nat :=
  let c0_i32_89 : BitVec 32 := 0#32
  ![v37.toNat, 0]
def k1_cond4 (v37 : BitVec 32) : BitVec 1 :=
  let c49152_i32_18 : BitVec 32 := 49152#32
  let v41 : BitVec 1 := Scalar.cmpi .sge v37 c49152_i32_18
  let v42 : BitVec 32 := Scalar.extui v41
  let c0_i32_19 : BitVec 32 := 0#32
  let v43 : BitVec 1 := Scalar.cmpi .ne v42 c0_i32_19
  v43

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_20 : BitVec 32 := 16#32
  let v46 : BitVec 32 := Scalar.muli arg9 c16_i32_20
  let v47 : BitVec 32 := Scalar.addi v2 v46
  let c4_i32 : BitVec 32 := 4#32
  let v48 : BitVec 32 := Scalar.addi v47 c4_i32
  let c0_i32_88 : BitVec 32 := 0#32
  ![v48.toNat, 0]
def k1_off13 (v45 : BitVec 32) : Fin 2 → Nat :=
  let c0_i32_89 : BitVec 32 := 0#32
  ![v45.toNat, 0]
def k1_cond5 (v45 : BitVec 32) : BitVec 1 :=
  let c49152_i32_21 : BitVec 32 := 49152#32
  let v49 : BitVec 1 := Scalar.cmpi .sge v45 c49152_i32_21
  let v50 : BitVec 32 := Scalar.extui v49
  let c0_i32_22 : BitVec 32 := 0#32
  let v51 : BitVec 1 := Scalar.cmpi .ne v50 c0_i32_22
  v51

def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_23 : BitVec 32 := 16#32
  let v54 : BitVec 32 := Scalar.muli arg9 c16_i32_23
  let v55 : BitVec 32 := Scalar.addi v2 v54
  let c5_i32 : BitVec 32 := 5#32
  let v56 : BitVec 32 := Scalar.addi v55 c5_i32
  let c0_i32_88 : BitVec 32 := 0#32
  ![v56.toNat, 0]
def k1_off15 (v53 : BitVec 32) : Fin 2 → Nat :=
  let c0_i32_89 : BitVec 32 := 0#32
  ![v53.toNat, 0]
def k1_cond6 (v53 : BitVec 32) : BitVec 1 :=
  let c49152_i32_24 : BitVec 32 := 49152#32
  let v57 : BitVec 1 := Scalar.cmpi .sge v53 c49152_i32_24
  let v58 : BitVec 32 := Scalar.extui v57
  let c0_i32_25 : BitVec 32 := 0#32
  let v59 : BitVec 1 := Scalar.cmpi .ne v58 c0_i32_25
  v59

def k1_off16 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_26 : BitVec 32 := 16#32
  let v62 : BitVec 32 := Scalar.muli arg9 c16_i32_26
  let v63 : BitVec 32 := Scalar.addi v2 v62
  let c6_i32 : BitVec 32 := 6#32
  let v64 : BitVec 32 := Scalar.addi v63 c6_i32
  let c0_i32_88 : BitVec 32 := 0#32
  ![v64.toNat, 0]
def k1_off17 (v61 : BitVec 32) : Fin 2 → Nat :=
  let c0_i32_89 : BitVec 32 := 0#32
  ![v61.toNat, 0]
def k1_cond7 (v61 : BitVec 32) : BitVec 1 :=
  let c49152_i32_27 : BitVec 32 := 49152#32
  let v65 : BitVec 1 := Scalar.cmpi .sge v61 c49152_i32_27
  let v66 : BitVec 32 := Scalar.extui v65
  let c0_i32_28 : BitVec 32 := 0#32
  let v67 : BitVec 1 := Scalar.cmpi .ne v66 c0_i32_28
  v67

def k1_off18 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_29 : BitVec 32 := 16#32
  let v70 : BitVec 32 := Scalar.muli arg9 c16_i32_29
  let v71 : BitVec 32 := Scalar.addi v2 v70
  let c7_i32 : BitVec 32 := 7#32
  let v72 : BitVec 32 := Scalar.addi v71 c7_i32
  let c0_i32_88 : BitVec 32 := 0#32
  ![v72.toNat, 0]
def k1_off19 (v69 : BitVec 32) : Fin 2 → Nat :=
  let c0_i32_89 : BitVec 32 := 0#32
  ![v69.toNat, 0]
def k1_cond8 (v69 : BitVec 32) : BitVec 1 :=
  let c49152_i32_30 : BitVec 32 := 49152#32
  let v73 : BitVec 1 := Scalar.cmpi .sge v69 c49152_i32_30
  let v74 : BitVec 32 := Scalar.extui v73
  let c0_i32_31 : BitVec 32 := 0#32
  let v75 : BitVec 1 := Scalar.cmpi .ne v74 c0_i32_31
  v75

def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_32 : BitVec 32 := 16#32
  let v78 : BitVec 32 := Scalar.muli arg9 c16_i32_32
  let v79 : BitVec 32 := Scalar.addi v2 v78
  let c8_i32 : BitVec 32 := 8#32
  let v80 : BitVec 32 := Scalar.addi v79 c8_i32
  let c0_i32_88 : BitVec 32 := 0#32
  ![v80.toNat, 0]
def k1_off21 (v77 : BitVec 32) : Fin 2 → Nat :=
  let c0_i32_89 : BitVec 32 := 0#32
  ![v77.toNat, 0]
def k1_cond9 (v77 : BitVec 32) : BitVec 1 :=
  let c49152_i32_33 : BitVec 32 := 49152#32
  let v81 : BitVec 1 := Scalar.cmpi .sge v77 c49152_i32_33
  let v82 : BitVec 32 := Scalar.extui v81
  let c0_i32_34 : BitVec 32 := 0#32
  let v83 : BitVec 1 := Scalar.cmpi .ne v82 c0_i32_34
  v83

def k1_off22 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_35 : BitVec 32 := 16#32
  let v86 : BitVec 32 := Scalar.muli arg9 c16_i32_35
  let v87 : BitVec 32 := Scalar.addi v2 v86
  let c9_i32 : BitVec 32 := 9#32
  let v88 : BitVec 32 := Scalar.addi v87 c9_i32
  let c0_i32_88 : BitVec 32 := 0#32
  ![v88.toNat, 0]
def k1_off23 (v85 : BitVec 32) : Fin 2 → Nat :=
  let c0_i32_89 : BitVec 32 := 0#32
  ![v85.toNat, 0]
def k1_cond10 (v85 : BitVec 32) : BitVec 1 :=
  let c49152_i32_36 : BitVec 32 := 49152#32
  let v89 : BitVec 1 := Scalar.cmpi .sge v85 c49152_i32_36
  let v90 : BitVec 32 := Scalar.extui v89
  let c0_i32_37 : BitVec 32 := 0#32
  let v91 : BitVec 1 := Scalar.cmpi .ne v90 c0_i32_37
  v91

def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_38 : BitVec 32 := 16#32
  let v94 : BitVec 32 := Scalar.muli arg9 c16_i32_38
  let v95 : BitVec 32 := Scalar.addi v2 v94
  let c10_i32 : BitVec 32 := 10#32
  let v96 : BitVec 32 := Scalar.addi v95 c10_i32
  let c0_i32_88 : BitVec 32 := 0#32
  ![v96.toNat, 0]
def k1_off25 (v93 : BitVec 32) : Fin 2 → Nat :=
  let c0_i32_89 : BitVec 32 := 0#32
  ![v93.toNat, 0]
def k1_cond11 (v93 : BitVec 32) : BitVec 1 :=
  let c49152_i32_39 : BitVec 32 := 49152#32
  let v97 : BitVec 1 := Scalar.cmpi .sge v93 c49152_i32_39
  let v98 : BitVec 32 := Scalar.extui v97
  let c0_i32_40 : BitVec 32 := 0#32
  let v99 : BitVec 1 := Scalar.cmpi .ne v98 c0_i32_40
  v99

def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_41 : BitVec 32 := 16#32
  let v102 : BitVec 32 := Scalar.muli arg9 c16_i32_41
  let v103 : BitVec 32 := Scalar.addi v2 v102
  let c11_i32 : BitVec 32 := 11#32
  let v104 : BitVec 32 := Scalar.addi v103 c11_i32
  let c0_i32_88 : BitVec 32 := 0#32
  ![v104.toNat, 0]
def k1_off27 (v101 : BitVec 32) : Fin 2 → Nat :=
  let c0_i32_89 : BitVec 32 := 0#32
  ![v101.toNat, 0]
def k1_cond12 (v101 : BitVec 32) : BitVec 1 :=
  let c49152_i32_42 : BitVec 32 := 49152#32
  let v105 : BitVec 1 := Scalar.cmpi .sge v101 c49152_i32_42
  let v106 : BitVec 32 := Scalar.extui v105
  let c0_i32_43 : BitVec 32 := 0#32
  let v107 : BitVec 1 := Scalar.cmpi .ne v106 c0_i32_43
  v107

def k1_off28 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_44 : BitVec 32 := 16#32
  let v110 : BitVec 32 := Scalar.muli arg9 c16_i32_44
  let v111 : BitVec 32 := Scalar.addi v2 v110
  let c12_i32 : BitVec 32 := 12#32
  let v112 : BitVec 32 := Scalar.addi v111 c12_i32
  let c0_i32_88 : BitVec 32 := 0#32
  ![v112.toNat, 0]
def k1_off29 (v109 : BitVec 32) : Fin 2 → Nat :=
  let c0_i32_89 : BitVec 32 := 0#32
  ![v109.toNat, 0]
def k1_cond13 (v109 : BitVec 32) : BitVec 1 :=
  let c49152_i32_45 : BitVec 32 := 49152#32
  let v113 : BitVec 1 := Scalar.cmpi .sge v109 c49152_i32_45
  let v114 : BitVec 32 := Scalar.extui v113
  let c0_i32_46 : BitVec 32 := 0#32
  let v115 : BitVec 1 := Scalar.cmpi .ne v114 c0_i32_46
  v115

def k1_off30 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_47 : BitVec 32 := 16#32
  let v118 : BitVec 32 := Scalar.muli arg9 c16_i32_47
  let v119 : BitVec 32 := Scalar.addi v2 v118
  let c13_i32 : BitVec 32 := 13#32
  let v120 : BitVec 32 := Scalar.addi v119 c13_i32
  let c0_i32_88 : BitVec 32 := 0#32
  ![v120.toNat, 0]
def k1_off31 (v117 : BitVec 32) : Fin 2 → Nat :=
  let c0_i32_89 : BitVec 32 := 0#32
  ![v117.toNat, 0]
def k1_cond14 (v117 : BitVec 32) : BitVec 1 :=
  let c49152_i32_48 : BitVec 32 := 49152#32
  let v121 : BitVec 1 := Scalar.cmpi .sge v117 c49152_i32_48
  let v122 : BitVec 32 := Scalar.extui v121
  let c0_i32_49 : BitVec 32 := 0#32
  let v123 : BitVec 1 := Scalar.cmpi .ne v122 c0_i32_49
  v123

def k1_off32 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_50 : BitVec 32 := 16#32
  let v126 : BitVec 32 := Scalar.muli arg9 c16_i32_50
  let v127 : BitVec 32 := Scalar.addi v2 v126
  let c14_i32 : BitVec 32 := 14#32
  let v128 : BitVec 32 := Scalar.addi v127 c14_i32
  let c0_i32_88 : BitVec 32 := 0#32
  ![v128.toNat, 0]
def k1_off33 (v125 : BitVec 32) : Fin 2 → Nat :=
  let c0_i32_89 : BitVec 32 := 0#32
  ![v125.toNat, 0]
def k1_cond15 (v125 : BitVec 32) : BitVec 1 :=
  let c49152_i32_51 : BitVec 32 := 49152#32
  let v129 : BitVec 1 := Scalar.cmpi .sge v125 c49152_i32_51
  let v130 : BitVec 32 := Scalar.extui v129
  let c0_i32_52 : BitVec 32 := 0#32
  let v131 : BitVec 1 := Scalar.cmpi .ne v130 c0_i32_52
  v131

def k1_off34 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_53 : BitVec 32 := 16#32
  let v134 : BitVec 32 := Scalar.muli arg9 c16_i32_53
  let v135 : BitVec 32 := Scalar.addi v2 v134
  let c15_i32 : BitVec 32 := 15#32
  let v136 : BitVec 32 := Scalar.addi v135 c15_i32
  let c0_i32_88 : BitVec 32 := 0#32
  ![v136.toNat, 0]
def k1_off35 (v133 : BitVec 32) : Fin 2 → Nat :=
  let c0_i32_89 : BitVec 32 := 0#32
  ![v133.toNat, 0]
def k1_cond16 (v133 : BitVec 32) : BitVec 1 :=
  let c49152_i32_54 : BitVec 32 := 49152#32
  let v137 : BitVec 1 := Scalar.cmpi .sge v133 c49152_i32_54
  let v138 : BitVec 32 := Scalar.extui v137
  let c0_i32_55 : BitVec 32 := 0#32
  let v139 : BitVec 1 := Scalar.cmpi .ne v138 c0_i32_55
  v139

def k1_off36 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_6 : BitVec 32 := 16#32
  let v14 : BitVec 32 := Scalar.muli arg9 c16_i32_6
  let v15 : BitVec 32 := Scalar.addi v2 v14
  let c0_i32_7 : BitVec 32 := 0#32
  let v16 : BitVec 32 := Scalar.addi v15 c0_i32_7
  let c0_i32_88 : BitVec 32 := 0#32
  ![v16.toNat, 0]
def k1_off37 (v13 : BitVec 32) : Fin 2 → Nat :=
  let c0_i32_89 : BitVec 32 := 0#32
  ![v13.toNat, 0]
def k1_cond17 (v13 : BitVec 32) : BitVec 1 :=
  let c49152_i32_56 : BitVec 32 := 49152#32
  let v140 : BitVec 1 := Scalar.cmpi .sge v13 c49152_i32_56
  let v141 : BitVec 32 := Scalar.extui v140
  let c0_i32_57 : BitVec 32 := 0#32
  let v142 : BitVec 1 := Scalar.cmpi .ne v141 c0_i32_57
  v142

def k1_chk1 (v13 : BitVec 32) : Prop :=
  (∀ (k1_h1 : k1_cond1 v13 = 1#1), ∀ a, (k1_off5 v13) a + S1x1000.size a ≤ S65536x1000.size a) ∧
  (∀ (k1_h17 : k1_cond17 v13 = 1#1), ∀ a, (k1_off37 v13) a + S1x1000.size a ≤ S65536x1000.size a)
instance k1_chk1.dec : ∀ (v13 : BitVec 32), Decidable (k1_chk1 v13) := fun v13 => decidable_of_iff' _ (Iff.of_eq (k1_chk1.eq_1 v13))
theorem k1_off5_inb : ∀ (v13 : BitVec 32) (k1_hw1 : k1_chk1 v13), ∀ (k1_h1 : k1_cond1 v13 = 1#1), ∀ a, (k1_off5 v13) a + S1x1000.size a ≤ S65536x1000.size a := fun v13 k1_hw1 k1_h1 => k1_hw1.1 k1_h1
theorem k1_off37_inb : ∀ (v13 : BitVec 32) (k1_hw1 : k1_chk1 v13), ∀ (k1_h17 : k1_cond17 v13 = 1#1), ∀ a, (k1_off37 v13) a + S1x1000.size a ≤ S65536x1000.size a := fun v13 k1_hw1 k1_h17 => k1_hw1.2 k1_h17

def k1_off38 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_9 : BitVec 32 := 16#32
  let v22 : BitVec 32 := Scalar.muli arg9 c16_i32_9
  let v23 : BitVec 32 := Scalar.addi v2 v22
  let c1_i32_10 : BitVec 32 := 1#32
  let v24 : BitVec 32 := Scalar.addi v23 c1_i32_10
  let c0_i32_88 : BitVec 32 := 0#32
  ![v24.toNat, 0]
def k1_off39 (v21 : BitVec 32) : Fin 2 → Nat :=
  let c0_i32_89 : BitVec 32 := 0#32
  ![v21.toNat, 0]
def k1_cond18 (v21 : BitVec 32) : BitVec 1 :=
  let c49152_i32_58 : BitVec 32 := 49152#32
  let v143 : BitVec 1 := Scalar.cmpi .sge v21 c49152_i32_58
  let v144 : BitVec 32 := Scalar.extui v143
  let c0_i32_59 : BitVec 32 := 0#32
  let v145 : BitVec 1 := Scalar.cmpi .ne v144 c0_i32_59
  v145

def k1_chk2 (v21 : BitVec 32) : Prop :=
  (∀ (k1_h2 : k1_cond2 v21 = 1#1), ∀ a, (k1_off7 v21) a + S1x1000.size a ≤ S65536x1000.size a) ∧
  (∀ (k1_h18 : k1_cond18 v21 = 1#1), ∀ a, (k1_off39 v21) a + S1x1000.size a ≤ S65536x1000.size a)
instance k1_chk2.dec : ∀ (v21 : BitVec 32), Decidable (k1_chk2 v21) := fun v21 => decidable_of_iff' _ (Iff.of_eq (k1_chk2.eq_1 v21))
theorem k1_off7_inb : ∀ (v21 : BitVec 32) (k1_hw2 : k1_chk2 v21), ∀ (k1_h2 : k1_cond2 v21 = 1#1), ∀ a, (k1_off7 v21) a + S1x1000.size a ≤ S65536x1000.size a := fun v21 k1_hw2 k1_h2 => k1_hw2.1 k1_h2
theorem k1_off39_inb : ∀ (v21 : BitVec 32) (k1_hw2 : k1_chk2 v21), ∀ (k1_h18 : k1_cond18 v21 = 1#1), ∀ a, (k1_off39 v21) a + S1x1000.size a ≤ S65536x1000.size a := fun v21 k1_hw2 k1_h18 => k1_hw2.2 k1_h18

def k1_off40 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_13 : BitVec 32 := 16#32
  let v30 : BitVec 32 := Scalar.muli arg9 c16_i32_13
  let v31 : BitVec 32 := Scalar.addi v2 v30
  let c2_i32_14 : BitVec 32 := 2#32
  let v32 : BitVec 32 := Scalar.addi v31 c2_i32_14
  let c0_i32_88 : BitVec 32 := 0#32
  ![v32.toNat, 0]
def k1_off41 (v29 : BitVec 32) : Fin 2 → Nat :=
  let c0_i32_89 : BitVec 32 := 0#32
  ![v29.toNat, 0]
def k1_cond19 (v29 : BitVec 32) : BitVec 1 :=
  let c49152_i32_60 : BitVec 32 := 49152#32
  let v146 : BitVec 1 := Scalar.cmpi .sge v29 c49152_i32_60
  let v147 : BitVec 32 := Scalar.extui v146
  let c0_i32_61 : BitVec 32 := 0#32
  let v148 : BitVec 1 := Scalar.cmpi .ne v147 c0_i32_61
  v148

def k1_chk3 (v29 : BitVec 32) : Prop :=
  (∀ (k1_h3 : k1_cond3 v29 = 1#1), ∀ a, (k1_off9 v29) a + S1x1000.size a ≤ S65536x1000.size a) ∧
  (∀ (k1_h19 : k1_cond19 v29 = 1#1), ∀ a, (k1_off41 v29) a + S1x1000.size a ≤ S65536x1000.size a)
instance k1_chk3.dec : ∀ (v29 : BitVec 32), Decidable (k1_chk3 v29) := fun v29 => decidable_of_iff' _ (Iff.of_eq (k1_chk3.eq_1 v29))
theorem k1_off9_inb : ∀ (v29 : BitVec 32) (k1_hw3 : k1_chk3 v29), ∀ (k1_h3 : k1_cond3 v29 = 1#1), ∀ a, (k1_off9 v29) a + S1x1000.size a ≤ S65536x1000.size a := fun v29 k1_hw3 k1_h3 => k1_hw3.1 k1_h3
theorem k1_off41_inb : ∀ (v29 : BitVec 32) (k1_hw3 : k1_chk3 v29), ∀ (k1_h19 : k1_cond19 v29 = 1#1), ∀ a, (k1_off41 v29) a + S1x1000.size a ≤ S65536x1000.size a := fun v29 k1_hw3 k1_h19 => k1_hw3.2 k1_h19

def k1_off42 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_17 : BitVec 32 := 16#32
  let v38 : BitVec 32 := Scalar.muli arg9 c16_i32_17
  let v39 : BitVec 32 := Scalar.addi v2 v38
  let c3_i32 : BitVec 32 := 3#32
  let v40 : BitVec 32 := Scalar.addi v39 c3_i32
  let c0_i32_88 : BitVec 32 := 0#32
  ![v40.toNat, 0]
def k1_off43 (v37 : BitVec 32) : Fin 2 → Nat :=
  let c0_i32_89 : BitVec 32 := 0#32
  ![v37.toNat, 0]
def k1_cond20 (v37 : BitVec 32) : BitVec 1 :=
  let c49152_i32_62 : BitVec 32 := 49152#32
  let v149 : BitVec 1 := Scalar.cmpi .sge v37 c49152_i32_62
  let v150 : BitVec 32 := Scalar.extui v149
  let c0_i32_63 : BitVec 32 := 0#32
  let v151 : BitVec 1 := Scalar.cmpi .ne v150 c0_i32_63
  v151

def k1_chk4 (v37 : BitVec 32) : Prop :=
  (∀ (k1_h4 : k1_cond4 v37 = 1#1), ∀ a, (k1_off11 v37) a + S1x1000.size a ≤ S65536x1000.size a) ∧
  (∀ (k1_h20 : k1_cond20 v37 = 1#1), ∀ a, (k1_off43 v37) a + S1x1000.size a ≤ S65536x1000.size a)
instance k1_chk4.dec : ∀ (v37 : BitVec 32), Decidable (k1_chk4 v37) := fun v37 => decidable_of_iff' _ (Iff.of_eq (k1_chk4.eq_1 v37))
theorem k1_off11_inb : ∀ (v37 : BitVec 32) (k1_hw4 : k1_chk4 v37), ∀ (k1_h4 : k1_cond4 v37 = 1#1), ∀ a, (k1_off11 v37) a + S1x1000.size a ≤ S65536x1000.size a := fun v37 k1_hw4 k1_h4 => k1_hw4.1 k1_h4
theorem k1_off43_inb : ∀ (v37 : BitVec 32) (k1_hw4 : k1_chk4 v37), ∀ (k1_h20 : k1_cond20 v37 = 1#1), ∀ a, (k1_off43 v37) a + S1x1000.size a ≤ S65536x1000.size a := fun v37 k1_hw4 k1_h20 => k1_hw4.2 k1_h20

def k1_off44 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_20 : BitVec 32 := 16#32
  let v46 : BitVec 32 := Scalar.muli arg9 c16_i32_20
  let v47 : BitVec 32 := Scalar.addi v2 v46
  let c4_i32 : BitVec 32 := 4#32
  let v48 : BitVec 32 := Scalar.addi v47 c4_i32
  let c0_i32_88 : BitVec 32 := 0#32
  ![v48.toNat, 0]
def k1_off45 (v45 : BitVec 32) : Fin 2 → Nat :=
  let c0_i32_89 : BitVec 32 := 0#32
  ![v45.toNat, 0]
def k1_cond21 (v45 : BitVec 32) : BitVec 1 :=
  let c49152_i32_64 : BitVec 32 := 49152#32
  let v152 : BitVec 1 := Scalar.cmpi .sge v45 c49152_i32_64
  let v153 : BitVec 32 := Scalar.extui v152
  let c0_i32_65 : BitVec 32 := 0#32
  let v154 : BitVec 1 := Scalar.cmpi .ne v153 c0_i32_65
  v154

def k1_chk5 (v45 : BitVec 32) : Prop :=
  (∀ (k1_h5 : k1_cond5 v45 = 1#1), ∀ a, (k1_off13 v45) a + S1x1000.size a ≤ S65536x1000.size a) ∧
  (∀ (k1_h21 : k1_cond21 v45 = 1#1), ∀ a, (k1_off45 v45) a + S1x1000.size a ≤ S65536x1000.size a)
instance k1_chk5.dec : ∀ (v45 : BitVec 32), Decidable (k1_chk5 v45) := fun v45 => decidable_of_iff' _ (Iff.of_eq (k1_chk5.eq_1 v45))
theorem k1_off13_inb : ∀ (v45 : BitVec 32) (k1_hw5 : k1_chk5 v45), ∀ (k1_h5 : k1_cond5 v45 = 1#1), ∀ a, (k1_off13 v45) a + S1x1000.size a ≤ S65536x1000.size a := fun v45 k1_hw5 k1_h5 => k1_hw5.1 k1_h5
theorem k1_off45_inb : ∀ (v45 : BitVec 32) (k1_hw5 : k1_chk5 v45), ∀ (k1_h21 : k1_cond21 v45 = 1#1), ∀ a, (k1_off45 v45) a + S1x1000.size a ≤ S65536x1000.size a := fun v45 k1_hw5 k1_h21 => k1_hw5.2 k1_h21

def k1_off46 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_23 : BitVec 32 := 16#32
  let v54 : BitVec 32 := Scalar.muli arg9 c16_i32_23
  let v55 : BitVec 32 := Scalar.addi v2 v54
  let c5_i32 : BitVec 32 := 5#32
  let v56 : BitVec 32 := Scalar.addi v55 c5_i32
  let c0_i32_88 : BitVec 32 := 0#32
  ![v56.toNat, 0]
def k1_off47 (v53 : BitVec 32) : Fin 2 → Nat :=
  let c0_i32_89 : BitVec 32 := 0#32
  ![v53.toNat, 0]
def k1_cond22 (v53 : BitVec 32) : BitVec 1 :=
  let c49152_i32_66 : BitVec 32 := 49152#32
  let v155 : BitVec 1 := Scalar.cmpi .sge v53 c49152_i32_66
  let v156 : BitVec 32 := Scalar.extui v155
  let c0_i32_67 : BitVec 32 := 0#32
  let v157 : BitVec 1 := Scalar.cmpi .ne v156 c0_i32_67
  v157

def k1_chk6 (v53 : BitVec 32) : Prop :=
  (∀ (k1_h6 : k1_cond6 v53 = 1#1), ∀ a, (k1_off15 v53) a + S1x1000.size a ≤ S65536x1000.size a) ∧
  (∀ (k1_h22 : k1_cond22 v53 = 1#1), ∀ a, (k1_off47 v53) a + S1x1000.size a ≤ S65536x1000.size a)
instance k1_chk6.dec : ∀ (v53 : BitVec 32), Decidable (k1_chk6 v53) := fun v53 => decidable_of_iff' _ (Iff.of_eq (k1_chk6.eq_1 v53))
theorem k1_off15_inb : ∀ (v53 : BitVec 32) (k1_hw6 : k1_chk6 v53), ∀ (k1_h6 : k1_cond6 v53 = 1#1), ∀ a, (k1_off15 v53) a + S1x1000.size a ≤ S65536x1000.size a := fun v53 k1_hw6 k1_h6 => k1_hw6.1 k1_h6
theorem k1_off47_inb : ∀ (v53 : BitVec 32) (k1_hw6 : k1_chk6 v53), ∀ (k1_h22 : k1_cond22 v53 = 1#1), ∀ a, (k1_off47 v53) a + S1x1000.size a ≤ S65536x1000.size a := fun v53 k1_hw6 k1_h22 => k1_hw6.2 k1_h22

def k1_off48 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_26 : BitVec 32 := 16#32
  let v62 : BitVec 32 := Scalar.muli arg9 c16_i32_26
  let v63 : BitVec 32 := Scalar.addi v2 v62
  let c6_i32 : BitVec 32 := 6#32
  let v64 : BitVec 32 := Scalar.addi v63 c6_i32
  let c0_i32_88 : BitVec 32 := 0#32
  ![v64.toNat, 0]
def k1_off49 (v61 : BitVec 32) : Fin 2 → Nat :=
  let c0_i32_89 : BitVec 32 := 0#32
  ![v61.toNat, 0]
def k1_cond23 (v61 : BitVec 32) : BitVec 1 :=
  let c49152_i32_68 : BitVec 32 := 49152#32
  let v158 : BitVec 1 := Scalar.cmpi .sge v61 c49152_i32_68
  let v159 : BitVec 32 := Scalar.extui v158
  let c0_i32_69 : BitVec 32 := 0#32
  let v160 : BitVec 1 := Scalar.cmpi .ne v159 c0_i32_69
  v160

def k1_chk7 (v61 : BitVec 32) : Prop :=
  (∀ (k1_h7 : k1_cond7 v61 = 1#1), ∀ a, (k1_off17 v61) a + S1x1000.size a ≤ S65536x1000.size a) ∧
  (∀ (k1_h23 : k1_cond23 v61 = 1#1), ∀ a, (k1_off49 v61) a + S1x1000.size a ≤ S65536x1000.size a)
instance k1_chk7.dec : ∀ (v61 : BitVec 32), Decidable (k1_chk7 v61) := fun v61 => decidable_of_iff' _ (Iff.of_eq (k1_chk7.eq_1 v61))
theorem k1_off17_inb : ∀ (v61 : BitVec 32) (k1_hw7 : k1_chk7 v61), ∀ (k1_h7 : k1_cond7 v61 = 1#1), ∀ a, (k1_off17 v61) a + S1x1000.size a ≤ S65536x1000.size a := fun v61 k1_hw7 k1_h7 => k1_hw7.1 k1_h7
theorem k1_off49_inb : ∀ (v61 : BitVec 32) (k1_hw7 : k1_chk7 v61), ∀ (k1_h23 : k1_cond23 v61 = 1#1), ∀ a, (k1_off49 v61) a + S1x1000.size a ≤ S65536x1000.size a := fun v61 k1_hw7 k1_h23 => k1_hw7.2 k1_h23

def k1_off50 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_29 : BitVec 32 := 16#32
  let v70 : BitVec 32 := Scalar.muli arg9 c16_i32_29
  let v71 : BitVec 32 := Scalar.addi v2 v70
  let c7_i32 : BitVec 32 := 7#32
  let v72 : BitVec 32 := Scalar.addi v71 c7_i32
  let c0_i32_88 : BitVec 32 := 0#32
  ![v72.toNat, 0]
def k1_off51 (v69 : BitVec 32) : Fin 2 → Nat :=
  let c0_i32_89 : BitVec 32 := 0#32
  ![v69.toNat, 0]
def k1_cond24 (v69 : BitVec 32) : BitVec 1 :=
  let c49152_i32_70 : BitVec 32 := 49152#32
  let v161 : BitVec 1 := Scalar.cmpi .sge v69 c49152_i32_70
  let v162 : BitVec 32 := Scalar.extui v161
  let c0_i32_71 : BitVec 32 := 0#32
  let v163 : BitVec 1 := Scalar.cmpi .ne v162 c0_i32_71
  v163

def k1_chk8 (v69 : BitVec 32) : Prop :=
  (∀ (k1_h8 : k1_cond8 v69 = 1#1), ∀ a, (k1_off19 v69) a + S1x1000.size a ≤ S65536x1000.size a) ∧
  (∀ (k1_h24 : k1_cond24 v69 = 1#1), ∀ a, (k1_off51 v69) a + S1x1000.size a ≤ S65536x1000.size a)
instance k1_chk8.dec : ∀ (v69 : BitVec 32), Decidable (k1_chk8 v69) := fun v69 => decidable_of_iff' _ (Iff.of_eq (k1_chk8.eq_1 v69))
theorem k1_off19_inb : ∀ (v69 : BitVec 32) (k1_hw8 : k1_chk8 v69), ∀ (k1_h8 : k1_cond8 v69 = 1#1), ∀ a, (k1_off19 v69) a + S1x1000.size a ≤ S65536x1000.size a := fun v69 k1_hw8 k1_h8 => k1_hw8.1 k1_h8
theorem k1_off51_inb : ∀ (v69 : BitVec 32) (k1_hw8 : k1_chk8 v69), ∀ (k1_h24 : k1_cond24 v69 = 1#1), ∀ a, (k1_off51 v69) a + S1x1000.size a ≤ S65536x1000.size a := fun v69 k1_hw8 k1_h24 => k1_hw8.2 k1_h24

def k1_off52 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_32 : BitVec 32 := 16#32
  let v78 : BitVec 32 := Scalar.muli arg9 c16_i32_32
  let v79 : BitVec 32 := Scalar.addi v2 v78
  let c8_i32 : BitVec 32 := 8#32
  let v80 : BitVec 32 := Scalar.addi v79 c8_i32
  let c0_i32_88 : BitVec 32 := 0#32
  ![v80.toNat, 0]
def k1_off53 (v77 : BitVec 32) : Fin 2 → Nat :=
  let c0_i32_89 : BitVec 32 := 0#32
  ![v77.toNat, 0]
def k1_cond25 (v77 : BitVec 32) : BitVec 1 :=
  let c49152_i32_72 : BitVec 32 := 49152#32
  let v164 : BitVec 1 := Scalar.cmpi .sge v77 c49152_i32_72
  let v165 : BitVec 32 := Scalar.extui v164
  let c0_i32_73 : BitVec 32 := 0#32
  let v166 : BitVec 1 := Scalar.cmpi .ne v165 c0_i32_73
  v166

def k1_chk9 (v77 : BitVec 32) : Prop :=
  (∀ (k1_h9 : k1_cond9 v77 = 1#1), ∀ a, (k1_off21 v77) a + S1x1000.size a ≤ S65536x1000.size a) ∧
  (∀ (k1_h25 : k1_cond25 v77 = 1#1), ∀ a, (k1_off53 v77) a + S1x1000.size a ≤ S65536x1000.size a)
instance k1_chk9.dec : ∀ (v77 : BitVec 32), Decidable (k1_chk9 v77) := fun v77 => decidable_of_iff' _ (Iff.of_eq (k1_chk9.eq_1 v77))
theorem k1_off21_inb : ∀ (v77 : BitVec 32) (k1_hw9 : k1_chk9 v77), ∀ (k1_h9 : k1_cond9 v77 = 1#1), ∀ a, (k1_off21 v77) a + S1x1000.size a ≤ S65536x1000.size a := fun v77 k1_hw9 k1_h9 => k1_hw9.1 k1_h9
theorem k1_off53_inb : ∀ (v77 : BitVec 32) (k1_hw9 : k1_chk9 v77), ∀ (k1_h25 : k1_cond25 v77 = 1#1), ∀ a, (k1_off53 v77) a + S1x1000.size a ≤ S65536x1000.size a := fun v77 k1_hw9 k1_h25 => k1_hw9.2 k1_h25

def k1_off54 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_35 : BitVec 32 := 16#32
  let v86 : BitVec 32 := Scalar.muli arg9 c16_i32_35
  let v87 : BitVec 32 := Scalar.addi v2 v86
  let c9_i32 : BitVec 32 := 9#32
  let v88 : BitVec 32 := Scalar.addi v87 c9_i32
  let c0_i32_88 : BitVec 32 := 0#32
  ![v88.toNat, 0]
def k1_off55 (v85 : BitVec 32) : Fin 2 → Nat :=
  let c0_i32_89 : BitVec 32 := 0#32
  ![v85.toNat, 0]
def k1_cond26 (v85 : BitVec 32) : BitVec 1 :=
  let c49152_i32_74 : BitVec 32 := 49152#32
  let v167 : BitVec 1 := Scalar.cmpi .sge v85 c49152_i32_74
  let v168 : BitVec 32 := Scalar.extui v167
  let c0_i32_75 : BitVec 32 := 0#32
  let v169 : BitVec 1 := Scalar.cmpi .ne v168 c0_i32_75
  v169

def k1_chk10 (v85 : BitVec 32) : Prop :=
  (∀ (k1_h10 : k1_cond10 v85 = 1#1), ∀ a, (k1_off23 v85) a + S1x1000.size a ≤ S65536x1000.size a) ∧
  (∀ (k1_h26 : k1_cond26 v85 = 1#1), ∀ a, (k1_off55 v85) a + S1x1000.size a ≤ S65536x1000.size a)
instance k1_chk10.dec : ∀ (v85 : BitVec 32), Decidable (k1_chk10 v85) := fun v85 => decidable_of_iff' _ (Iff.of_eq (k1_chk10.eq_1 v85))
theorem k1_off23_inb : ∀ (v85 : BitVec 32) (k1_hw10 : k1_chk10 v85), ∀ (k1_h10 : k1_cond10 v85 = 1#1), ∀ a, (k1_off23 v85) a + S1x1000.size a ≤ S65536x1000.size a := fun v85 k1_hw10 k1_h10 => k1_hw10.1 k1_h10
theorem k1_off55_inb : ∀ (v85 : BitVec 32) (k1_hw10 : k1_chk10 v85), ∀ (k1_h26 : k1_cond26 v85 = 1#1), ∀ a, (k1_off55 v85) a + S1x1000.size a ≤ S65536x1000.size a := fun v85 k1_hw10 k1_h26 => k1_hw10.2 k1_h26

def k1_off56 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_38 : BitVec 32 := 16#32
  let v94 : BitVec 32 := Scalar.muli arg9 c16_i32_38
  let v95 : BitVec 32 := Scalar.addi v2 v94
  let c10_i32 : BitVec 32 := 10#32
  let v96 : BitVec 32 := Scalar.addi v95 c10_i32
  let c0_i32_88 : BitVec 32 := 0#32
  ![v96.toNat, 0]
def k1_off57 (v93 : BitVec 32) : Fin 2 → Nat :=
  let c0_i32_89 : BitVec 32 := 0#32
  ![v93.toNat, 0]
def k1_cond27 (v93 : BitVec 32) : BitVec 1 :=
  let c49152_i32_76 : BitVec 32 := 49152#32
  let v170 : BitVec 1 := Scalar.cmpi .sge v93 c49152_i32_76
  let v171 : BitVec 32 := Scalar.extui v170
  let c0_i32_77 : BitVec 32 := 0#32
  let v172 : BitVec 1 := Scalar.cmpi .ne v171 c0_i32_77
  v172

def k1_chk11 (v93 : BitVec 32) : Prop :=
  (∀ (k1_h11 : k1_cond11 v93 = 1#1), ∀ a, (k1_off25 v93) a + S1x1000.size a ≤ S65536x1000.size a) ∧
  (∀ (k1_h27 : k1_cond27 v93 = 1#1), ∀ a, (k1_off57 v93) a + S1x1000.size a ≤ S65536x1000.size a)
instance k1_chk11.dec : ∀ (v93 : BitVec 32), Decidable (k1_chk11 v93) := fun v93 => decidable_of_iff' _ (Iff.of_eq (k1_chk11.eq_1 v93))
theorem k1_off25_inb : ∀ (v93 : BitVec 32) (k1_hw11 : k1_chk11 v93), ∀ (k1_h11 : k1_cond11 v93 = 1#1), ∀ a, (k1_off25 v93) a + S1x1000.size a ≤ S65536x1000.size a := fun v93 k1_hw11 k1_h11 => k1_hw11.1 k1_h11
theorem k1_off57_inb : ∀ (v93 : BitVec 32) (k1_hw11 : k1_chk11 v93), ∀ (k1_h27 : k1_cond27 v93 = 1#1), ∀ a, (k1_off57 v93) a + S1x1000.size a ≤ S65536x1000.size a := fun v93 k1_hw11 k1_h27 => k1_hw11.2 k1_h27

def k1_off58 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_41 : BitVec 32 := 16#32
  let v102 : BitVec 32 := Scalar.muli arg9 c16_i32_41
  let v103 : BitVec 32 := Scalar.addi v2 v102
  let c11_i32 : BitVec 32 := 11#32
  let v104 : BitVec 32 := Scalar.addi v103 c11_i32
  let c0_i32_88 : BitVec 32 := 0#32
  ![v104.toNat, 0]
def k1_off59 (v101 : BitVec 32) : Fin 2 → Nat :=
  let c0_i32_89 : BitVec 32 := 0#32
  ![v101.toNat, 0]
def k1_cond28 (v101 : BitVec 32) : BitVec 1 :=
  let c49152_i32_78 : BitVec 32 := 49152#32
  let v173 : BitVec 1 := Scalar.cmpi .sge v101 c49152_i32_78
  let v174 : BitVec 32 := Scalar.extui v173
  let c0_i32_79 : BitVec 32 := 0#32
  let v175 : BitVec 1 := Scalar.cmpi .ne v174 c0_i32_79
  v175

def k1_chk12 (v101 : BitVec 32) : Prop :=
  (∀ (k1_h12 : k1_cond12 v101 = 1#1), ∀ a, (k1_off27 v101) a + S1x1000.size a ≤ S65536x1000.size a) ∧
  (∀ (k1_h28 : k1_cond28 v101 = 1#1), ∀ a, (k1_off59 v101) a + S1x1000.size a ≤ S65536x1000.size a)
instance k1_chk12.dec : ∀ (v101 : BitVec 32), Decidable (k1_chk12 v101) := fun v101 => decidable_of_iff' _ (Iff.of_eq (k1_chk12.eq_1 v101))
theorem k1_off27_inb : ∀ (v101 : BitVec 32) (k1_hw12 : k1_chk12 v101), ∀ (k1_h12 : k1_cond12 v101 = 1#1), ∀ a, (k1_off27 v101) a + S1x1000.size a ≤ S65536x1000.size a := fun v101 k1_hw12 k1_h12 => k1_hw12.1 k1_h12
theorem k1_off59_inb : ∀ (v101 : BitVec 32) (k1_hw12 : k1_chk12 v101), ∀ (k1_h28 : k1_cond28 v101 = 1#1), ∀ a, (k1_off59 v101) a + S1x1000.size a ≤ S65536x1000.size a := fun v101 k1_hw12 k1_h28 => k1_hw12.2 k1_h28

def k1_off60 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_44 : BitVec 32 := 16#32
  let v110 : BitVec 32 := Scalar.muli arg9 c16_i32_44
  let v111 : BitVec 32 := Scalar.addi v2 v110
  let c12_i32 : BitVec 32 := 12#32
  let v112 : BitVec 32 := Scalar.addi v111 c12_i32
  let c0_i32_88 : BitVec 32 := 0#32
  ![v112.toNat, 0]
def k1_off61 (v109 : BitVec 32) : Fin 2 → Nat :=
  let c0_i32_89 : BitVec 32 := 0#32
  ![v109.toNat, 0]
def k1_cond29 (v109 : BitVec 32) : BitVec 1 :=
  let c49152_i32_80 : BitVec 32 := 49152#32
  let v176 : BitVec 1 := Scalar.cmpi .sge v109 c49152_i32_80
  let v177 : BitVec 32 := Scalar.extui v176
  let c0_i32_81 : BitVec 32 := 0#32
  let v178 : BitVec 1 := Scalar.cmpi .ne v177 c0_i32_81
  v178

def k1_chk13 (v109 : BitVec 32) : Prop :=
  (∀ (k1_h13 : k1_cond13 v109 = 1#1), ∀ a, (k1_off29 v109) a + S1x1000.size a ≤ S65536x1000.size a) ∧
  (∀ (k1_h29 : k1_cond29 v109 = 1#1), ∀ a, (k1_off61 v109) a + S1x1000.size a ≤ S65536x1000.size a)
instance k1_chk13.dec : ∀ (v109 : BitVec 32), Decidable (k1_chk13 v109) := fun v109 => decidable_of_iff' _ (Iff.of_eq (k1_chk13.eq_1 v109))
theorem k1_off29_inb : ∀ (v109 : BitVec 32) (k1_hw13 : k1_chk13 v109), ∀ (k1_h13 : k1_cond13 v109 = 1#1), ∀ a, (k1_off29 v109) a + S1x1000.size a ≤ S65536x1000.size a := fun v109 k1_hw13 k1_h13 => k1_hw13.1 k1_h13
theorem k1_off61_inb : ∀ (v109 : BitVec 32) (k1_hw13 : k1_chk13 v109), ∀ (k1_h29 : k1_cond29 v109 = 1#1), ∀ a, (k1_off61 v109) a + S1x1000.size a ≤ S65536x1000.size a := fun v109 k1_hw13 k1_h29 => k1_hw13.2 k1_h29

def k1_off62 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_47 : BitVec 32 := 16#32
  let v118 : BitVec 32 := Scalar.muli arg9 c16_i32_47
  let v119 : BitVec 32 := Scalar.addi v2 v118
  let c13_i32 : BitVec 32 := 13#32
  let v120 : BitVec 32 := Scalar.addi v119 c13_i32
  let c0_i32_88 : BitVec 32 := 0#32
  ![v120.toNat, 0]
def k1_off63 (v117 : BitVec 32) : Fin 2 → Nat :=
  let c0_i32_89 : BitVec 32 := 0#32
  ![v117.toNat, 0]
def k1_cond30 (v117 : BitVec 32) : BitVec 1 :=
  let c49152_i32_82 : BitVec 32 := 49152#32
  let v179 : BitVec 1 := Scalar.cmpi .sge v117 c49152_i32_82
  let v180 : BitVec 32 := Scalar.extui v179
  let c0_i32_83 : BitVec 32 := 0#32
  let v181 : BitVec 1 := Scalar.cmpi .ne v180 c0_i32_83
  v181

def k1_chk14 (v117 : BitVec 32) : Prop :=
  (∀ (k1_h14 : k1_cond14 v117 = 1#1), ∀ a, (k1_off31 v117) a + S1x1000.size a ≤ S65536x1000.size a) ∧
  (∀ (k1_h30 : k1_cond30 v117 = 1#1), ∀ a, (k1_off63 v117) a + S1x1000.size a ≤ S65536x1000.size a)
instance k1_chk14.dec : ∀ (v117 : BitVec 32), Decidable (k1_chk14 v117) := fun v117 => decidable_of_iff' _ (Iff.of_eq (k1_chk14.eq_1 v117))
theorem k1_off31_inb : ∀ (v117 : BitVec 32) (k1_hw14 : k1_chk14 v117), ∀ (k1_h14 : k1_cond14 v117 = 1#1), ∀ a, (k1_off31 v117) a + S1x1000.size a ≤ S65536x1000.size a := fun v117 k1_hw14 k1_h14 => k1_hw14.1 k1_h14
theorem k1_off63_inb : ∀ (v117 : BitVec 32) (k1_hw14 : k1_chk14 v117), ∀ (k1_h30 : k1_cond30 v117 = 1#1), ∀ a, (k1_off63 v117) a + S1x1000.size a ≤ S65536x1000.size a := fun v117 k1_hw14 k1_h30 => k1_hw14.2 k1_h30

def k1_off64 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_50 : BitVec 32 := 16#32
  let v126 : BitVec 32 := Scalar.muli arg9 c16_i32_50
  let v127 : BitVec 32 := Scalar.addi v2 v126
  let c14_i32 : BitVec 32 := 14#32
  let v128 : BitVec 32 := Scalar.addi v127 c14_i32
  let c0_i32_88 : BitVec 32 := 0#32
  ![v128.toNat, 0]
def k1_off65 (v125 : BitVec 32) : Fin 2 → Nat :=
  let c0_i32_89 : BitVec 32 := 0#32
  ![v125.toNat, 0]
def k1_cond31 (v125 : BitVec 32) : BitVec 1 :=
  let c49152_i32_84 : BitVec 32 := 49152#32
  let v182 : BitVec 1 := Scalar.cmpi .sge v125 c49152_i32_84
  let v183 : BitVec 32 := Scalar.extui v182
  let c0_i32_85 : BitVec 32 := 0#32
  let v184 : BitVec 1 := Scalar.cmpi .ne v183 c0_i32_85
  v184

def k1_chk15 (v125 : BitVec 32) : Prop :=
  (∀ (k1_h15 : k1_cond15 v125 = 1#1), ∀ a, (k1_off33 v125) a + S1x1000.size a ≤ S65536x1000.size a) ∧
  (∀ (k1_h31 : k1_cond31 v125 = 1#1), ∀ a, (k1_off65 v125) a + S1x1000.size a ≤ S65536x1000.size a)
instance k1_chk15.dec : ∀ (v125 : BitVec 32), Decidable (k1_chk15 v125) := fun v125 => decidable_of_iff' _ (Iff.of_eq (k1_chk15.eq_1 v125))
theorem k1_off33_inb : ∀ (v125 : BitVec 32) (k1_hw15 : k1_chk15 v125), ∀ (k1_h15 : k1_cond15 v125 = 1#1), ∀ a, (k1_off33 v125) a + S1x1000.size a ≤ S65536x1000.size a := fun v125 k1_hw15 k1_h15 => k1_hw15.1 k1_h15
theorem k1_off65_inb : ∀ (v125 : BitVec 32) (k1_hw15 : k1_chk15 v125), ∀ (k1_h31 : k1_cond31 v125 = 1#1), ∀ a, (k1_off65 v125) a + S1x1000.size a ≤ S65536x1000.size a := fun v125 k1_hw15 k1_h31 => k1_hw15.2 k1_h31

def k1_off66 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32 : BitVec 32 := 1#32
  let arg9 : BitVec 32 := Scf.iv c0_i32_4 c1_i32 k1_t1
  let c16_i32_53 : BitVec 32 := 16#32
  let v134 : BitVec 32 := Scalar.muli arg9 c16_i32_53
  let v135 : BitVec 32 := Scalar.addi v2 v134
  let c15_i32 : BitVec 32 := 15#32
  let v136 : BitVec 32 := Scalar.addi v135 c15_i32
  let c0_i32_88 : BitVec 32 := 0#32
  ![v136.toNat, 0]
def k1_off67 (v133 : BitVec 32) : Fin 2 → Nat :=
  let c0_i32_89 : BitVec 32 := 0#32
  ![v133.toNat, 0]
def k1_cond32 (v133 : BitVec 32) : BitVec 1 :=
  let c49152_i32_86 : BitVec 32 := 49152#32
  let v185 : BitVec 1 := Scalar.cmpi .sge v133 c49152_i32_86
  let v186 : BitVec 32 := Scalar.extui v185
  let c0_i32_87 : BitVec 32 := 0#32
  let v187 : BitVec 1 := Scalar.cmpi .ne v186 c0_i32_87
  v187

def k1_chk16 (v133 : BitVec 32) : Prop :=
  (∀ (k1_h16 : k1_cond16 v133 = 1#1), ∀ a, (k1_off35 v133) a + S1x1000.size a ≤ S65536x1000.size a) ∧
  (∀ (k1_h32 : k1_cond32 v133 = 1#1), ∀ a, (k1_off67 v133) a + S1x1000.size a ≤ S65536x1000.size a)
instance k1_chk16.dec : ∀ (v133 : BitVec 32), Decidable (k1_chk16 v133) := fun v133 => decidable_of_iff' _ (Iff.of_eq (k1_chk16.eq_1 v133))
theorem k1_off35_inb : ∀ (v133 : BitVec 32) (k1_hw16 : k1_chk16 v133), ∀ (k1_h16 : k1_cond16 v133 = 1#1), ∀ a, (k1_off35 v133) a + S1x1000.size a ≤ S65536x1000.size a := fun v133 k1_hw16 k1_h16 => k1_hw16.1 k1_h16
theorem k1_off67_inb : ∀ (v133 : BitVec 32) (k1_hw16 : k1_chk16 v133), ∀ (k1_h32 : k1_cond32 v133 = 1#1), ∀ a, (k1_off67 v133) a + S1x1000.size a ≤ S65536x1000.size a := fun v133 k1_hw16 k1_h32 => k1_hw16.2 k1_h32

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1x1024x1000_S1x1024x1000_0_0_0 : ∀ a, (![0, 0, 0] : Fin 3 → Nat) a + S1x1024x1000.size a ≤ S1x1024x1000.size a
  h_S1x1024x1000 : 0 < S1x1024x1000.numel
  shapeCasts_S1x1024x1000_S1024x1000 : S1x1024x1000.ShapeCasts S1024x1000
  reduces_S1024x1000_S1024 : S1024x1000.Reduces [1] S1024
  shapeCasts_S1024_S1024x1 : S1024.ShapeCasts S1024x1
  broadcasts_S1024x1_S1024x1000 : S1024x1.Broadcasts S1024x1000
  shapeCasts_S1024x1_S1024x1 : S1024x1.ShapeCasts S1024x1
  iota_S1x1024_d1_w32 : S1x1024.Iotas .tc 32 [1]
  shapeCasts_S1x1024_S1024 : S1x1024.ShapeCasts S1024
  inb_S1024_S1024_0 : ∀ a, (![0] : Fin 1 → Nat) a + S1024.size a ≤ S1024.size a
  h_S1024 : 0 < S1024.numel
  inb_S1024x1000_S1024x1000_0_0 : ∀ a, (![0, 0] : Fin 2 → Nat) a + S1024x1000.size a ≤ S1024x1000.size a
  h_S1024x1000 : 0 < S1024x1000.numel
  shapeCasts_S4x16384x1000_S65536x1000 : S4x16384x1000.ShapeCasts S65536x1000
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc1_scratch1 : 12 + S_.numel ≤ 15
  hcc1_scratch2 : 13 + S_.numel ≤ 15
  hcc1_scoped0 : 14 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1000.size a ≤ S4x16384x1000.size a
  hwx0_0 : ∀ i : grid0.Coords, EltTy.bits .f32 = 32 ∨ (Rect.block (s := S4x16384x1000) S1x1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1000.size a ≤ S4x16384x1000.size a
  hwx0_1 : ∀ i : grid0.Coords, EltTy.bits .f32 = 32 ∨ (Rect.block (s := S4x16384x1000) S1x1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1000.size a ≤ S4x16384x1000.size a
  hwx0_2 : ∀ i : grid0.Coords, EltTy.bits .f32 = 32 ∨ (Rect.block (s := S4x16384x1000) S1x1024x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .i32 = 32 ∨ (Rect.block (s := S16384) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S16384.size a
  hwx0_4 : ∀ i : grid0.Coords, EltTy.bits .i32 = 32 ∨ (Rect.block (s := S16384) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1000.size a ≤ S16384x1000.size a
  hwx0_5 : ∀ i : grid0.Coords, EltTy.bits .f32 = 32 ∨ (Rect.block (s := S16384x1000) S1024x1000.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_off2_inb : ∀ i : grid1.Coords, ∀ a, (k1_off2 i) a + S512x1000.size a ≤ S16384x1000.size a
  k1_t1_ok : k1_t1_loop.OK
  k1_off3_inb : ∀ k1_t1 : Fin k1_t1_loop.trips, ∀ a, (k1_off3 k1_t1) a + S16.size a ≤ S512.size a
  k1_off4_inb : ∀ (i : grid1.Coords) (k1_t1 : Fin k1_t1_loop.trips), ∀ a, (k1_off4 i k1_t1) a + S1x1000.size a ≤ S16384x1000.size a
  k1_off6_inb : ∀ (i : grid1.Coords) (k1_t1 : Fin k1_t1_loop.trips), ∀ a, (k1_off6 i k1_t1) a + S1x1000.size a ≤ S16384x1000.size a
  k1_off8_inb : ∀ (i : grid1.Coords) (k1_t1 : Fin k1_t1_loop.trips), ∀ a, (k1_off8 i k1_t1) a + S1x1000.size a ≤ S16384x1000.size a
  k1_off10_inb : ∀ (i : grid1.Coords) (k1_t1 : Fin k1_t1_loop.trips), ∀ a, (k1_off10 i k1_t1) a + S1x1000.size a ≤ S16384x1000.size a
  k1_off12_inb : ∀ (i : grid1.Coords) (k1_t1 : Fin k1_t1_loop.trips), ∀ a, (k1_off12 i k1_t1) a + S1x1000.size a ≤ S16384x1000.size a
  k1_off14_inb : ∀ (i : grid1.Coords) (k1_t1 : Fin k1_t1_loop.trips), ∀ a, (k1_off14 i k1_t1) a + S1x1000.size a ≤ S16384x1000.size a
  k1_off16_inb : ∀ (i : grid1.Coords) (k1_t1 : Fin k1_t1_loop.trips), ∀ a, (k1_off16 i k1_t1) a + S1x1000.size a ≤ S16384x1000.size a
  k1_off18_inb : ∀ (i : grid1.Coords) (k1_t1 : Fin k1_t1_loop.trips), ∀ a, (k1_off18 i k1_t1) a + S1x1000.size a ≤ S16384x1000.size a
  k1_off20_inb : ∀ (i : grid1.Coords) (k1_t1 : Fin k1_t1_loop.trips), ∀ a, (k1_off20 i k1_t1) a + S1x1000.size a ≤ S16384x1000.size a
  k1_off22_inb : ∀ (i : grid1.Coords) (k1_t1 : Fin k1_t1_loop.trips), ∀ a, (k1_off22 i k1_t1) a + S1x1000.size a ≤ S16384x1000.size a
  k1_off24_inb : ∀ (i : grid1.Coords) (k1_t1 : Fin k1_t1_loop.trips), ∀ a, (k1_off24 i k1_t1) a + S1x1000.size a ≤ S16384x1000.size a
  k1_off26_inb : ∀ (i : grid1.Coords) (k1_t1 : Fin k1_t1_loop.trips), ∀ a, (k1_off26 i k1_t1) a + S1x1000.size a ≤ S16384x1000.size a
  k1_off28_inb : ∀ (i : grid1.Coords) (k1_t1 : Fin k1_t1_loop.trips), ∀ a, (k1_off28 i k1_t1) a + S1x1000.size a ≤ S16384x1000.size a
  k1_off30_inb : ∀ (i : grid1.Coords) (k1_t1 : Fin k1_t1_loop.trips), ∀ a, (k1_off30 i k1_t1) a + S1x1000.size a ≤ S16384x1000.size a
  k1_off32_inb : ∀ (i : grid1.Coords) (k1_t1 : Fin k1_t1_loop.trips), ∀ a, (k1_off32 i k1_t1) a + S1x1000.size a ≤ S16384x1000.size a
  k1_off34_inb : ∀ (i : grid1.Coords) (k1_t1 : Fin k1_t1_loop.trips), ∀ a, (k1_off34 i k1_t1) a + S1x1000.size a ≤ S16384x1000.size a
  k1_off36_inb : ∀ (i : grid1.Coords) (k1_t1 : Fin k1_t1_loop.trips), ∀ a, (k1_off36 i k1_t1) a + S1x1000.size a ≤ S16384x1000.size a
  k1_off38_inb : ∀ (i : grid1.Coords) (k1_t1 : Fin k1_t1_loop.trips), ∀ a, (k1_off38 i k1_t1) a + S1x1000.size a ≤ S16384x1000.size a
  k1_off40_inb : ∀ (i : grid1.Coords) (k1_t1 : Fin k1_t1_loop.trips), ∀ a, (k1_off40 i k1_t1) a + S1x1000.size a ≤ S16384x1000.size a
  k1_off42_inb : ∀ (i : grid1.Coords) (k1_t1 : Fin k1_t1_loop.trips), ∀ a, (k1_off42 i k1_t1) a + S1x1000.size a ≤ S16384x1000.size a
  k1_off44_inb : ∀ (i : grid1.Coords) (k1_t1 : Fin k1_t1_loop.trips), ∀ a, (k1_off44 i k1_t1) a + S1x1000.size a ≤ S16384x1000.size a
  k1_off46_inb : ∀ (i : grid1.Coords) (k1_t1 : Fin k1_t1_loop.trips), ∀ a, (k1_off46 i k1_t1) a + S1x1000.size a ≤ S16384x1000.size a
  k1_off48_inb : ∀ (i : grid1.Coords) (k1_t1 : Fin k1_t1_loop.trips), ∀ a, (k1_off48 i k1_t1) a + S1x1000.size a ≤ S16384x1000.size a
  k1_off50_inb : ∀ (i : grid1.Coords) (k1_t1 : Fin k1_t1_loop.trips), ∀ a, (k1_off50 i k1_t1) a + S1x1000.size a ≤ S16384x1000.size a
  k1_off52_inb : ∀ (i : grid1.Coords) (k1_t1 : Fin k1_t1_loop.trips), ∀ a, (k1_off52 i k1_t1) a + S1x1000.size a ≤ S16384x1000.size a
  k1_off54_inb : ∀ (i : grid1.Coords) (k1_t1 : Fin k1_t1_loop.trips), ∀ a, (k1_off54 i k1_t1) a + S1x1000.size a ≤ S16384x1000.size a
  k1_off56_inb : ∀ (i : grid1.Coords) (k1_t1 : Fin k1_t1_loop.trips), ∀ a, (k1_off56 i k1_t1) a + S1x1000.size a ≤ S16384x1000.size a
  k1_off58_inb : ∀ (i : grid1.Coords) (k1_t1 : Fin k1_t1_loop.trips), ∀ a, (k1_off58 i k1_t1) a + S1x1000.size a ≤ S16384x1000.size a
  k1_off60_inb : ∀ (i : grid1.Coords) (k1_t1 : Fin k1_t1_loop.trips), ∀ a, (k1_off60 i k1_t1) a + S1x1000.size a ≤ S16384x1000.size a
  k1_off62_inb : ∀ (i : grid1.Coords) (k1_t1 : Fin k1_t1_loop.trips), ∀ a, (k1_off62 i k1_t1) a + S1x1000.size a ≤ S16384x1000.size a
  k1_off64_inb : ∀ (i : grid1.Coords) (k1_t1 : Fin k1_t1_loop.trips), ∀ a, (k1_off64 i k1_t1) a + S1x1000.size a ≤ S16384x1000.size a
  k1_off66_inb : ∀ (i : grid1.Coords) (k1_t1 : Fin k1_t1_loop.trips), ∀ a, (k1_off66 i k1_t1) a + S1x1000.size a ≤ S16384x1000.size a

variable [Facts₀]

abbrev cc1_scratch1 : DmaSems sig S_ := SemArray.consecutive 12 S_ hcc1_scratch1
abbrev cc1_scratch2 : DmaSems sig S_ := SemArray.consecutive 13 S_ hcc1_scratch2
abbrev cc1_scoped0 : DmaSems sig S_ := SemArray.consecutive 14 S_ hcc1_scoped0

abbrev win0_0 : Pipeline.Window sig grid0 :=
  Pipeline.Window.ofSpec (Memref.whole main_arg0) S1x1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16384x1000 : Shape := ⟨3, ![4, 16384, 1000]⟩
abbrev S_ : Shape := ⟨0, ![]⟩
abbrev S16384 : Shape := ⟨1, ![16384]⟩
abbrev S16384x1000 : Shape := ⟨2, ![16384, 1000]⟩
abbrev S1x16384x1000 : Shape := ⟨3, ![1, 16384, 1000]⟩
abbrev S16384x1 : Shape := ⟨2, ![16384, 1]⟩

abbrev nBuf : Space → Nat
  | .hbm => 177
  | .vmem => 0
  | .smem => 0
  | _ => 0

abbrev hbmTy0_0 (i : Nat) : BufTy := match i % 128 with
  | 0 => ⟨S4x16384x1000, .f32⟩
  | 1 => ⟨S_, .i32⟩
  | 2 => ⟨S16384, .i32⟩
  | 3 => ⟨S_, .f32⟩
  | 4 => ⟨S16384x1000, .f32⟩
  | 5 => ⟨S16384, .i32⟩
  | 6 => ⟨S1x16384x1000, .f32⟩
  | 7 => ⟨S16384x1000, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x1000, .f32⟩
  | 15 => ⟨S16384x1000, .f32⟩
  | 16 => ⟨S16384x1000, .f32⟩
  | 17 => ⟨S_, .f32⟩
  | 18 => ⟨S16384, .f32⟩
  | 19 => ⟨S16384x1, .f32⟩
  | 20 => ⟨S16384x1000, .f32⟩
  | 21 => ⟨S16384x1000, .f32⟩
  | 22 => ⟨S_, .f32⟩
  | 23 => ⟨S16384, .f32⟩
  | 24 => ⟨S_, .i32⟩
  | 25 => ⟨S16384, .i32⟩
  | 26 => ⟨S16384, .i1⟩
  | 27 => ⟨S_, .f32⟩
  | 28 => ⟨S16384, .f32⟩
  | 29 => ⟨S16384, .i1⟩
  | 30 => ⟨S16384, .i1⟩
  | 31 => ⟨S16384x1, .i1⟩
  | 32 => ⟨S16384x1000, .i1⟩
  | 33 => ⟨S16384x1000, .f32⟩
  | 34 => ⟨S_, .i32⟩
  | 35 => ⟨S_, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S_, .i32⟩
  | 47 => ⟨S16384, .i32⟩
  | 48 => ⟨S16384, .i32⟩
  | 49 => ⟨S1x16384x1000, .f32⟩
  | 50 => ⟨S16384x1000, .f32⟩
  | 51 => ⟨S_, .f32⟩
  | 52 => ⟨S16384, .f32⟩
  | 53 => ⟨S_, .f32⟩
  | 54 => ⟨S16384, .f32⟩
  | 55 => ⟨S16384, .f32⟩
  | 56 => ⟨S16384x1, .f32⟩
  | 57 => ⟨S16384x1000, .f32⟩
  | 58 => ⟨S16384x1000, .f32⟩
  | 59 => ⟨S16384x1000, .f32⟩
  | 60 => ⟨S_, .f32⟩
  | 61 => ⟨S16384, .f32⟩
  | 62 => ⟨S16384x1, .f32⟩
  | 63 => ⟨S16384x1000, .f32⟩
  | 64 => ⟨S16384x1000, .f32⟩
  | 65 => ⟨S_, .f32⟩
  | 66 => ⟨S16384, .f32⟩
  | 67 => ⟨S_, .i32⟩
  | 68 => ⟨S16384, .i32⟩
  | 69 => ⟨S16384, .i1⟩
  | 70 => ⟨S_, .f32⟩
  | 71 => ⟨S16384, .f32⟩
  | 72 => ⟨S16384, .i1⟩
  | 73 => ⟨S16384, .i1⟩
  | 74 => ⟨S16384x1, .i1⟩
  | 75 => ⟨S16384x1000, .i1⟩
  | 76 => ⟨S16384x1000, .f32⟩
  | 77 => ⟨S_, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S_, .i32⟩
  | 90 => ⟨S16384, .i32⟩
  | 91 => ⟨S16384, .i32⟩
  | 92 => ⟨S1x16384x1000, .f32⟩
  | 93 => ⟨S16384x1000, .f32⟩
  | 94 => ⟨S_, .f32⟩
  | 95 => ⟨S16384, .f32⟩
  | 96 => ⟨S_, .f32⟩
  | 97 => ⟨S16384, .f32⟩
  | 98 => ⟨S16384, .f32⟩
  | 99 => ⟨S16384x1, .f32⟩
  | 100 => ⟨S16384x1000, .f32⟩
  | 101 => ⟨S16384x1000, .f32⟩
  | 102 => ⟨S16384x1000, .f32⟩
  | 103 => ⟨S_, .f32⟩
  | 104 => ⟨S16384, .f32⟩
  | 105 => ⟨S16384x1, .f32⟩
  | 106 => ⟨S16384x1000, .f32⟩
  | 107 => ⟨S16384x1000, .f32⟩
  | 108 => ⟨S_, .f32⟩
  | 109 => ⟨S16384, .f32⟩
  | 110 => ⟨S_, .i32⟩
  | 111 => ⟨S16384, .i32⟩
  | 112 => ⟨S16384, .i1⟩
  | 113 => ⟨S_, .f32⟩
  | 114 => ⟨S16384, .f32⟩
  | 115 => ⟨S16384, .i1⟩
  | 116 => ⟨S16384, .i1⟩
  | 117 => ⟨S16384x1, .i1⟩
  | 118 => ⟨S16384x1000, .i1⟩
  | 119 => ⟨S16384x1000, .f32⟩
  | 120 => ⟨S_, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i1⟩
  | 127 => ⟨S_, .i32⟩
  | _ => ⟨S4x16384x1000, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S_, .i32⟩
  | 5 => ⟨S16384, .i32⟩
  | 6 => ⟨S16384, .i32⟩
  | 7 => ⟨S1x16384x1000, .f32⟩
  | 8 => ⟨S16384x1000, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1, .f32⟩
  | 15 => ⟨S16384x1000, .f32⟩
  | 16 => ⟨S16384x1000, .f32⟩
  | 17 => ⟨S16384x1000, .f32⟩
  | 18 => ⟨S_, .f32⟩
  | 19 => ⟨S16384, .f32⟩
  | 20 => ⟨S16384x1, .f32⟩
  | 21 => ⟨S16384x1000, .f32⟩
  | 22 => ⟨S16384x1000, .f32⟩
  | 23 => ⟨S_, .f32⟩
  | 24 => ⟨S16384, .f32⟩
  | 25 => ⟨S_, .i32⟩
  | 26 => ⟨S16384, .i32⟩
  | 27 => ⟨S16384, .i1⟩
  | 28 => ⟨S_, .i1⟩
  | 29 => ⟨S16384, .i1⟩
  | 30 => ⟨S16384, .i1⟩
  | 31 => ⟨S16384x1, .i1⟩
  | 32 => ⟨S16384x1000, .i1⟩
  | 33 => ⟨S16384x1000, .f32⟩
  | 34 => ⟨S_, .i32⟩
  | 35 => ⟨S_, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S_, .i32⟩
  | 47 => ⟨S16384, .i32⟩
  | 48 => ⟨S16384, .i32⟩
  | _ => ⟨S4x16384x1000, .f32⟩

abbrev hbmTy (i : Nat) : BufTy := match i / 128 with
  | 0 => hbmTy0_0 i
  | 1 => hbmTy0_1 i
  | _ => ⟨S4x16384x1000, .f32⟩

abbrev bufTy : (tb : Table) → Fin (tcTables nBuf tb) → BufTy
  | .hbm, ⟨i, _⟩ => hbmTy i
  | _, _ => ⟨S4x16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_v23 : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_c_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_v0 : Ref sig .tc := ⟨.hbm, 75, rfl⟩
abbrev main_v53 : Ref sig .tc := ⟨.hbm, 76, rfl⟩
abbrev main_c_16 : Ref sig .tc := ⟨.hbm, 77, rfl⟩
abbrev main_call3_v0 : Ref sig .tc := ⟨.hbm, 78, rfl⟩
abbrev main_call3_v1 : Ref sig .tc := ⟨.hbm, 79, rfl⟩
abbrev main_v54 : Ref sig .tc := ⟨.hbm, 80, rfl⟩
abbrev main_c_17 : Ref sig .tc := ⟨.hbm, 81, rfl⟩
abbrev main_v55 : Ref sig .tc := ⟨.hbm, 82, rfl⟩
abbrev main_v56 : Ref sig .tc := ⟨.hbm, 83, rfl⟩
abbrev main_c_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_20 : Ref sig .tc := ⟨.hbm, 94, rfl⟩
abbrev main_v65 : Ref sig .tc := ⟨.hbm, 95, rfl⟩
abbrev main_cst_21 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_22 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_23 : Ref sig .tc := ⟨.hbm, 108, rfl⟩
abbrev main_v76 : Ref sig .tc := ⟨.hbm, 109, rfl⟩
abbrev main_c_24 : Ref sig .tc := ⟨.hbm, 110, rfl⟩
abbrev main_v77 : Ref sig .tc := ⟨.hbm, 111, rfl⟩
abbrev main_v78 : Ref sig .tc := ⟨.hbm, 112, rfl⟩
abbrev main_cst_25 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call4_v0 : Ref sig .tc := ⟨.hbm, 118, rfl⟩
abbrev main_v83 : Ref sig .tc := ⟨.hbm, 119, rfl⟩
abbrev main_c_26 : Ref sig .tc := ⟨.hbm, 120, rfl⟩
abbrev main_call5_v0 : Ref sig .tc := ⟨.hbm, 121, rfl⟩
abbrev main_call5_v1 : Ref sig .tc := ⟨.hbm, 122, rfl⟩
abbrev main_v84 : Ref sig .tc := ⟨.hbm, 123, rfl⟩
abbrev main_c_27 : Ref sig .tc := ⟨.hbm, 124, rfl⟩
abbrev main_v85 : Ref sig .tc := ⟨.hbm, 125, rfl⟩
abbrev main_v86 : Ref sig .tc := ⟨.hbm, 126, rfl⟩
abbrev main_c_28 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_29 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_30 : Ref sig .tc := ⟨.hbm, 137, rfl⟩
abbrev main_v95 : Ref sig .tc := ⟨.hbm, 138, rfl⟩
abbrev main_cst_31 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_32 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_33 : Ref sig .tc := ⟨.hbm, 151, rfl⟩
abbrev main_v106 : Ref sig .tc := ⟨.hbm, 152, rfl⟩
abbrev main_c_34 : Ref sig .tc := ⟨.hbm, 153, rfl⟩
abbrev main_v107 : Ref sig .tc := ⟨.hbm, 154, rfl⟩
abbrev main_v108 : Ref sig .tc := ⟨.hbm, 155, rfl⟩
abbrev main_c_35 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_call6_v0 : Ref sig .tc := ⟨.hbm, 160, rfl⟩
abbrev main_v112 : Ref sig .tc := ⟨.hbm, 161, rfl⟩
abbrev main_c_36 : Ref sig .tc := ⟨.hbm, 162, rfl⟩
abbrev main_call7_v0 : Ref sig .tc := ⟨.hbm, 163, rfl⟩
abbrev main_call7_v1 : Ref sig .tc := ⟨.hbm, 164, rfl⟩
abbrev main_v113 : Ref sig .tc := ⟨.hbm, 165, rfl⟩
abbrev main_c_37 : Ref sig .tc := ⟨.hbm, 166, rfl⟩
abbrev main_v114 : Ref sig .tc := ⟨.hbm, 167, rfl⟩
abbrev main_v115 : Ref sig .tc := ⟨.hbm, 168, rfl⟩
abbrev main_c_38 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_39 : Ref sig .tc := ⟨.hbm, 174, rfl⟩
abbrev main_v120 : Ref sig .tc := ⟨.hbm, 175, rfl⟩
abbrev main_v121 : Ref sig .tc := ⟨.hbm, 176, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S16384x1000 : S_.BroadcastsInDim S16384x1000 (![] : Fin 0 → Fin S16384x1000.rank)
  slices_S4x16384x1000_S1x16384x1000_0_0_0 : S4x16384x1000.Slices ![0, 0, 0] S1x16384x1000
  shapeCasts_S1x16384x1000_S16384x1000 : S1x16384x1000.ShapeCasts S16384x1000
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  slices_S4x16384x1000_S1x16384x1000_1_0_0 : S4x16384x1000.Slices ![1, 0, 0] S1x16384x1000
  slices_S4x16384x1000_S1x16384x1000_2_0_0 : S4x16384x1000.Slices ![2, 0, 0] S1x16384x1000
  slices_S4x16384x1000_S1x16384x1000_3_0_0 : S4x16384x1000.Slices ![3, 0, 0] S1x16384x1000
  scatter_S16384_S16384x1_S16384_n_0_0_1_wf : ScatterDims.WF S16384 S16384x1 S16384 [] [0] [0] 1

variable [Facts₀]

def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf

class Facts : Prop extends Facts₀ where

variable [Facts]
-- ==== Proof.RefFrame.lean ====
import proofs.«215259_g58411555225873_cont_9to1_m_859_22_alg».proof.Defs
import proofs.«215259_g58411555225873_cont_9to1_m_859_22_alg».proof.Proof.RefRunP
import proofs.«215259_g58411555225873_cont_9to1_m_859_22_alg».proof.Proof.Gen.Pre_finite_inputs

/-! The reference program's frame: it is a straight line of host operations, so its run ends, faults
nowhere and leaves the argument array as it found it.  This is the run read back with the two
results dropped. -/

namespace Cert.Route.Ref

open Idealize.ShloMosaic Idealize.SL.Sem

theorem frame_ri : Cert.frame_ReferenceIdeal :=
  fun m ρ _ => (θ_run Cert.ReferenceIdeal.defs _ _).mono (fun _ h c => (h c).2.2)
    (Cert.ReferenceIdeal.ValueP.run (F := Ideal) m ρ)

end Cert.Route.Ref
-- ==== Proof.RouteSpec.lean ====
/-
  The routing specification, index by index, at the extended reals.

  Four heads of logits A : [4, 16384, 1000]. For a row r of 1000 logits the confidence is the
  largest softmax probability, which is 1 / Σ_c exp (r c − max r) (the largest numerator is
  exp 0 = 1). A sample leaves at the first head h ∈ {0, 1, 2} whose confidence reaches the
  threshold, and at head 3 otherwise; the routed logits are the row of the head it left at.
  No program is imported here: both programs are compared against these definitions.
-/
import Idealize.ShloMosaic.PureOps.Ideal
import Idealize.ShloMosaic.PureOps.Ideal.Laws
import Idealize.ShloMosaic.Lib.ValueIdx

noncomputable section

open scoped BigOperators

namespace Cert.Route.Spec

open Idealize.ShloMosaic Idealize.ShloMosaic.ValueIdx

/-- One sample's logits at one head. -/
abbrev Row := Fin 1000 → EReal

/-- The exit threshold, the f32 nearest 0.02. -/
def thr : EReal := Ideal.ofBits .f32 0x3CA3D70A#32

/-- The row's maximum: the fold of max over the 1000 classes from −∞ (the word 0xFF800000). -/
def rowMax (r : Row) : EReal :=
  (Finset.univ : Finset (Fin 1000)).fold max (Ideal.ofBits .f32 0xFF800000#32) r

/-- The softmax denominator Σ_c exp (r c − max r). -/
def rowSum (r : Row) : EReal := ∑ c : Fin 1000, Ideal.exp (r c - rowMax r)

/-- The confidence 1 / Σ_c exp (r c − max r). -/
def conf (r : Row) : EReal := Ideal.div (Ideal.ofBits .f32 0x3F800000#32) (rowSum r)

/-- Whether the row's confidence reaches the threshold, as a one-bit word. -/
def exits (r : Row) : BitVec 1 := Ideal.cmp .oge (conf r) thr

/-- The head a sample leaves at, from its rows at heads 0, 1, 2: the first that exits, else 3. -/
def headFin (r0 r1 r2 : Row) : Fin 4 :=
  if exits r0 = 1#1 then 0 else if exits r1 = 1#1 then 1 else if exits r2 = 1#1 then 2 else 3

/-- The same head as a 32-bit word. -/
def head (r0 r1 r2 : Row) : BitVec 32 :=
  if exits r0 = 1#1 then 0#32 else if exits r1 = 1#1 then 1#32 else if exits r2 = 1#1 then 2#32 else 3#32

theorem head_eq_ofNat (r0 r1 r2 : Row) : head r0 r1 r2 = BitVec.ofNat 32 (headFin r0 r1 r2).val := by
  unfold head headFin
  split_ifs <;> rfl

theorem head_toNat (r0 r1 r2 : Row) : (head r0 r1 r2).toNat = (headFin r0 r1 r2).val := by
  unfold head headFin
  split_ifs <;> rfl

/-- The logits array's shape. -/
abbrev SA : Shape := ⟨3, ![4, 16384, 1000]⟩
/-- The routed output's shape. -/
abbrev SO : Shape := ⟨2, ![16384, 1000]⟩

/-- Row b of head h. -/
def rowOf (A : SA.Idx → EReal) (h : Fin 4) (b : Fin 16384) : Row := fun c => A (ix3 h b c)

/-- The head sample b leaves at. -/
def exitFin (A : SA.Idx → EReal) (b : Fin 16384) : Fin 4 :=
  headFin (rowOf A 0 b) (rowOf A 1 b) (rowOf A 2 b)

/-- The same as a 32-bit word. -/
def exitHead (A : SA.Idx → EReal) (b : Fin 16384) : BitVec 32 :=
  head (rowOf A 0 b) (rowOf A 1 b) (rowOf A 2 b)

/-- The routed logits: sample b's row at the head it leaves at. -/
def routed (A : SA.Idx → EReal) : SO.Idx → EReal :=
  fun i => A (ix3 (exitFin A (i 0)) (i 0 : Fin 16384) (i 1 : Fin 1000))

theorem routed_ix2 (A : SA.Idx → EReal) (b : Fin 16384) (c : Fin 1000) :
    routed A (ix2 b c) = A (ix3 (exitFin A b) b c) := rfl

theorem exitHead_eq_ofNat (A : SA.Idx → EReal) (b : Fin 16384) :
    exitHead A b = BitVec.ofNat 32 (exitFin A b).val := head_eq_ofNat _ _ _

end Cert.Route.Spec
-- ==== Proof.SoftmaxMax.lean ====
import proofs.«215259_g58411555225873_cont_9to1_m_859_22_alg».proof.Proof.RouteSpec
import Idealize.ShloMosaic.Lib.IdealHost

/-! The largest softmax probability of a finite row is the reciprocal of the softmax denominator.

For a row r of real logits with maximum m (attained at some class c0), the numerators
exp (r c - m) are all at most exp 0 = 1 and the one at c0 is 1, and the denominator
S = sum over c of exp (r c - m) is a positive real.  Hence max over c of exp (r c - m) / S = 1 / S.
Finiteness of the row is used throughout: with an infinite entry the maximum need not be
attained at a real, and the quotient has corners. -/

noncomputable section

open scoped BigOperators

namespace Cert.Route.Softmax

open Idealize.ShloMosaic Cert.Route.Spec

/-- The word 0xFF800000 is minus infinity, the bottom of the extended reals. -/
theorem negInf : Ideal.ofBits .f32 0xFF800000#32 = (⊥ : EReal) := by simp [Ideal.ofBits, Ideal.ieee]

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry of a row is at most the row maximum, and for a row of reals the maximum is one of
    the entries. -/
theorem rowMax_attained (r : Row) (x : Fin 1000 → ℝ) (hx : ∀ c, r c = (x c : EReal)) :
    (∀ c, r c ≤ rowMax r) ∧ ∃ c0, rowMax r = (x c0 : EReal) := by
  have hle : ∀ c, r c ≤ rowMax r := fun c =>
    (Finset.le_fold_max _).2 (Or.inr ⟨c, Finset.mem_univ _, le_rfl⟩)
  refine ⟨hle, ?_⟩
  by_contra hne
  have hlt : ∀ c ∈ (Finset.univ : Finset (Fin 1000)), r c < rowMax r := fun c _ =>
    lt_of_le_of_ne (hle c) (fun e => hne ⟨c, by rw [← e, hx c]⟩)
  have hbot : Ideal.ofBits .f32 0xFF800000#32 < rowMax r := by
    rw [negInf]
    exact lt_of_lt_of_le (by rw [hx 0]; exact EReal.bot_lt_coe _) (hle 0)
  have hlt' : rowMax r < rowMax r := (Finset.fold_max_lt _).2 ⟨hbot, hlt⟩
  exact lt_irrefl _ hlt'

/-- The fold of max from minus infinity over the softmax probabilities of a finite row is the
    confidence 1 / (sum over c of exp (r c - max r)). -/
theorem fold_softmax_eq_conf (r : Row) (hfin : ∀ c, ∃ x : ℝ, r c = (x : EReal)) :
    (Finset.univ : Finset (Fin 1000)).fold max (Ideal.ofBits .f32 0xFF800000#32)
      (fun c => Ideal.div (Ideal.exp (r c - rowMax r)) (rowSum r)) = conf r := by
  choose x hx using hfin
  obtain ⟨hle, c0, hm⟩ := rowMax_attained r x hx
  have he : ∀ c, Ideal.exp (r c - rowMax r) = ((Real.exp (x c - x c0) : ℝ) : EReal) := fun c => by
    rw [hx c, hm, ← EReal.coe_sub, Ideal.exp_coe]
  have hs : rowSum r = ((∑ c, Real.exp (x c - x c0) : ℝ) : EReal) := by
    unfold rowSum
    rw [coe_sum]
    exact Finset.sum_congr rfl (fun c _ => he c)
  generalize hS : (∑ c, Real.exp (x c - x c0) : ℝ) = S at hs
  have hSpos : 0 < S := by
    rw [← hS]
    exact Finset.sum_pos (fun c _ => Real.exp_pos _) Finset.univ_nonempty
  have hS0 : (S : EReal) ≠ 0 := by exact_mod_cast hSpos.ne'
  have hdiv : ∀ a : ℝ, Ideal.div (a : EReal) (S : EReal) = ((a / S : ℝ) : EReal) := fun a => by
    unfold Ideal.div
    rw [if_neg hS0, ← EReal.coe_inv, ← EReal.coe_mul, div_eq_mul_inv]
  have hconf : conf r = ((1 / S : ℝ) : EReal) := by
    unfold conf
    rw [Ideal.ofBits_one_f32, hs, ← EReal.coe_one, hdiv]
  have hx0 : ∀ c, x c ≤ x c0 := fun c => by
    have h := hle c
    rw [hx c, hm] at h
    exact_mod_cast h
  rw [hconf]
  apply le_antisymm
  · refine (Finset.fold_max_le _).2 ⟨by rw [negInf]; exact bot_le, fun c _ => ?_⟩
    show Ideal.div (Ideal.exp (r c - rowMax r)) (rowSum r) ≤ _
    rw [he c, hs, hdiv, EReal.coe_le_coe_iff]
    have h1 : Real.exp (x c - x c0) ≤ 1 := Real.exp_le_one_iff.2 (by linarith [hx0 c])
    gcongr
  · refine (Finset.le_fold_max _).2 (Or.inr ⟨c0, Finset.mem_univ _, ?_⟩)
    show _ ≤ Ideal.div (Ideal.exp (r c0 - rowMax r)) (rowSum r)
    rw [he c0, hs, hdiv, sub_self, Real.exp_zero]

end Cert.Route.Softmax

end
-- ==== Proof.ScatterFold.lean ====
import Idealize.ShloMosaic.PureOps
import Idealize.ShloMosaic.Lib.ValueIdx

/-! A scatter that overwrites with ONE constant, read at an index.

Host.scatter is a left fold over the update indices: each step replaces the element its start
index names, or does nothing when the start lies outside the operand.  When every update carries the
same value c and the body returns the update, the order of the steps does not matter: an element
of the result is c if SOME update lands on it and the operand's element otherwise.  Both halves are
proved by induction over the list of update indices, for an arbitrary partial map g from update
indices to places and any step function that behaves as described. -/

namespace Cert.Route.Scatter

open Idealize.ShloMosaic

section fold
variable {ι κ α : Type} [DecidableEq ι] (g : κ → Option ι) (c : α) (stp : (ι → α) → κ → ι → α)
  (hsome : ∀ r n j, g n = some j → ∀ i', stp r n i' = if i' = j then c else r i')
  (hnone : ∀ r n, g n = none → stp r n = r)
include hsome hnone

/-- No update index of the list lands on i: the fold leaves x i as it was. -/
theorem foldl_miss (l : List κ) (x : ι → α) (i : ι) (h : ∀ n ∈ l, g n ≠ some i) :
    l.foldl stp x i = x i := by
  induction l generalizing x with
  | nil => rfl
  | cons a l ih =>
    rw [List.foldl_cons, ih _ (fun n hn => h n (List.mem_cons_of_mem _ hn))]
    have ha := h a List.mem_cons_self
    cases hga : g a with
    | none => rw [hnone x a hga]
    | some j =>
      have hij : ¬ i = j := fun e => ha (by rw [hga, e])
      rw [hsome x a j hga i, if_neg hij]

/-- Some update index of the list lands on i: the fold leaves the constant there. -/
theorem foldl_hit (l : List κ) (x : ι → α) (i : ι) (h : ∃ n ∈ l, g n = some i) :
    l.foldl stp x i = c := by
  induction l generalizing x with
  | nil => obtain ⟨n, hn, _⟩ := h; cases hn
  | cons a l ih =>
    rw [List.foldl_cons]
    by_cases hl : ∃ n ∈ l, g n = some i
    · exact ih _ hl
    · have hmiss : ∀ n ∈ l, g n ≠ some i := fun n hn e => hl ⟨n, hn, e⟩
      rw [foldl_miss g c stp hsome hnone l _ i hmiss]
      obtain ⟨n, hn, hgn⟩ := h
      rcases List.mem_cons.1 hn with rfl | hn'
      · rw [hsome x n i hgn i, if_pos rfl]
      · exact absurd hgn (hmiss n hn')

end fold

variable {α : Type} {w : Nat} {s si u : Shape}

/-- The step of a scatter whose body returns the update and whose updates are all c. -/
private theorem step_some (d : ScatterDims s si u) (idx : IVec si w) (c : α) (r : s.Idx → α) (n : Fin u.numel)
    (j : s.Idx) (h : d.resultIdx? (u.rowMajor.symm n) idx = some j) (i' : s.Idx) :
    (match d.resultIdx? (u.rowMajor.symm n) idx with
      | some i => fun i' => if i' = i then (fun (_ : α) (b : α) => b) (r i) ((fun _ => c) (u.rowMajor.symm n)) else r i'
      | none => r) i' = if i' = j then c else r i' := by
  rw [h]

private theorem step_none (d : ScatterDims s si u) (idx : IVec si w) (c : α) (r : s.Idx → α) (n : Fin u.numel)
    (h : d.resultIdx? (u.rowMajor.symm n) idx = none) :
    (match d.resultIdx? (u.rowMajor.symm n) idx with
      | some i => fun i' => if i' = i then (fun (_ : α) (b : α) => b) (r i) ((fun _ => c) (u.rowMajor.symm n)) else r i'
      | none => r) = r := by
  rw [h]

/-- A scatter whose body returns the update and whose updates are all c, at an index that some
    update lands on. -/
theorem scatter_const_hit (d : ScatterDims s si u) (x : s.Idx → α) (idx : IVec si w) (c : α) (i : s.Idx)
    (h : ∃ j : u.Idx, d.resultIdx? j idx = some i) :
    Host.scatter d (fun _ b => b) x idx (fun _ => c) i = c := by
  obtain ⟨j, hj⟩ := h
  unfold Host.scatter
  exact foldl_hit (fun n => d.resultIdx? (u.rowMajor.symm n) idx) c _
    (fun r n j h i' => step_some d idx c r n j h i') (fun r n h => step_none d idx c r n h) _ x i
    ⟨u.rowMajor j, List.mem_finRange _, by rw [Equiv.symm_apply_apply]; exact hj⟩

/-- The same scatter at an index no update lands on. -/
theorem scatter_const_miss (d : ScatterDims s si u) (x : s.Idx → α) (idx : IVec si w) (c : α) (i : s.Idx)
    (h : ∀ j : u.Idx, d.resultIdx? j idx ≠ some i) :
    Host.scatter d (fun _ b => b) x idx (fun _ => c) i = x i := by
  unfold Host.scatter
  exact foldl_miss (fun n => d.resultIdx? (u.rowMajor.symm n) idx) c _
    (fun r n j h i' => step_some d idx c r n j h i') (fun r n h => step_none d idx c r n h) _ x i (fun n _ => h _)

end Cert.Route.Scatter
-- ==== Proof.ScatterAt.lean ====
import proofs.«215259_g58411555225873_cont_9to1_m_859_22_alg».proof.Proof.ScatterFold

/-! The scatter of one word into a vector of 16384 words, x.at[idx].set(c) with out-of-range
indices dropped, read at an index.

The index array has shape [16384, 1]: update n reads its start from idx[n, 0], signed; it lands on
element idx[n, 0] when that lies in [0, 16384) and is dropped otherwise.  When idx[n, 0] is n where a
mask holds and 16384 elsewhere, element b of the result is c where the mask holds at b and the
operand's element elsewhere. -/

namespace Cert.Route.Scatter

open Idealize.ShloMosaic Idealize.ShloMosaic.ValueIdx

abbrev V : Shape := ⟨1, ![16384]⟩
abbrev VI : Shape := ⟨2, ![16384, 1]⟩

variable {α : Type} {w : Nat}

/-- Where update j lands: the start is the word idx[j, 0] read signed, there is no window. -/
theorem resultIdx_eq (d : ScatterDims V VI V) (h1 : d.updateWindowDims = []) (h2 : d.insertedWindowDims = [0])
    (h3 : d.scatterDimsToOperandDims = [0]) (h4 : d.indexVectorDim = 1) (j : V.Idx) (idx : IVec VI w) :
    d.resultIdx? j idx =
      if h : 0 ≤ (idx (ix2 (j 0) 0)).toInt ∧ (idx (ix2 (j 0) 0)).toInt < 16384 then
        some (ix1 ⟨(idx (ix2 (j 0) 0)).toInt.toNat, by omega⟩)
      else none := by
  obtain ⟨uw, iw, sd, iv, wf⟩ := d
  simp only at h1 h2 h3 h4
  subst h1 h2 h3 h4
  have hstart : ∀ a : Fin 1, ScatterDims.start ⟨[], [0], [0], 1, wf⟩ j idx a = (idx (ix2 (j 0) 0)).toInt := by
    intro a
    obtain rfl : a = 0 := Subsingleton.elim _ _
    unfold ScatterDims.start
    split
    · refine congrArg (fun k => (idx k).toInt) (funext fun b => ?_)
      match b with
      | ⟨0, _⟩ => exact Fin.ext rfl
      | ⟨1, _⟩ => exact Fin.ext rfl
    · rename_i ha
      exact absurd (List.mem_singleton.2 rfl) ha
  have hwin : ∀ a : Fin 1, ScatterDims.window ⟨[], [0], [0], 1, wf⟩ j a = 0 := by
    intro a
    obtain rfl : a = 0 := Subsingleton.elim _ _
    rfl
  unfold ScatterDims.resultIdx?
  by_cases h : 0 ≤ (idx (ix2 (j 0) 0)).toInt ∧ (idx (ix2 (j 0) 0)).toInt < 16384
  · rw [dif_pos h, dif_pos (fun a => by rw [hstart a, hwin a]; simpa using h)]
    refine congrArg some (funext fun a => ?_)
    match a with
    | ⟨0, _⟩ => exact Fin.ext (by show (_ + _ : Int).toNat = _; rw [hstart, hwin]; simp)
  · rw [dif_neg h, dif_neg (fun hall => h (by have := hall 0; rw [hstart 0, hwin 0] at this; simpa using this))]

/-- x.at[idx].set(c) with idx[n] = n where the mask holds and 16384 (out of range, dropped)
    elsewhere: c where the mask holds, x elsewhere. -/
theorem scatter_mask (d : ScatterDims V VI V) (h1 : d.updateWindowDims = []) (h2 : d.insertedWindowDims = [0])
    (h3 : d.scatterDimsToOperandDims = [0]) (h4 : d.indexVectorDim = 1)
    (x : V.Idx → α) (idx : IVec VI w) (c : α) (mask : Fin 16384 → Prop) [DecidablePred mask]
    (hidx : ∀ n : Fin 16384, (idx (ix2 n 0)).toInt = if mask n then (n.val : Int) else 16384) (b : Fin 16384) :
    Host.scatter d (fun _ b => b) x idx (fun _ => c) (ix1 b) = if mask b then c else x (ix1 b) := by
  by_cases hb : mask b
  · rw [if_pos hb]
    refine scatter_const_hit d x idx c _ ⟨ix1 b, ?_⟩
    have hv : (idx (ix2 b 0)).toInt = (b.val : Int) := by rw [hidx b, if_pos hb]
    rw [resultIdx_eq d h1 h2 h3 h4]
    have hr : 0 ≤ (idx (ix2 ((ix1 b : V.Idx) 0) 0)).toInt ∧ (idx (ix2 ((ix1 b : V.Idx) 0) 0)).toInt < 16384 := by
      show 0 ≤ (idx (ix2 b 0)).toInt ∧ (idx (ix2 b 0)).toInt < 16384
      rw [hv]; have := b.isLt; omega
    rw [dif_pos hr]
    refine congrArg some (funext fun a => ?_)
    match a with
    | ⟨0, _⟩ => exact Fin.ext (by show (idx (ix2 b 0)).toInt.toNat = b.val; rw [hv]; simp)
  · rw [if_neg hb]
    refine scatter_const_miss d x idx c _ (fun j hj => ?_)
    rw [resultIdx_eq d h1 h2 h3 h4] at hj
    have hv := hidx (j 0)
    by_cases hm : mask (j 0)
    · rw [if_pos hm] at hv
      have hr : 0 ≤ (idx (ix2 (j 0) 0)).toInt ∧ (idx (ix2 (j 0) 0)).toInt < 16384 := by
        rw [hv]; have := (j 0).isLt; omega
      rw [dif_pos hr] at hj
      have h0 := congrArg (fun k : V.Idx => (k 0).val) (Option.some.inj hj)
      have hjb : (j 0) = b := Fin.ext (by
        have : (idx (ix2 (j 0) 0)).toInt.toNat = b.val := h0
        rw [hv] at this; simpa using this)
      exact hb (hjb ▸ hm)
    · rw [if_neg hm] at hv
      rw [dif_neg (by rw [hv]; omega)] at hj
      cases hj

end Cert.Route.Scatter
-- ==== Proof.RefHead.lean ====
import proofs.«215259_g58411555225873_cont_9to1_m_859_22_alg».proof.Proof.SoftmaxMax
import proofs.«215259_g58411555225873_cont_9to1_m_859_22_alg».proof.Proof.ScatterAt
import Idealize.ShloMosaic.Lib.Pipeline.Value
import Idealize.ShloMosaic.Lib.Affine

/-! One head of the early-exit loop, as host operations over a [16384, 1000] array of logits x.

The loop body is the same four times: the confidence of each sample's row (the largest softmax
probability), its comparison with the threshold, the conjunction with "not yet exited", the masked
overwrite of the outputs and the masked scatter of the head's number.  Each stage is stated here
once, as a function of x and of the state carried between heads, and read at a sample b (and a
class c).  The shape facts the operations take are arguments, so the stages meet whatever proofs a
program's text carries. -/

noncomputable section

open scoped BigOperators

namespace Cert.Route.Head

open Idealize.ShloMosaic Idealize.ShloMosaic.ValueIdx Cert.Route.Spec Cert.Route.Softmax Cert.Route.Scatter

abbrev S0 : Shape := ⟨0, ![]⟩
abbrev SV : Shape := ⟨1, ![16384]⟩
abbrev SC : Shape := ⟨2, ![16384, 1]⟩
abbrev SM : Shape := ⟨2, ![16384, 1000]⟩

variable (hb0 : S0.BroadcastsInDim SV (![] : Fin 0 → Fin SV.rank))
  (hb1 : SV.BroadcastsInDim SC (![0] : Fin 1 → Fin SC.rank))
  (hb2 : SC.BroadcastsInDim SM (![0, 1] : Fin 2 → Fin SM.rank))
  (hr : SM.ReducesTo [1] SV) (h0 : 0 < S0.numel)

/-! ## A per-sample value spread over the classes -/

/-- A vector over the samples, made a column and spread over the 1000 classes. -/
def colB {α : Type} (y : SV.Idx → α) : SM.Idx → α :=
  broadcastInDim SM ![0, 1] hb2 (broadcastInDim SC ![0] hb1 y)

theorem colB_apply {α : Type} (y : SV.Idx → α) (b : Fin 16384) (c : Fin 1000) :
    colB hb1 hb2 y (ix2 b c) = y (ix1 b) := by
  unfold colB
  rw [broadcastInDim_apply ![0, 1] hb2 _ (ix2 b c) (ix2 b 0) (fun a => by
        match a with
        | ⟨0, _⟩ => show b.val = if (16384 : Nat) = 1 then 0 else b.val; rw [if_neg (by decide)]
        | ⟨1, _⟩ => show 0 = if (1 : Nat) = 1 then 0 else c.val; rw [if_pos rfl]),
    broadcastInDim_apply ![0] hb1 y (ix2 b 0) (ix1 b) (fun a => by
        match a with
        | ⟨0, _⟩ => show b.val = if (16384 : Nat) = 1 then 0 else b.val; rw [if_neg (by decide)])]

/-- Sample b's row of x. -/
abbrev rowAt (x : FVec Ideal SM .f32) (b : Fin 16384) : Row := fun c => x (ix2 b c)

theorem lift_eq (h : SM.Reduces [1] SV) (b : Fin 16384) (c : Fin 1000) : h.lift (ix1 b) c = ix2 b c :=
  funext fun a => Fin.ext (by match a with | ⟨0, _⟩ => rfl | ⟨1, _⟩ => rfl)

/-! ## The two reductions over the classes, for an arbitrary array

Both are stated for a variable array y, so that nothing in their proofs can be evaluated; the stages
below use them by rewriting. -/

/-- The host's reduce by max over the classes from minus infinity, at sample b: the fold of max over
    the row. -/
theorem hostMax_apply (y : FVec Ideal SM .f32) (b : Fin 16384) :
    Host.reduce FloatOps.maximumf y (constant (F := Ideal) S0 .f32 0xFF800000#32) hr h0 (ix1 b)
      = Finset.fold max (Ideal.ofBits .f32 0xFF800000#32) (fun c : Fin 1000 => y (ix2 b c)) Finset.univ := by
  have h : SM.Reduces [1] SV := by decide
  rw [Host.reduce_eq_fold_single FloatOps.maximumf y _ hr h h0]
  have hf : (y ∘ h.lift (ix1 b)) = fun c : Fin 1000 => y (ix2 b c) := funext fun c => congrArg y (lift_eq h b c)
  exact congrArg (fun f => Finset.fold max (Ideal.ofBits .f32 0xFF800000#32) f (Finset.univ : Finset (Fin 1000))) hf

/-- The host's sum over the classes from zero, at sample b: the sum over the row. -/
theorem hostSum_apply (y : FVec Ideal SM .f32) (b : Fin 16384) :
    Host.reduceAdd y (constant (F := Ideal) S0 .f32 0x00000000#32) hr h0 (ix1 b) = ∑ c : Fin 1000, y (ix2 b c) := by
  have h : SM.Reduces [1] SV := by decide
  rw [hostReduceAdd_apply, Ideal.hostReduceAdd_single hr h, constant_apply, Ideal.ofBits_zero_f32, zero_add]
  exact Finset.sum_congr rfl fun c _ => congrArg y (lift_eq h b c)

/-- The host's exponential at an index. -/
theorem hostExp_apply {s : Shape} (y : FVec Ideal s .f32) (i : s.Idx) : Host.exp y i = Ideal.exp (y i) := rfl

/-! ## The confidence -/

/-- The row maxima: the reduce by max from minus infinity, joined once more with minus infinity. -/
def rmax (x : FVec Ideal SM .f32) : FVec Ideal SV .f32 :=
  maximumf (broadcastInDim SV ![] hb0 (constant (F := Ideal) S0 .f32 0xFF800000#32))
    (Host.reduce FloatOps.maximumf x (constant (F := Ideal) S0 .f32 0xFF800000#32) hr h0)

theorem rmax_apply (x : FVec Ideal SM .f32) (b : Fin 16384) : rmax hb0 hr h0 x (ix1 b) = rowMax (rowAt x b) := by
  unfold rmax
  rw [maximumf_apply, broadcastInDim_scalar_apply, constant_apply, hostMax_apply hr h0 x b, negInf]
  unfold rowMax
  rw [negInf]
  exact max_eq_right bot_le

/-- The softmax numerators exp (x - row maximum). -/
def expSub (x : FVec Ideal SM .f32) : FVec Ideal SM .f32 :=
  Host.exp (subf x (colB hb1 hb2 (rmax hb0 hr h0 x)))

theorem expSub_apply (x : FVec Ideal SM .f32) (b : Fin 16384) (c : Fin 1000) :
    expSub hb0 hb1 hb2 hr h0 x (ix2 b c) = Ideal.exp (x (ix2 b c) - rowMax (rowAt x b)) := by
  unfold expSub
  rw [hostExp_apply, subf_apply, colB_apply, rmax_apply]

/-- The softmax denominators: the host sum over the classes from zero. -/
def rsum (x : FVec Ideal SM .f32) : FVec Ideal SV .f32 :=
  Host.reduceAdd (expSub hb0 hb1 hb2 hr h0 x) (constant (F := Ideal) S0 .f32 0x00000000#32) hr h0

theorem rsum_apply (x : FVec Ideal SM .f32) (b : Fin 16384) :
    rsum hb0 hb1 hb2 hr h0 x (ix1 b) = rowSum (rowAt x b) := by
  unfold rsum
  rw [hostSum_apply hr h0 _ b]
  unfold rowSum
  exact Finset.sum_congr rfl fun c _ => expSub_apply hb0 hb1 hb2 hr h0 x b c

/-- The confidence: the reduce by max from minus infinity of numerator / denominator. -/
def confOf (x : FVec Ideal SM .f32) : FVec Ideal SV .f32 :=
  Host.reduce FloatOps.maximumf
    (Host.divf (expSub hb0 hb1 hb2 hr h0 x) (colB hb1 hb2 (rsum hb0 hb1 hb2 hr h0 x)))
    (constant (F := Ideal) S0 .f32 0xFF800000#32) hr h0

/-- For a sample whose row is finite the largest softmax probability is 1 / denominator. -/
theorem confOf_apply (x : FVec Ideal SM .f32) (b : Fin 16384) (hfin : ∀ c, ∃ r : ℝ, x (ix2 b c) = (r : EReal)) :
    confOf hb0 hb1 hb2 hr h0 x (ix1 b) = conf (rowAt x b) := by
  unfold confOf
  rw [hostMax_apply hr h0 _ b, ← fold_softmax_eq_conf (rowAt x b) hfin]
  refine congrArg (fun f => Finset.fold max (Ideal.ofBits .f32 0xFF800000#32) f (Finset.univ : Finset (Fin 1000)))
    (funext fun c => ?_)
  rw [hostDivf_apply, expSub_apply, colB_apply, rsum_apply]

/-- Whether the confidence reaches the threshold. -/
def exOf (x : FVec Ideal SM .f32) : IVec SV 1 :=
  cmpf .oge (confOf hb0 hb1 hb2 hr h0 x) (broadcastInDim SV ![] hb0 (constant (F := Ideal) S0 .f32 0x3CA3D70A#32))

theorem exOf_apply (x : FVec Ideal SM .f32) (b : Fin 16384) (hfin : ∀ c, ∃ r : ℝ, x (ix2 b c) = (r : EReal)) :
    exOf hb0 hb1 hb2 hr h0 x (ix1 b) = exits (rowAt x b) := by
  unfold exOf
  rw [cmpf_apply, confOf_apply hb0 hb1 hb2 hr h0 x b hfin, broadcastInDim_scalar_apply, constant_apply, Ideal.cmpf_def]
  rfl

/-! ## The state carried between heads -/

/-- The exit mask: not yet exited (the recorded head is still -1) and exiting here. -/
def maskOf (ea : IVec SV 32) (ex : IVec SV 1) : IVec SV 1 :=
  andi (cmpi .eq ea (broadcastInDim SV ![] hb0 (constantI S0 32 4294967295#32))) ex

theorem maskOf_apply (ea : IVec SV 32) (ex : IVec SV 1) (b : Fin 16384) :
    maskOf hb0 ea ex (ix1 b) = IntOp.andi (IntOp.cmpi .eq (ea (ix1 b)) 4294967295#32) (ex (ix1 b)) := by
  show IntOp.andi (IntOp.cmpi .eq (ea (ix1 b)) (broadcastInDim SV ![] hb0 (constantI S0 32 4294967295#32) (ix1 b))) _ = _
  rw [broadcastInDim_scalar_apply]
  rfl

/-- The outputs after a head: the head's logits where the mask holds, the previous outputs elsewhere. -/
def outStep {α : Type} (mask : IVec SV 1) (xh prev : SM.Idx → α) : SM.Idx → α :=
  select (colB hb1 hb2 mask) xh prev

theorem outStep_apply {α : Type} (mask : IVec SV 1) (xh prev : SM.Idx → α) (b : Fin 16384) (c : Fin 1000) :
    outStep hb1 hb2 mask xh prev (ix2 b c) = Scalar.select (mask (ix1 b)) (xh (ix2 b c)) (prev (ix2 b c)) := by
  show Scalar.select (colB hb1 hb2 mask (ix2 b c)) _ _ = _
  rw [colB_apply]

/-- The scatter index of each sample: its own number where the mask holds, 16384 elsewhere. -/
def selIdx (mask : IVec SV 1) : IVec SV 32 :=
  select mask (iotaInDim SV 32 0) (broadcastInDim SV ![] hb0 (id (constantI S0 32 16384#32)))

/-- The same after the wrap of negative indices (none is negative), as a [16384, 1] array. -/
def safeIdx (mask : IVec SV 1) : IVec SC 32 :=
  broadcastInDim SC ![0] hb1
    (select (cmpi .slt (selIdx hb0 mask) (broadcastInDim SV ![] hb0 (constantI S0 32 0#32)))
      (addi (selIdx hb0 mask) (broadcastInDim SV ![] hb0 (constantI S0 32 16384#32))) (selIdx hb0 mask))

theorem safeIdx_toInt (mask : IVec SV 1) (n : Fin 16384) :
    (safeIdx hb0 hb1 mask (ix2 n 0)).toInt = if mask (ix1 n) = 1#1 then (n.val : Int) else 16384 := by
  unfold safeIdx
  rw [broadcastInDim_apply ![0] hb1 _ (ix2 n 0) (ix1 n) (fun a => by
        match a with
        | ⟨0, _⟩ => show n.val = if (16384 : Nat) = 1 then 0 else n.val; rw [if_neg (by decide)])]
  have hsel : selIdx hb0 mask (ix1 n) = Scalar.select (mask (ix1 n)) (BitVec.ofNat 32 n.val) 16384#32 := by
    show Scalar.select (mask (ix1 n)) (iotaInDim SV 32 0 (ix1 n)) (broadcastInDim SV ![] hb0 (id (constantI S0 32 16384#32)) (ix1 n)) = _
    rw [broadcastInDim_scalar_apply]
    rfl
  show (Scalar.select (IntOp.cmpi .slt (selIdx hb0 mask (ix1 n)) (broadcastInDim SV ![] hb0 (constantI S0 32 0#32) (ix1 n)))
      (IntOp.addi (selIdx hb0 mask (ix1 n)) (broadcastInDim SV ![] hb0 (constantI S0 32 16384#32) (ix1 n)))
      (selIdx hb0 mask (ix1 n))).toInt = _
  rw [broadcastInDim_scalar_apply, broadcastInDim_scalar_apply, hsel]
  show (Scalar.select (IntOp.cmpi .slt _ 0#32) (IntOp.addi _ 16384#32) _).toInt = _
  have hn : n.val < 16384 := n.isLt
  have hp : (2 : Nat) ^ 32 = 4294967296 := by norm_num
  have hk : (BitVec.ofNat 32 n.val).toInt = (n.val : Int) := by
    have h1 : (BitVec.ofNat 32 n.val).toNat = n.val := by
      rw [BitVec.toNat_ofNat]
      exact Nat.mod_eq_of_lt (by omega)
    rw [BitVec.toInt_eq_toNat_cond, h1, if_pos (by omega)]
  by_cases hm : mask (ix1 n) = 1#1
  · rw [if_pos hm, hm, select_one]
    have hns : ¬ IntOp.cmpi .slt (BitVec.ofNat 32 n.val) 0#32 = 1#1 := by
      rw [IntOp.cmpi_slt, hk]; simp
    rw [eq_zero_of_ne_one hns, select_zero, hk]
  · rw [if_neg hm, eq_zero_of_ne_one hm, select_zero]
    have hns : ¬ IntOp.cmpi .slt (16384#32 : BitVec 32) 0#32 = 1#1 := by decide
    rw [eq_zero_of_ne_one hns, select_zero]
    decide

/-- The recorded exit heads after a head: its number hw where the mask holds, unchanged elsewhere. -/
def eaStep (d : ScatterDims SV SC SV) (hw : BitVec 32) (ea : IVec SV 32) (mask : IVec SV 1) : IVec SV 32 :=
  Host.scatter d (fun _ b => b) ea (safeIdx hb0 hb1 mask) (broadcastInDim SV ![] hb0 (constantI S0 32 hw))

theorem eaStep_apply (d : ScatterDims SV SC SV) (h1 : d.updateWindowDims = []) (h2 : d.insertedWindowDims = [0])
    (h3 : d.scatterDimsToOperandDims = [0]) (h4 : d.indexVectorDim = 1)
    (hw : BitVec 32) (ea : IVec SV 32) (mask : IVec SV 1) (b : Fin 16384) :
    eaStep hb0 hb1 d hw ea mask (ix1 b) = Scalar.select (mask (ix1 b)) hw (ea (ix1 b)) := by
  unfold eaStep
  have hu : broadcastInDim SV ![] hb0 (constantI S0 32 hw) = fun _ => hw :=
    funext fun j => broadcastInDim_scalar_apply hb0 _ j
  rw [hu, scatter_mask d h1 h2 h3 h4 ea (safeIdx hb0 hb1 mask) hw (fun n => mask (ix1 n) = 1#1)
    (fun n => safeIdx_toInt hb0 hb1 mask n) b]
  rfl

/-! ## The four heads together, for one sample -/

/-- One sample's exit mask at a head: its recorded head a is still -1 and the head's exit bit e is set. -/
def maskBit (a : BitVec 32) (e : BitVec 1) : BitVec 1 := IntOp.andi (IntOp.cmpi .eq a 4294967295#32) e

/-- One sample's recorded head after a head numbered hw. -/
def eaNext (hw a : BitVec 32) (e : BitVec 1) : BitVec 32 := Scalar.select (maskBit a e) hw a

/-- From the three exit bits: the recorded head after the four masked scatters (the last head takes
    every sample still unresolved) is the first head that exits, and 3 when none does. -/
theorem ea_chain (e0 e1 e2 : BitVec 1) :
    eaNext 3#32 (eaNext 2#32 (eaNext 1#32 (eaNext 0#32 4294967295#32 e0) e1) e2) 1#1
      = if e0 = 1#1 then 0#32 else if e1 = 1#1 then 1#32 else if e2 = 1#1 then 2#32 else 3#32 := by
  revert e0 e1 e2
  decide

/-- The four masked overwrites of one output element leave the value of the head the sample exits at. -/
theorem out_chain {α : Type} (f : Fin 4 → α) (z : α) (e0 e1 e2 : BitVec 1) :
    Scalar.select (maskBit (eaNext 2#32 (eaNext 1#32 (eaNext 0#32 4294967295#32 e0) e1) e2) 1#1) (f 3)
      (Scalar.select (maskBit (eaNext 1#32 (eaNext 0#32 4294967295#32 e0) e1) e2) (f 2)
        (Scalar.select (maskBit (eaNext 0#32 4294967295#32 e0) e1) (f 1)
          (Scalar.select (maskBit 4294967295#32 e0) (f 0) z)))
      = f (if e0 = 1#1 then 0 else if e1 = 1#1 then 1 else if e2 = 1#1 then 2 else 3) := by
  have hb : ∀ e : BitVec 1, e = 0#1 ∨ e = 1#1 := by decide
  rcases hb e0 with rfl | rfl <;> rcases hb e1 with rfl | rfl <;> rcases hb e2 with rfl | rfl <;> rfl

end Cert.Route.Head

end
-- ==== Proof.RefValue.lean ====
import proofs.«215259_g58411555225873_cont_9to1_m_859_22_alg».proof.Proof.RefReadP
import proofs.«215259_g58411555225873_cont_9to1_m_859_22_alg».proof.Proof.RefHead

/-! The reference program as a function of its argument array A : [4, 16384, 1000], at the extended reals.

Each of the program's four heads is the same chain of host operations over that head's logits
(rows A[h][b][:]): the chain is identified, stage by stage, with the one-head stages stated once for
an arbitrary array, and read at a sample b.  With every logit finite the confidence of a row is
1 / (sum over c of exp (A[h][b][c] - max)), so a head's exit bit is the specification's.  The state
carried between heads is, per sample, a finite function of the three exit bits: the recorded head
ends as the first head that exits (3 when none does), and each output element as the logit of that
head. -/

noncomputable section

namespace Cert.Route.Ref

open Idealize.ShloMosaic Idealize.ShloMosaic.ValueIdx Cert.ReferenceIdeal Cert.ReferenceIdeal.Gen
  Cert.ReferenceIdeal.ReadP Cert.Route.Spec Cert.Route.Head

/-! ## The shape facts the program's text carries, at the one-head stages' types -/

theorem f0 : S0.BroadcastsInDim SV (![] : Fin 0 → Fin SV.rank) := bcast_S_S16384
theorem f1 : SV.BroadcastsInDim SC (![0] : Fin 1 → Fin SC.rank) := bcast_S16384_S16384x1_0
theorem f2 : SC.BroadcastsInDim SM (![0, 1] : Fin 2 → Fin SM.rank) := bcast_S16384x1_S16384x1000_0_1
theorem fr : SM.ReducesTo [1] SV := reducesTo_S16384x1000_S16384_d1
theorem fz : 0 < S0.numel := h_S_

/-- The program's one scatter record. -/
abbrev dsc : ScatterDims SV SC SV := scatter_S16384_S16384x1_S16384_n_0_0_1

variable (A : FVec Ideal S4x16384x1000 .f32)

/-! ## The four slices: head h's logits -/

theorem x0_apply (b : Fin 16384) (c : Fin 1000) : val_main_v4 (F := Ideal) A (ix2 b c) = A (ix3 0 b c) := by
  rw [val_main_v4_apply, val_main_v3_apply]
  refine congrArg A (funext fun a => Fin.ext ?_)
  have hb := b.isLt
  have hc := c.isLt
  match a with
  | ⟨0, _⟩ => rfl
  | ⟨1, _⟩ => show (b.val * 1000 + c.val) / 1000 % 16384 = b.val; omega
  | ⟨2, _⟩ => show (b.val * 1000 + c.val) % 1000 = c.val; omega

theorem row0 (b : Fin 16384) : rowAt (val_main_v4 (F := Ideal) A) b = rowOf A 0 b :=
  funext fun c => x0_apply A b c

theorem x1_apply (b : Fin 16384) (c : Fin 1000) : val_main_v34 (F := Ideal) A (ix2 b c) = A (ix3 1 b c) := by
  rw [val_main_v34_apply, val_main_v33_apply]
  refine congrArg A (funext fun a => Fin.ext ?_)
  have hb := b.isLt
  have hc := c.isLt
  match a with
  | ⟨0, _⟩ => rfl
  | ⟨1, _⟩ => show (b.val * 1000 + c.val) / 1000 % 16384 = b.val; omega
  | ⟨2, _⟩ => show (b.val * 1000 + c.val) % 1000 = c.val; omega

theorem row1 (b : Fin 16384) : rowAt (val_main_v34 (F := Ideal) A) b = rowOf A 1 b :=
  funext fun c => x1_apply A b c

theorem x2_apply (b : Fin 16384) (c : Fin 1000) : val_main_v64 (F := Ideal) A (ix2 b c) = A (ix3 2 b c) := by
  rw [val_main_v64_apply, val_main_v63_apply]
  refine congrArg A (funext fun a => Fin.ext ?_)
  have hb := b.isLt
  have hc := c.isLt
  match a with
  | ⟨0, _⟩ => rfl
  | ⟨1, _⟩ => show (b.val * 1000 + c.val) / 1000 % 16384 = b.val; omega
  | ⟨2, _⟩ => show (b.val * 1000 + c.val) % 1000 = c.val; omega

theorem row2 (b : Fin 16384) : rowAt (val_main_v64 (F := Ideal) A) b = rowOf A 2 b :=
  funext fun c => x2_apply A b c

theorem x3_apply (b : Fin 16384) (c : Fin 1000) : val_main_v94 (F := Ideal) A (ix2 b c) = A (ix3 3 b c) := by
  rw [val_main_v94_apply, val_main_v93_apply]
  refine congrArg A (funext fun a => Fin.ext ?_)
  have hb := b.isLt
  have hc := c.isLt
  match a with
  | ⟨0, _⟩ => rfl
  | ⟨1, _⟩ => show (b.val * 1000 + c.val) / 1000 % 16384 = b.val; omega
  | ⟨2, _⟩ => show (b.val * 1000 + c.val) % 1000 = c.val; omega

theorem row3 (b : Fin 16384) : rowAt (val_main_v94 (F := Ideal) A) b = rowOf A 3 b :=
  funext fun c => x3_apply A b c

/-! ## The program's stages are the one-head stages -/

theorem ex0_eq : val_main_v20 (F := Ideal) A = exOf f0 f1 f2 fr fz (val_main_v4 (F := Ideal) A) := rfl
theorem m0_eq : val_main_v21 (F := Ideal) A = maskOf f0 (val_main_v0 (F := Ideal)) (val_main_v20 (F := Ideal) A) := rfl
theorem o0_eq : val_main_v23 (F := Ideal) A = outStep f1 f2 (val_main_v21 (F := Ideal) A) (val_main_v4 (F := Ideal) A) (val_main_v1 (F := Ideal)) := rfl
theorem a0_eq : val_main_v32 (F := Ideal) A = eaStep f0 f1 dsc 0#32 (val_main_v0 (F := Ideal)) (val_main_v21 (F := Ideal) A) := rfl

theorem ex1_eq : val_main_v50 (F := Ideal) A = exOf f0 f1 f2 fr fz (val_main_v34 (F := Ideal) A) := rfl
theorem m1_eq : val_main_v51 (F := Ideal) A = maskOf f0 (val_main_v32 (F := Ideal) A) (val_main_v50 (F := Ideal) A) := rfl
theorem o1_eq : val_main_v53 (F := Ideal) A = outStep f1 f2 (val_main_v51 (F := Ideal) A) (val_main_v34 (F := Ideal) A) (val_main_v23 (F := Ideal) A) := rfl
theorem a1_eq : val_main_v62 (F := Ideal) A = eaStep f0 f1 dsc 1#32 (val_main_v32 (F := Ideal) A) (val_main_v51 (F := Ideal) A) := rfl

theorem ex2_eq : val_main_v80 (F := Ideal) A = exOf f0 f1 f2 fr fz (val_main_v64 (F := Ideal) A) := rfl
theorem m2_eq : val_main_v81 (F := Ideal) A = maskOf f0 (val_main_v62 (F := Ideal) A) (val_main_v80 (F := Ideal) A) := rfl
theorem o2_eq : val_main_v83 (F := Ideal) A = outStep f1 f2 (val_main_v81 (F := Ideal) A) (val_main_v64 (F := Ideal) A) (val_main_v53 (F := Ideal) A) := rfl
theorem a2_eq : val_main_v92 (F := Ideal) A = eaStep f0 f1 dsc 2#32 (val_main_v62 (F := Ideal) A) (val_main_v81 (F := Ideal) A) := rfl

theorem m3_eq : val_main_v110 (F := Ideal) A = maskOf f0 (val_main_v92 (F := Ideal) A) (val_main_v109 (F := Ideal)) := rfl
theorem o3_eq : val_main_v112 (F := Ideal) A = outStep f1 f2 (val_main_v110 (F := Ideal) A) (val_main_v94 (F := Ideal) A) (val_main_v83 (F := Ideal) A) := rfl
theorem a3_eq : val_main_v121 (F := Ideal) A = eaStep f0 f1 dsc 3#32 (val_main_v92 (F := Ideal) A) (val_main_v110 (F := Ideal) A) := rfl

/-! ## One sample through the four heads -/

theorem init_ea (b : Fin 16384) : val_main_v0 (F := Ideal) (ix1 b) = 4294967295#32 := by
  rw [val_main_v0_apply]; rfl

theorem last_ex (b : Fin 16384) : val_main_v109 (F := Ideal) (ix1 b) = 1#1 := by
  rw [val_main_v109_apply]; rfl

variable (hfin : ∀ i, ∃ r : ℝ, A i = (r : EReal))
include hfin

/-- Head 0's exit bit is the specification's: the row is finite, so its confidence is 1 / denominator. -/
theorem e0_apply (b : Fin 16384) : val_main_v20 (F := Ideal) A (ix1 b) = exits (rowOf A 0 b) := by
  rw [ex0_eq A, exOf_apply f0 f1 f2 fr fz _ b (fun c => by rw [x0_apply]; exact hfin _), row0]

theorem m0_apply (b : Fin 16384) : val_main_v21 (F := Ideal) A (ix1 b) = maskBit 4294967295#32 (exits (rowOf A 0 b)) := by
  rw [m0_eq A, maskOf_apply, init_ea b, e0_apply A hfin b]
  rfl

theorem a0_apply (b : Fin 16384) : val_main_v32 (F := Ideal) A (ix1 b) = eaNext 0#32 4294967295#32 (exits (rowOf A 0 b)) := by
  rw [a0_eq A, eaStep_apply f0 f1 dsc rfl rfl rfl rfl, m0_apply A hfin b, init_ea b]
  rfl

theorem o0_apply (b : Fin 16384) (c : Fin 1000) : val_main_v23 (F := Ideal) A (ix2 b c) = Scalar.select (maskBit 4294967295#32 (exits (rowOf A 0 b))) (A (ix3 0 b c)) (val_main_v1 (F := Ideal) (ix2 b c)) := by
  rw [o0_eq A, outStep_apply, m0_apply A hfin b, x0_apply]

/-- Head 1's exit bit is the specification's: the row is finite, so its confidence is 1 / denominator. -/
theorem e1_apply (b : Fin 16384) : val_main_v50 (F := Ideal) A (ix1 b) = exits (rowOf A 1 b) := by
  rw [ex1_eq A, exOf_apply f0 f1 f2 fr fz _ b (fun c => by rw [x1_apply]; exact hfin _), row1]

theorem m1_apply (b : Fin 16384) : val_main_v51 (F := Ideal) A (ix1 b) = maskBit (eaNext 0#32 4294967295#32 (exits (rowOf A 0 b))) (exits (rowOf A 1 b)) := by
  rw [m1_eq A, maskOf_apply, a0_apply A hfin b, e1_apply A hfin b]
  rfl

theorem a1_apply (b : Fin 16384) : val_main_v62 (F := Ideal) A (ix1 b) = eaNext 1#32 (eaNext 0#32 4294967295#32 (exits (rowOf A 0 b))) (exits (rowOf A 1 b)) := by
  rw [a1_eq A, eaStep_apply f0 f1 dsc rfl rfl rfl rfl, m1_apply A hfin b, a0_apply A hfin b]
  rfl

theorem o1_apply (b : Fin 16384) (c : Fin 1000) : val_main_v53 (F := Ideal) A (ix2 b c) = Scalar.select (maskBit (eaNext 0#32 4294967295#32 (exits (rowOf A 0 b))) (exits (rowOf A 1 b))) (A (ix3 1 b c)) (Scalar.select (maskBit 4294967295#32 (exits (rowOf A 0 b))) (A (ix3 0 b c)) (val_main_v1 (F := Ideal) (ix2 b c))) := by
  rw [o1_eq A, outStep_apply, m1_apply A hfin b, x1_apply, o0_apply A hfin b c]

/-- Head 2's exit bit is the specification's: the row is finite, so its confidence is 1 / denominator. -/
theorem e2_apply (b : Fin 16384) : val_main_v80 (F := Ideal) A (ix1 b) = exits (rowOf A 2 b) := by
  rw [ex2_eq A, exOf_apply f0 f1 f2 fr fz _ b (fun c => by rw [x2_apply]; exact hfin _), row2]

theorem m2_apply (b : Fin 16384) : val_main_v81 (F := Ideal) A (ix1 b) = maskBit (eaNext 1#32 (eaNext 0#32 4294967295#32 (exits (rowOf A 0 b))) (exits (rowOf A 1 b))) (exits (rowOf A 2 b)) := by
  rw [m2_eq A, maskOf_apply, a1_apply A hfin b, e2_apply A hfin b]
  rfl

theorem a2_apply (b : Fin 16384) : val_main_v92 (F := Ideal) A (ix1 b) = eaNext 2#32 (eaNext 1#32 (eaNext 0#32 4294967295#32 (exits (rowOf A 0 b))) (exits (rowOf A 1 b))) (exits (rowOf A 2 b)) := by
  rw [a2_eq A, eaStep_apply f0 f1 dsc rfl rfl rfl rfl, m2_apply A hfin b, a1_apply A hfin b]
  rfl

theorem o2_apply (b : Fin 16384) (c : Fin 1000) : val_main_v83 (F := Ideal) A (ix2 b c) = Scalar.select (maskBit (eaNext 1#32 (eaNext 0#32 4294967295#32 (exits (rowOf A 0 b))) (exits (rowOf A 1 b))) (exits (rowOf A 2 b))) (A (ix3 2 b c)) (Scalar.select (maskBit (eaNext 0#32 4294967295#32 (exits (rowOf A 0 b))) (exits (rowOf A 1 b))) (A (ix3 1 b c)) (Scalar.select (maskBit 4294967295#32 (exits (rowOf A 0 b))) (A (ix3 0 b c)) (val_main_v1 (F := Ideal) (ix2 b c)))) := by
  rw [o2_eq A, outStep_apply, m2_apply A hfin b, x2_apply, o1_apply A hfin b c]

theorem m3_apply (b : Fin 16384) : val_main_v110 (F := Ideal) A (ix1 b) = maskBit (eaNext 2#32 (eaNext 1#32 (eaNext 0#32 4294967295#32 (exits (rowOf A 0 b))) (exits (rowOf A 1 b))) (exits (rowOf A 2 b))) 1#1 := by
  rw [m3_eq A, maskOf_apply, a2_apply A hfin b, last_ex b]
  rfl

theorem a3_apply (b : Fin 16384) : val_main_v121 (F := Ideal) A (ix1 b) = eaNext 3#32 (eaNext 2#32 (eaNext 1#32 (eaNext 0#32 4294967295#32 (exits (rowOf A 0 b))) (exits (rowOf A 1 b))) (exits (rowOf A 2 b))) 1#1 := by
  rw [a3_eq A, eaStep_apply f0 f1 dsc rfl rfl rfl rfl, m3_apply A hfin b, a2_apply A hfin b]
  rfl

theorem o3_apply (b : Fin 16384) (c : Fin 1000) : val_main_v112 (F := Ideal) A (ix2 b c) = Scalar.select (maskBit (eaNext 2#32 (eaNext 1#32 (eaNext 0#32 4294967295#32 (exits (rowOf A 0 b))) (exits (rowOf A 1 b))) (exits (rowOf A 2 b))) 1#1) (A (ix3 3 b c)) (Scalar.select (maskBit (eaNext 1#32 (eaNext 0#32 4294967295#32 (exits (rowOf A 0 b))) (exits (rowOf A 1 b))) (exits (rowOf A 2 b))) (A (ix3 2 b c)) (Scalar.select (maskBit (eaNext 0#32 4294967295#32 (exits (rowOf A 0 b))) (exits (rowOf A 1 b))) (A (ix3 1 b c)) (Scalar.select (maskBit 4294967295#32 (exits (rowOf A 0 b))) (A (ix3 0 b c)) (val_main_v1 (F := Ideal) (ix2 b c))))) := by
  rw [o3_eq A, outStep_apply, m3_apply A hfin b, x3_apply, o2_apply A hfin b c]

/-! ## The two results -/

/-- The second result: for each sample the head it leaves at. -/
theorem ref_eh : val_main_v121 (F := Ideal) A = fun i => exitHead A (i 0) := by
  funext i
  obtain ⟨b, rfl⟩ : ∃ b : Fin 16384, i = ix1 b := ⟨i 0, eq_ix1 i⟩
  rw [a3_apply A hfin b, ea_chain]
  rfl

/-- The first result: each sample's logits at the head it leaves at. -/
theorem ref_out : val_main_v112 (F := Ideal) A = routed A := by
  funext i
  obtain ⟨b, c, rfl⟩ : ∃ (b : Fin 16384) (c : Fin 1000), i = ix2 b c := ⟨i 0, i 1, eq_ix2 i⟩
  rw [o3_apply A hfin b c]
  exact (out_chain (fun h => A (ix3 h b c)) _ _ _ _).trans rfl

end Cert.Route.Ref

end
-- ==== Proof.RefRun.lean ====
import proofs.«215259_g58411555225873_cont_9to1_m_859_22_alg».proof.Proof.RefValue

/-! The reference program's run with both results named by the specification.

From any memory whose argument array is finite on every device, every weakly fair execution of the
reference ends with its first result the routed logits, its second the exit heads, and the argument
array unchanged: the run read back, with each result's composed term replaced by the stage it is
and the stage by the specification. -/

noncomputable section

namespace Cert.Route.Ref

open Idealize.ShloMosaic Idealize.SL.Sem Cert.ReferenceIdeal Cert.ReferenceIdeal.Gen Cert.Route.Spec

/-- The argument array on device c, as an array of extended reals. -/
abbrev argOf (m : (ℓ : Loc nD τ sig) → Buf (Elt Ideal) ℓ) (c : Dev nD) : FVec Ideal S4x16384x1000 .f32 :=
  m ((c.tc : Thread nD τ).loc main_arg0)

theorem res_out (m : (ℓ : Loc nD τ sig) → Buf (Elt Ideal) ℓ) (c : Dev nD)
    (hfin : ∀ i, ∃ r : ℝ, argOf m c i = (r : EReal)) :
    Cert.ReferenceIdeal.ValueP.res_main_v112 (F := Ideal) m c = routed (argOf m c) :=
  (Cert.ReferenceIdeal.ReadP.val_main_v112_eq m c).trans (ref_out (argOf m c) hfin)

theorem res_eh (m : (ℓ : Loc nD τ sig) → Buf (Elt Ideal) ℓ) (c : Dev nD)
    (hfin : ∀ i, ∃ r : ℝ, argOf m c i = (r : EReal)) :
    Cert.ReferenceIdeal.ValueP.res_main_v121 (F := Ideal) m c = fun i => exitHead (argOf m c) (i 0) :=
  (Cert.ReferenceIdeal.ReadP.val_main_v121_eq m c).trans (ref_eh (argOf m c) hfin)

/-- The reference's run, its results as the specification's functions of the argument array. -/
theorem ref_run (m : (ℓ : Loc nD τ sig) → Buf (Elt Ideal) ℓ) (ρ : Dev nD → PrngReg)
    (hfin : ∀ c i, ∃ r : ℝ, argOf m c i = (r : EReal)) :
    θ_run defs (onTc (τ := τ) (main (F := Ideal))) ⟨m, fun _ => 0, ρ⟩ fun r => ∀ c : Dev nD,
      r.2.mem ((c.tc : Thread nD τ).loc main_v112) = routed (argOf m c)
      ∧ r.2.mem ((c.tc : Thread nD τ).loc main_v121) = (fun i => exitHead (argOf m c) (i 0))
      ∧ r.2.mem ((c.tc : Thread nD τ).loc main_arg0) = m ((c.tc : Thread nD τ).loc main_arg0) :=
  (θ_run defs _ _).mono
    (fun _ h c => ⟨(h c).1.trans (res_out m c (hfin c)), (h c).2.1.trans (res_eh m c (hfin c)), (h c).2.2⟩)
    (Cert.ReferenceIdeal.ValueP.run (F := Ideal) m ρ)

end Cert.Route.Ref

end
-- ==== Proof.RefFinite.lean ====
import proofs.«215259_g58411555225873_cont_9to1_m_859_22_alg».proof.Pre_finite_inputs
import proofs.«215259_g58411555225873_cont_9to1_m_859_22_alg».proof.Proof.Gen.Pre_finite_inputs
import Idealize.ShloMosaic.Lib.ReduceAll
import Idealize.ShloMosaic.Lib.IdealHost

/-! The precondition read back: every logit is a real number.

The precondition says that the conjunction over all entries of |x| < +infinity is true.  A conjunction
that is true has every conjunct true, and an extended real whose absolute value is below +infinity
is neither infinity, hence a real. -/

namespace Cert.Route.Finite

open Idealize.ShloMosaic Idealize.ShloMosaic.ValueIdx

instance : Subsingleton Cert.Pre_finite_inputs.S_.Idx := ⟨fun a b => funext fun d => d.elim0⟩

/-- The word 0x7F800000 is plus infinity. -/
theorem posInf : Ideal.ofBits .f32 0x7F800000#32 = (⊤ : EReal) := by simp [Ideal.ofBits, Ideal.ieee]

/-- An extended real with |a| < +infinity is a real. -/
theorem real_of_abs_lt_top (a : EReal)
    (h : Ideal.cmp .olt (max a (-a)) (Ideal.ofBits .f32 0x7F800000#32) = 1#1) : ∃ r : ℝ, a = (r : EReal) := by
  rw [posInf] at h
  induction a using EReal.rec with
  | bot => simp [Ideal.cmp] at h
  | coe r => exact ⟨r, rfl⟩
  | top => simp [Ideal.cmp] at h

/-- Under the precondition every entry of the argument array is a real number. -/
theorem finite_of_pre (A : FVec Ideal Cert.Pre_finite_inputs.S4x16384x1000 .f32)
    (h : Cert.Pre_finite_inputs.fn (F := Ideal) A = fun _ => 1#1)
    (i : Cert.Pre_finite_inputs.S4x16384x1000.Idx) : ∃ r : ℝ, A i = (r : EReal) := by
  have h0 := congrFun h ix0
  dsimp only [Cert.Pre_finite_inputs.fn] at h0
  have h1 := Host.reduce_andi_all _ _ _ _ ix0 h0 i
  rw [cmpf_apply, broadcastInDim_scalar_apply] at h1
  exact real_of_abs_lt_top (A i) h1

end Cert.Route.Finite
-- ==== Proof.RefPre.lean ====
import proofs.«215259_g58411555225873_cont_9to1_m_859_22_alg».proof.Defs
import proofs.«215259_g58411555225873_cont_9to1_m_859_22_alg».proof.Proof.RefFinite
import proofs.«215259_g58411555225873_cont_9to1_m_859_22_alg».proof.Proof.Gen.KernelIdeal
import proofs.«215259_g58411555225873_cont_9to1_m_859_22_alg».proof.Proof.Gen.ReferenceIdeal

/-! The precondition of either idealized program says that its argument array is finite on every
device: every logit is a real number. -/

namespace Cert.Route.Ref

open Idealize.ShloMosaic Idealize.SL.Sem

/-- Under the reference's precondition every logit of its argument array is a real number. -/
theorem ref_finite (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) (i : Cert.ReferenceIdeal.S4x16384x1000.Idx) :
    ∃ r : ℝ, (m ((c.tc : Thread Cert.ReferenceIdeal.nD Cert.ReferenceIdeal.τ).loc Cert.ReferenceIdeal.main_arg0)
      : FVec Ideal Cert.ReferenceIdeal.S4x16384x1000 .f32) i = (r : EReal) :=
  Cert.Route.Finite.finite_of_pre _ (hpre c) i

/-- Under the idealized kernel's precondition every logit of its argument array is a real number. -/
theorem ker_finite (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4x16384x1000.Idx) :
    ∃ r : ℝ, (m ((c.tc : Thread Cert.KernelIdeal.nD Cert.KernelIdeal.τ).loc Cert.KernelIdeal.main_arg0)
      : FVec Ideal Cert.KernelIdeal.S4x16384x1000 .f32) i = (r : EReal) :=
  Cert.Route.Finite.finite_of_pre _ (hpre c) i

end Cert.Route.Ref
-- ==== Proof.RouteBase.lean ====
/-
  The routing program as the SparseCore launch theorem sees it: its configuration, and the ghost state — the launch
  handshakes' rounds, the TensorCore pipeline's staging cells' rounds, and the local transfers' counters.
-/
import proofs.«215259_g58411555225873_cont_9to1_m_859_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«215259_g58411555225873_cont_9to1_m_859_22_alg».proof.Proof.Gen.KernelIdeal
import proofs.«215259_g58411555225873_cont_9to1_m_859_22_alg».proof.Proof.Gen.KernelIdeal.Skeleton

noncomputable section

namespace Cert.KernelIdeal.Route.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The TensorCore pipeline's staging cells live in a rounds algebra of their own. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds algebra, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.KernelIdeal.Route.Tile

end
-- ==== Proof.RouteTask.lean ====
/-
  One routing task's thread and buffers, and what the task is handed and hands back: a read share of the whole table,
  and its own 512 rows of the row indices, of the early-exit rows and of the result, on the slices the body makes.
-/
import proofs.«215259_g58411555225873_cont_9to1_m_859_22_alg».proof.Proof.RouteBase

noncomputable section

namespace Cert.KernelIdeal.Route.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## One task: its thread and its buffers -/

variable (d : Dev nD) (L : grid1.Coords)

abbrev cV (L : grid1.Coords) : Fin τ.nSC := (L 0).castLE hcore1
abbrev jV (L : grid1.Coords) : Fin τ.nSub := (L 1).castLE hsub1

-- the kernel's memrefs, spelt as the body table passes them
local notation "tabW" => (Memref.whole Cert.KernelIdeal.main_v1_scv : Memref Cert.KernelIdeal.sig Kind.scVector Space.hbm Cert.KernelIdeal.S65536x1000 EltTy.f32)
local notation "pW" => (Memref.whole Cert.KernelIdeal.main_v0_2_scv : Memref Cert.KernelIdeal.sig Kind.scVector Space.hbm Cert.KernelIdeal.S16384x1000 EltTy.f32)
local notation "rW" => (Memref.whole Cert.KernelIdeal.main_v0_1_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S16384x1000 EltTy.f32)

abbrev tabLoc (d : Dev nD) : Loc nD τ sig := (SparseCore.T d).loc main_v1
abbrev pLoc (d : Dev nD) : Loc nD τ sig := (SparseCore.T d).loc main_v0_2
abbrev rLoc (d : Dev nD) : Loc nD τ sig := (SparseCore.T d).loc main_v0_1
abbrev oLoc (d : Dev nD) : Loc nD τ sig := (SparseCore.T d).loc main_v2

/-- The task's 512 row indices, its 512 early-exit rows and its 512 result rows, as the body slices them. -/
abbrev rSl (L : grid1.Coords) : Memref sig .scVector .hbm S512 .i32 := (rW).slice (Rect.unit (s := S16384) (k1_off1 L) S512.size (k1_off1_inb L)) (fun _ => rfl)
abbrev pSl (L : grid1.Coords) : Memref sig .scVector .hbm S512x1000 .f32 := (pW).slice (Rect.unit (s := S16384x1000) (k1_off2 L) S512x1000.size (k1_off2_inb L)) (fun _ => rfl)
abbrev oSl (L : grid1.Coords) : Memref sig .scVector .hbm S512x1000 .f32 := (oW).slice (Rect.unit (s := S16384x1000) (k1_off2 L) S512x1000.size (k1_off2_inb L)) (fun _ => rfl)

abbrev thr (d : Dev nD) (L : grid1.Coords) : Thread nD τ := V d (cV L) (jV L)

abbrev cIcell (d : Dev nD) (L : grid1.Coords) : GSem nD τ sig := (thr d L, .dma cc1_scoped0.sem)
abbrev cBcell (d : Dev nD) (L : grid1.Coords) : GSem nD τ sig := (thr d L, .dma cc1_scratch1.sem)
abbrev cRcell (d : Dev nD) (L : grid1.Coords) : GSem nD τ sig := (thr d L, .dma cc1_scratch2.sem)

/-! ## What a task is handed -/

variable [FloatOps F]

/-- Every row index the task reads names a row of the table. -/
def RowsOK (R : Buf (Elt F) (rLoc d)) : Prop := ∀ j, (R j).toNat < 65536

/-- What one task is handed and hands back: a read share of the whole table, its 512 early-exit rows, its 512 row
    indices (each naming a table row) and its 512 result rows, the last three on exactly the slices the body makes. -/
def tileRes (q : PosShare TreeShare) : sProp 𝕄 :=
  iprop((∃ Tb, (tabW).view.loc (thr d L) ↦{q} Tb)
    ∗ (∃ Pc, (pSl L).view.loc (thr d L) ↦[(pSl L).view.set]{fullShare} Pc)
    ∗ (∃ R, ⌜RowsOK (F := F) d R⌝ ∗ (rSl L).view.loc (thr d L) ↦[(rSl L).view.set]{fullShare} R)
    ∗ (∃ f, (oSl L).view.loc (thr d L) ↦[(oSl L).view.set]{fullShare} f))

end Cert.KernelIdeal.Route.Tile

end
-- ==== Proof.ConfBody.lean ====
/-
  The confidence kernel's body on one grid point.

  The body loads three input blocks of logits (heads 0, 1, 2 at one block of 1024 samples), computes per head
  whether the softmax confidence reaches the threshold, and stores three results whole: the exit head of each
  sample, the routed row index of each sample, and the logits of the chosen head. Here it is run once on symbolic
  staging buffers: the inputs are left as they were, and each output buffer holds the corresponding pure payload
  term of the three input blocks (and, for the row index, of the grid coordinate).
-/
import proofs.«215259_g58411555225873_cont_9to1_m_859_22_alg».proof.Proof.Gen.KernelIdeal.Launch
import proofs.«215259_g58411555225873_cont_9to1_m_859_22_alg».proof.Proof.Gen.KernelIdeal.Skeleton
import proofs.«215259_g58411555225873_cont_9to1_m_859_22_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.TC

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body leaves, as functions of the three input blocks -/

/-- The exit head of each sample of the block: the first head whose confidence reaches the threshold, else 3. -/
def ehBlk (b0 b1 b2 : Vec F S1x1024x1000 .f32) : IVec S1024 32 :=
  k0_pay3 (k0_pay7 b0) (k0_pay9 b1) (k0_pay11 b2) k0_pay12

/-- The routed row of each sample: exit head times 16384, plus the block's first sample, plus the sample's place. -/
def ridxBlk (a0 : BitVec 32) (b0 b1 b2 : Vec F S1x1024x1000 .f32) : IVec S1024 32 :=
  k0_pay5 a0 (k0_pay7 b0) (k0_pay9 b1) (k0_pay11 b2) k0_pay12

/-- The logits of the chosen head (head 2's where no head exits). -/
def pBlk (b0 b1 b2 : Vec F S1x1024x1000 .f32) : FVec F S1024x1000 .f32 :=
  k0_pay4 (k0_pay6 b0) (k0_pay7 b0) (k0_pay8 b1) (k0_pay9 b1) (k0_pay10 b2) (k0_pay11 b2) k0_pay12

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-! ## The body's triple -/

set_option maxHeartbeats 1000000 in
/-- On whole staging memrefs, the inputs' at contents `x0 x1 x2` and the outputs' at anything, the body at grid
    coordinates `i` runs to the continuation holding the inputs as they were and the outputs at the three payloads. -/
theorem sound_kernel (𝒱₀ : Variants) (c : Dev nD) (E : Set Name) (i : grid0.Coords)
    (arg1 : Memref sig .tc .vmem S1x1024x1000 .f32) (harg1 : arg1.IsWhole)
    (arg2 : Memref sig .tc .vmem S1x1024x1000 .f32) (harg2 : arg2.IsWhole)
    (arg3 : Memref sig .tc .vmem S1x1024x1000 .f32) (harg3 : arg3.IsWhole)
    (arg4 : Memref sig .tc .vmem S1024 .i32) (harg4 : arg4.IsWhole)
    (arg5 : Memref sig .tc .vmem S1024 .i32) (harg5 : arg5.IsWhole)
    (arg6 : Memref sig .tc .vmem S1024x1000 .f32) (harg6 : arg6.IsWhole)
    (x0 x1 x2 : Vec F S1x1024x1000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (ehBlk x0 x1 x2)
            ∗ owns (c : Thread nD τ) arg5 fullShare (ridxBlk (BitVec.ofNat 32 (i 0).val) x0 x1 x2)
            ∗ owns (c : Thread nD τ) arg6 fullShare (pBlk x0 x1 x2)) -∗ K ⟨⟩))
      ⊢ wp frame (wpE (defs₀ (F := F)) 𝒱₀ c none) E (cc0__conf_body i arg1 harg1 arg2 harg2 arg3 harg3 arg4 harg4 arg5 harg5 arg6 harg6) K := by
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
  subst hf0; subst hf1; subst hf2
  sl_unfold [cc0__conf_body, k0_part1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr; swap; · iexact H4
    ipureintro
    rw [View.read_writes_eq_canon _ _ _ (fun y => ⟨_, List.mem_singleton_self _, View.mem_set_unit_zero hz1 inb_S1024_S1024_0 y⟩), View.canon_unit_zero hz1]
    sl_unfold_words
    simp only [View.readAt_eq_ld, View.ld_unit_zero (S := S1x1024x1000) hz3]
    rfl
  isplitl [H5]
  · iexists _; isplitr; swap; · iexact H5
    ipureintro
    rw [View.read_writes_eq_canon _ _ _ (fun y => ⟨_, List.mem_singleton_self _, View.mem_set_unit_zero hz1 inb_S1024_S1024_0 y⟩), View.canon_unit_zero hz1]
    sl_unfold_words
    simp only [View.readAt_eq_ld, View.ld_unit_zero (S := S1x1024x1000) hz3]
    rfl
  · iexists _; isplitr; swap; · iexact H6
    ipureintro
    rw [View.read_writes_eq_canon _ _ _ (fun y => ⟨_, List.mem_singleton_self _, View.mem_set_unit_zero hz2 inb_S1024x1000_S1024x1000_0_0 y⟩), View.canon_unit_zero hz2]
    sl_unfold_words
    simp only [View.readAt_eq_ld, View.ld_unit_zero (S := S1x1024x1000) hz3]
    rfl

end Cert.KernelIdeal.TC

end
-- ==== Proof.ConfData.lean ====
/-
  The confidence kernel as a pipeline: the proof data of its one pipeline and the body obligation at a symbolic
  grid point.

  The grid has 16 points; point t stages block t (samples 1024 t … 1024 t + 1023) of heads 0, 1, 2 of the logits,
  all three windows over the one argument array, and writes back block t of the three results.
-/
import proofs.«215259_g58411555225873_cont_9to1_m_859_22_alg».proof.Proof.ConfBody
import Idealize.ShloMosaic.Lib.Pipeline.Kit
import Idealize.ShloMosaic.Lib.Pipeline.Value

set_option maxRecDepth 16384

noncomputable section

namespace Cert.KernelIdeal.TC

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

/-! ## The windows' blocks and the proof data -/

/-- The TensorCore's arrays as the region finds them. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid coordinate at point `t`, as the word the body receives. -/
abbrev a0At (t : Fin cfg0.N) : BitVec 32 := BitVec.ofNat 32 ((grid0.coords t) 0).val

/-- The proof data on core `c`: the arrays as found; after the body each input's buffer at its block and each
    output's at its payload of the three input blocks; the invariant the scoped buffers no window stages; the three
    input windows share the argument array, at three disjoint shares; the core owes `O c` throughout. -/
def dats (_ : Fin 1) (c : Dev nD) : Dat τ (Elt F) Ix Name U Lvl cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ehBlk (iblk m c 0 t) (iblk m c 1 t) (iblk m c 2 t)
    | ⟨4, _⟩ => ridxBlk (a0At t) (iblk m c 0 t) (iblk m c 1 t) (iblk m c 2 t)
    | ⟨5, _⟩ => pBlk (iblk m c 0 t) (iblk m c 1 t) (iblk m c 2 t)
  Φ _ := Pipeline.scopedRest spec0 c
  q w := match w with
    | ⟨0, _⟩ => fullShare.left.left
    | ⟨1, _⟩ => fullShare.left.right
    | ⟨2, _⟩ => fullShare.right
    | ⟨3, _⟩ => fullShare
    | ⟨4, _⟩ => fullShare
    | ⟨5, _⟩ => fullShare
  owed _ := O c
  recorded _ := B c

local notation "𝔡" => dats (Name := Name) (U := U) (Lvl := Lvl) m O B 0

theorem A_eq (c : Dev nD) (w : Fin cfg0.W) : (𝔡 c).A w = V m c (Pipeline.arrRef spec0 w) := by
  dsimp only [dats]

theorem after0_0 (c : Dev nD) (t : Fin cfg0.N) : (𝔡 c).after 0 t = iblk m c 0 t := by dsimp only [dats]
theorem after0_1 (c : Dev nD) (t : Fin cfg0.N) : (𝔡 c).after 1 t = iblk m c 1 t := by dsimp only [dats]
theorem after0_2 (c : Dev nD) (t : Fin cfg0.N) : (𝔡 c).after 2 t = iblk m c 2 t := by dsimp only [dats]
theorem after0_3 (c : Dev nD) (t : Fin cfg0.N) :
    (𝔡 c).after 3 t = ehBlk (iblk m c 0 t) (iblk m c 1 t) (iblk m c 2 t) := by dsimp only [dats]
theorem after0_4 (c : Dev nD) (t : Fin cfg0.N) :
    (𝔡 c).after 4 t = ridxBlk (a0At t) (iblk m c 0 t) (iblk m c 1 t) (iblk m c 2 t) := by dsimp only [dats]
theorem after0_5 (c : Dev nD) (t : Fin cfg0.N) :
    (𝔡 c).after 5 t = pBlk (iblk m c 0 t) (iblk m c 1 t) (iblk m c 2 t) := by dsimp only [dats]

/-- Each input's current staging buffer holds its block at every point. -/
theorem before0_0 (c : Dev nD) (t : Fin cfg0.N) (d) : (𝔡 c).before 0 t d = iblk m c 0 t :=
  ((𝔡 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (𝔡 c).before 1 t d = iblk m c 1 t :=
  ((𝔡 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (𝔡 c).before 2 t d = iblk m c 2 t :=
  ((𝔡 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (c : Dev nD) (t : Fin cfg0.N) : sProp 𝕄 :=
  iprop((𝔡 c).Φ t.castSucc ∗ (𝔡 c).owesAt ι t.castSucc
    ∗ (∃ d, owns (c : Thread nD τ) (st0_0 t) fullShare ((𝔡 c).before 0 t d))
    ∗ (∃ d, owns (c : Thread nD τ) (st0_1 t) fullShare ((𝔡 c).before 1 t d))
    ∗ (∃ d, owns (c : Thread nD τ) (st0_2 t) fullShare ((𝔡 c).before 2 t d))
    ∗ (∃ d, owns (c : Thread nD τ) (st0_3 t) fullShare ((𝔡 c).before 3 t d))
    ∗ (∃ d, owns (c : Thread nD τ) (st0_4 t) fullShare ((𝔡 c).before 4 t d))
    ∗ (∃ d, owns (c : Thread nD τ) (st0_5 t) fullShare ((𝔡 c).before 5 t d)))

/-- and what it returns. -/
def bodyPost (c : Dev nD) (t : Fin cfg0.N) : sProp 𝕄 :=
  iprop((𝔡 c).Φ t.succ ∗ (𝔡 c).owesAt ι t.succ
    ∗ owns (c : Thread nD τ) (st0_0 t) fullShare ((𝔡 c).after 0 t)
    ∗ owns (c : Thread nD τ) (st0_1 t) fullShare ((𝔡 c).after 1 t)
    ∗ owns (c : Thread nD τ) (st0_2 t) fullShare ((𝔡 c).after 2 t)
    ∗ owns (c : Thread nD τ) (st0_3 t) fullShare ((𝔡 c).after 3 t)
    ∗ owns (c : Thread nD τ) (st0_4 t) fullShare ((𝔡 c).after 4 t)
    ∗ owns (c : Thread nD τ) (st0_5 t) fullShare ((𝔡 c).after 5 t))

/-- The body at any point: the inputs' buffers hold their blocks, so the body's triple applies; the invariant and
    the core's debts pass through unread. -/
theorem sound_body (𝒱₀ : Variants) (c : Dev nD) (t : Fin cfg0.N) :
    (bodyPre (Name := Name) (U := U) (Lvl := Lvl) m O B ι c t : sProp 𝕄) ⊢ wp frame (wpE (defs₀ (F := F)) 𝒱₀ c none) Set.univ (bodyAt0 t) (fun _ => bodyPost (Name := Name) (U := U) (Lvl := Lvl) m O B ι c t) := by
  unfold bodyPre bodyPost bodyAt0
  simp only [before0_0, before0_1, before0_2]
  rw [show (𝔡 c).Φ t.succ = (𝔡 c).Φ t.castSucc from rfl,
    show (𝔡 c).owesAt ι t.succ = (𝔡 c).owesAt ι t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (𝒱₀ : Variants) (c : Dev nD) :
    BodyObligation (𝔡 c) (defs₀ (F := F)) 𝒱₀ ι Set.univ := fun t => by
  rw [bigSep_W0, bigSep_W0]
  exact sound_body (Name := Name) (U := U) (Lvl := Lvl) m O B ι 𝒱₀ c t

/-- The pipeline's arrays, one by one: the argument array three times, at the three windows' shares, and the results. -/
theorem arrays_eq6 (c : Dev nD) (G : (w : Fin cfg0.W) → Buf (Elt F) ((cfg0.win w).arr.view.loc (c : Thread nD τ))) :
    ((𝔡 c).arrays G : sProp 𝕄)
      = iprop((((c : Thread nD τ).loc main_arg0) ↦{fullShare.left.left} G 0) ∗ (((c : Thread nD τ).loc main_arg0) ↦{fullShare.left.right} G 1)
          ∗ (((c : Thread nD τ).loc main_arg0) ↦{fullShare.right} G 2) ∗ (((c : Thread nD τ).loc main_v0_0) ↦{fullShare} G 3)
          ∗ (((c : Thread nD τ).loc main_v0_1) ↦{fullShare} G 4) ∗ (((c : Thread nD τ).loc main_v0_2) ↦{fullShare} G 5)) := by
  unfold Dat.arrays
  rw [bigSep_W0]
  rw [(arr_whole0 0).set_eq_univ, (arr_whole0 3).set_eq_univ, (arr_whole0 4).set_eq_univ, (arr_whole0 5).set_eq_univ]
  rfl

end Cert.KernelIdeal.TC

end
-- ==== Proof.ConfFinal.lean ====
/-
  From blocks to arrays: each result of the confidence kernel as one function of the logits.
-/
import proofs.«215259_g58411555225873_cont_9to1_m_859_22_alg».proof.Proof.ConfData
import Idealize.ShloMosaic.Lib.ValueIdx

set_option maxRecDepth 16384

noncomputable section

namespace Cert.KernelIdeal.TC

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

local notation "𝔡" => dats (Name := Name) (U := U) (Lvl := Lvl) m O B 0

/-! ## From blocks to the arrays

Point `t` writes back block `t` of each result, and the three input windows stage block `t` of heads 0, 1, 2. So
each result array is ONE function of the logits: at sample `j`, the payload of the three blocks of point
`j / 1024`, at place `j % 1024` within the block. -/

open Idealize.ShloMosaic.ValueIdx

/-- The printed index maps, decided over the grid. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 3) = 2 ∧ win0_2.index t (1 : Fin 3) = t.val ∧ win0_2.index t (2 : Fin 3) = 0
    ∧ win0_3.index t (0 : Fin 1) = t.val ∧ win0_4.index t (0 : Fin 1) = t.val
    ∧ win0_5.index t (0 : Fin 2) = t.val ∧ win0_5.index t (1 : Fin 2) = 0
    ∧ ((grid0.coords t) 0).val = t.val :=
  (by decide +kernel : ∀ t : Fin grid0.N, _)

/-- A grid point as a number below 16. -/
def tN (t : Fin cfg0.N) : Fin 16 := ⟨t.val, by have h := t.isLt; have e : cfg0.N = 16 := N_0; omega⟩

/-- Block `t` of head `h` of the logits: samples `1024 t … 1024 t + 1023`, as the body loads it. -/
def inBlk (A : S4x16384x1000.Idx → Elt F .f32) (h : Fin 4) (t : Fin 16) : Vec F S1x1024x1000 .f32 :=
  fun y => A (ix3 h (⟨t.val * 1024 + (y 1).val, by have h1 : (y 1).val < 1024 := (y 1).isLt; have := t.isLt; omega⟩ : Fin 16384) (⟨(y 2).val, (y 2).isLt⟩ : Fin 1000))

/-- The block of a sample and its place within the block. -/
def tOf (j : Fin 16384) : Fin 16 := ⟨j.val / 1024, by have := j.isLt; omega⟩
def rOf (j : Fin 16384) : Fin 1024 := ⟨j.val % 1024, Nat.mod_lt _ (by decide)⟩

/-- The exit heads of all samples, -/
def ehArr (A : S4x16384x1000.Idx → Elt F .f32) : S16384.Idx → Elt F .i32 := fun j =>
  ehBlk (inBlk A 0 (tOf ⟨(j 0).val, (j 0).isLt⟩)) (inBlk A 1 (tOf ⟨(j 0).val, (j 0).isLt⟩)) (inBlk A 2 (tOf ⟨(j 0).val, (j 0).isLt⟩))
    (ix1 (rOf ⟨(j 0).val, (j 0).isLt⟩))

/-- their routed rows, -/
def ridxArr (A : S4x16384x1000.Idx → Elt F .f32) : S16384.Idx → Elt F .i32 := fun j =>
  ridxBlk (BitVec.ofNat 32 (tOf ⟨(j 0).val, (j 0).isLt⟩).val)
    (inBlk A 0 (tOf ⟨(j 0).val, (j 0).isLt⟩)) (inBlk A 1 (tOf ⟨(j 0).val, (j 0).isLt⟩)) (inBlk A 2 (tOf ⟨(j 0).val, (j 0).isLt⟩))
    (ix1 (rOf ⟨(j 0).val, (j 0).isLt⟩))

/-- and the logits of the chosen heads. -/
def pArr (A : S4x16384x1000.Idx → Elt F .f32) : S16384x1000.Idx → Elt F .f32 := fun j =>
  pBlk (inBlk A 0 (tOf ⟨(j 0).val, (j 0).isLt⟩)) (inBlk A 1 (tOf ⟨(j 0).val, (j 0).isLt⟩)) (inBlk A 2 (tOf ⟨(j 0).val, (j 0).isLt⟩))
    (ix2 (rOf ⟨(j 0).val, (j 0).isLt⟩) (⟨(j 1).val, (j 1).isLt⟩ : Fin 1000))

/-- Sample `1024 t + r` reads block `t` at place `r`. -/
theorem ehArr_at (A : S4x16384x1000.Idx → Elt F .f32) (t : Fin 16) (r : Fin 1024) (j : S16384.Idx)
    (hj : (j 0).val = t.val * 1024 + r.val) :
    ehArr A j = ehBlk (inBlk A 0 t) (inBlk A 1 t) (inBlk A 2 t) (ix1 r) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  unfold ehArr; rw [ht, hr]

theorem ridxArr_at (A : S4x16384x1000.Idx → Elt F .f32) (t : Fin 16) (r : Fin 1024) (j : S16384.Idx)
    (hj : (j 0).val = t.val * 1024 + r.val) :
    ridxArr A j = ridxBlk (BitVec.ofNat 32 t.val) (inBlk A 0 t) (inBlk A 1 t) (inBlk A 2 t) (ix1 r) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  unfold ridxArr; rw [ht, hr]

theorem pArr_at (A : S4x16384x1000.Idx → Elt F .f32) (t : Fin 16) (r : Fin 1024) (k : Fin 1000) (j : S16384x1000.Idx)
    (hj : (j 0).val = t.val * 1024 + r.val) (hk : (j 1).val = k.val) :
    pArr A j = pBlk (inBlk A 0 t) (inBlk A 1 t) (inBlk A 2 t) (ix2 r k) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  have hk' : (⟨(j 1).val, (j 1).isLt⟩ : Fin 1000) = k := Fin.ext hk
  unfold pArr; rw [ht, hr, hk']

/-- The three input windows' blocks at point `t` are blocks `t` of heads 0, 1, 2. -/
theorem iblk0_eq (c : Dev nD) (t : Fin cfg0.N) : iblk m c 0 t = inBlk (V m c main_arg0) 0 (tN t) := by
  obtain ⟨e0, e1, e2, -⟩ := idx_facts t
  funext y
  show V m c main_arg0 (((cfg0.win 0).blk t).view.emb y) = V m c main_arg0 _
  congr 1
  funext a; apply Fin.ext
  match a with
  | ⟨0, _⟩ => show win0_0.index t (0 : Fin 3) * 1 + 1 * (y 0).val = 0; have hy : (y 0).val < 1 := (y 0).isLt; omega
  | ⟨1, _⟩ => show win0_0.index t (1 : Fin 3) * 1024 + 1 * (y 1).val = t.val * 1024 + (y 1).val; omega
  | ⟨2, _⟩ => show win0_0.index t (2 : Fin 3) * 1000 + 1 * (y 2).val = (y 2).val; omega

theorem iblk1_eq (c : Dev nD) (t : Fin cfg0.N) : iblk m c 1 t = inBlk (V m c main_arg0) 1 (tN t) := by
  obtain ⟨-, -, -, e0, e1, e2, -⟩ := idx_facts t
  funext y
  show V m c main_arg0 (((cfg0.win 1).blk t).view.emb y) = V m c main_arg0 _
  congr 1
  funext a; apply Fin.ext
  match a with
  | ⟨0, _⟩ => show win0_1.index t (0 : Fin 3) * 1 + 1 * (y 0).val = 1; have hy : (y 0).val < 1 := (y 0).isLt; omega
  | ⟨1, _⟩ => show win0_1.index t (1 : Fin 3) * 1024 + 1 * (y 1).val = t.val * 1024 + (y 1).val; omega
  | ⟨2, _⟩ => show win0_1.index t (2 : Fin 3) * 1000 + 1 * (y 2).val = (y 2).val; omega

theorem iblk2_eq (c : Dev nD) (t : Fin cfg0.N) : iblk m c 2 t = inBlk (V m c main_arg0) 2 (tN t) := by
  obtain ⟨-, -, -, -, -, -, e0, e1, e2, -⟩ := idx_facts t
  funext y
  show V m c main_arg0 (((cfg0.win 2).blk t).view.emb y) = V m c main_arg0 _
  congr 1
  funext a; apply Fin.ext
  match a with
  | ⟨0, _⟩ => show win0_2.index t (0 : Fin 3) * 1 + 1 * (y 0).val = 2; have hy : (y 0).val < 1 := (y 0).isLt; omega
  | ⟨1, _⟩ => show win0_2.index t (1 : Fin 3) * 1024 + 1 * (y 1).val = t.val * 1024 + (y 1).val; omega
  | ⟨2, _⟩ => show win0_2.index t (2 : Fin 3) * 1000 + 1 * (y 2).val = (y 2).val; omega

/-- What point `t` writes back of the exit heads is block `t` of `ehArr`. -/
theorem flushed3_eq (c : Dev nD) (t : Fin cfg0.N) :
    (𝔡 c).flushed 3 t = ((cfg0.win 3).blk t).view.read (Elt F) (ehArr (V m c main_arg0)) := by
  show (cfg0.win 3).cut (grid0.coords t) ((𝔡 c).after 3 t) = _
  rw [after0_3, iblk0_eq, iblk1_eq, iblk2_eq]
  obtain ⟨-, -, -, -, -, -, -, -, -, e3, -⟩ := idx_facts t
  funext y
  show ehBlk _ _ _ y = ehArr (V m c main_arg0) (((cfg0.win 3).blk t).view.emb y)
  have hy : (y 0).val < 1024 := (y 0).isLt
  rw [ehArr_at (V m c main_arg0) (tN t) ⟨(y 0).val, hy⟩ _
    (by show win0_3.index t (0 : Fin 1) * 1024 + 1 * (y 0).val = t.val * 1024 + (y 0).val; omega)]
  exact congrArg _ (eq_ix1 y)

/-- What it writes back of the routed rows is block `t` of `ridxArr`. -/
theorem flushed4_eq (c : Dev nD) (t : Fin cfg0.N) :
    (𝔡 c).flushed 4 t = ((cfg0.win 4).blk t).view.read (Elt F) (ridxArr (V m c main_arg0)) := by
  show (cfg0.win 4).cut (grid0.coords t) ((𝔡 c).after 4 t) = _
  rw [after0_4, iblk0_eq, iblk1_eq, iblk2_eq]
  obtain ⟨-, -, -, -, -, -, -, -, -, -, e4, -, -, eg⟩ := idx_facts t
  funext y
  show ridxBlk _ _ _ _ y = ridxArr (V m c main_arg0) (((cfg0.win 4).blk t).view.emb y)
  have hy : (y 0).val < 1024 := (y 0).isLt
  rw [ridxArr_at (V m c main_arg0) (tN t) ⟨(y 0).val, hy⟩ _
    (by show win0_4.index t (0 : Fin 1) * 1024 + 1 * (y 0).val = t.val * 1024 + (y 0).val; omega)]
  rw [show a0At t = BitVec.ofNat 32 (tN t).val from congrArg (BitVec.ofNat 32) eg]
  exact congrArg _ (eq_ix1 y)

/-- What it writes back of the chosen logits is block `t` of `pArr`. -/
theorem flushed5_eq (c : Dev nD) (t : Fin cfg0.N) :
    (𝔡 c).flushed 5 t = ((cfg0.win 5).blk t).view.read (Elt F) (pArr (V m c main_arg0)) := by
  show (cfg0.win 5).cut (grid0.coords t) ((𝔡 c).after 5 t) = _
  rw [after0_5, iblk0_eq, iblk1_eq, iblk2_eq]
  obtain ⟨-, -, -, -, -, -, -, -, -, -, -, e5, e6, -⟩ := idx_facts t
  funext y
  show pBlk _ _ _ y = pArr (V m c main_arg0) (((cfg0.win 5).blk t).view.emb y)
  have hy : (y 0).val < 1024 := (y 0).isLt
  have hy1 : (y 1).val < 1000 := (y 1).isLt
  rw [pArr_at (V m c main_arg0) (tN t) ⟨(y 0).val, hy⟩ ⟨(y 1).val, hy1⟩ _
    (by show win0_5.index t (0 : Fin 2) * 1024 + 1 * (y 0).val = t.val * 1024 + (y 0).val; omega)
    (by show win0_5.index t (1 : Fin 2) * 1000 + 1 * (y 1).val = (y 1).val; omega)]
  exact congrArg _ (eq_ix2 y)

/-- An index is in point `t`'s block iff each coordinate is in the block's range on its axis. -/
theorem mem_blk3 (t : Fin cfg0.N) (i : S16384.Idx) :
    i ∈ ((cfg0.win 3).blk t).view.set ↔ ∀ a : Fin 1, win0_3.index t a * S1024.size a ≤ (i a).val ∧ (i a).val < win0_3.index t a * S1024.size a + S1024.size a := by
  show i ∈ ((View.whole main_v0_0).slice (win0_3.rect t)).set ↔ _
  rw [View.set_slice_whole, Rect.mem_set_unit]
  exact Iff.rfl
theorem mem_blk4 (t : Fin cfg0.N) (i : S16384.Idx) :
    i ∈ ((cfg0.win 4).blk t).view.set ↔ ∀ a : Fin 1, win0_4.index t a * S1024.size a ≤ (i a).val ∧ (i a).val < win0_4.index t a * S1024.size a + S1024.size a := by
  show i ∈ ((View.whole main_v0_1).slice (win0_4.rect t)).set ↔ _
  rw [View.set_slice_whole, Rect.mem_set_unit]
  exact Iff.rfl
theorem mem_blk5 (t : Fin cfg0.N) (i : S16384x1000.Idx) :
    i ∈ ((cfg0.win 5).blk t).view.set ↔ ∀ a : Fin 2, win0_5.index t a * S1024x1000.size a ≤ (i a).val ∧ (i a).val < win0_5.index t a * S1024x1000.size a + S1024x1000.size a := by
  show i ∈ ((View.whole main_v0_2).slice (win0_5.rect t)).set ↔ _
  rw [View.set_slice_whole, Rect.mem_set_unit]
  exact Iff.rfl

/-- The point whose block holds sample `n`. -/
def ptOf (n : Nat) (hn : n < 16384) : Fin cfg0.N := ⟨n / 1024, by have e : cfg0.N = 16 := N_0; omega⟩

/-- Every sample is in some point's block. -/
theorem cover3 (i : S16384.Idx) : ∃ t : Fin cfg0.N, (cfg0.win 3).flush t = true ∧ i ∈ ((cfg0.win 3).blk t).view.set := by
  have hi : (i 0).val < 16384 := (i 0).isLt
  refine ⟨ptOf (i 0).val hi, flush0_3 _, ?_⟩
  obtain ⟨-, -, -, -, -, -, -, -, -, e3, -⟩ := idx_facts (ptOf (i 0).val hi)
  rw [mem_blk3]
  intro a
  match a with
  | ⟨0, _⟩ =>
    show win0_3.index (ptOf (i 0).val hi) (0 : Fin 1) * 1024 ≤ (i 0).val ∧ (i 0).val < win0_3.index (ptOf (i 0).val hi) (0 : Fin 1) * 1024 + 1024
    rw [e3]; show (i 0).val / 1024 * 1024 ≤ (i 0).val ∧ (i 0).val < (i 0).val / 1024 * 1024 + 1024; omega
theorem cover4 (i : S16384.Idx) : ∃ t : Fin cfg0.N, (cfg0.win 4).flush t = true ∧ i ∈ ((cfg0.win 4).blk t).view.set := by
  have hi : (i 0).val < 16384 := (i 0).isLt
  refine ⟨ptOf (i 0).val hi, flush0_4 _, ?_⟩
  obtain ⟨-, -, -, -, -, -, -, -, -, -, e4, -⟩ := idx_facts (ptOf (i 0).val hi)
  rw [mem_blk4]
  intro a
  match a with
  | ⟨0, _⟩ =>
    show win0_4.index (ptOf (i 0).val hi) (0 : Fin 1) * 1024 ≤ (i 0).val ∧ (i 0).val < win0_4.index (ptOf (i 0).val hi) (0 : Fin 1) * 1024 + 1024
    rw [e4]; show (i 0).val / 1024 * 1024 ≤ (i 0).val ∧ (i 0).val < (i 0).val / 1024 * 1024 + 1024; omega
theorem cover5 (i : S16384x1000.Idx) : ∃ t : Fin cfg0.N, (cfg0.win 5).flush t = true ∧ i ∈ ((cfg0.win 5).blk t).view.set := by
  have hi : (i 0).val < 16384 := (i 0).isLt
  have hi1 : (i 1).val < 1000 := (i 1).isLt
  refine ⟨ptOf (i 0).val hi, flush0_5 _, ?_⟩
  obtain ⟨-, -, -, -, -, -, -, -, -, -, -, e5, e6, -⟩ := idx_facts (ptOf (i 0).val hi)
  rw [mem_blk5]
  intro a
  match a with
  | ⟨0, _⟩ =>
    show win0_5.index (ptOf (i 0).val hi) (0 : Fin 2) * 1024 ≤ (i 0).val ∧ (i 0).val < win0_5.index (ptOf (i 0).val hi) (0 : Fin 2) * 1024 + 1024
    rw [e5]; show (i 0).val / 1024 * 1024 ≤ (i 0).val ∧ (i 0).val < (i 0).val / 1024 * 1024 + 1024; omega
  | ⟨1, _⟩ =>
    show win0_5.index (ptOf (i 0).val hi) (1 : Fin 2) * 1000 ≤ (i 1).val ∧ (i 1).val < win0_5.index (ptOf (i 0).val hi) (1 : Fin 2) * 1000 + 1000
    rw [e6]; omega

/-- THE RESULTS after the run: one function of the logits each. -/
theorem final3 (c : Dev nD) : (𝔡 c).arrAt 3 cfg0.N = ehArr (V m c main_arg0) :=
  (𝔡 c).arrAt_eq_of_cover 3 (ehArr (V m c main_arg0)) (fun t _ => flushed3_eq m O B c t) cover3
theorem final4 (c : Dev nD) : (𝔡 c).arrAt 4 cfg0.N = ridxArr (V m c main_arg0) :=
  (𝔡 c).arrAt_eq_of_cover 4 (ridxArr (V m c main_arg0)) (fun t _ => flushed4_eq m O B c t) cover4
theorem final5 (c : Dev nD) : (𝔡 c).arrAt 5 cfg0.N = pArr (V m c main_arg0) :=
  (𝔡 c).arrAt_eq_of_cover 5 (pArr (V m c main_arg0)) (fun t _ => flushed5_eq m O B c t) cover5

end Cert.KernelIdeal.TC

end
-- ==== Proof.ConfRegion.lean ====
/-
  The confidence kernel's region: entered from the four arrays it touches and the core's debts, its sixteen
  points run under the pipeline rule, and it is left with the logits as they were and each result array at one
  function of the logits (exit heads, routed rows, chosen logits).
-/
import proofs.«215259_g58411555225873_cont_9to1_m_859_22_alg».proof.Proof.ConfData
import proofs.«215259_g58411555225873_cont_9to1_m_859_22_alg».proof.Proof.ConfFinal
import Idealize.ShloMosaic.Lib.Pipeline.Regions

set_option maxRecDepth 16384

noncomputable section

namespace Cert.KernelIdeal.TC

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

local notation "𝔡" => dats (Name := Name) (U := U) (Lvl := Lvl) m O B 0

variable (ι : Ix)

/-! ## The region -/

/-- The prefetched tables' admissible contents: there is no table. -/
abbrev adm : (p : Fin 1) → (pcfgs (F := F) p).Adm := fun p => (cfgs p).toPCfg_adm

variable (𝒱₀ : Variants) (L : GSem nD τ sig → Finset Ix) (lv : GSem nD τ sig → Ix → Lvl)

/-- The four arrays the region touches, on core `c`: the logits at contents `a` and the three results. -/
abbrev arrs (c : Dev nD) (a : Buf (Elt F) ((c : Thread nD τ).loc main_arg0)) (e : Buf (Elt F) ((c : Thread nD τ).loc main_v0_0))
    (r : Buf (Elt F) ((c : Thread nD τ).loc main_v0_1)) (p : Buf (Elt F) ((c : Thread nD τ).loc main_v0_2)) : sProp 𝕄 :=
  iprop((((c : Thread nD τ).loc main_arg0) ↦{fullShare} a) ∗ (((c : Thread nD τ).loc main_v0_0) ↦{fullShare} e)
    ∗ (((c : Thread nD τ).loc main_v0_1) ↦{fullShare} r) ∗ (((c : Thread nD τ).loc main_v0_2) ↦{fullShare} p))

set_option backward.isDefEq.respectTransparency.types false in
/-- The region: entered from the four arrays as found and the core's debts, left with the logits as they were,
    each result at what the write-backs made of it, and the debts unchanged (the loop's own waits recorded). -/
def reg0 (hwait : ∀ (c : Dev nD) (sm : SemLoc sig), (levAts L lv : sProp 𝕄) ⊢ MayWait (c : Thread nD τ) sm ι (O c)) :
    Pipeline.RegionSeg (pcfgs (F := F)) adm (dats (Name := Name) (U := U) (Lvl := Lvl) m O B) ι defs₀ 𝒱₀ L lv 0 where
  win := winFacts₀0
  block_pos := block_pos0
  stage_whole := stage_whole0
  K := PEmpty
  osem := fun k => k.elim
  ho := Pipeline.OwnSemFacts.none _
  hbody c := (body_obligation m O B ι 𝒱₀ c).loose
  hwaits c := Pipeline.cellsWaits_intro _ _ ι 0 c fun w s t => hwait c _
  pre c := iprop(arrs c (V m c main_arg0) (V m c main_v0_0) (V m c main_v0_1) (V m c main_v0_2) ∗ Pipeline.owesWithin c (O c) (B c))
  post c := iprop(arrs c (V m c main_arg0) ((𝔡 c).arrAt 3 cfg0.N) ((𝔡 c).arrAt 4 cfg0.N) ((𝔡 c).arrAt 5 cfg0.N)
    ∗ Pipeline.owesWithin c (O c) (B c ∪ cfg0.waitPairs ι))
  X _ := iprop(emp)
  Y _ := iprop(emp)
  Z _ := iprop(emp)
  hentry c := by
    rw [arrays_eq6]
    unfold arrs
    iintro ⟨⟨⟨Ha, He, Hr, Hp⟩, HO⟩, -, -⟩
    ihave Ha := (pointsTo_share (PosShare.mem_left_op_right fullShare)).1 $$ Ha
    icases Ha with ⟨Hal, Har⟩
    ihave Hal := (pointsTo_share (PosShare.mem_left_op_right fullShare.left)).1 $$ Hal
    icases Hal with ⟨Hall, Halr⟩
    imodintro
    isplitl [Hall Halr Har He Hr Hp]
    · isplitl [Hall]; · iexact Hall
      isplitl [Halr]; · iexact Halr
      isplitl [Har]; · iexact Har
      isplitl [He]; · iexact He
      isplitl [Hr]; · iexact Hr
      iexact Hp
    isplitr; · unfold Pipeline.prefHeld; rw [show (Finset.univ : Finset (Fin 0)) = ∅ from rfl, BI.bigSep_empty]; iempintro
    isplitl [HO]
    · iapply (Pipeline.owesWithin_mono c (O c) (Set.subset_union_left (t := cfg0.waitPairs ι))); iexact HO
    isplitr <;> iempintro
  hin c := by
    rw [show (𝔡 c).Φ 0 = Pipeline.scopedRest spec0 c from rfl]
    iintro ⟨-, -, Hr⟩; iexact Hr
  hout c := by
    rw [Pipeline.ownSems0_none, show (𝔡 c).Φ (Fin.last cfg0.N) = Pipeline.scopedRest spec0 c from rfl]
    iintro Hr
    isplitr; · iempintro
    isplitr; · iempintro
    iexact Hr
  hexit c := by
    rw [arrays_eq6, (𝔡 c).arrAt_in 0 rfl, (𝔡 c).arrAt_in 1 rfl, (𝔡 c).arrAt_in 2 rfl]
    unfold arrs
    iintro ⟨⟨Hall, Halr, Har, He, Hr, Hp⟩, HO, -, -⟩
    ihave Hal := (pointsTo_share (ℓ := (c : Thread nD τ).loc main_arg0) (I := Finset.univ) (f := V m c main_arg0) (PosShare.mem_left_op_right fullShare.left)).2 $$ [Hall Halr]
    · isplitl [Hall]; · iexact Hall
      iexact Halr
    ihave Ha := (pointsTo_share (ℓ := (c : Thread nD τ).loc main_arg0) (I := Finset.univ) (f := V m c main_arg0) (PosShare.mem_left_op_right fullShare)).2 $$ [Hal Har]
    · isplitl [Hal]; · iexact Hal
      iexact Har
    imodintro
    isplitr [HO]
    · isplitl [Ha]; · iexact Ha
      isplitl [He]; · iexact He
      isplitl [Hr]; · iexact Hr
      iexact Hp
    iexact HO

set_option backward.isDefEq.respectTransparency.types false in
/-- The region's run on core `c`, for any continuation: from the region boundary, the level facts, the pipeline's
    ghost cells and duty tokens, the four arrays as found and the core's debts, the region call runs to the
    continuation entered from the boundary, the logits as they were, each result at what the write-backs made of
    it, and the debts (the loop's own waits recorded). -/
theorem region_wp_blocks [∀ e, Nonempty (Elt F e)] [Infinite Name]
    (EP : Emb (URounds (GSem nD τ sig) Unit) (MT nD τ sig Ix (Elt F) Name U Lvl)) [EP.LandsIn (upEmb : UEmb _ 𝕄)]
    (hwait : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop(boundary (c : Thread nD τ) ∗ levAts L lv
        ∗ Pipeline.cellsGhost (Pipeline.pin (pcfgs (F := F)) adm) EP 0 c ∗ Pipeline.toksInit (Pipeline.pin (pcfgs (F := F)) adm) EP 0 c
        ∗ arrs c (V m c main_arg0) (V m c main_v0_0) (V m c main_v0_1) (V m c main_v0_2)
        ∗ Pipeline.owesWithin c (O c) (B c)
        ∗ (iprop(boundary (c : Thread nD τ)
              ∗ arrs c (V m c main_arg0) ((𝔡 c).arrAt 3 cfg0.N) ((𝔡 c).arrAt 4 cfg0.N) ((𝔡 c).arrAt 5 cfg0.N)
              ∗ Pipeline.owesWithin c (O c) (B c ∪ cfg0.waitPairs ι))
            -∗ wp frame (wpE (Pipeline.defs (pcfgs (F := F)) defs₀) (Variants.lift 𝒱₀) (c : Thread nD τ) none) Set.univ (k ⟨⟩) Q))
      ⊢ wp frame (wpE (Pipeline.defs (pcfgs (F := F)) defs₀) (Variants.lift 𝒱₀) (c : Thread nD τ) none) Set.univ
          (.op (.customCall (Pipeline.entry 0) ()) k) Q := by
  iintro ⟨Hbd, #Hla, Hg, Ht, Harr, HO, Hk⟩
  have hR := Pipeline.RegionSeg.wp (pcfgs (F := F)) adm (dats (Name := Name) (U := U) (Lvl := Lvl) m O B) ι cellOf_inj EP defs₀ 𝒱₀ L lv
    (reg0 m O B ι 𝒱₀ L lv hwait) c none (fun u hu => by cases hu) k Q
  rw [show (reg0 m O B ι 𝒱₀ L lv hwait).post c
        = iprop(arrs c (V m c main_arg0) ((𝔡 c).arrAt 3 cfg0.N) ((𝔡 c).arrAt 4 cfg0.N) ((𝔡 c).arrAt 5 cfg0.N)
            ∗ Pipeline.owesWithin c (O c) (B c ∪ cfg0.waitPairs ι)) from rfl,
    show (reg0 m O B ι 𝒱₀ L lv hwait).pre c
        = iprop(arrs c (V m c main_arg0) (V m c main_v0_0) (V m c main_v0_1) (V m c main_v0_2) ∗ Pipeline.owesWithin c (O c) (B c)) from rfl] at hR
  iapply hR
  isplitl [Hk]
  · iintro ⟨Hbd, Hpost⟩
    iapply Hk
    isplitl [Hbd]; · iexact Hbd
    iexact Hpost
  isplitl [Hbd]; · iexact Hbd
  isplitl [Harr HO]
  · isplitl [Harr]; · iexact Harr
    iexact HO
  isplitr; · iexact Hla
  isplitl [Hg]; · iexact Hg
  iexact Ht

/-- The same with each result named as one function of the logits. -/
theorem region_wp [∀ e, Nonempty (Elt F e)] [Infinite Name]
    (EP : Emb (URounds (GSem nD τ sig) Unit) (MT nD τ sig Ix (Elt F) Name U Lvl)) [EP.LandsIn (upEmb : UEmb _ 𝕄)]
    (hwait : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop(boundary (c : Thread nD τ) ∗ levAts L lv
        ∗ Pipeline.cellsGhost (Pipeline.pin (pcfgs (F := F)) adm) EP 0 c ∗ Pipeline.toksInit (Pipeline.pin (pcfgs (F := F)) adm) EP 0 c
        ∗ arrs c (V m c main_arg0) (V m c main_v0_0) (V m c main_v0_1) (V m c main_v0_2)
        ∗ Pipeline.owesWithin c (O c) (B c)
        ∗ (iprop(boundary (c : Thread nD τ)
              ∗ arrs c (V m c main_arg0) (ehArr (V m c main_arg0)) (ridxArr (V m c main_arg0)) (pArr (V m c main_arg0))
              ∗ Pipeline.owesWithin c (O c) (B c ∪ cfg0.waitPairs ι))
            -∗ wp frame (wpE (Pipeline.defs (pcfgs (F := F)) defs₀) (Variants.lift 𝒱₀) (c : Thread nD τ) none) Set.univ (k ⟨⟩) Q))
      ⊢ wp frame (wpE (Pipeline.defs (pcfgs (F := F)) defs₀) (Variants.lift 𝒱₀) (c : Thread nD τ) none) Set.univ
          (.op (.customCall (Pipeline.entry 0) ()) k) Q := by
  have h := region_wp_blocks m O B ι 𝒱₀ L lv EP hwait c k Q
  rw [final3, final4, final5] at h
  exact h

/-- The TensorCore's six arrays, one by one: the four the region touches, and the two it bypasses. -/
theorem unscopedBufs_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1) ∗ (((c : Thread nD τ).loc main_v0_2) ↦{fullShare} W main_v0_2)
          ∗ (((c : Thread nD τ).loc main_v1) ↦{fullShare} W main_v1) ∗ (((c : Thread nD τ).loc main_v2) ↦{fullShare} W main_v2)) := by
  unfold unscopedBufs
  rw [bigSep_eq_bigSepL_of_eq [main_arg0, main_v0_0, main_v0_1, main_v0_2, main_v1, main_v2] (by decide) (by decide)]
  rfl

end Cert.KernelIdeal.TC

end
-- ==== Proof.ConfRegionSC.lean ====
/-
  The confidence kernel's region as @main meets it inside the SparseCore program: the region call lifted to the
  launch's label table, at the launch's resource algebra, the TensorCore owing the start signals of the later call.
-/
import proofs.«215259_g58411555225873_cont_9to1_m_859_22_alg».proof.Proof.ConfRegion
import proofs.«215259_g58411555225873_cont_9to1_m_859_22_alg».proof.Proof.RouteBase

set_option maxRecDepth 16384

noncomputable section

namespace Cert.KernelIdeal.TC

open Cert.KernelIdeal Cert.KernelIdeal.Gen
open Cert.KernelIdeal.Route.Tile (K D 𝒱 𝒱₀ UU UP EP EP_landsIn)

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the TensorCore owes before the SparseCore call is owed at the call's index, never at a kernel's own. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply, if_neg (fun h => nomatch h.2)]
  · rfl

set_option backward.isDefEq.respectTransparency.types false in
/-- The region call as @main spells it, under the launch's label table: from the TensorCore's region boundary, the
    level facts, the pipeline's ghost cells and tokens, the four arrays as the launch memory `m` has them and the
    core's debts, to the boundary, the logits as they were, each result at its function of the logits, the debts. -/
theorem region_wp_sc [∀ e, Nonempty (Elt F e)] (m : (ℓ : Loc nD τ sig) → Buf (Elt F) ℓ)
    (B : Dev nD → Set (SemLoc sig × HIx 1)) (lv : GSem nD τ sig → HIx 1 → ℕ) (hlv : (K (F := F)).Refines lv)
    (d : Dev nD) (Φ : PUnit → sProp 𝕄) :
    iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ arrs d (V m d main_arg0) (V m d main_v0_0) (V m d main_v0_1) (V m d main_v0_2)
        ∗ Pipeline.owesWithin d ((K (F := F)).Otc d 0) (B d)
        ∗ (iprop(boundary (T d)
              ∗ arrs d (V m d main_arg0) (ehArr (V m d main_arg0)) (ridxArr (V m d main_arg0)) (pArr (V m d main_arg0))
              ∗ Pipeline.owesWithin d ((K (F := F)).Otc d 0) (B d ∪ cfg0.waitPairs none))
            -∗ Φ ⟨⟩))
      ⊢ wp frame (wpE ((K (F := F)).defs D) 𝒱 (T d) none) Set.univ
          (Prog.lift (.customCall (SparseCore.inner (Pipeline.entry 0)) ())) Φ := by
  have hl := (K (F := F)).wp_liftProg D 𝒱 (T d) Set.univ none (Prog.lift (.customCall (Pipeline.entry 0) ())) Φ
  have hp : SparseCore.liftProg (Q := 1) (Prog.lift (TpuEff.customCall (nD := nD) (τ := τ) (sig := sig) (Val := Elt F) (Λ := Route.Tile.ΛP (F := F)) (p := Proc.tc) (Pipeline.entry 0) ()))
      = Prog.lift (.customCall (SparseCore.inner (Pipeline.entry 0)) ()) := rfl
  rw [hp] at hl
  refine BIBase.Entails.trans ?_ hl
  have hr := region_wp (Name := ℕ) (U := UU) (Lvl := ℕ) m (fun d => (K (F := F)).Otc d 0) B none 𝒱₀ (K (F := F)).L lv EP
    (fun d sm => (K (F := F)).mayWait_none sm (Otc_none d 0) lv hlv) d (fun _ => .ret ⟨⟩) Φ
  refine BIBase.Entails.trans ?_ hr
  iintro ⟨Hbd, Hla, Hg, Ht, Harr, HO, Hk⟩
  isplitl [Hbd]; · iexact Hbd
  isplitl [Hla]; · iexact Hla
  isplitl [Hg]; · iexact Hg
  isplitl [Ht]; · iexact Ht
  isplitl [Harr]; · iexact Harr
  isplitl [HO]; · iexact HO
  iintro Hpost
  rw [wp_ret]; imodintro
  iapply Hk; iexact Hpost

/-- The pairs a TensorCore's waits may have recorded before the first SparseCore call: those at level 0. -/
def Bz (d : Dev nD) : Set (SemLoc sig × HIx 1) := {p | (K (F := F)).lev (T d, p.1) p.2 ≤ 0}

set_option backward.isDefEq.respectTransparency.types false in
/-- The same with the core's debts as the launch's handshake state holds them before call 0: the recorded pairs all
    at level 0, before and after (the loop's own waits are recorded at a kernel's own index, level 0). -/
theorem region_wp_tc [∀ e, Nonempty (Elt F e)] (m : (ℓ : Loc nD τ sig) → Buf (Elt F) ℓ)
    (lv : GSem nD τ sig → HIx 1 → ℕ) (hlv : (K (F := F)).Refines lv)
    (d : Dev nD) (Φ : PUnit → sProp 𝕄) :
    iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ arrs d (V m d main_arg0) (V m d main_v0_0) (V m d main_v0_1) (V m d main_v0_2)
        ∗ (∃ W, ⌜(K (F := F)).WBelow (T d) W (8 * 0)⌝ ∗ owes (T d) ((K (F := F)).Otc d 0) W)
        ∗ (iprop(boundary (T d)
              ∗ arrs d (V m d main_arg0) (ehArr (V m d main_arg0)) (ridxArr (V m d main_arg0)) (pArr (V m d main_arg0))
              ∗ (∃ W, ⌜(K (F := F)).WBelow (T d) W (8 * 0)⌝ ∗ owes (T d) ((K (F := F)).Otc d 0) W))
            -∗ Φ ⟨⟩))
      ⊢ wp frame (wpE ((K (F := F)).defs D) 𝒱 (T d) none) Set.univ
          (Prog.lift (.customCall (SparseCore.inner (Pipeline.entry 0)) ())) Φ := by
  refine BIBase.Entails.trans ?_ (region_wp_sc m (Bz (F := F)) lv hlv d Φ)
  iintro ⟨Hbd, Hla, Hg, Ht, Harr, ⟨%W, %hW, HO⟩, Hk⟩
  isplitl [Hbd]; · iexact Hbd
  isplitl [Hla]; · iexact Hla
  isplitl [Hg]; · iexact Hg
  isplitl [Ht]; · iexact Ht
  isplitl [Harr]; · iexact Harr
  isplitl [HO]
  · iexists W; isplitr; · ipureintro; exact fun p hp => hW p hp
    iexact HO
  iintro ⟨Hbd, Harr, ⟨%W', %hW', HO⟩⟩
  iapply Hk
  isplitl [Hbd]; · iexact Hbd
  isplitl [Harr]; · iexact Harr
  iexists W'; isplitr; swap; · iexact HO
  ipureintro
  intro p hp
  rcases hW' hp with h | ⟨w, s, rfl⟩
  · exact h
  · exact le_of_eq ((K (F := F)).lev_none _)

end Cert.KernelIdeal.TC

end
-- ==== Proof.BlockFacts.lean ====
/-
  The routing block's integer payloads, for every float instance.

  At a sample j of a block of 1024, from the three exit bits e0 e1 e2 of heads 0, 1, 2, the head
  word is the select chain  e0 ? 0 : (e1 ? 1 : (e2 ? 2 : 3)),  and the routed row index is
  head * 16384 + a0 * 1024 + j  where a0 is the block's grid coordinate. With a0 < 16 and
  j < 1024 that index is below 65536, and it reaches 49152 exactly when the head is 3.
  No float reasoning: the exit bits are opaque one-bit words here.
-/
import proofs.«215259_g58411555225873_cont_9to1_m_859_22_alg».proof.Proof.Gen.KernelIdeal.Skeleton
import Idealize.ShloMosaic.Lib.ValueIdx
import Idealize.ShloMosaic.Lib.Pipeline.Value

namespace Cert.KernelIdeal.Route

open Idealize.ShloMosaic Idealize.ShloMosaic.ValueIdx Cert.KernelIdeal Cert.KernelIdeal.Gen

/-- The head word from three exit bits: the first set bit's position, else 3. -/
def headWord (e0 e1 e2 : BitVec 1) : BitVec 32 :=
  Scalar.select e0 0#32 (Scalar.select e1 1#32 (Scalar.select e2 2#32 3#32))

theorem headWord_cases (e0 e1 e2 : BitVec 1) :
    headWord e0 e1 e2 = 0#32 ∨ headWord e0 e1 e2 = 1#32 ∨ headWord e0 e1 e2 = 2#32 ∨ headWord e0 e1 e2 = 3#32 := by
  unfold headWord Scalar.select
  split_ifs <;> simp

theorem headWord_toNat_lt (e0 e1 e2 : BitVec 1) : (headWord e0 e1 e2).toNat < 4 := by
  rcases headWord_cases e0 e1 e2 with h | h | h | h <;> rw [h] <;> decide

/-- The head block at a sample is the head word of the three exit bits there. -/
theorem pay3_apply (v11 v23 v35 : IVec S1024 1) (j : S1024.Idx) :
    k0_pay3 v11 v23 v35 k0_pay12 j = headWord (v11 j) (v23 j) (v35 j) := rfl

/-- The head block's word at a sample is 0, 1, 2 or 3. -/
theorem pay3_cases (v11 v23 v35 : IVec S1024 1) (j : S1024.Idx) :
    k0_pay3 v11 v23 v35 k0_pay12 j = 0#32 ∨ k0_pay3 v11 v23 v35 k0_pay12 j = 1#32 ∨
      k0_pay3 v11 v23 v35 k0_pay12 j = 2#32 ∨ k0_pay3 v11 v23 v35 k0_pay12 j = 3#32 := by
  rw [pay3_apply]; exact headWord_cases _ _ _

/-- The lane number vector: sample j holds the word j. -/
theorem laneIota_apply (j : S1024.Idx) :
    shapeCast S1024 (iota .tc S1x1024 32 [1] iota_S1x1024_d1_w32) shapeCasts_S1x1024_S1024 j
      = BitVec.ofNat 32 (j 0).val := by
  refine (shapeCast_dropUnit_apply (α := BitVec 32) ![1024]
    (iota .tc S1x1024 32 [1] iota_S1x1024_d1_w32) shapeCasts_S1x1024_S1024 j).trans ?_
  rw [iota_single_apply]
  rfl

/-- The routed row index block at a sample: head * 16384 + a0 * 1024 + j. -/
theorem pay5_apply (a0 : BitVec 32) (v11 v23 v35 : IVec S1024 1) (j : S1024.Idx) :
    k0_pay5 a0 v11 v23 v35 k0_pay12 j
      = headWord (v11 j) (v23 j) (v35 j) * 16384#32 + a0 * 1024#32 + BitVec.ofNat 32 (j 0).val := by
  show (k0_pay3 v11 v23 v35 k0_pay12 j * 16384#32 + a0 * 1024#32)
      + shapeCast S1024 (iota .tc S1x1024 32 [1] iota_S1x1024_d1_w32) shapeCasts_S1x1024_S1024 j = _
  rw [laneIota_apply, pay3_apply]

/-! ### The routed row index as a number -/

/-- With a head word in {0,1,2,3}, a grid coordinate t < 16 and a lane n < 1024, no product or sum wraps. -/
theorem rowIndex_toNat (e : BitVec 32) (he : e = 0#32 ∨ e = 1#32 ∨ e = 2#32 ∨ e = 3#32) (t n : Nat)
    (ht : t < 16) (hn : n < 1024) :
    (e * 16384#32 + BitVec.ofNat 32 t * 1024#32 + BitVec.ofNat 32 n).toNat = e.toNat * 16384 + t * 1024 + n := by
  rcases he with rfl | rfl | rfl | rfl <;>
    simp only [BitVec.toNat_add, BitVec.toNat_mul, BitVec.toNat_ofNat, Nat.reducePow] <;> omega

/-- A word below 2^31 compares signed as it does unsigned: it is at least 49152 signed iff its number is. -/
theorem sge_49152_iff (v : BitVec 32) (hv : v.toNat < 65536) :
    Scalar.cmpi .sge v 49152#32 = 1#1 ↔ 49152 ≤ v.toNat := by
  have hi : v.toInt = (v.toNat : Int) := BitVec.toInt_eq_toNat_of_lt (by omega)
  show BitVec.ofBool ((49152#32).sle v) = 1#1 ↔ _
  rw [BitVec.sle, hi]
  have hc : (49152#32 : BitVec 32).toInt = 49152 := by decide
  rw [hc]
  constructor
  · intro h
    have : decide ((49152 : Int) ≤ (v.toNat : Int)) = true := by
      cases hd : decide ((49152 : Int) ≤ (v.toNat : Int)) with
      | true => rfl
      | false => rw [hd] at h; exact absurd h (by decide)
    have := of_decide_eq_true this
    omega
  · intro h
    have : decide ((49152 : Int) ≤ (v.toNat : Int)) = true := decide_eq_true (by omega)
    rw [this]; rfl

/-- The routed row index of a sample, as a number, for the block at grid coordinate t < 16. -/
theorem pay5_toNat (t : Nat) (ht : t < 16) (v11 v23 v35 : IVec S1024 1) (j : S1024.Idx) :
    (k0_pay5 (BitVec.ofNat 32 t) v11 v23 v35 k0_pay12 j).toNat
      = (headWord (v11 j) (v23 j) (v35 j)).toNat * 16384 + t * 1024 + (j 0).val := by
  rw [pay5_apply]
  exact rowIndex_toNat _ (headWord_cases _ _ _) t (j 0).val ht (j 0).isLt

/-- It names a row of the [65536, 1000] array. -/
theorem pay5_toNat_lt (t : Nat) (ht : t < 16) (v11 v23 v35 : IVec S1024 1) (j : S1024.Idx) :
    (k0_pay5 (BitVec.ofNat 32 t) v11 v23 v35 k0_pay12 j).toNat < 65536 := by
  rw [pay5_toNat t ht]
  have h4 := headWord_toNat_lt (v11 j) (v23 j) (v35 j)
  have hj : (j 0).val < 1024 := (j 0).isLt
  omega

/-- It reaches 49152 (signed) exactly when the head word is 3. -/
theorem pay5_sge_iff (t : Nat) (ht : t < 16) (v11 v23 v35 : IVec S1024 1) (j : S1024.Idx) :
    Scalar.cmpi .sge (k0_pay5 (BitVec.ofNat 32 t) v11 v23 v35 k0_pay12 j) 49152#32 = 1#1
      ↔ k0_pay3 v11 v23 v35 k0_pay12 j = 3#32 := by
  rw [sge_49152_iff _ (pay5_toNat_lt t ht v11 v23 v35 j), pay5_toNat t ht, pay3_apply]
  have hj : (j 0).val < 1024 := (j 0).isLt
  rcases headWord_cases (v11 j) (v23 j) (v35 j) with h | h | h | h <;> rw [h] <;>
    simp only [BitVec.toNat_ofNat, Nat.reducePow, Nat.reduceMod] <;>
    constructor <;> intro h' <;> first | trivial | contradiction | omega | exact absurd h' (by decide)

/-! ### Layout steps of the block, read at a sample -/

section Layout
variable {α : Type}

/-- A [1024] vector viewed as a [1024, 1] column reads sample p at (p, 0). -/
theorem colCast_apply (v : S1024.Idx → α) (p : Fin 1024) (z : Fin 1) :
    shapeCast S1024x1 v shapeCasts_S1024_S1024x1 (ix2 p z) = v (ix1 p) := by
  refine shapeCast_apply v _ (ix2 p z) (ix1 p) ?_
  rw [Shape.rowMajor_val_one, Shape.rowMajor_val_two]
  have hz : z.val = 0 := by omega
  show p.val = p.val * 1 + z.val
  omega

/-- A [1024, 1] column viewed as itself. -/
theorem colSelf_apply (v : S1024x1.Idx → α) (i : S1024x1.Idx) :
    shapeCast S1024x1 v shapeCasts_S1024x1_S1024x1 i = v i := by
  rw [shapeCast_self]

/-- A [1024, 1] column broadcast along the 1000 classes reads (p, 0) at (p, c). -/
theorem colBroadcast_apply (v : S1024x1.Idx → α) (p : Fin 1024) (c : Fin 1000) :
    broadcastTo S1024x1000 v broadcasts_S1024x1_S1024x1000 (ix2 p c) = v (ix2 p (0 : Fin 1)) := by
  refine broadcastTo_apply v _ (ix2 p c) (ix2 p (0 : Fin 1)) ?_
  intro a
  match a with
  | ⟨0, _⟩ => rfl
  | ⟨1, _⟩ => rfl

/-- A per-sample vector spread over the classes (column view, then broadcast) reads sample p at (p, c). -/
theorem spread_apply (v : S1024.Idx → α) (p : Fin 1024) (c : Fin 1000) :
    broadcastTo S1024x1000
        (shapeCast S1024x1 (shapeCast S1024x1 v shapeCasts_S1024_S1024x1) shapeCasts_S1024x1_S1024x1)
        broadcasts_S1024x1_S1024x1000 (ix2 p c) = v (ix1 p) := by
  rw [colBroadcast_apply, colSelf_apply, colCast_apply]

/-- A [1, 1024, 1000] block viewed as [1024, 1000] reads (0, p, c) at (p, c). -/
theorem blockCast_apply (v : S1x1024x1000.Idx → α) (p : Fin 1024) (c : Fin 1000) :
    shapeCast S1024x1000 v shapeCasts_S1x1024x1000_S1024x1000 (ix2 p c) = v (ix3 (0 : Fin 1) p c) := by
  refine (shapeCast_dropUnit_apply (α := α) ![1024, 1000] v shapeCasts_S1x1024x1000_S1024x1000 (ix2 p c)).trans ?_
  refine congrArg v (funext fun a => ?_)
  match a with
  | ⟨0, _⟩ => rfl
  | ⟨1, _⟩ => rfl
  | ⟨2, _⟩ => rfl

end Layout

/-! ### The routed logits block, for every float instance -/

section AnyFloat
variable {F : FTy → Type} [FloatOps F]

theorem pay6_apply (b : Vec F S1x1024x1000 .f32) (p : Fin 1024) (c : Fin 1000) :
    k0_pay6 b (ix2 p c) = b (ix3 (0 : Fin 1) p c) := blockCast_apply b p c

theorem pay8_apply (b : Vec F S1x1024x1000 .f32) (p : Fin 1024) (c : Fin 1000) :
    k0_pay8 b (ix2 p c) = b (ix3 (0 : Fin 1) p c) := blockCast_apply b p c

theorem pay10_apply (b : Vec F S1x1024x1000 .f32) (p : Fin 1024) (c : Fin 1000) :
    k0_pay10 b (ix2 p c) = b (ix3 (0 : Fin 1) p c) := blockCast_apply b p c

/-- The second select of the head chain is 1 exactly when head 1's bit is set. -/
theorem pay2_eq_one_iff (v23 v35 : IVec S1024 1) (j : S1024.Idx) :
    k0_pay2 v23 v35 k0_pay12 j = 1#32 ↔ v23 j = 1#1 := by
  show Scalar.select (v23 j) 1#32 (Scalar.select (v35 j) 2#32 3#32) = 1#32 ↔ _
  unfold Scalar.select
  split_ifs <;> simp_all

/-- The head word is 0 exactly when head 0's bit is set. -/
theorem pay3_eq_zero_iff (v11 v23 v35 : IVec S1024 1) (j : S1024.Idx) :
    k0_pay3 v11 v23 v35 k0_pay12 j = 0#32 ↔ v11 j = 1#1 := by
  rw [pay3_apply]
  unfold headWord Scalar.select
  split_ifs <;> simp_all

/-- The routed logits block at (p, c): head 0's logit if its bit is set at p, else head 1's if its
    bit is set, else head 2's (whether or not head 2's bit is set). -/
theorem pay4_apply (v1 v13 v25 : FVec F S1024x1000 .f32) (v11 v23 v35 : IVec S1024 1) (p : Fin 1024) (c : Fin 1000) :
    k0_pay4 v1 v11 v13 v23 v25 v35 k0_pay12 (ix2 p c)
      = Scalar.select (v11 (ix1 p)) (v1 (ix2 p c)) (Scalar.select (v23 (ix1 p)) (v13 (ix2 p c)) (v25 (ix2 p c))) := by
  unfold k0_pay4
  simp only [select_apply, spread_apply]
  show Scalar.select (IntOp.cmpi .eq (k0_pay3 v11 v23 v35 k0_pay12 (ix1 p)) 0#32) _
      (Scalar.select (IntOp.cmpi .eq (k0_pay2 v23 v35 k0_pay12 (ix1 p)) 1#32) _ (Scalar.select _ _ _)) = _
  have h0 : IntOp.cmpi .eq (k0_pay3 v11 v23 v35 k0_pay12 (ix1 p)) 0#32 = v11 (ix1 p) := by
    rcases BitVec.eq_zero_or_eq_one (v11 (ix1 p)) with h | h
    · have : ¬ k0_pay3 v11 v23 v35 k0_pay12 (ix1 p) = 0#32 := fun e => by
        rw [pay3_eq_zero_iff] at e; rw [e] at h; exact absurd h (by decide)
      rw [h]; show BitVec.ofBool (_ == _) = _; rw [beq_eq_false_iff_ne.2 this]; rfl
    · rw [h, (pay3_eq_zero_iff v11 v23 v35 (ix1 p)).2 h]; rfl
  have h1 : IntOp.cmpi .eq (k0_pay2 v23 v35 k0_pay12 (ix1 p)) 1#32 = v23 (ix1 p) := by
    rcases BitVec.eq_zero_or_eq_one (v23 (ix1 p)) with h | h
    · have : ¬ k0_pay2 v23 v35 k0_pay12 (ix1 p) = 1#32 := fun e => by
        rw [pay2_eq_one_iff] at e; rw [e] at h; exact absurd h (by decide)
      rw [h]; show BitVec.ofBool (_ == _) = _; rw [beq_eq_false_iff_ne.2 this]; rfl
    · rw [h, (pay2_eq_one_iff v23 v35 (ix1 p)).2 h]; rfl
  rw [h0, h1]
  unfold Scalar.select
  split_ifs <;> rfl

end AnyFloat

end Cert.KernelIdeal.Route
-- ==== Proof.RouteLaunch.lean ====
/-
  The routing program's launch: the SparseCore launch theorem applied to it. The TensorCore runs the confidence
  pipeline, reshapes the four heads' logits into one table of 65536 rows, and starts the routing kernel on both
  SparseCores; each of the 32 vector subcores' tasks is handed a read share of the table and its own 512 rows of the
  row indices, of the early-exit rows and of the result, pairwise disjoint slices.
-/
import proofs.«215259_g58411555225873_cont_9to1_m_859_22_alg».proof.Proof.RouteTask
import proofs.«215259_g58411555225873_cont_9to1_m_859_22_alg».proof.Proof.Gen.KernelIdeal.Launch
import proofs.«215259_g58411555225873_cont_9to1_m_859_22_alg».proof.Proof.Gen.Pre_finite_inputs
import proofs.«215259_g58411555225873_cont_9to1_m_859_22_alg».proof.Proof.ConfRegionSC
import proofs.«215259_g58411555225873_cont_9to1_m_859_22_alg».proof.Proof.BlockFacts

noncomputable section

namespace Cert.KernelIdeal.Route.Launch

open Cert.KernelIdeal Cert.KernelIdeal.Gen Cert.KernelIdeal.Route.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "tabW" => (Memref.whole Cert.KernelIdeal.main_v1_scv : Memref Cert.KernelIdeal.sig Kind.scVector Space.hbm Cert.KernelIdeal.S65536x1000 EltTy.f32)
local notation "pW" => (Memref.whole Cert.KernelIdeal.main_v0_2_scv : Memref Cert.KernelIdeal.sig Kind.scVector Space.hbm Cert.KernelIdeal.S16384x1000 EltTy.f32)
local notation "rW" => (Memref.whole Cert.KernelIdeal.main_v0_1_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S16384x1000 EltTy.f32)
local notation "xW" => (Memref.whole Cert.KernelIdeal.cc1_scratch0 : Memref Cert.KernelIdeal.sig Kind.scVector Space.vmem Cert.KernelIdeal.S512 EltTy.i32)

/-! ## The tasks -/

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The table's read share of SparseCore `c`, and of its task `i`: the full share halved per SparseCore, then per task. -/
def qCore (c : Fin 2) : PosShare TreeShare := Transfers.shareTok fullShare 2 c
def qTask (c : Fin 2) (i : Fin 16) : PosShare TreeShare := Transfers.shareTok (qCore c) 16 i

variable [FloatOps F]

/-- What task `(c, i)` of device `d` is handed and hands back. -/
def goRes (d : Dev nD) (c : Fin 2) (i : Fin 16) : sProp 𝕄 := tileRes (F := F) d (coordsV c i) (qTask c i)
/-- What SparseCore `c` is handed and hands back: its sixteen tasks'. -/
def stRes (d : Dev nD) (c : Fin 2) : sProp 𝕄 := bigSep Finset.univ fun i : Fin 16 => goRes (F := F) d c i

/-- The one call takes, per SparseCore, its sixteen tasks' resources and brings them back; the kernel's proof consumes
    nothing of the launch's. -/
def P : (K (F := F)).Pay (nD := nD) (Val := Elt F) (Name := ℕ) (U := UU) where
  st := fun q d c => match q with | 0 => stRes (F := F) d c
  dn := fun q d c => match q with | 0 => stRes (F := F) d c
  go := fun q d c i => match q with | 0 => goRes (F := F) d c i
  td := fun q d c i => match q with | 0 => goRes (F := F) d c i
  x := fun _ _ => iprop(emp)

theorem P_st (d : Dev nD) (c : Fin 2) : (P (F := F)).st 0 d c = stRes (F := F) d c := rfl
theorem P_dn (d : Dev nD) (c : Fin 2) : (P (F := F)).dn 0 d c = stRes (F := F) d c := rfl
theorem P_go (d : Dev nD) (c : Fin 2) (i : Fin 16) : (P (F := F)).go 0 d c i = goRes (F := F) d c i := rfl
theorem P_td (d : Dev nD) (c : Fin 2) (i : Fin 16) : (P (F := F)).td 0 d c i = goRes (F := F) d c i := rfl

set_option synthInstance.maxHeartbeats 400000 in
instance goRes_storable (d : Dev nD) (c : Fin 2) (i : Fin 16) : BI.Storable (upEmb : UEmb _ 𝕄) (goRes (F := F) d c i) := by
  unfold goRes tileRes; infer_instance
instance stRes_storable (d : Dev nD) (c : Fin 2) : BI.Storable (upEmb : UEmb _ 𝕄) (stRes (F := F) d c) := by
  unfold stRes; infer_instance

instance P_storable : (P (F := F)).IsStorable where
  st q d c := match q with | 0 => stRes_storable d c
  dn q d c := match q with | 0 => stRes_storable d c
  go q d c i := match q with | 0 => goRes_storable d c i
  td q d c i := match q with | 0 => goRes_storable d c i

/-! ## The launch theorem's obligations -/

theorem defs₀_vector (c : Fin τ.nSC) (s : Fin τ.nSub) :
    defs₀ (F := F) (.scVector c s) 1 ()
      = SparseCore.onTile hcore1 hsub1 (fun c s => cc1_sc_route (coordsV c s)
          tabW (Memref.isWhole_whole _) pW (Memref.isWhole_whole _) rW (Memref.isWhole_whole _) oW (Memref.isWhole_whole _)
          xW (Memref.isWhole_whole _) cc1_scratch1 cc1_scratch2 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One task's obligation, at frame strength: from the task's resources, its subcore's scoped storage and what it owes, the
    routing kernel's body at the task's grid point runs and gives the same back. -/
def TileBody : Prop :=
  ∀ (d : Dev nD) (L : grid1.Coords) (_ : (K (F := F)).Facts) (O : CellTallies nD τ sig (HIx 1)) (W : Waits sig (HIx 1)) (_ : ∀ g, O g none = 0)
    (q : PosShare TreeShare),
    (iprop(levAts (K (F := F)).L (K (F := F)).lev ∗ emp
        ∗ tileRes (F := F) d L q
        ∗ scopedBufs (thr d L) ∗ scopedSems0 (thr d L) ∗ owes (thr d L) O W) : sProp 𝕄)
      ⊢ wp frame (wpE (defs₀ (F := F)) 𝒱₀ (thr d L) none) Set.univ
          (cc1_sc_route L tabW (Memref.isWhole_whole _) pW (Memref.isWhole_whole _) rW (Memref.isWhole_whole _) oW (Memref.isWhole_whole _)
            xW (Memref.isWhole_whole _) cc1_scratch1 cc1_scratch2 cc1_scoped0)
          fun _ => iprop(tileRes (F := F) d L q
            ∗ scopedBufs (thr d L) ∗ scopedSems0 (thr d L)
            ∗ ∃ W', ⌜∀ p ∈ W', p ∈ W ∨ p.2 = none⌝ ∗ owes (thr d L) O W')

theorem tileObl (htile : TileBody (F := F)) (hF : (K (F := F)).Facts) : (K (F := F)).TileObl (D (F := F)) 𝒱 (P (F := F)) v₀ 0 := by
  intro d c i O W hO _ _
  -- this kernel owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) hF O W hO (qTask c i)).trans (wp_mono frame _ _ fun _ => obl_post)

theorem vecSplit : (K (F := F)).VecSplit' (P (F := F)) 0 := by
  intro d c
  show stRes (F := F) d c ⊢ |={Set.univ}=> iprop((bigSep Finset.univ fun i : Fin 16 => goRes (F := F) d c i)
      ∗ ((bigSep Finset.univ fun i : Fin 16 => goRes (F := F) d c i) -∗ stRes (F := F) d c))
  unfold stRes
  iintro H; imodintro
  isplitl [H]; · iexact H
  iintro H; iexact H

/-! ## The launch element: the handshakes' rounds and the pipeline's staging cells' -/

abbrev adm : (p : Fin 1) → (pcfgs (F := F) p).Adm := fun p => (cfgs p).toPCfg_adm
/-- The TensorCore pipelines at their (trivial) prefetch data. -/
abbrev pcs : Fin 1 → Pipeline.Cfg sig Λ₀ := Pipeline.pin (pcfgs (F := F)) (adm (F := F))

def u₀ : UU :=
  (initOf (K (F := F)).hsCells (K (F := F)).hsToks,
    (initOf (Pipeline.cells (nD := nD) (τ := τ) (pcs (F := F)) cellOf_inj) (Pipeline.launchToks (nD := nD) (τ := τ) (pcs (F := F)) cellOf_inj), (1 : Counters)))

/-- What @main's proof starts from beside what the launch deals the TensorCore: the staging cells' ghost state and the
    loop's duty tokens. -/
def G (d : Dev nD) : sProp 𝕄 :=
  iprop(Pipeline.cellsGhost (pcs (F := F)) (EP (F := F)) 0 d ∗ Pipeline.toksInit (pcs (F := F)) (EP (F := F)) 0 d)

omit [FloatOps F] in
theorem ownU_split (a : UH) (b : UP) (c : Counters) :
    (ownU (a, (b, c)) : sProp 𝕄) ⊢ iprop(BI.own (EH (F := F) a) ∗ BI.own (EP (F := F) b)) := by
  iintro Hu
  ihave H := (ownU_pair a (b, c)) $$ Hu
  icases H with ⟨HH, HR⟩
  ihave H2 := (own_pair_emb embR b c) $$ HR
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem Px_all : (bigSep Finset.univ fun thr : Thread nD τ => bigSep Finset.univ fun q : Fin 1 => (P (F := F)).x q thr) = (iprop(emp) : sProp 𝕄) := by
  rw [show (fun thr : Thread nD τ => bigSep Finset.univ fun q : Fin 1 => (P (F := F)).x q thr) = fun _ => (iprop(emp) : sProp 𝕄) from
    funext fun thr => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F)).x q thr) := by
  have hg : (bigSep Finset.univ fun c : Dev nD => bigSep Finset.univ fun p : Fin 1 => Pipeline.cellsGhost (pcs (F := F)) (EP (F := F)) p c : sProp 𝕄)
      = bigSep Finset.univ fun c : Dev nD => Pipeline.cellsGhost (pcs (F := F)) (EP (F := F)) 0 c :=
    bigSep_congr fun c _ => bigSep_univ_of_subsingleton (0 : Fin 1)
  have ht : (bigSep Finset.univ fun c : Dev nD => bigSep Finset.univ fun p : Fin 1 => Pipeline.toksInit (pcs (F := F)) (EP (F := F)) p c : sProp 𝕄)
      = bigSep Finset.univ fun c : Dev nD => Pipeline.toksInit (pcs (F := F)) (EP (F := F)) 0 c :=
    bigSep_congr fun c _ => bigSep_univ_of_subsingleton (0 : Fin 1)
  unfold u₀
  iintro Hu
  ihave H := (ownU_split _ _ _) $$ Hu
  icases H with ⟨HH, HP⟩
  imod (Pipeline.fund_ghost (pcs (F := F)) (EP (F := F)) cellOf_inj) $$ HP with ⟨Hg, Ht⟩
  ihave Hg' := (Entails.of_eq hg) $$ Hg
  ihave Ht' := (Entails.of_eq ht) $$ Ht
  imodintro
  isplitl [HH]; · iexact HH
  isplitl [Hg' Ht']
  · unfold G; rw [bigSep_sep']
    isplitl [Hg']; · iexact Hg'
    iexact Ht'
  · rw [Px_all]; iempintro

/-! ## The operands dealt to the 32 tasks -/

section Split

variable (d : Dev nD)

omit [FloatOps F] in
theorem off2_task (c : Fin 2) (i : Fin 16) : k1_off2 (coordsV c i) = ![1024 * i.val + 512 * c.val, 0] := k1_off2_eq _
omit [FloatOps F] in
theorem off1_task (c : Fin 2) (i : Fin 16) : k1_off1 (coordsV c i) = ![1024 * i.val + 512 * c.val] := k1_off1_eq _

omit [FloatOps F] in
/-- Two tasks' blocks of 512 rows are apart. -/
theorem tasks_sep {c c' : Fin 2} {i i' : Fin 16} (h : (c, i) ≠ (c', i')) :
    1024 * i.val + 512 * c.val + 512 ≤ 1024 * i'.val + 512 * c'.val ∨ 1024 * i'.val + 512 * c'.val + 512 ≤ 1024 * i.val + 512 * c.val := by
  have hc := c.isLt; have hc' := c'.isLt
  by_contra hn
  apply h
  have : i.val = i'.val ∧ c.val = c'.val := by omega
  exact Prod.ext (Fin.ext this.2) (Fin.ext this.1)

omit [FloatOps F] in
theorem set_pSl (L : grid1.Coords) : (pSl L).view.set = (Rect.unit (s := S16384x1000) (k1_off2 L) S512x1000.size (k1_off2_inb L)).set :=
  View.set_slice_whole _ _

omit [FloatOps F] in
theorem pSet_disjoint : ∀ t ∈ (Finset.univ : Finset (Fin 2 × Fin 16)), ∀ t' ∈ (Finset.univ : Finset (Fin 2 × Fin 16)), t ≠ t' →
    Disjoint (pSl (coordsV t.1 t.2)).view.set (pSl (coordsV t'.1 t'.2)).view.set := by
  rintro ⟨c, i⟩ - ⟨c', i'⟩ - h
  dsimp only
  rw [set_pSl, set_pSl]
  refine Rect.unit_disjoint 0 ?_
  rw [off2_task, off2_task]
  exact tasks_sep h

omit [FloatOps F] in
theorem set_oSl (L : grid1.Coords) : (oSl L).view.set = (Rect.unit (s := S16384x1000) (k1_off2 L) S512x1000.size (k1_off2_inb L)).set :=
  View.set_slice_whole _ _

omit [FloatOps F] in
theorem oSet_disjoint : ∀ t ∈ (Finset.univ : Finset (Fin 2 × Fin 16)), ∀ t' ∈ (Finset.univ : Finset (Fin 2 × Fin 16)), t ≠ t' →
    Disjoint (oSl (coordsV t.1 t.2)).view.set (oSl (coordsV t'.1 t'.2)).view.set := by
  rintro ⟨c, i⟩ - ⟨c', i'⟩ - h
  dsimp only
  rw [set_oSl, set_oSl]
  refine Rect.unit_disjoint 0 ?_
  rw [off2_task, off2_task]
  exact tasks_sep h

omit [FloatOps F] in
theorem set_rSl (L : grid1.Coords) : (rSl L).view.set = (Rect.unit (s := S16384) (k1_off1 L) S512.size (k1_off1_inb L)).set :=
  View.set_slice_whole _ _

omit [FloatOps F] in
theorem rSet_disjoint : ∀ t ∈ (Finset.univ : Finset (Fin 2 × Fin 16)), ∀ t' ∈ (Finset.univ : Finset (Fin 2 × Fin 16)), t ≠ t' →
    Disjoint (rSl (coordsV t.1 t.2)).view.set (rSl (coordsV t'.1 t'.2)).view.set := by
  rintro ⟨c, i⟩ - ⟨c', i'⟩ - h
  dsimp only
  rw [set_rSl, set_rSl]
  refine Rect.unit_disjoint 0 ?_
  rw [off1_task, off1_task]
  exact tasks_sep h

omit [FloatOps F] in
/-- An array held whole deals each task the elements of a family of pairwise disjoint sets (the rest is dropped). -/
theorem slices_of_whole {ℓ : Loc nD τ sig} (Kf : Fin 2 × Fin 16 → Finset (Idx ℓ))
    (hd : ∀ t ∈ (Finset.univ : Finset (Fin 2 × Fin 16)), ∀ t' ∈ (Finset.univ : Finset (Fin 2 × Fin 16)), t ≠ t' → Disjoint (Kf t) (Kf t'))
    (f : Buf (Elt F) ℓ) :
    (ℓ ↦{fullShare} f : sProp 𝕄) ⊢ bigSep Finset.univ fun c : Fin 2 => bigSep Finset.univ fun i : Fin 16 => ℓ ↦[Kf (c, i)]{fullShare} f := by
  rw [← bigSep_univ_prod (fun t : Fin 2 × Fin 16 => (ℓ ↦[Kf t]{fullShare} f : sProp 𝕄)), ← pointsTo_biUnion Finset.univ Kf hd]
  exact (pointsTo_split_subset (Finset.subset_univ _)).1.trans sep_elim_left

omit [FloatOps F] in
/-- An array held whole deals each task a read share of all of it. -/
theorem shares_of_whole {ℓ : Loc nD τ sig} (f : Buf (Elt F) ℓ) :
    (ℓ ↦{fullShare} f : sProp 𝕄) ⊢ bigSep Finset.univ fun c : Fin 2 => bigSep Finset.univ fun i : Fin 16 => ℓ ↦{qTask c i} f := by
  refine (Transfers.pointsTo_toks_split fullShare 2).trans (sep_elim_right.trans (bigSep_mono fun c _ => ?_))
  exact (Transfers.pointsTo_toks_split (qCore c) 16).trans sep_elim_right

theorem goRes_intro (c : Fin 2) (i : Fin 16) (Tb : Buf (Elt F) (tabLoc d)) (Pc : Buf (Elt F) (pLoc d)) (R : Buf (Elt F) (rLoc d))
    (hR : RowsOK (F := F) d R) (f : Buf (Elt F) (oLoc d)) :
    iprop((tabLoc d ↦{qTask c i} Tb) ∗ (pLoc d ↦[(pSl (coordsV c i)).view.set]{fullShare} Pc)
        ∗ (rLoc d ↦[(rSl (coordsV c i)).view.set]{fullShare} R) ∗ (oLoc d ↦[(oSl (coordsV c i)).view.set]{fullShare} f))
      ⊢ goRes (F := F) d c i := by
  unfold goRes tileRes
  iintro ⟨Ht, Hp, Hr, Ho⟩
  isplitl [Ht]; · iexists Tb; iexact Ht
  isplitl [Hp]; · iexists Pc; iexact Hp
  isplitl [Hr]
  · iexists R; isplitr; · ipureintro; exact hR
    iexact Hr
  iexists f; iexact Ho

/-- The table, the early-exit rows, the row indices (each naming a table row) and the result, held whole, are every task's
    resources. -/
theorem tasks_intro (Tb : Buf (Elt F) (tabLoc d)) (Pc : Buf (Elt F) (pLoc d)) (R : Buf (Elt F) (rLoc d))
    (hR : RowsOK (F := F) d R) (f : Buf (Elt F) (oLoc d)) :
    iprop((tabLoc d ↦{fullShare} Tb) ∗ (pLoc d ↦{fullShare} Pc) ∗ (rLoc d ↦{fullShare} R) ∗ (oLoc d ↦{fullShare} f))
      ⊢ (bigSep Finset.univ fun c : Fin 2 => stRes (F := F) d c : sProp 𝕄) := by
  unfold stRes
  refine BIBase.Entails.trans ?_ (bigSep_mono fun c _ => bigSep_mono fun i _ => goRes_intro d c i Tb Pc R hR f)
  simp only [bigSep_sep']
  iintro ⟨Ht, Hp, Hr, Ho⟩
  isplitl [Ht]; · iapply (shares_of_whole Tb); iexact Ht
  isplitl [Hp]; · iapply (slices_of_whole (fun t => (pSl (coordsV t.1 t.2)).view.set) pSet_disjoint Pc); iexact Hp
  isplitl [Hr]; · iapply (slices_of_whole (fun t => (rSl (coordsV t.1 t.2)).view.set) rSet_disjoint R); iexact Hr
  iapply (slices_of_whole (fun t => (oSl (coordsV t.1 t.2)).view.set) oSet_disjoint f); iexact Ho

end Split

/-! ## @main on the TensorCore -/

section Main

variable (m : (ℓ : Loc nD τ sig) → Buf (Elt F) ℓ) (ρ : Dev nD → PrngReg)

abbrev aLoc (d : Dev nD) : Loc nD τ sig := (SparseCore.T d).loc main_arg0
abbrev eLoc (d : Dev nD) : Loc nD τ sig := (SparseCore.T d).loc main_v0_0

/-- The recorded pairs the TensorCore may hold before the SparseCore call: those at level 0. -/
def B0 (d : Dev nD) : Set (SemLoc sig × HIx 1) := {p | (K (F := F)).lev (SparseCore.T d, p.1) p.2 ≤ 0}

/-- What is asked of the confidence pipeline's region (frame strength): from the boundary, the staging cells' ghost state,
    the logits and the three results' arrays whole, and the TensorCore's debts, it ends with the logits unchanged, the
    three results at some contents — every routed row index naming a table row — and the debts as they were, the
    recorded pairs grown by the loop's own waits. -/
def RegionOK : Prop :=
  ∀ (d : Dev nD) (B : Set (SemLoc sig × HIx 1)) (Φ : PUnit → sProp 𝕄),
    iprop(boundary (SparseCore.T d) ∗ levAts (K (F := F)).L (K (F := F)).lev ∗ G (F := F) d
        ∗ ((aLoc d ↦{fullShare} m (aLoc d)) ∗ (eLoc d ↦{fullShare} m (eLoc d)) ∗ (rLoc d ↦{fullShare} m (rLoc d)) ∗ (pLoc d ↦{fullShare} m (pLoc d)))
        ∗ Pipeline.owesWithin d ((K (F := F)).Otc d 0) B
        ∗ (iprop(boundary (SparseCore.T d)
              ∗ ((aLoc d ↦{fullShare} m (aLoc d)) ∗ (∃ e, eLoc d ↦{fullShare} e)
                ∗ (∃ R, ⌜RowsOK (F := F) d R⌝ ∗ rLoc d ↦{fullShare} R) ∗ (∃ p, pLoc d ↦{fullShare} p))
              ∗ Pipeline.owesWithin d ((K (F := F)).Otc d 0) (B ∪ cfg0.waitPairs none))
            -∗ Φ ⟨⟩))
      ⊢ wp frame (wpE ((K (F := F)).defs (D (F := F))) 𝒱 (SparseCore.T d) none) Set.univ
          (Prog.lift (.customCall (SparseCore.inner (Pipeline.entry 0)) ())) Φ

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (eLoc d ↦{fullShare} W main_v0_0) ∗ (rLoc d ↦{fullShare} W main_v0_1)
          ∗ (pLoc d ↦{fullShare} W main_v0_2) ∗ (tabLoc d ↦{fullShare} W main_v1) ∗ (oLoc d ↦{fullShare} W main_v2)) := by
  unfold unscopedBufs
  rw [show (Finset.univ.filter fun b : Ref sig .tc => ¬ b.isScoped) = {main_arg0, main_v0_0, main_v0_1, main_v0_2, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The TensorCore's state before a call lends what it owes and takes it back at any recorded set within the bound. -/
theorem tcSt_reowe (d : Dev nD) (n : ℕ) :
    (K (F := F)).tcSt EH d n ⊢ (iprop(∃ W, ⌜(K (F := F)).WBelow (SparseCore.T d) W (8 * n)⌝ ∗ owes (SparseCore.T d) ((K (F := F)).Otc d n) W
      ∗ (∀ W', ⌜(K (F := F)).WBelow (SparseCore.T d) W' (8 * n)⌝ -∗ owes (SparseCore.T d) ((K (F := F)).Otc d n) W' -∗ (K (F := F)).tcSt EH d n)) : sProp 𝕄) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  iexact Hrest

abbrev a' : DevRef τ sig := Proc.devRef .tc (main_arg0 : Ref sig .tc)
abbrev t' : DevRef τ sig := Proc.devRef .tc (main_v1 : Ref sig .tc)
/-- The reshape of the four heads' logits into one table of 65536 rows. -/
abbrev opR : HloOp τ sig (Elt F) := StableHlo.reshape main_arg0 main_v1 rfl shapeCasts_S4x16384x1000_S65536x1000
abbrev S2 : Finset (DevRef τ sig) := {a', t'}

omit [FloatOps F] in
theorem held_S2 (d : Dev nD) (W : Valuation τ sig (Elt F)) :
    (held (SparseCore.T d) S2 W : sProp 𝕄) = iprop((aLoc d ↦{fullShare} W a') ∗ (tabLoc d ↦{fullShare} W t')) := by
  unfold held S2
  rw [SparseCore.bigSep_insert' (by decide), bigSep_singleton]

/-- The launch valuation. -/
def V0 (d : Dev nD) : Valuation τ sig (Elt F) := fun b => m (d, b)

omit [FloatOps F] in
theorem hR2 : (opR (F := F)).bufs ⊆ S2 := show ({a', t'} : Finset (DevRef τ sig)) ⊆ S2 from Finset.Subset.refl _
omit [FloatOps F] in
theorem res_a (d : Dev nD) : (opR (F := F)).result (V0 m d) a' = m (aLoc d) :=
  (opR (F := F)).result_of_not_mem (V0 m d) (b := a') (show a' ∉ ({t'} : Finset (DevRef τ sig)) by decide)

omit [FloatOps F] in
/-- The loop's own waits are recorded at level 0: the recorded pairs stay within the bound of the state before the call. -/
theorem wbelow_after (d : Dev nD) {W' : Waits sig (HIx 1)} (h : (↑W' : Set (SemLoc sig × HIx 1)) ⊆ B0 (F := F) d ∪ cfg0.waitPairs none) :
    (K (F := F)).WBelow (SparseCore.T d) W' (8 * 0) := by
  intro p hp
  rcases h (Finset.mem_coe.mpr hp) with hb | ⟨w, s, rfl⟩
  · exact hb
  · exact Nat.le_of_eq rfl

/-- What @main leaves the claim: the logits at their launch contents. -/
abbrev FIN (d : Dev nD) : sProp 𝕄 := aLoc d ↦{fullShare} m (aLoc d)

theorem hmain (hreg : RegionOK (F := F) m) (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, He, Hr, Hp, Ht, Ho⟩, -, -⟩, HG⟩
  ihave Hlev := (SparseCore.Cfg.ctx_levAts κ) $$ Hctx
  ihave Hst' := (tcSt_reowe d 0) $$ Hst
  icases Hst' with ⟨%W, %hW, HO, Hback⟩
  -- the confidence pipeline's region
  iapply (hreg d (B0 (F := F) d) _) $$ [Hb HG Ha He Hr Hp HO Ht Ho Hback]
  isplitl [Hb]; · iexact Hb
  isplitr; · iexact Hlev
  isplitl [HG]; · iexact HG
  isplitl [Ha He Hr Hp]
  · isplitl [Ha]; · iexact Ha
    isplitl [He]; · iexact He
    isplitl [Hr]; · iexact Hr
    iexact Hp
  isplitl [HO]
  · iexists W; isplitr
    · ipureintro; intro p hp; exact hW p (Finset.mem_coe.mp hp)
    iexact HO
  iintro ⟨Hb, ⟨Ha, -, ⟨%R, %hR, Hr⟩, ⟨%Pc, Hp⟩⟩, ⟨%W', %hW', HO⟩⟩
  ihave Hst := Hback $$ %W' %(wbelow_after d hW') HO
  -- the reshape, over the logits and the table
  iapply (wp_hlo_within 𝒱 (SparseCore.T d) none Set.univ (op := opR) (S := S2) hR2 (V := V0 m d)) $$ [Hb Ha Ht]
  · isplitl [Hb]; · iexact Hb
    rw [held_S2]
    isplitl [Ha]; · iexact Ha
    iexact Ht
  iintro ⟨Hb, Hheld⟩
  ihave Hh := (Entails.of_eq (held_S2 (F := F) d _)) $$ Hheld
  icases Hh with ⟨Ha, Ht⟩
  rw [res_a]
  -- the tasks' resources, and the call
  ihave Htasks := (tasks_intro d _ Pc R hR _) $$ [Ht Hp Hr Ho]
  · isplitl [Ht]; · iexact Ht
    isplitl [Hp]; · iexact Hp
    isplitl [Hr]; · iexact Hr
    iexact Ho
  rw [wp_ret]; imodintro
  iapply ((K (F := F)).wp_run (D (F := F)) 𝒱 (EH := EH) (P := P (F := F)) κ d 0) $$ [Hst Htasks Ha]
  isplitr; · iexact Hctx
  isplitl [Hst]; · iexact Hst
  isplitl [Htasks]; · iexact Htasks
  iintro ⟨Hst, -⟩
  imodintro
  isplitl [Hst]; · iexact Hst
  iexact Ha

end Main

/-! ## The final memory, the program's run and the claim -/

section Run

variable (m : (ℓ : Loc nD τ sig) → Buf (Elt F) ℓ) (ρ : Dev nD → PrngReg)

def fq (d : Dev nD) (s' : Phys nD τ sig (Elt F)) : Prop := s'.mem.mem (aLoc d) = m (aLoc d)

theorem hfin (d : Dev nD) (s' : Phys nD τ sig (Elt F)) : iprop(FIN m d ∗ SI s') ⊢ (⌜fq m d s'⌝ : sProp 𝕄) := by
  iintro ⟨Ha, HSI⟩
  ihave H := (SI_pointsTo_agree (st := s') (ℓ := aLoc d) (I := Finset.univ) (q := fullShare) (f := m (aLoc d))) $$ [HSI Ha]
  · isplitl [HSI] <;> iassumption
  icases H with %ha
  ipureintro; exact funext fun i => ha i (Finset.mem_univ i)

def QC : PUnit × MemSt nD τ sig (Elt F) → Prop := fun r => ∀ c : Dev nD, r.2.mem (aLoc c) = m (aLoc c)

/-- The routing program runs from any launch memory, the logits unchanged, given the confidence pipeline's region. -/
theorem run_main [∀ e, Nonempty (Elt F e)] (htile : TileBody (F := F)) (hreg : RegionOK (F := F) m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl htile facts)
    (fun q _ => match q with | 0 => SparseCore.Cfg.VecSplit.of_plain vecSplit)
    m ρ main (G (F := F)) (FIN m) (u₀ (F := F)) (sep_elim_left.trans hu₀) (hmain m ρ hreg) (fq m) (hfin m) (QC m) (fun _ h => h)

end Run

/-! ## The region's contract from the confidence pipeline's proof, and the frame -/

section Frame

/-- Every routed row index the confidence kernel leaves names a row of the table of 65536. -/
theorem rowsOK_ridx (d : Dev nD) (A : S4x16384x1000.Idx → Elt F .f32) : RowsOK (F := F) d (TC.ridxArr A) := by
  intro j
  unfold TC.ridxArr TC.ridxBlk
  exact pay5_toNat_lt _ (TC.tOf _).isLt _ _ _ _

theorem regionOK [∀ e, Nonempty (Elt F e)] (m : (ℓ : Loc nD τ sig) → Buf (Elt F) ℓ) : RegionOK (F := F) m := by
  intro d B Φ
  refine BIBase.Entails.trans ?_ (TC.region_wp_sc m (fun _ => B) (K (F := F)).lev (K (F := F)).refines_self d Φ)
  unfold G
  iintro ⟨Hb, Hlev, ⟨Hg, Ht⟩, Harr, HO, Hk⟩
  isplitl [Hb]; · iexact Hb
  isplitl [Hlev]; · iexact Hlev
  isplitl [Hg]; · iexact Hg
  isplitl [Ht]; · iexact Ht
  isplitl [Harr]; · iexact Harr
  isplitl [HO]; · iexact HO
  iintro ⟨Hb, ⟨Ha, He, Hr, Hp⟩, HO⟩
  iapply Hk
  isplitl [Hb]; · iexact Hb
  isplitl [Ha He Hr Hp]
  · isplitl [Ha]; · iexact Ha
    isplitl [He]; · iexists (TC.ehArr (TC.V m d main_arg0)); iexact He
    isplitl [Hr]
    · iexists (TC.ridxArr (TC.V m d main_arg0)); isplitr; · ipureintro; exact rowsOK_ridx d _
      iexact Hr
    iexists (TC.pArr (TC.V m d main_arg0)); iexact Hp
  iexact HO

/-- The routing program runs from any launch memory, the logits unchanged. -/
theorem run [∀ e, Nonempty (Elt F e)] (htile : TileBody (F := F)) (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ htile (regionOK m)

end Frame

/-! ## The same launch with the results named

The task's obligation is taken here at value strength, over a function `spec` of the table, the early-exit rows and
the row indices that names the result: each task leaves its 512 result rows at `spec`'s, and the 32 slices, which
cover the result, join to the whole of it. -/

section Value

variable (m : (ℓ : Loc nD τ sig) → Buf (Elt F) ℓ) (ρ : Dev nD → PrngReg)

/-- The table: the four heads' logits reshaped to 65536 rows. -/
def tab0 (d : Dev nD) : Buf (Elt F) (tabLoc d) := (opR (F := F)).result (V0 m d) t'
/-- The confidence kernel's three results, as functions of the logits. -/
abbrev e0 (d : Dev nD) : Buf (Elt F) (eLoc d) := TC.ehArr (m (aLoc d))
abbrev r0 (d : Dev nD) : Buf (Elt F) (rLoc d) := TC.ridxArr (m (aLoc d))
abbrev p0 (d : Dev nD) : Buf (Elt F) (pLoc d) := TC.pArr (m (aLoc d))

variable (spec : (d : Dev nD) → Buf (Elt F) (tabLoc d) → Buf (Elt F) (pLoc d) → Buf (Elt F) (rLoc d) → Buf (Elt F) (oLoc d))

/-- What one task is handed, the contents named: a read share of the table, its early-exit rows, its row indices, and its
    result rows at some contents; -/
def tileIn (d : Dev nD) (L : grid1.Coords) (q : PosShare TreeShare) (Tb : Buf (Elt F) (tabLoc d)) (Pc : Buf (Elt F) (pLoc d))
    (R : Buf (Elt F) (rLoc d)) : sProp 𝕄 :=
  iprop(((tabW).view.loc (thr d L) ↦{q} Tb)
    ∗ ((pSl L).view.loc (thr d L) ↦[(pSl L).view.set]{fullShare} Pc)
    ∗ ((rSl L).view.loc (thr d L) ↦[(rSl L).view.set]{fullShare} R)
    ∗ (∃ f, (oSl L).view.loc (thr d L) ↦[(oSl L).view.set]{fullShare} f))
/-- and what it hands back: the same, its result rows at `spec`'s. -/
def tileOut (d : Dev nD) (L : grid1.Coords) (q : PosShare TreeShare) (Tb : Buf (Elt F) (tabLoc d)) (Pc : Buf (Elt F) (pLoc d))
    (R : Buf (Elt F) (rLoc d)) : sProp 𝕄 :=
  iprop(((tabW).view.loc (thr d L) ↦{q} Tb)
    ∗ ((pSl L).view.loc (thr d L) ↦[(pSl L).view.set]{fullShare} Pc)
    ∗ ((rSl L).view.loc (thr d L) ↦[(rSl L).view.set]{fullShare} R)
    ∗ ((oSl L).view.loc (thr d L) ↦[(oSl L).view.set]{fullShare} spec d Tb Pc R))

/-- One task's obligation at value strength, for any contents whose row indices name table rows. -/
def TileBodyV : Prop :=
  ∀ (d : Dev nD) (L : grid1.Coords) (_ : (K (F := F)).Facts) (O : CellTallies nD τ sig (HIx 1)) (W : Waits sig (HIx 1)) (_ : ∀ g, O g none = 0)
    (q : PosShare TreeShare) (Tb : Buf (Elt F) (tabLoc d)) (Pc : Buf (Elt F) (pLoc d)) (R : Buf (Elt F) (rLoc d)) (_ : RowsOK (F := F) d R),
    (iprop(levAts (K (F := F)).L (K (F := F)).lev ∗ emp
        ∗ tileIn (F := F) d L q Tb Pc R
        ∗ scopedBufs (thr d L) ∗ scopedSems0 (thr d L) ∗ owes (thr d L) O W) : sProp 𝕄)
      ⊢ wp frame (wpE (defs₀ (F := F)) 𝒱₀ (thr d L) none) Set.univ
          (cc1_sc_route L tabW (Memref.isWhole_whole _) pW (Memref.isWhole_whole _) rW (Memref.isWhole_whole _) oW (Memref.isWhole_whole _)
            xW (Memref.isWhole_whole _) cc1_scratch1 cc1_scratch2 cc1_scoped0)
          fun _ => iprop(tileOut (F := F) spec d L q Tb Pc R
            ∗ scopedBufs (thr d L) ∗ scopedSems0 (thr d L)
            ∗ ∃ W', ⌜∀ p ∈ W', p ∈ W ∨ p.2 = none⌝ ∗ owes (thr d L) O W')

def goV (d : Dev nD) (c : Fin 2) (i : Fin 16) : sProp 𝕄 := tileIn (F := F) d (coordsV c i) (qTask c i) (tab0 m d) (p0 m d) (r0 m d)
def tdV (d : Dev nD) (c : Fin 2) (i : Fin 16) : sProp 𝕄 := tileOut (F := F) spec d (coordsV c i) (qTask c i) (tab0 m d) (p0 m d) (r0 m d)
def stV (d : Dev nD) (c : Fin 2) : sProp 𝕄 := bigSep Finset.univ fun i : Fin 16 => goV (F := F) m d c i
def dnV (d : Dev nD) (c : Fin 2) : sProp 𝕄 := bigSep Finset.univ fun i : Fin 16 => tdV (F := F) m spec d c i

/-- The one call takes, per SparseCore, its sixteen tasks' resources and brings them back, the result rows at `spec`'s. -/
def PV : (K (F := F)).Pay (nD := nD) (Val := Elt F) (Name := ℕ) (U := UU) where
  st := fun q d c => match q with | 0 => stV (F := F) m d c
  dn := fun q d c => match q with | 0 => dnV (F := F) m spec d c
  go := fun q d c i => match q with | 0 => goV (F := F) m d c i
  td := fun q d c i => match q with | 0 => tdV (F := F) m spec d c i
  x := fun _ _ => iprop(emp)

set_option synthInstance.maxHeartbeats 400000 in
instance goV_storable (d : Dev nD) (c : Fin 2) (i : Fin 16) : BI.Storable (upEmb : UEmb _ 𝕄) (goV (F := F) m d c i) := by
  unfold goV tileIn; infer_instance
set_option synthInstance.maxHeartbeats 400000 in
instance tdV_storable (d : Dev nD) (c : Fin 2) (i : Fin 16) : BI.Storable (upEmb : UEmb _ 𝕄) (tdV (F := F) m spec d c i) := by
  unfold tdV tileOut; infer_instance
instance stV_storable (d : Dev nD) (c : Fin 2) : BI.Storable (upEmb : UEmb _ 𝕄) (stV (F := F) m d c) := by
  unfold stV; infer_instance
instance dnV_storable (d : Dev nD) (c : Fin 2) : BI.Storable (upEmb : UEmb _ 𝕄) (dnV (F := F) m spec d c) := by
  unfold dnV; infer_instance

instance PV_storable : (PV (F := F) m spec).IsStorable where
  st q d c := match q with | 0 => stV_storable m d c
  dn q d c := match q with | 0 => dnV_storable m spec d c
  go q d c i := match q with | 0 => goV_storable m d c i
  td q d c i := match q with | 0 => tdV_storable m spec d c i

theorem tileOblV (htile : TileBodyV (F := F) spec) (hF : (K (F := F)).Facts) : (K (F := F)).TileObl (D (F := F)) 𝒱 (PV (F := F) m spec) v₀ 0 := by
  intro d c i O W hO _ _
  simp only [show (PV (F := F) m spec).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) hF O W hO (qTask c i) (tab0 m d) (p0 m d) (r0 m d) (rowsOK_ridx d _)).trans
    (wp_mono frame _ _ fun _ => obl_post)

theorem vecSplitV : (K (F := F)).VecSplit' (PV (F := F) m spec) 0 := by
  intro d c
  show stV (F := F) m d c ⊢ |={Set.univ}=> iprop((bigSep Finset.univ fun i : Fin 16 => goV (F := F) m d c i)
      ∗ ((bigSep Finset.univ fun i : Fin 16 => tdV (F := F) m spec d c i) -∗ dnV (F := F) m spec d c))
  unfold stV dnV
  iintro H; imodintro
  isplitl [H]; · iexact H
  iintro H; iexact H

theorem PxV_all : (bigSep Finset.univ fun thr : Thread nD τ => bigSep Finset.univ fun q : Fin 1 => (PV (F := F) m spec).x q thr) = (iprop(emp) : sProp 𝕄) := by
  rw [show (fun thr : Thread nD τ => bigSep Finset.univ fun q : Fin 1 => (PV (F := F) m spec).x q thr) = fun _ => (iprop(emp) : sProp 𝕄) from
    funext fun thr => bigSep_emp' _, bigSep_emp']

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PV (F := F) m spec).x q thr) := by
  rw [PxV_all, ← Px_all (F := F)]; exact hu₀

omit [FloatOps F] in
/-- The 32 tasks' result rows are all of the result. -/
theorem oSet_cover (d : Dev nD) : (Finset.univ : Finset (Fin 2 × Fin 16)).biUnion (fun t => ((oSl (coordsV t.1 t.2)).view.set : Finset (Idx (oLoc d))))
    = (Finset.univ : Finset (Idx (oLoc d))) := by
  ext j
  simp only [Finset.mem_biUnion, Finset.mem_univ, true_and, iff_true]
  have hj0 : (j 0).val < 16384 := (j 0).isLt
  have hj1 : (j 1).val < 1000 := (j 1).isLt
  refine ⟨(⟨(j 0).val % 1024 / 512, by omega⟩, ⟨(j 0).val / 1024, by omega⟩), ?_⟩
  dsimp only
  rw [set_oSl, Rect.mem_set_unit, off2_task]
  intro a
  fin_cases a
  · show 1024 * ((j 0).val / 1024) + 512 * ((j 0).val % 1024 / 512) ≤ (j 0).val ∧ (j 0).val < 1024 * ((j 0).val / 1024) + 512 * ((j 0).val % 1024 / 512) + 512
    omega
  · show 0 ≤ (j 1).val ∧ (j 1).val < 0 + 1000
    omega

omit [FloatOps F] in
/-- The elements of a family of pairwise disjoint sets that cover an array are the array whole. -/
theorem whole_of_slices {ℓ : Loc nD τ sig} (Kf : Fin 2 × Fin 16 → Finset (Idx ℓ))
    (hd : ∀ t ∈ (Finset.univ : Finset (Fin 2 × Fin 16)), ∀ t' ∈ (Finset.univ : Finset (Fin 2 × Fin 16)), t ≠ t' → Disjoint (Kf t) (Kf t'))
    (hc : (Finset.univ : Finset (Fin 2 × Fin 16)).biUnion Kf = Finset.univ) (f : Buf (Elt F) ℓ) :
    (bigSep Finset.univ fun c : Fin 2 => bigSep Finset.univ fun i : Fin 16 => ℓ ↦[Kf (c, i)]{fullShare} f) ⊢ (ℓ ↦{fullShare} f : sProp 𝕄) := by
  rw [← bigSep_univ_prod (fun t : Fin 2 × Fin 16 => (ℓ ↦[Kf t]{fullShare} f : sProp 𝕄)), ← pointsTo_biUnion Finset.univ Kf hd, hc]
  try exact .refl _

omit [FloatOps F] in
theorem out_join (d : Dev nD) (f : Buf (Elt F) (oLoc d)) :
    (bigSep Finset.univ fun c : Fin 2 => bigSep Finset.univ fun i : Fin 16 => oLoc d ↦[(oSl (coordsV c i)).view.set]{fullShare} f)
      ⊢ (oLoc d ↦{fullShare} f : sProp 𝕄) := by
  iintro H
  iapply (whole_of_slices (fun t => (oSl (coordsV t.1 t.2)).view.set) oSet_disjoint (oSet_cover d) f)
  iexact H

theorem goV_intro (d : Dev nD) (c : Fin 2) (i : Fin 16) (f : Buf (Elt F) (oLoc d)) :
    iprop((tabLoc d ↦{qTask c i} tab0 m d) ∗ (pLoc d ↦[(pSl (coordsV c i)).view.set]{fullShare} p0 m d)
        ∗ (rLoc d ↦[(rSl (coordsV c i)).view.set]{fullShare} r0 m d) ∗ (oLoc d ↦[(oSl (coordsV c i)).view.set]{fullShare} f))
      ⊢ goV (F := F) m d c i := by
  unfold goV tileIn
  iintro ⟨Ht, Hp, Hr, Ho⟩
  isplitl [Ht]; · iexact Ht
  isplitl [Hp]; · iexact Hp
  isplitl [Hr]; · iexact Hr
  iexists f; iexact Ho

theorem tasksV_intro (d : Dev nD) (f : Buf (Elt F) (oLoc d)) :
    iprop((tabLoc d ↦{fullShare} tab0 m d) ∗ (pLoc d ↦{fullShare} p0 m d) ∗ (rLoc d ↦{fullShare} r0 m d) ∗ (oLoc d ↦{fullShare} f))
      ⊢ (bigSep Finset.univ fun c : Fin 2 => stV (F := F) m d c : sProp 𝕄) := by
  unfold stV
  refine BIBase.Entails.trans ?_ (bigSep_mono fun c _ => bigSep_mono fun i _ => goV_intro m d c i f)
  simp only [bigSep_sep']
  iintro ⟨Ht, Hp, Hr, Ho⟩
  isplitl [Ht]; · iapply (shares_of_whole (tab0 m d)); iexact Ht
  isplitl [Hp]; · iapply (slices_of_whole (fun t => (pSl (coordsV t.1 t.2)).view.set) pSet_disjoint (p0 m d)); iexact Hp
  isplitl [Hr]; · iapply (slices_of_whole (fun t => (rSl (coordsV t.1 t.2)).view.set) rSet_disjoint (r0 m d)); iexact Hr
  iapply (slices_of_whole (fun t => (oSl (coordsV t.1 t.2)).view.set) oSet_disjoint f); iexact Ho

theorem tdV_out (d : Dev nD) (c : Fin 2) (i : Fin 16) :
    tdV (F := F) m spec d c i ⊢ oLoc d ↦[(oSl (coordsV c i)).view.set]{fullShare} spec d (tab0 m d) (p0 m d) (r0 m d) := by
  unfold tdV tileOut
  iintro ⟨-, -, -, Ho⟩
  iexact Ho

theorem dn0V_eq (d : Dev nD) :
    (bigSep Finset.univ fun c : Fin ((K (F := F)).nCore 0) => (PV (F := F) m spec).dn 0 d c) = bigSep Finset.univ fun c : Fin 2 => dnV (F := F) m spec d c := rfl

/-- What the tasks bring back holds the whole result at `spec`'s. -/
theorem tasksV_out (d : Dev nD) :
    (bigSep Finset.univ fun c : Fin 2 => dnV (F := F) m spec d c : sProp 𝕄) ⊢ oLoc d ↦{fullShare} spec d (tab0 m d) (p0 m d) (r0 m d) := by
  unfold dnV
  exact BIBase.Entails.trans (bigSep_mono fun c _ => bigSep_mono fun i _ => tdV_out m spec d c i) (out_join d _)

/-- What @main leaves the claim: the logits at their launch contents, the exit heads and the routed logits at their
    functions of them. -/
abbrev FINV (d : Dev nD) : sProp 𝕄 :=
  iprop((aLoc d ↦{fullShare} m (aLoc d)) ∗ (eLoc d ↦{fullShare} e0 m d) ∗ (oLoc d ↦{fullShare} spec d (tab0 m d) (p0 m d) (r0 m d)))

theorem hmainV [∀ e, Nonempty (Elt F e)] (κ : GSem nD τ sig → ℕ) (d : Dev nD) :
    iprop((K (F := F)).ctx EH (PV (F := F) m spec) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m spec d) := by
  unfold SparseCore.Cfg.tcRes
  rw [unscopedBufs_eq]
  simp only [main, wp_bind, wp_pure]
  iintro ⟨#Hctx, Hst, ⟨Hb, ⟨Ha, He, Hr, Hp, Ht, Ho⟩, -, -⟩, HG⟩
  ihave Hlev := (SparseCore.Cfg.ctx_levAts κ) $$ Hctx
  ihave Hst' := (tcSt_reowe d 0) $$ Hst
  icases Hst' with ⟨%W, %hW, HO, Hback⟩
  unfold G
  icases HG with ⟨Hg, Htk⟩
  -- the confidence pipeline's region
  iapply (TC.region_wp_sc m (fun d => B0 (F := F) d) (K (F := F)).lev (K (F := F)).refines_self d _) $$ [Hb Hg Htk Ha He Hr Hp HO Ht Ho Hback]
  isplitl [Hb]; · iexact Hb
  isplitr; · iexact Hlev
  isplitl [Hg]; · iexact Hg
  isplitl [Htk]; · iexact Htk
  isplitl [Ha He Hr Hp]
  · isplitl [Ha]; · iexact Ha
    isplitl [He]; · iexact He
    isplitl [Hr]; · iexact Hr
    iexact Hp
  isplitl [HO]
  · iexists W; isplitr
    · ipureintro; intro p hp; exact hW p (Finset.mem_coe.mp hp)
    iexact HO
  iintro ⟨Hb, ⟨Ha, He, Hr, Hp⟩, ⟨%W', %hW', HO⟩⟩
  ihave Hst := Hback $$ %W' %(wbelow_after d hW') HO
  -- the reshape, over the logits and the table
  iapply (wp_hlo_within 𝒱 (SparseCore.T d) none Set.univ (op := opR) (S := S2) hR2 (V := V0 m d)) $$ [Hb Ha Ht]
  · isplitl [Hb]; · iexact Hb
    rw [held_S2]
    isplitl [Ha]; · iexact Ha
    iexact Ht
  iintro ⟨Hb, Hheld⟩
  ihave Hh := (Entails.of_eq (held_S2 (F := F) d _)) $$ Hheld
  icases Hh with ⟨Ha, Ht⟩
  rw [res_a]
  -- the tasks' resources, and the call
  ihave Htasks := (tasksV_intro m d _) $$ [Ht Hp Hr Ho]
  · isplitl [Ht]; · iexact Ht
    isplitl [Hp]; · iexact Hp
    isplitl [Hr]; · iexact Hr
    iexact Ho
  rw [wp_ret]; imodintro
  iapply ((K (F := F)).wp_run (D (F := F)) 𝒱 (EH := EH) (P := PV (F := F) m spec) κ d 0) $$ [Hst Htasks Ha He]
  isplitr; · iexact Hctx
  isplitl [Hst]; · iexact Hst
  isplitl [Htasks]; · iexact Htasks
  iintro ⟨Hst, Hdn⟩
  ihave Hdn' := (Entails.of_eq (dn0V_eq m spec d)) $$ Hdn
  ihave Hout := (tasksV_out m spec d) $$ Hdn'
  imodintro
  isplitl [Hst]; · iexact Hst
  isplitl [Ha]; · iexact Ha
  isplitl [He]; · iexact He
  iexact Hout

def fqV (d : Dev nD) (s' : Phys nD τ sig (Elt F)) : Prop :=
  s'.mem.mem (oLoc d) = spec d (tab0 m d) (p0 m d) (r0 m d) ∧ s'.mem.mem (eLoc d) = e0 m d ∧ s'.mem.mem (aLoc d) = m (aLoc d)

theorem hfinV (d : Dev nD) (s' : Phys nD τ sig (Elt F)) : iprop(FINV m spec d ∗ SI s') ⊢ (⌜fqV m spec d s'⌝ : sProp 𝕄) := by
  iintro ⟨⟨Ha, He, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := e0 m d))) $$ [HSI He]
  · isplitl [HSI] <;> iassumption
  icases H with ⟨%h2, HSI, -⟩
  ihave H := (SI_pointsTo_agree (st := s') (ℓ := oLoc d) (I := Finset.univ) (q := fullShare) (f := spec d (tab0 m d) (p0 m d) (r0 m d))) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

/-- The claim read off the final memory: the routed logits and the exit heads at their functions of the logits, the logits unchanged. -/
def QCV : PUnit × MemSt nD τ sig (Elt F) → Prop := fun r => ∀ c : Dev nD,
  r.2.mem (oLoc c) = spec c (tab0 m c) (p0 m c) (r0 m c) ∧ r.2.mem (eLoc c) = e0 m c ∧ r.2.mem (aLoc c) = m (aLoc c)

/-- The routing program's run with its results named, given one task's obligation at value strength. -/
theorem runV [∀ e, Nonempty (Elt F e)] (htile : TileBodyV (F := F) spec) :
    θ_run (Cert.KernelIdeal.defs (F := F)) (Cert.KernelIdeal.threads (F := F)) ⟨m, fun _ => 0, ρ⟩ (QCV m spec) :=
  SparseCore.Cfg.θ_run_sc (K := K (F := F)) (D := D (F := F)) (𝒱 := 𝒱) (EH := EH) (P := PV (F := F) m spec) facts v₀
    (fun q hq => match q with | 0 => nomatch hq)
    (fun q _ => match q with | 0 => tileOblV m spec htile facts)
    (fun q _ => match q with | 0 => SparseCore.Cfg.VecSplit.of_plain (vecSplitV m spec))
    m ρ main (G (F := F)) (FINV m spec) (u₀ (F := F)) (sep_elim_left.trans (hu₀V m spec)) (hmainV m ρ spec) (fqV m spec) (hfinV m spec)
    (QCV m spec) (fun _ h => h)

/-- What a task hands back at value strength is what it hands back at frame strength. -/
theorem tileOut_tileRes (d : Dev nD) (L : grid1.Coords) (q : PosShare TreeShare) (Tb : Buf (Elt F) (tabLoc d)) (Pc : Buf (Elt F) (pLoc d))
    (R : Buf (Elt F) (rLoc d)) (hR : RowsOK (F := F) d R) {X : sProp 𝕄} :
    iprop(tileOut (F := F) spec d L q Tb Pc R ∗ X) ⊢ iprop(tileRes (F := F) d L q ∗ X) := by
  unfold tileOut tileRes
  iintro ⟨⟨Ht, Hp, Hr, Ho⟩, HX⟩
  isplitr [HX]
  · isplitl [Ht]; · iexists Tb; iexact Ht
    isplitl [Hp]; · iexists Pc; iexact Hp
    isplitl [Hr]
    · iexists R; isplitr; · ipureintro; exact hR
      iexact Hr
    iexists (spec d Tb Pc R); iexact Ho
  · iexact HX

/-- One task's obligation at frame strength from the one at value strength: the contents it is handed are named at the
    entry, and forgotten again at the exit. -/
theorem tileBody_of_V {spec : (d : Dev nD) → Buf (Elt F) (tabLoc d) → Buf (Elt F) (pLoc d) → Buf (Elt F) (rLoc d) → Buf (Elt F) (oLoc d)}
    (h : TileBodyV (F := F) spec) : TileBody (F := F) := by
  intro d L hF O W hO q
  unfold tileRes
  iintro ⟨#Hlv, Hemp, ⟨⟨%Tb, Htab⟩, ⟨%Pc, Hp⟩, ⟨%R, %hR, Hr⟩, Ho⟩, Hsb, Hss, HO⟩
  iapply ((h d L hF O W hO q Tb Pc R hR).trans (wp_mono frame _ _ fun _ => tileOut_tileRes spec d L q Tb Pc R hR))
  isplitr; · iexact Hlv
  isplitl [Hemp]; · iexact Hemp
  isplitl [Htab Hp Hr Ho]
  · unfold tileIn
    isplitl [Htab]; · iexact Htab
    isplitl [Hp]; · iexact Hp
    isplitl [Hr]; · iexact Hr
    iexact Ho
  isplitl [Hsb]; · iexact Hsb
  isplitl [Hss]; · iexact Hss
  iexact HO

end Value

end Cert.KernelIdeal.Route.Launch

end
-- ==== Proof.TripFacts.lean ====
/-
  Facts about one trip of the row-routing loop, for every float instance.

  A trip reads 16 routed row indices, takes them lane by lane, and for lane r copies one row to
  destination row ((s * 2 + q) * 512 + 16 * k + r) of the output, where (q, s) are the core and
  subcore coordinates and k the trip; the copy's source is the routed row when the index is at
  least 49152. Here: each lane extraction reads that lane; every one of the 32 conditions is the
  one comparison index ≥ 49152; and the destination offsets in closed form.
-/
import proofs.«215259_g58411555225873_cont_9to1_m_859_22_alg».proof.Proof.Gen.KernelIdeal.Skeleton
import proofs.«215259_g58411555225873_cont_9to1_m_859_22_alg».proof.Proof.BlockFacts
import Idealize.ShloMosaic.Lib.ValueIdx
import Idealize.ShloMosaic.Lib.Pipeline.Value

namespace Cert.KernelIdeal.Route

open Idealize.ShloMosaic Idealize.ShloMosaic.ValueIdx Cert.KernelIdeal Cert.KernelIdeal.Gen

/-! ### Lanes -/

/-- Extracting the one element of the one-lane slice at lane r reads lane r. -/
theorem lane_extract {α : Type} (v : S16.Idx → α) (r : Nat) (hr : r < 16) (h : S16.Slices ![r] S1)
    (hp : ∀ a, (![0] : Fin 1 → Nat) a < S1.size a) :
    extractAt ![0] (extractStridedSlice S1 ![r] v h) hp = v (ix1 (⟨r, hr⟩ : Fin 16)) := by
  refine congrArg v (funext fun a => Fin.ext ?_)
  match a with
  | ⟨0, _⟩ => rfl

section AnyFloat
variable {F : FTy → Type} [FloatOps F]

/-- The 16 loaded indices viewed at their own shape are themselves. -/
theorem pay1_eq (v10 : Vec F S16 .i32) : k1_pay1 v10 = v10 := shapeCast_self v10 _

theorem pay2_lane (v10 : Vec F S16 .i32) : extractAt ![0] (k1_pay2 v10) inpos_S1_p0 = v10 (ix1 (0 : Fin 16)) := by
  show extractAt ![0] (extractStridedSlice S1 ![0] (shapeCast S16 v10 shapeCasts_S16_S16) slices_S16_o0_S1) inpos_S1_p0 = _
  rw [shapeCast_self]
  exact lane_extract v10 0 (by omega) slices_S16_o0_S1 inpos_S1_p0
theorem pay3_lane (v10 : Vec F S16 .i32) : extractAt ![0] (k1_pay3 v10) inpos_S1_p0 = v10 (ix1 (1 : Fin 16)) := by
  show extractAt ![0] (extractStridedSlice S1 ![1] (shapeCast S16 v10 shapeCasts_S16_S16) slices_S16_o1_S1) inpos_S1_p0 = _
  rw [shapeCast_self]
  exact lane_extract v10 1 (by omega) slices_S16_o1_S1 inpos_S1_p0
theorem pay4_lane (v10 : Vec F S16 .i32) : extractAt ![0] (k1_pay4 v10) inpos_S1_p0 = v10 (ix1 (2 : Fin 16)) := by
  show extractAt ![0] (extractStridedSlice S1 ![2] (shapeCast S16 v10 shapeCasts_S16_S16) slices_S16_o2_S1) inpos_S1_p0 = _
  rw [shapeCast_self]
  exact lane_extract v10 2 (by omega) slices_S16_o2_S1 inpos_S1_p0
theorem pay5_lane (v10 : Vec F S16 .i32) : extractAt ![0] (k1_pay5 v10) inpos_S1_p0 = v10 (ix1 (3 : Fin 16)) := by
  show extractAt ![0] (extractStridedSlice S1 ![3] (shapeCast S16 v10 shapeCasts_S16_S16) slices_S16_o3_S1) inpos_S1_p0 = _
  rw [shapeCast_self]
  exact lane_extract v10 3 (by omega) slices_S16_o3_S1 inpos_S1_p0

end AnyFloat

theorem pay6_lane (v11 : IVec S16 32) : extractAt ![0] (k1_pay6 v11) inpos_S1_p0 = v11 (ix1 (4 : Fin 16)) :=
  lane_extract v11 4 (by omega) slices_S16_o4_S1 inpos_S1_p0
theorem pay7_lane (v11 : IVec S16 32) : extractAt ![0] (k1_pay7 v11) inpos_S1_p0 = v11 (ix1 (5 : Fin 16)) :=
  lane_extract v11 5 (by omega) slices_S16_o5_S1 inpos_S1_p0
theorem pay8_lane (v11 : IVec S16 32) : extractAt ![0] (k1_pay8 v11) inpos_S1_p0 = v11 (ix1 (6 : Fin 16)) :=
  lane_extract v11 6 (by omega) slices_S16_o6_S1 inpos_S1_p0
theorem pay9_lane (v11 : IVec S16 32) : extractAt ![0] (k1_pay9 v11) inpos_S1_p0 = v11 (ix1 (7 : Fin 16)) :=
  lane_extract v11 7 (by omega) slices_S16_o7_S1 inpos_S1_p0
theorem pay10_lane (v11 : IVec S16 32) : extractAt ![0] (k1_pay10 v11) inpos_S1_p0 = v11 (ix1 (8 : Fin 16)) :=
  lane_extract v11 8 (by omega) slices_S16_o8_S1 inpos_S1_p0
theorem pay11_lane (v11 : IVec S16 32) : extractAt ![0] (k1_pay11 v11) inpos_S1_p0 = v11 (ix1 (9 : Fin 16)) :=
  lane_extract v11 9 (by omega) slices_S16_o9_S1 inpos_S1_p0
theorem pay12_lane (v11 : IVec S16 32) : extractAt ![0] (k1_pay12 v11) inpos_S1_p0 = v11 (ix1 (10 : Fin 16)) :=
  lane_extract v11 10 (by omega) slices_S16_o10_S1 inpos_S1_p0
theorem pay13_lane (v11 : IVec S16 32) : extractAt ![0] (k1_pay13 v11) inpos_S1_p0 = v11 (ix1 (11 : Fin 16)) :=
  lane_extract v11 11 (by omega) slices_S16_o11_S1 inpos_S1_p0
theorem pay14_lane (v11 : IVec S16 32) : extractAt ![0] (k1_pay14 v11) inpos_S1_p0 = v11 (ix1 (12 : Fin 16)) :=
  lane_extract v11 12 (by omega) slices_S16_o12_S1 inpos_S1_p0
theorem pay15_lane (v11 : IVec S16 32) : extractAt ![0] (k1_pay15 v11) inpos_S1_p0 = v11 (ix1 (13 : Fin 16)) :=
  lane_extract v11 13 (by omega) slices_S16_o13_S1 inpos_S1_p0
theorem pay16_lane (v11 : IVec S16 32) : extractAt ![0] (k1_pay16 v11) inpos_S1_p0 = v11 (ix1 (14 : Fin 16)) :=
  lane_extract v11 14 (by omega) slices_S16_o14_S1 inpos_S1_p0
theorem pay17_lane (v11 : IVec S16 32) : extractAt ![0] (k1_pay17 v11) inpos_S1_p0 = v11 (ix1 (15 : Fin 16)) :=
  lane_extract v11 15 (by omega) slices_S16_o15_S1 inpos_S1_p0

/-! ### Conditions -/

/-- The one condition of the trip's 32 branches: the routed row index is at least 49152, signed. -/
def routeCond (v : BitVec 32) : BitVec 1 :=
  Scalar.cmpi .ne (Scalar.extui (Scalar.cmpi .sge v 49152#32)) 0#32

theorem routeCond_eq_sge (v : BitVec 32) : routeCond v = Scalar.cmpi .sge v 49152#32 := by
  unfold routeCond
  rcases BitVec.eq_zero_or_eq_one (Scalar.cmpi .sge v 49152#32) with h | h <;> rw [h] <;> decide

theorem routeCond_iff (v : BitVec 32) (hv : v.toNat < 65536) : routeCond v = 1#1 ↔ 49152 ≤ v.toNat := by
  rw [routeCond_eq_sge]; exact sge_49152_iff v hv

theorem cond1_eq (v : BitVec 32) : k1_cond1 v = routeCond v := rfl
theorem cond1_iff (v : BitVec 32) (hv : v.toNat < 65536) : k1_cond1 v = 1#1 ↔ 49152 ≤ v.toNat := routeCond_iff v hv
theorem cond2_eq (v : BitVec 32) : k1_cond2 v = routeCond v := rfl
theorem cond2_iff (v : BitVec 32) (hv : v.toNat < 65536) : k1_cond2 v = 1#1 ↔ 49152 ≤ v.toNat := routeCond_iff v hv
theorem cond3_eq (v : BitVec 32) : k1_cond3 v = routeCond v := rfl
theorem cond3_iff (v : BitVec 32) (hv : v.toNat < 65536) : k1_cond3 v = 1#1 ↔ 49152 ≤ v.toNat := routeCond_iff v hv
theorem cond4_eq (v : BitVec 32) : k1_cond4 v = routeCond v := rfl
theorem cond4_iff (v : BitVec 32) (hv : v.toNat < 65536) : k1_cond4 v = 1#1 ↔ 49152 ≤ v.toNat := routeCond_iff v hv
theorem cond5_eq (v : BitVec 32) : k1_cond5 v = routeCond v := rfl
theorem cond5_iff (v : BitVec 32) (hv : v.toNat < 65536) : k1_cond5 v = 1#1 ↔ 49152 ≤ v.toNat := routeCond_iff v hv
theorem cond6_eq (v : BitVec 32) : k1_cond6 v = routeCond v := rfl
theorem cond6_iff (v : BitVec 32) (hv : v.toNat < 65536) : k1_cond6 v = 1#1 ↔ 49152 ≤ v.toNat := routeCond_iff v hv
theorem cond7_eq (v : BitVec 32) : k1_cond7 v = routeCond v := rfl
theorem cond7_iff (v : BitVec 32) (hv : v.toNat < 65536) : k1_cond7 v = 1#1 ↔ 49152 ≤ v.toNat := routeCond_iff v hv
theorem cond8_eq (v : BitVec 32) : k1_cond8 v = routeCond v := rfl
theorem cond8_iff (v : BitVec 32) (hv : v.toNat < 65536) : k1_cond8 v = 1#1 ↔ 49152 ≤ v.toNat := routeCond_iff v hv
theorem cond9_eq (v : BitVec 32) : k1_cond9 v = routeCond v := rfl
theorem cond9_iff (v : BitVec 32) (hv : v.toNat < 65536) : k1_cond9 v = 1#1 ↔ 49152 ≤ v.toNat := routeCond_iff v hv
theorem cond10_eq (v : BitVec 32) : k1_cond10 v = routeCond v := rfl
theorem cond10_iff (v : BitVec 32) (hv : v.toNat < 65536) : k1_cond10 v = 1#1 ↔ 49152 ≤ v.toNat := routeCond_iff v hv
theorem cond11_eq (v : BitVec 32) : k1_cond11 v = routeCond v := rfl
theorem cond11_iff (v : BitVec 32) (hv : v.toNat < 65536) : k1_cond11 v = 1#1 ↔ 49152 ≤ v.toNat := routeCond_iff v hv
theorem cond12_eq (v : BitVec 32) : k1_cond12 v = routeCond v := rfl
theorem cond12_iff (v : BitVec 32) (hv : v.toNat < 65536) : k1_cond12 v = 1#1 ↔ 49152 ≤ v.toNat := routeCond_iff v hv
theorem cond13_eq (v : BitVec 32) : k1_cond13 v = routeCond v := rfl
theorem cond13_iff (v : BitVec 32) (hv : v.toNat < 65536) : k1_cond13 v = 1#1 ↔ 49152 ≤ v.toNat := routeCond_iff v hv
theorem cond14_eq (v : BitVec 32) : k1_cond14 v = routeCond v := rfl
theorem cond14_iff (v : BitVec 32) (hv : v.toNat < 65536) : k1_cond14 v = 1#1 ↔ 49152 ≤ v.toNat := routeCond_iff v hv
theorem cond15_eq (v : BitVec 32) : k1_cond15 v = routeCond v := rfl
theorem cond15_iff (v : BitVec 32) (hv : v.toNat < 65536) : k1_cond15 v = 1#1 ↔ 49152 ≤ v.toNat := routeCond_iff v hv
theorem cond16_eq (v : BitVec 32) : k1_cond16 v = routeCond v := rfl
theorem cond16_iff (v : BitVec 32) (hv : v.toNat < 65536) : k1_cond16 v = 1#1 ↔ 49152 ≤ v.toNat := routeCond_iff v hv
theorem cond17_eq (v : BitVec 32) : k1_cond17 v = routeCond v := rfl
theorem cond17_iff (v : BitVec 32) (hv : v.toNat < 65536) : k1_cond17 v = 1#1 ↔ 49152 ≤ v.toNat := routeCond_iff v hv
theorem cond18_eq (v : BitVec 32) : k1_cond18 v = routeCond v := rfl
theorem cond18_iff (v : BitVec 32) (hv : v.toNat < 65536) : k1_cond18 v = 1#1 ↔ 49152 ≤ v.toNat := routeCond_iff v hv
theorem cond19_eq (v : BitVec 32) : k1_cond19 v = routeCond v := rfl
theorem cond19_iff (v : BitVec 32) (hv : v.toNat < 65536) : k1_cond19 v = 1#1 ↔ 49152 ≤ v.toNat := routeCond_iff v hv
theorem cond20_eq (v : BitVec 32) : k1_cond20 v = routeCond v := rfl
theorem cond20_iff (v : BitVec 32) (hv : v.toNat < 65536) : k1_cond20 v = 1#1 ↔ 49152 ≤ v.toNat := routeCond_iff v hv
theorem cond21_eq (v : BitVec 32) : k1_cond21 v = routeCond v := rfl
theorem cond21_iff (v : BitVec 32) (hv : v.toNat < 65536) : k1_cond21 v = 1#1 ↔ 49152 ≤ v.toNat := routeCond_iff v hv
theorem cond22_eq (v : BitVec 32) : k1_cond22 v = routeCond v := rfl
theorem cond22_iff (v : BitVec 32) (hv : v.toNat < 65536) : k1_cond22 v = 1#1 ↔ 49152 ≤ v.toNat := routeCond_iff v hv
theorem cond23_eq (v : BitVec 32) : k1_cond23 v = routeCond v := rfl
theorem cond23_iff (v : BitVec 32) (hv : v.toNat < 65536) : k1_cond23 v = 1#1 ↔ 49152 ≤ v.toNat := routeCond_iff v hv
theorem cond24_eq (v : BitVec 32) : k1_cond24 v = routeCond v := rfl
theorem cond24_iff (v : BitVec 32) (hv : v.toNat < 65536) : k1_cond24 v = 1#1 ↔ 49152 ≤ v.toNat := routeCond_iff v hv
theorem cond25_eq (v : BitVec 32) : k1_cond25 v = routeCond v := rfl
theorem cond25_iff (v : BitVec 32) (hv : v.toNat < 65536) : k1_cond25 v = 1#1 ↔ 49152 ≤ v.toNat := routeCond_iff v hv
theorem cond26_eq (v : BitVec 32) : k1_cond26 v = routeCond v := rfl
theorem cond26_iff (v : BitVec 32) (hv : v.toNat < 65536) : k1_cond26 v = 1#1 ↔ 49152 ≤ v.toNat := routeCond_iff v hv
theorem cond27_eq (v : BitVec 32) : k1_cond27 v = routeCond v := rfl
theorem cond27_iff (v : BitVec 32) (hv : v.toNat < 65536) : k1_cond27 v = 1#1 ↔ 49152 ≤ v.toNat := routeCond_iff v hv
theorem cond28_eq (v : BitVec 32) : k1_cond28 v = routeCond v := rfl
theorem cond28_iff (v : BitVec 32) (hv : v.toNat < 65536) : k1_cond28 v = 1#1 ↔ 49152 ≤ v.toNat := routeCond_iff v hv
theorem cond29_eq (v : BitVec 32) : k1_cond29 v = routeCond v := rfl
theorem cond29_iff (v : BitVec 32) (hv : v.toNat < 65536) : k1_cond29 v = 1#1 ↔ 49152 ≤ v.toNat := routeCond_iff v hv
theorem cond30_eq (v : BitVec 32) : k1_cond30 v = routeCond v := rfl
theorem cond30_iff (v : BitVec 32) (hv : v.toNat < 65536) : k1_cond30 v = 1#1 ↔ 49152 ≤ v.toNat := routeCond_iff v hv
theorem cond31_eq (v : BitVec 32) : k1_cond31 v = routeCond v := rfl
theorem cond31_iff (v : BitVec 32) (hv : v.toNat < 65536) : k1_cond31 v = 1#1 ↔ 49152 ≤ v.toNat := routeCond_iff v hv
theorem cond32_eq (v : BitVec 32) : k1_cond32 v = routeCond v := rfl
theorem cond32_iff (v : BitVec 32) (hv : v.toNat < 65536) : k1_cond32 v = 1#1 ↔ 49152 ≤ v.toNat := routeCond_iff v hv
theorem cond17_eq_cond1 (v : BitVec 32) : k1_cond17 v = k1_cond1 v := rfl
theorem cond18_eq_cond2 (v : BitVec 32) : k1_cond18 v = k1_cond2 v := rfl
theorem cond19_eq_cond3 (v : BitVec 32) : k1_cond19 v = k1_cond3 v := rfl
theorem cond20_eq_cond4 (v : BitVec 32) : k1_cond20 v = k1_cond4 v := rfl
theorem cond21_eq_cond5 (v : BitVec 32) : k1_cond21 v = k1_cond5 v := rfl
theorem cond22_eq_cond6 (v : BitVec 32) : k1_cond22 v = k1_cond6 v := rfl
theorem cond23_eq_cond7 (v : BitVec 32) : k1_cond23 v = k1_cond7 v := rfl
theorem cond24_eq_cond8 (v : BitVec 32) : k1_cond24 v = k1_cond8 v := rfl
theorem cond25_eq_cond9 (v : BitVec 32) : k1_cond25 v = k1_cond9 v := rfl
theorem cond26_eq_cond10 (v : BitVec 32) : k1_cond26 v = k1_cond10 v := rfl
theorem cond27_eq_cond11 (v : BitVec 32) : k1_cond27 v = k1_cond11 v := rfl
theorem cond28_eq_cond12 (v : BitVec 32) : k1_cond28 v = k1_cond12 v := rfl
theorem cond29_eq_cond13 (v : BitVec 32) : k1_cond29 v = k1_cond13 v := rfl
theorem cond30_eq_cond14 (v : BitVec 32) : k1_cond30 v = k1_cond14 v := rfl
theorem cond31_eq_cond15 (v : BitVec 32) : k1_cond31 v = k1_cond15 v := rfl
theorem cond32_eq_cond16 (v : BitVec 32) : k1_cond32 v = k1_cond16 v := rfl

/-! ### Destination rows -/

/-- The destination row word of lane r at trip k on subcore s of core q. -/
def destRowWord (s q k r : Nat) : BitVec 32 :=
  Scalar.addi
    (Scalar.addi
      (Scalar.muli (Scalar.addi (Scalar.muli (BitVec.ofNat 32 s) 2#32) (BitVec.ofNat 32 q)) 512#32)
      (Scalar.muli (Scf.iv 0#32 1#32 k) 16#32))
    (BitVec.ofNat 32 r)

theorem destRowWord_toNat (s q k r : Nat) (hs : s < 16) (hq : q < 2) (hk : k < 32) (hr : r < 16) :
    (destRowWord s q k r).toNat = (s * 2 + q) * 512 + 16 * k + r := by
  show ((BitVec.ofNat 32 s * 2#32 + BitVec.ofNat 32 q) * 512#32 + (0#32 + BitVec.ofNat 32 k * 1#32) * 16#32
    + BitVec.ofNat 32 r).toNat = _
  simp only [BitVec.toNat_add, BitVec.toNat_mul, BitVec.toNat_ofNat, Nat.reducePow]
  omega

/-- The loop has 32 trips. -/
theorem trips_eq : k1_t1_loop.trips = 32 := by decide

theorem trips_lt (k : Fin k1_t1_loop.trips) : k.val < 32 := by
  exact Nat.lt_of_lt_of_le k.isLt (Nat.le_of_eq trips_eq)

/-- The 16 indices a trip loads start at 16 * k. -/
theorem off3_eq (k : Fin k1_t1_loop.trips) : k1_off3 k = ![16 * k.val] := by
  show ![((0#32 + BitVec.ofNat 32 k.val * 1#32) * 16#32).toNat] = _
  have hk := trips_lt k
  have : ((0#32 + BitVec.ofNat 32 k.val * 1#32) * 16#32).toNat = 16 * k.val := by
    simp only [BitVec.toNat_add, BitVec.toNat_mul, BitVec.toNat_ofNat, Nat.reducePow]
    omega
  rw [this]

theorem off4_eq (L : grid1.Coords) (k : Fin k1_t1_loop.trips) :
    k1_off4 L k = ![((L 1).val * 2 + (L 0).val) * 512 + 16 * k.val + 0, 0] := by
  show ![(destRowWord (L 1).val (L 0).val k.val 0).toNat, 0] = _
  rw [destRowWord_toNat _ _ _ _ (L 1).isLt (L 0).isLt (trips_lt k) (by omega)]
theorem off36_eq (L : grid1.Coords) (k : Fin k1_t1_loop.trips) :
    k1_off36 L k = ![((L 1).val * 2 + (L 0).val) * 512 + 16 * k.val + 0, 0] := by
  show ![(destRowWord (L 1).val (L 0).val k.val 0).toNat, 0] = _
  rw [destRowWord_toNat _ _ _ _ (L 1).isLt (L 0).isLt (trips_lt k) (by omega)]
theorem off6_eq (L : grid1.Coords) (k : Fin k1_t1_loop.trips) :
    k1_off6 L k = ![((L 1).val * 2 + (L 0).val) * 512 + 16 * k.val + 1, 0] := by
  show ![(destRowWord (L 1).val (L 0).val k.val 1).toNat, 0] = _
  rw [destRowWord_toNat _ _ _ _ (L 1).isLt (L 0).isLt (trips_lt k) (by omega)]
theorem off38_eq (L : grid1.Coords) (k : Fin k1_t1_loop.trips) :
    k1_off38 L k = ![((L 1).val * 2 + (L 0).val) * 512 + 16 * k.val + 1, 0] := by
  show ![(destRowWord (L 1).val (L 0).val k.val 1).toNat, 0] = _
  rw [destRowWord_toNat _ _ _ _ (L 1).isLt (L 0).isLt (trips_lt k) (by omega)]
theorem off8_eq (L : grid1.Coords) (k : Fin k1_t1_loop.trips) :
    k1_off8 L k = ![((L 1).val * 2 + (L 0).val) * 512 + 16 * k.val + 2, 0] := by
  show ![(destRowWord (L 1).val (L 0).val k.val 2).toNat, 0] = _
  rw [destRowWord_toNat _ _ _ _ (L 1).isLt (L 0).isLt (trips_lt k) (by omega)]
theorem off40_eq (L : grid1.Coords) (k : Fin k1_t1_loop.trips) :
    k1_off40 L k = ![((L 1).val * 2 + (L 0).val) * 512 + 16 * k.val + 2, 0] := by
  show ![(destRowWord (L 1).val (L 0).val k.val 2).toNat, 0] = _
  rw [destRowWord_toNat _ _ _ _ (L 1).isLt (L 0).isLt (trips_lt k) (by omega)]
theorem off10_eq (L : grid1.Coords) (k : Fin k1_t1_loop.trips) :
    k1_off10 L k = ![((L 1).val * 2 + (L 0).val) * 512 + 16 * k.val + 3, 0] := by
  show ![(destRowWord (L 1).val (L 0).val k.val 3).toNat, 0] = _
  rw [destRowWord_toNat _ _ _ _ (L 1).isLt (L 0).isLt (trips_lt k) (by omega)]
theorem off42_eq (L : grid1.Coords) (k : Fin k1_t1_loop.trips) :
    k1_off42 L k = ![((L 1).val * 2 + (L 0).val) * 512 + 16 * k.val + 3, 0] := by
  show ![(destRowWord (L 1).val (L 0).val k.val 3).toNat, 0] = _
  rw [destRowWord_toNat _ _ _ _ (L 1).isLt (L 0).isLt (trips_lt k) (by omega)]
theorem off12_eq (L : grid1.Coords) (k : Fin k1_t1_loop.trips) :
    k1_off12 L k = ![((L 1).val * 2 + (L 0).val) * 512 + 16 * k.val + 4, 0] := by
  show ![(destRowWord (L 1).val (L 0).val k.val 4).toNat, 0] = _
  rw [destRowWord_toNat _ _ _ _ (L 1).isLt (L 0).isLt (trips_lt k) (by omega)]
theorem off44_eq (L : grid1.Coords) (k : Fin k1_t1_loop.trips) :
    k1_off44 L k = ![((L 1).val * 2 + (L 0).val) * 512 + 16 * k.val + 4, 0] := by
  show ![(destRowWord (L 1).val (L 0).val k.val 4).toNat, 0] = _
  rw [destRowWord_toNat _ _ _ _ (L 1).isLt (L 0).isLt (trips_lt k) (by omega)]
theorem off14_eq (L : grid1.Coords) (k : Fin k1_t1_loop.trips) :
    k1_off14 L k = ![((L 1).val * 2 + (L 0).val) * 512 + 16 * k.val + 5, 0] := by
  show ![(destRowWord (L 1).val (L 0).val k.val 5).toNat, 0] = _
  rw [destRowWord_toNat _ _ _ _ (L 1).isLt (L 0).isLt (trips_lt k) (by omega)]
theorem off46_eq (L : grid1.Coords) (k : Fin k1_t1_loop.trips) :
    k1_off46 L k = ![((L 1).val * 2 + (L 0).val) * 512 + 16 * k.val + 5, 0] := by
  show ![(destRowWord (L 1).val (L 0).val k.val 5).toNat, 0] = _
  rw [destRowWord_toNat _ _ _ _ (L 1).isLt (L 0).isLt (trips_lt k) (by omega)]
theorem off16_eq (L : grid1.Coords) (k : Fin k1_t1_loop.trips) :
    k1_off16 L k = ![((L 1).val * 2 + (L 0).val) * 512 + 16 * k.val + 6, 0] := by
  show ![(destRowWord (L 1).val (L 0).val k.val 6).toNat, 0] = _
  rw [destRowWord_toNat _ _ _ _ (L 1).isLt (L 0).isLt (trips_lt k) (by omega)]
theorem off48_eq (L : grid1.Coords) (k : Fin k1_t1_loop.trips) :
    k1_off48 L k = ![((L 1).val * 2 + (L 0).val) * 512 + 16 * k.val + 6, 0] := by
  show ![(destRowWord (L 1).val (L 0).val k.val 6).toNat, 0] = _
  rw [destRowWord_toNat _ _ _ _ (L 1).isLt (L 0).isLt (trips_lt k) (by omega)]
theorem off18_eq (L : grid1.Coords) (k : Fin k1_t1_loop.trips) :
    k1_off18 L k = ![((L 1).val * 2 + (L 0).val) * 512 + 16 * k.val + 7, 0] := by
  show ![(destRowWord (L 1).val (L 0).val k.val 7).toNat, 0] = _
  rw [destRowWord_toNat _ _ _ _ (L 1).isLt (L 0).isLt (trips_lt k) (by omega)]
theorem off50_eq (L : grid1.Coords) (k : Fin k1_t1_loop.trips) :
    k1_off50 L k = ![((L 1).val * 2 + (L 0).val) * 512 + 16 * k.val + 7, 0] := by
  show ![(destRowWord (L 1).val (L 0).val k.val 7).toNat, 0] = _
  rw [destRowWord_toNat _ _ _ _ (L 1).isLt (L 0).isLt (trips_lt k) (by omega)]
theorem off20_eq (L : grid1.Coords) (k : Fin k1_t1_loop.trips) :
    k1_off20 L k = ![((L 1).val * 2 + (L 0).val) * 512 + 16 * k.val + 8, 0] := by
  show ![(destRowWord (L 1).val (L 0).val k.val 8).toNat, 0] = _
  rw [destRowWord_toNat _ _ _ _ (L 1).isLt (L 0).isLt (trips_lt k) (by omega)]
theorem off52_eq (L : grid1.Coords) (k : Fin k1_t1_loop.trips) :
    k1_off52 L k = ![((L 1).val * 2 + (L 0).val) * 512 + 16 * k.val + 8, 0] := by
  show ![(destRowWord (L 1).val (L 0).val k.val 8).toNat, 0] = _
  rw [destRowWord_toNat _ _ _ _ (L 1).isLt (L 0).isLt (trips_lt k) (by omega)]
theorem off22_eq (L : grid1.Coords) (k : Fin k1_t1_loop.trips) :
    k1_off22 L k = ![((L 1).val * 2 + (L 0).val) * 512 + 16 * k.val + 9, 0] := by
  show ![(destRowWord (L 1).val (L 0).val k.val 9).toNat, 0] = _
  rw [destRowWord_toNat _ _ _ _ (L 1).isLt (L 0).isLt (trips_lt k) (by omega)]
theorem off54_eq (L : grid1.Coords) (k : Fin k1_t1_loop.trips) :
    k1_off54 L k = ![((L 1).val * 2 + (L 0).val) * 512 + 16 * k.val + 9, 0] := by
  show ![(destRowWord (L 1).val (L 0).val k.val 9).toNat, 0] = _
  rw [destRowWord_toNat _ _ _ _ (L 1).isLt (L 0).isLt (trips_lt k) (by omega)]
theorem off24_eq (L : grid1.Coords) (k : Fin k1_t1_loop.trips) :
    k1_off24 L k = ![((L 1).val * 2 + (L 0).val) * 512 + 16 * k.val + 10, 0] := by
  show ![(destRowWord (L 1).val (L 0).val k.val 10).toNat, 0] = _
  rw [destRowWord_toNat _ _ _ _ (L 1).isLt (L 0).isLt (trips_lt k) (by omega)]
theorem off56_eq (L : grid1.Coords) (k : Fin k1_t1_loop.trips) :
    k1_off56 L k = ![((L 1).val * 2 + (L 0).val) * 512 + 16 * k.val + 10, 0] := by
  show ![(destRowWord (L 1).val (L 0).val k.val 10).toNat, 0] = _
  rw [destRowWord_toNat _ _ _ _ (L 1).isLt (L 0).isLt (trips_lt k) (by omega)]
theorem off26_eq (L : grid1.Coords) (k : Fin k1_t1_loop.trips) :
    k1_off26 L k = ![((L 1).val * 2 + (L 0).val) * 512 + 16 * k.val + 11, 0] := by
  show ![(destRowWord (L 1).val (L 0).val k.val 11).toNat, 0] = _
  rw [destRowWord_toNat _ _ _ _ (L 1).isLt (L 0).isLt (trips_lt k) (by omega)]
theorem off58_eq (L : grid1.Coords) (k : Fin k1_t1_loop.trips) :
    k1_off58 L k = ![((L 1).val * 2 + (L 0).val) * 512 + 16 * k.val + 11, 0] := by
  show ![(destRowWord (L 1).val (L 0).val k.val 11).toNat, 0] = _
  rw [destRowWord_toNat _ _ _ _ (L 1).isLt (L 0).isLt (trips_lt k) (by omega)]
theorem off28_eq (L : grid1.Coords) (k : Fin k1_t1_loop.trips) :
    k1_off28 L k = ![((L 1).val * 2 + (L 0).val) * 512 + 16 * k.val + 12, 0] := by
  show ![(destRowWord (L 1).val (L 0).val k.val 12).toNat, 0] = _
  rw [destRowWord_toNat _ _ _ _ (L 1).isLt (L 0).isLt (trips_lt k) (by omega)]
theorem off60_eq (L : grid1.Coords) (k : Fin k1_t1_loop.trips) :
    k1_off60 L k = ![((L 1).val * 2 + (L 0).val) * 512 + 16 * k.val + 12, 0] := by
  show ![(destRowWord (L 1).val (L 0).val k.val 12).toNat, 0] = _
  rw [destRowWord_toNat _ _ _ _ (L 1).isLt (L 0).isLt (trips_lt k) (by omega)]
theorem off30_eq (L : grid1.Coords) (k : Fin k1_t1_loop.trips) :
    k1_off30 L k = ![((L 1).val * 2 + (L 0).val) * 512 + 16 * k.val + 13, 0] := by
  show ![(destRowWord (L 1).val (L 0).val k.val 13).toNat, 0] = _
  rw [destRowWord_toNat _ _ _ _ (L 1).isLt (L 0).isLt (trips_lt k) (by omega)]
theorem off62_eq (L : grid1.Coords) (k : Fin k1_t1_loop.trips) :
    k1_off62 L k = ![((L 1).val * 2 + (L 0).val) * 512 + 16 * k.val + 13, 0] := by
  show ![(destRowWord (L 1).val (L 0).val k.val 13).toNat, 0] = _
  rw [destRowWord_toNat _ _ _ _ (L 1).isLt (L 0).isLt (trips_lt k) (by omega)]
theorem off32_eq (L : grid1.Coords) (k : Fin k1_t1_loop.trips) :
    k1_off32 L k = ![((L 1).val * 2 + (L 0).val) * 512 + 16 * k.val + 14, 0] := by
  show ![(destRowWord (L 1).val (L 0).val k.val 14).toNat, 0] = _
  rw [destRowWord_toNat _ _ _ _ (L 1).isLt (L 0).isLt (trips_lt k) (by omega)]
theorem off64_eq (L : grid1.Coords) (k : Fin k1_t1_loop.trips) :
    k1_off64 L k = ![((L 1).val * 2 + (L 0).val) * 512 + 16 * k.val + 14, 0] := by
  show ![(destRowWord (L 1).val (L 0).val k.val 14).toNat, 0] = _
  rw [destRowWord_toNat _ _ _ _ (L 1).isLt (L 0).isLt (trips_lt k) (by omega)]
theorem off34_eq (L : grid1.Coords) (k : Fin k1_t1_loop.trips) :
    k1_off34 L k = ![((L 1).val * 2 + (L 0).val) * 512 + 16 * k.val + 15, 0] := by
  show ![(destRowWord (L 1).val (L 0).val k.val 15).toNat, 0] = _
  rw [destRowWord_toNat _ _ _ _ (L 1).isLt (L 0).isLt (trips_lt k) (by omega)]
theorem off66_eq (L : grid1.Coords) (k : Fin k1_t1_loop.trips) :
    k1_off66 L k = ![((L 1).val * 2 + (L 0).val) * 512 + 16 * k.val + 15, 0] := by
  show ![(destRowWord (L 1).val (L 0).val k.val 15).toNat, 0] = _
  rw [destRowWord_toNat _ _ _ _ (L 1).isLt (L 0).isLt (trips_lt k) (by omega)]

end Cert.KernelIdeal.Route
-- ==== Proof.RouteOut.lean ====
/-
  What the routing task leaves in the result array, as one function of the table, the early-exit rows and the row
  indices: row b is the table row its index names when the index names a row of the last head's part of the table
  (index ≥ 49152), and the early-exit row otherwise.
-/
import proofs.«215259_g58411555225873_cont_9to1_m_859_22_alg».proof.Proof.RouteBase
import proofs.«215259_g58411555225873_cont_9to1_m_859_22_alg».proof.Proof.TripFacts

noncomputable section

namespace Cert.KernelIdeal.Route.Tile

open Cert.KernelIdeal Cert.KernelIdeal.Gen Cert.KernelIdeal.Route

open Idealize.ShloMosaic Idealize.ShloMosaic.ValueIdx

variable {F : FTy → Type}

/-- The table row a word names (read modulo the table's 65536 rows, so that the index is total), at a column. -/
def tabIx (v : BitVec 32) (c : Fin 1000) : S65536x1000.Idx :=
  ix2 (⟨v.toNat % 65536, Nat.mod_lt _ (by decide)⟩ : Fin 65536) c

/-- A sample's place in the row indices, and its column, read off a result index. -/
def rowOfIdx (i : S16384x1000.Idx) : S16384.Idx := ix1 (⟨(i 0).val, (i 0).isLt⟩ : Fin 16384)
def colOfIdx (i : S16384x1000.Idx) : Fin 1000 := ⟨(i 1).val, (i 1).isLt⟩

/-- The routed result: per sample, the table row its index names or its early-exit row. -/
def outSpec (Tb : S65536x1000.Idx → Elt F .f32) (Pc : S16384x1000.Idx → Elt F .f32) (R : S16384.Idx → BitVec 32) :
    S16384x1000.Idx → Elt F .f32 :=
  fun i => if routeCond (R (rowOfIdx i)) = 1#1 then Tb (tabIx (R (rowOfIdx i)) (colOfIdx i)) else Pc i

end Cert.KernelIdeal.Route.Tile

end
-- ==== Proof.BlockIdeal.lean ====
/-
  The routing block read at the extended reals, against the specification.

  For a [1, 1024, 1000] block b of one head, sample p's exit bit is the specification's
  exits of row p of the block: the lane maximum is the fold of max over the 1000 classes,
  the lane sum of exp (x − max) is the finite sum, and the confidence is 1 over it. Hence the
  head block is the specification's head of the three rows, and the routed logits block is the
  row of the first exiting head among 0 and 1, else head 2's row.
-/
import proofs.«215259_g58411555225873_cont_9to1_m_859_22_alg».proof.Proof.BlockFacts
import proofs.«215259_g58411555225873_cont_9to1_m_859_22_alg».proof.Proof.RouteSpec
import Idealize.ShloMosaic.PureOps.Ideal.Laws

noncomputable section

open scoped BigOperators

namespace Cert.KernelIdeal.Route

open Idealize.ShloMosaic Idealize.ShloMosaic.ValueIdx Cert.KernelIdeal Cert.KernelIdeal.Gen
open Cert.Route

/-- Row p of a [1, 1024, 1000] block. -/
def blockRow (b : Vec Ideal S1x1024x1000 .f32) (p : Fin 1024) : Spec.Row := fun c => b (ix3 (0 : Fin 1) p c)

/-- The reduced index p with class k put back is (p, k). -/
theorem lift_ix1 (p : Fin 1024) (k : Fin (S1024x1000.size 1)) :
    reduces_S1024x1000_S1024.lift (ix1 p) k = ix2 p (⟨k.val, k.isLt⟩ : Fin 1000) := by
  funext a
  apply Fin.ext
  match a with
  | ⟨0, _⟩ => rfl
  | ⟨1, _⟩ => rfl

/-- The lane maximum at sample p is the row's maximum. -/
theorem laneMax_apply (x : FVec Ideal S1024x1000 .f32) (p : Fin 1024) (hφ : FKind.Formats .f32)
    (hacc : (0xFF800000#32 : BitVec 32) = FKind.maximumf.neutral .f32 hφ) :
    multiReduction (F := Ideal) .maximumf [1] S1024 x 0xFF800000#32 reduces_S1024x1000_S1024 hφ hacc (ix1 p)
      = Spec.rowMax (fun c => x (ix2 p c)) := by
  refine (Ideal.multiReduction_maximumf_single x _ reduces_S1024x1000_S1024 hφ hacc (ix1 p)).trans ?_
  have hf : (x ∘ reduces_S1024x1000_S1024.lift (ix1 p)) = fun c : Fin 1000 => x (ix2 p c) :=
    funext fun k => congrArg x (lift_ix1 p k)
  exact congrArg (fun f => Finset.fold max (Ideal.ofBits .f32 0xFF800000#32) f (Finset.univ : Finset (Fin 1000))) hf

/-- The lane sum at sample p is the sum over the 1000 classes. -/
theorem laneSum_apply (y : FVec Ideal S1024x1000 .f32) (p : Fin 1024) (hφ : FKind.Formats .f32)
    (hacc : (0x00000000#32 : BitVec 32) = FKind.add.neutral .f32 hφ) :
    multiReduction (F := Ideal) .add [1] S1024 y 0x00000000#32 reduces_S1024x1000_S1024 hφ hacc (ix1 p)
      = ∑ c : Fin 1000, y (ix2 p c) := by
  refine (Ideal.multiReduction_add_single y _ reduces_S1024x1000_S1024 hφ hacc (ix1 p)).trans ?_
  exact Finset.sum_congr rfl fun k _ => congrArg y (lift_ix1 p k)

/-- The exit bits of a [1024, 1000] vector of logits: the body's chain from the lane maximum to the comparison. -/
def exitBitsOf (x : FVec Ideal S1024x1000 .f32) : IVec S1024 1 :=
  cmpf .oge
    (divf (broadcast S1024 (Scalar.ofBits (F := Ideal) .f32 0x3F800000#32))
      (multiReduction .add [1] S1024
        (exp (subf x (broadcastTo S1024x1000
          (shapeCast S1024x1
            (multiReduction .maximumf [1] S1024 x 0xFF800000#32 reduces_S1024x1000_S1024 (.inl rfl) rfl)
            shapeCasts_S1024_S1024x1)
          broadcasts_S1024x1_S1024x1000)))
        0x00000000#32 reduces_S1024x1000_S1024 (.inl rfl) rfl))
    (broadcast S1024 (Scalar.ofBits (F := Ideal) .f32 0x3CA3D70A#32))

theorem pay7_eq (b : Vec Ideal S1x1024x1000 .f32) : k0_pay7 (F := Ideal) b = exitBitsOf (k0_pay6 b) := rfl
theorem pay9_eq (b : Vec Ideal S1x1024x1000 .f32) : k0_pay9 (F := Ideal) b = exitBitsOf (k0_pay8 b) := rfl
theorem pay11_eq (b : Vec Ideal S1x1024x1000 .f32) : k0_pay11 (F := Ideal) b = exitBitsOf (k0_pay10 b) := rfl

/-- At sample p the exit bit is the specification's, of row p. -/
theorem exitBitsOf_apply (x : FVec Ideal S1024x1000 .f32) (p : Fin 1024) :
    exitBitsOf x (ix1 p) = Spec.exits (fun c => x (ix2 p c)) := by
  have hs : multiReduction (F := Ideal) .add [1] S1024
        (exp (subf x (broadcastTo S1024x1000
          (shapeCast S1024x1
            (multiReduction .maximumf [1] S1024 x 0xFF800000#32 reduces_S1024x1000_S1024 (.inl rfl) rfl)
            shapeCasts_S1024_S1024x1)
          broadcasts_S1024x1_S1024x1000)))
        0x00000000#32 reduces_S1024x1000_S1024 (.inl rfl) rfl (ix1 p) = Spec.rowSum (fun c => x (ix2 p c)) := by
    refine (laneSum_apply _ p _ _).trans ?_
    unfold Spec.rowSum
    refine Finset.sum_congr rfl fun c _ => ?_
    show Ideal.exp (x (ix2 p c) - broadcastTo S1024x1000 (shapeCast S1024x1 _ shapeCasts_S1024_S1024x1)
        broadcasts_S1024x1_S1024x1000 (ix2 p c)) = _
    rw [colBroadcast_apply, colCast_apply]
    exact congrArg (fun m => Ideal.exp (x (ix2 p c) - m)) (laneMax_apply x p _ _)
  exact congrArg (fun s => Ideal.cmp .oge (Ideal.div (Ideal.ofBits .f32 0x3F800000#32) s)
    (Ideal.ofBits .f32 0x3CA3D70A#32)) hs

theorem pay7_apply (b : Vec Ideal S1x1024x1000 .f32) (p : Fin 1024) :
    k0_pay7 (F := Ideal) b (ix1 p) = Spec.exits (blockRow b p) := by
  rw [pay7_eq, exitBitsOf_apply]
  exact congrArg Spec.exits (funext fun c => pay6_apply b p c)

theorem pay9_apply (b : Vec Ideal S1x1024x1000 .f32) (p : Fin 1024) :
    k0_pay9 (F := Ideal) b (ix1 p) = Spec.exits (blockRow b p) := by
  rw [pay9_eq, exitBitsOf_apply]
  exact congrArg Spec.exits (funext fun c => pay8_apply b p c)

theorem pay11_apply (b : Vec Ideal S1x1024x1000 .f32) (p : Fin 1024) :
    k0_pay11 (F := Ideal) b (ix1 p) = Spec.exits (blockRow b p) := by
  rw [pay11_eq, exitBitsOf_apply]
  exact congrArg Spec.exits (funext fun c => pay10_apply b p c)

/-- The head word of three exit bits of rows is the specification's head. -/
theorem headWord_exits (r0 r1 r2 : Spec.Row) :
    headWord (Spec.exits r0) (Spec.exits r1) (Spec.exits r2) = Spec.head r0 r1 r2 := rfl

/-- The head block at sample p is the specification's head of the three block rows. -/
theorem ehBlk_apply (b0 b1 b2 : Vec Ideal S1x1024x1000 .f32) (p : Fin 1024) :
    k0_pay3 (k0_pay7 (F := Ideal) b0) (k0_pay9 (F := Ideal) b1) (k0_pay11 (F := Ideal) b2) k0_pay12 (ix1 p)
      = Spec.head (blockRow b0 p) (blockRow b1 p) (blockRow b2 p) := by
  rw [pay3_apply, pay7_apply, pay9_apply, pay11_apply, headWord_exits]

/-- The routed row index block at sample p, for the block at grid coordinate a0. -/
theorem ridxBlk_apply (a0 : BitVec 32) (b0 b1 b2 : Vec Ideal S1x1024x1000 .f32) (p : Fin 1024) :
    k0_pay5 a0 (k0_pay7 (F := Ideal) b0) (k0_pay9 (F := Ideal) b1) (k0_pay11 (F := Ideal) b2) k0_pay12 (ix1 p)
      = Spec.head (blockRow b0 p) (blockRow b1 p) (blockRow b2 p) * 16384#32 + a0 * 1024#32 + BitVec.ofNat 32 p.val := by
  rw [pay5_apply, pay7_apply, pay9_apply, pay11_apply, headWord_exits]

/-- The routed logits block at (p, c): the row of the first exiting head among 0 and 1, else head 2's. -/
theorem pBlk_apply (b0 b1 b2 : Vec Ideal S1x1024x1000 .f32) (p : Fin 1024) (c : Fin 1000) :
    k0_pay4 (k0_pay6 b0) (k0_pay7 (F := Ideal) b0) (k0_pay8 b1) (k0_pay9 (F := Ideal) b1) (k0_pay10 b2)
        (k0_pay11 (F := Ideal) b2) k0_pay12 (ix2 p c)
      = if Spec.exits (blockRow b0 p) = 1#1 then blockRow b0 p c
        else if Spec.exits (blockRow b1 p) = 1#1 then blockRow b1 p c else blockRow b2 p c := by
  rw [pay4_apply, pay7_apply, pay9_apply, pay6_apply, pay8_apply, pay10_apply]
  rfl

/-- The same by the specification's head: heads 0, 1 read their own row; heads 2 and 3 read head 2's. -/
theorem pBlk_apply_head (b0 b1 b2 : Vec Ideal S1x1024x1000 .f32) (p : Fin 1024) (c : Fin 1000) :
    k0_pay4 (k0_pay6 b0) (k0_pay7 (F := Ideal) b0) (k0_pay8 b1) (k0_pay9 (F := Ideal) b1) (k0_pay10 b2)
        (k0_pay11 (F := Ideal) b2) k0_pay12 (ix2 p c)
      = if Spec.headFin (blockRow b0 p) (blockRow b1 p) (blockRow b2 p) = 0 then blockRow b0 p c
        else if Spec.headFin (blockRow b0 p) (blockRow b1 p) (blockRow b2 p) = 1 then blockRow b1 p c
        else blockRow b2 p c := by
  rw [pBlk_apply]
  unfold Spec.headFin
  split_ifs <;> first | rfl | (exfalso; simp_all)

end Cert.KernelIdeal.Route
-- ==== Proof.RouteValue.lean ====
/-
  From blocks to arrays, at the extended reals.

  Block t of head h of the logits A holds samples t * 1024 + p, p < 1024. Read there, the
  routing block's three results are: the specification's exit head of the sample; the routed
  row index  head * 16384 + sample;  and the logits row of the head if it is 0, 1 or 2, of
  head 2 if it is 3. The logits viewed as 65536 rows hold row h * 16384 + b of that view at
  (h, b). So replacing, exactly at the samples whose routed row index reaches 49152 (head 3),
  the routed logits row by that row of the view gives the specification's routed logits.
-/
import proofs.«215259_g58411555225873_cont_9to1_m_859_22_alg».proof.Proof.BlockIdeal

noncomputable section

namespace Cert.KernelIdeal.Route

open Idealize.ShloMosaic Idealize.ShloMosaic.ValueIdx Cert.KernelIdeal Cert.KernelIdeal.Gen
open Cert.Route

/-- The sample that lane p of block t holds. -/
def sample (t : Fin 16) (p : Fin 1024) : Fin 16384 :=
  ⟨t.val * 1024 + p.val, by have := t.isLt; have := p.isLt; omega⟩

theorem sample_val (t : Fin 16) (p : Fin 1024) : (sample t p).val = t.val * 1024 + p.val := rfl

/-- Block t of head h of the logits, as a [1, 1024, 1000] block. -/
def inBlock (A : Spec.SA.Idx → EReal) (h : Fin 4) (t : Fin 16) : Vec Ideal S1x1024x1000 .f32 :=
  fun i => A (ix3 h (sample t (i 1 : Fin 1024)) (i 2 : Fin 1000))

theorem inBlock_apply (A : Spec.SA.Idx → EReal) (h : Fin 4) (t : Fin 16) (z : Fin 1) (p : Fin 1024) (c : Fin 1000) :
    inBlock A h t (ix3 z p c) = A (ix3 h (sample t p) c) := rfl

/-- Its row p is the logits row of sample t * 1024 + p at head h. -/
theorem blockRow_inBlock (A : Spec.SA.Idx → EReal) (h : Fin 4) (t : Fin 16) (p : Fin 1024) :
    blockRow (inBlock A h t) p = Spec.rowOf A h (sample t p) := rfl

/-- The head block of block t at lane p is the exit head of the sample. -/
theorem ehBlk_inBlock (A : Spec.SA.Idx → EReal) (t : Fin 16) (p : Fin 1024) :
    k0_pay3 (k0_pay7 (F := Ideal) (inBlock A 0 t)) (k0_pay9 (F := Ideal) (inBlock A 1 t))
        (k0_pay11 (F := Ideal) (inBlock A 2 t)) k0_pay12 (ix1 p)
      = Spec.exitHead A (sample t p) := by
  rw [ehBlk_apply]; rfl

/-- The routed row index word of two spellings: the block's and the array's. -/
theorem ridxWord_eq (e : BitVec 32) (he : e = 0#32 ∨ e = 1#32 ∨ e = 2#32 ∨ e = 3#32) (t p : Nat)
    (ht : t < 16) (hp : p < 1024) :
    e * 16384#32 + BitVec.ofNat 32 t * 1024#32 + BitVec.ofNat 32 p
      = e * 16384#32 + BitVec.ofNat 32 (t * 1024 + p) := by
  apply BitVec.eq_of_toNat_eq
  rcases he with rfl | rfl | rfl | rfl <;>
    simp only [BitVec.toNat_add, BitVec.toNat_mul, BitVec.toNat_ofNat, Nat.reducePow] <;> omega

theorem head_cases (r0 r1 r2 : Spec.Row) :
    Spec.head r0 r1 r2 = 0#32 ∨ Spec.head r0 r1 r2 = 1#32 ∨ Spec.head r0 r1 r2 = 2#32 ∨ Spec.head r0 r1 r2 = 3#32 := by
  rw [← headWord_exits]; exact headWord_cases _ _ _

/-- The routed row index block of block t at lane p: exit head * 16384 + sample. -/
theorem ridxBlk_inBlock (A : Spec.SA.Idx → EReal) (t : Fin 16) (p : Fin 1024) :
    k0_pay5 (BitVec.ofNat 32 t.val) (k0_pay7 (F := Ideal) (inBlock A 0 t)) (k0_pay9 (F := Ideal) (inBlock A 1 t))
        (k0_pay11 (F := Ideal) (inBlock A 2 t)) k0_pay12 (ix1 p)
      = Spec.exitHead A (sample t p) * 16384#32 + BitVec.ofNat 32 (sample t p).val := by
  rw [ridxBlk_apply, ridxWord_eq _ (head_cases _ _ _) t.val p.val t.isLt p.isLt]
  rfl

/-- As a number: exit head * 16384 + sample. -/
theorem ridxBlk_toNat (A : Spec.SA.Idx → EReal) (t : Fin 16) (p : Fin 1024) :
    (k0_pay5 (BitVec.ofNat 32 t.val) (k0_pay7 (F := Ideal) (inBlock A 0 t)) (k0_pay9 (F := Ideal) (inBlock A 1 t))
        (k0_pay11 (F := Ideal) (inBlock A 2 t)) k0_pay12 (ix1 p)).toNat
      = (Spec.exitFin A (sample t p)).val * 16384 + (sample t p).val := by
  rw [ridxBlk_apply, rowIndex_toNat _ (head_cases _ _ _) t.val p.val t.isLt p.isLt, Spec.head_toNat]
  show _ = (Spec.exitFin A (sample t p)).val * 16384 + (t.val * 1024 + p.val)
  rw [show Spec.exitFin A (sample t p)
    = Spec.headFin (blockRow (inBlock A 0 t) p) (blockRow (inBlock A 1 t) p) (blockRow (inBlock A 2 t) p) from rfl]
  omega

/-- The head whose row the routed logits block holds: heads 0, 1, 2 their own, head 3 head 2's. -/
def keepHead (e : Fin 4) : Fin 4 := if e = 3 then 2 else e

/-- The routed logits block of block t at (p, c). -/
theorem pBlk_inBlock (A : Spec.SA.Idx → EReal) (t : Fin 16) (p : Fin 1024) (c : Fin 1000) :
    k0_pay4 (k0_pay6 (inBlock A 0 t)) (k0_pay7 (F := Ideal) (inBlock A 0 t)) (k0_pay8 (inBlock A 1 t))
        (k0_pay9 (F := Ideal) (inBlock A 1 t)) (k0_pay10 (inBlock A 2 t)) (k0_pay11 (F := Ideal) (inBlock A 2 t))
        k0_pay12 (ix2 p c)
      = A (ix3 (keepHead (Spec.exitFin A (sample t p))) (sample t p) c) := by
  rw [pBlk_apply_head]
  show (if Spec.exitFin A (sample t p) = 0 then A (ix3 0 (sample t p) c)
      else if Spec.exitFin A (sample t p) = 1 then A (ix3 1 (sample t p) c) else A (ix3 2 (sample t p) c)) = _
  generalize Spec.exitFin A (sample t p) = e
  fin_cases e <;> rfl

/-! ### The logits viewed as 65536 rows -/

/-- Row h * 16384 + b of the [65536, 1000] view holds the logits at (h, b). -/
theorem rowsView_apply (A : Spec.SA.Idx → EReal) (h : Fin 4) (b : Fin 16384) (c : Fin 1000)
    (hlt : h.val * 16384 + b.val < 65536) :
    shapeCast S65536x1000 A shapeCasts_S4x16384x1000_S65536x1000 (ix2 (⟨h.val * 16384 + b.val, hlt⟩ : Fin 65536) c)
      = A (ix3 h b c) := by
  refine shapeCast_apply A _ _ (ix3 h b c) ?_
  rw [Shape.rowMajor_val_three, Shape.rowMajor_val_two]
  rfl

/-- The routed logits from the parts: the routed logits row, replaced by the view's routed row exactly
    where the routed row index reaches 49152. -/
theorem routed_of_parts (A : Spec.SA.Idx → EReal) (b : Fin 16384) (c : Fin 1000)
    (hlt : (Spec.exitFin A b).val * 16384 + b.val < 65536) :
    (if 49152 ≤ (Spec.exitFin A b).val * 16384 + b.val
      then shapeCast S65536x1000 A shapeCasts_S4x16384x1000_S65536x1000
        (ix2 (⟨(Spec.exitFin A b).val * 16384 + b.val, hlt⟩ : Fin 65536) c)
      else A (ix3 (keepHead (Spec.exitFin A b)) b c))
      = Spec.routed A (ix2 b c) := by
  rw [Spec.routed_ix2, rowsView_apply]
  have hb := b.isLt
  generalize Spec.exitFin A b = e at *
  fin_cases e
  · rw [if_neg (by simp; omega)]; rfl
  · rw [if_neg (by simp; omega)]; rfl
  · rw [if_neg (by simp; omega)]; rfl
  · rw [if_pos (by simp)]

theorem exitFin_row_lt (A : Spec.SA.Idx → EReal) (b : Fin 16384) :
    (Spec.exitFin A b).val * 16384 + b.val < 65536 := by
  have := (Spec.exitFin A b).isLt; have := b.isLt; omega

end Cert.KernelIdeal.Route
-- ==== Proof.RouteOutIdeal.lean ====
/-
  The routed result and the exit heads at the extended reals, as the specification states them.

  The routing task leaves, at sample b, the row of the 65536-row view of the logits that the
  sample's routed row index names when that index reaches 49152, and the early-exit row
  otherwise. The index is exit head * 16384 + b, so it reaches 49152 exactly at exit head 3,
  where the view's row is the logits row of head 3; below, the early-exit row is the logits
  row of the exit head itself. Either way: the logits row of the exit head.
-/
import proofs.«215259_g58411555225873_cont_9to1_m_859_22_alg».proof.Proof.RouteOut
import proofs.«215259_g58411555225873_cont_9to1_m_859_22_alg».proof.Proof.ConfFinal
import proofs.«215259_g58411555225873_cont_9to1_m_859_22_alg».proof.Proof.RouteValue
import proofs.«215259_g58411555225873_cont_9to1_m_859_22_alg».proof.Proof.RouteSpec

noncomputable section

namespace Cert.KernelIdeal.Route.Tile

open Cert.KernelIdeal Cert.KernelIdeal.Gen Cert.KernelIdeal.Route
open Idealize.ShloMosaic Idealize.ShloMosaic.ValueIdx Idealize.ShloMosaic.TcCoe
open Cert.Route

/-- The block of head h at grid point t, in the two spellings. -/
theorem inBlk_eq (A : S4x16384x1000.Idx → EReal) (h : Fin 4) (t : Fin 16) :
    TC.inBlk (F := Ideal) A h t = inBlock A h t := rfl

/-- A sample is lane (b mod 1024) of block (b div 1024). -/
theorem sample_tOf_rOf (b : Fin 16384) : sample (TC.tOf b) (TC.rOf b) = b :=
  Fin.ext (by show b.val / 1024 * 1024 + b.val % 1024 = b.val; omega)

/-- The exit heads array is the specification's exit head, sample by sample. -/
theorem ehArr_apply (A : S4x16384x1000.Idx → EReal) (b : Fin 16384) :
    TC.ehArr (F := Ideal) A (ix1 b) = Spec.exitHead A b := by
  show k0_pay3 (k0_pay7 (F := Ideal) (inBlock A 0 (TC.tOf b))) (k0_pay9 (F := Ideal) (inBlock A 1 (TC.tOf b)))
      (k0_pay11 (F := Ideal) (inBlock A 2 (TC.tOf b))) k0_pay12 (ix1 (TC.rOf b)) = _
  rw [ehBlk_inBlock, sample_tOf_rOf]

theorem eh_exit (A : S4x16384x1000.Idx → EReal) :
    TC.ehArr (F := Ideal) A = fun i => Spec.exitHead A (i 0) := by
  funext i
  obtain ⟨b, rfl⟩ : ∃ b : Fin 16384, i = ix1 b := ⟨i 0, eq_ix1 i⟩
  exact ehArr_apply A b

/-- The routed row index of a sample, as a number: exit head * 16384 + sample. -/
theorem ridxArr_toNat (A : S4x16384x1000.Idx → EReal) (b : Fin 16384) :
    (TC.ridxArr (F := Ideal) A (ix1 b)).toNat = (Spec.exitFin A b).val * 16384 + b.val := by
  show (k0_pay5 (BitVec.ofNat 32 (TC.tOf b).val) (k0_pay7 (F := Ideal) (inBlock A 0 (TC.tOf b)))
      (k0_pay9 (F := Ideal) (inBlock A 1 (TC.tOf b))) (k0_pay11 (F := Ideal) (inBlock A 2 (TC.tOf b))) k0_pay12
      (ix1 (TC.rOf b))).toNat = _
  rw [ridxBlk_toNat, sample_tOf_rOf]

/-- The early-exit logits of a sample: the row of its exit head, of head 2 at exit head 3. -/
theorem pArr_apply (A : S4x16384x1000.Idx → EReal) (b : Fin 16384) (c : Fin 1000) :
    TC.pArr (F := Ideal) A (ix2 b c) = A (ix3 (keepHead (Spec.exitFin A b)) b c) := by
  show k0_pay4 (k0_pay6 (inBlock A 0 (TC.tOf b))) (k0_pay7 (F := Ideal) (inBlock A 0 (TC.tOf b)))
      (k0_pay8 (inBlock A 1 (TC.tOf b))) (k0_pay9 (F := Ideal) (inBlock A 1 (TC.tOf b)))
      (k0_pay10 (inBlock A 2 (TC.tOf b))) (k0_pay11 (F := Ideal) (inBlock A 2 (TC.tOf b))) k0_pay12
      (ix2 (TC.rOf b) c) = _
  rw [pBlk_inBlock, sample_tOf_rOf]

/-- The routing task's result is the specification's routed logits. -/
theorem out_routed (A : S4x16384x1000.Idx → EReal) :
    outSpec (F := Ideal) (shapeCast S65536x1000 A shapeCasts_S4x16384x1000_S65536x1000)
      (TC.pArr (F := Ideal) A) (TC.ridxArr (F := Ideal) A) = Spec.routed A := by
  funext i
  obtain ⟨b, c, rfl⟩ : ∃ (b : Fin 16384) (c : Fin 1000), i = ix2 b c := ⟨i 0, i 1, eq_ix2 i⟩
  have hn := ridxArr_toNat A b
  have hlt := exitFin_row_lt A b
  have hwlt : (TC.ridxArr (F := Ideal) A (ix1 b)).toNat < 65536 := by rw [hn]; exact hlt
  show (if routeCond (TC.ridxArr (F := Ideal) A (ix1 b)) = 1#1
      then shapeCast S65536x1000 A shapeCasts_S4x16384x1000_S65536x1000 (tabIx (TC.ridxArr (F := Ideal) A (ix1 b)) c)
      else TC.pArr (F := Ideal) A (ix2 b c)) = _
  rw [← routed_of_parts A b c hlt, pArr_apply]
  by_cases h : 49152 ≤ (Spec.exitFin A b).val * 16384 + b.val
  · rw [if_pos h, if_pos ((routeCond_iff _ hwlt).2 (by rw [hn]; exact h))]
    refine congrArg _ ?_
    unfold tabIx
    refine congrArg (fun r => ix2 r c) (Fin.ext ?_)
    show (TC.ridxArr (F := Ideal) A (ix1 b)).toNat % 65536 = (Spec.exitFin A b).val * 16384 + b.val
    rw [hn]; exact Nat.mod_eq_of_lt hlt
  · rw [if_neg h, if_neg (fun hc => h (by rw [← hn]; exact (routeCond_iff _ hwlt).1 hc))]

/-- The 65536-row view of the logits is what the program's reshape leaves in its result. -/
theorem reshape_v1_result {Val : EltTy → Type} (Fv : Valuation τ sig Val) :
    (StableHlo.reshape main_arg0 main_v1 rfl shapeCasts_S4x16384x1000_S65536x1000 : HloOp τ sig Val).result Fv main_v1
      = shapeCast S65536x1000 (Fv main_arg0) shapeCasts_S4x16384x1000_S65536x1000 :=
  (StableHlo.reshape_result main_arg0 main_v1 rfl shapeCasts_S4x16384x1000_S65536x1000 ⟨by decide, rfl⟩ ⟨by decide, rfl⟩ Fv).trans rfl

end Cert.KernelIdeal.Route.Tile
-- ==== Proof.RouteLaunchI.lean ====
/-
  The routing program at the ideal instance: its frame, and its run with the results named by the specification —
  the routed logits (each sample's row at the head it leaves at) and the exit heads.
-/
import proofs.«215259_g58411555225873_cont_9to1_m_859_22_alg».proof.Proof.RouteLaunch
import proofs.«215259_g58411555225873_cont_9to1_m_859_22_alg».proof.Proof.RouteOutIdeal

noncomputable section

namespace Cert.KernelIdeal.Route.Launch

open Cert.KernelIdeal Cert.KernelIdeal.Gen Cert.KernelIdeal.Route.Tile

open Idealize.ShloMosaic Idealize.ShloMosaic.TcCoe
open Idealize.ShloMosaic.SparseCore (S V T)
open Idealize.SL Idealize.SL.Sem

/-- The frame claim of the idealized kernel: it runs from any launch memory and leaves the logits unchanged. -/
theorem frame_ki (htile : TileBody (F := Ideal)) : Cert.frame_KernelIdeal := fun m ρ _ =>
  (θ_run Cert.KernelIdeal.defs _ _).mono (fun _ h c => h c) (run (F := Ideal) htile m ρ)

/-- The table the routing kernel reads is the logits in row-major order at 65536 rows. -/
theorem tab0_eq (m : (ℓ : Loc nD τ sig) → Buf (Elt Ideal) ℓ) (d : Dev nD) :
    tab0 (F := Ideal) m d = shapeCast S65536x1000 (m (aLoc d)) shapeCasts_S4x16384x1000_S65536x1000 :=
  reshape_v1_result (V0 m d)

/-- The idealized kernel's run with its results named: the routed logits and the exit heads of the specification, the
    logits unchanged — given one task's obligation at value strength for the routed result's function. -/
theorem run_main_val (htile : TileBodyV (F := Ideal) (fun _ Tb Pc R => outSpec Tb Pc R))
    (m : (ℓ : Loc nD τ sig) → Buf (Elt Ideal) ℓ) (ρ : Dev nD → PrngReg)
    (hfin : ∀ (c : Dev nD) (i : S4x16384x1000.Idx), ∃ r : ℝ,
      (m ((c.tc : Thread nD τ).loc main_arg0) : FVec Ideal S4x16384x1000 .f32) i = (r : EReal)) :
    θ_run (Cert.KernelIdeal.defs (F := Ideal)) (Cert.KernelIdeal.threads (F := Ideal)) ⟨m, fun _ => 0, ρ⟩
      (fun r => ∀ c : Dev nD,
        r.2.mem ((c.tc : Thread nD τ).loc main_v2) = Cert.Route.Spec.routed (m ((c.tc : Thread nD τ).loc main_arg0))
        ∧ r.2.mem ((c.tc : Thread nD τ).loc main_v0_0) = (fun i => Cert.Route.Spec.exitHead (m ((c.tc : Thread nD τ).loc main_arg0)) (i 0))
        ∧ r.2.mem ((c.tc : Thread nD τ).loc main_arg0) = m ((c.tc : Thread nD τ).loc main_arg0)) :=
  (θ_run Cert.KernelIdeal.defs _ _).mono
    (fun _ h c => ⟨(h c).1.trans ((congrArg (fun T => outSpec (F := Ideal) T (p0 m c) (r0 m c)) (tab0_eq m c)).trans (out_routed _)),
      (h c).2.1.trans (eh_exit _), (h c).2.2⟩)
    (runV (F := Ideal) m ρ (fun _ Tb Pc R => outSpec Tb Pc R) htile)

end Cert.KernelIdeal.Route.Launch

end
-- ==== Proof.RouteBaseK.lean ====
/-
  The routing program as the SparseCore launch theorem sees it: its configuration, and the ghost state — the launch
  handshakes' rounds, the TensorCore pipeline's staging cells' rounds, and the local transfers' counters.
-/
import proofs.«215259_g58411555225873_cont_9to1_m_859_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«215259_g58411555225873_cont_9to1_m_859_22_alg».proof.Proof.Gen.Kernel
import proofs.«215259_g58411555225873_cont_9to1_m_859_22_alg».proof.Proof.Gen.Kernel.Skeleton

noncomputable section

namespace Cert.Kernel.Route.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The TensorCore pipeline's staging cells live in a rounds algebra of their own. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds algebra, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Kernel.Route.Tile

end
-- ==== Proof.RouteTaskK.lean ====
/-
  One routing task's thread and buffers, and what the task is handed and hands back: a read share of the whole table,
  and its own 512 rows of the row indices, of the early-exit rows and of the result, on the slices the body makes.
-/
import proofs.«215259_g58411555225873_cont_9to1_m_859_22_alg».proof.Proof.RouteBaseK

noncomputable section

namespace Cert.Kernel.Route.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## One task: its thread and its buffers -/

variable (d : Dev nD) (L : grid1.Coords)

abbrev cV (L : grid1.Coords) : Fin τ.nSC := (L 0).castLE hcore1
abbrev jV (L : grid1.Coords) : Fin τ.nSub := (L 1).castLE hsub1

-- the kernel's memrefs, spelt as the body table passes them
local notation "tabW" => (Memref.whole Cert.Kernel.main_v1_scv : Memref Cert.Kernel.sig Kind.scVector Space.hbm Cert.Kernel.S65536x1000 EltTy.f32)
local notation "pW" => (Memref.whole Cert.Kernel.main_v0_2_scv : Memref Cert.Kernel.sig Kind.scVector Space.hbm Cert.Kernel.S16384x1000 EltTy.f32)
local notation "rW" => (Memref.whole Cert.Kernel.main_v0_1_scv : Memref Cert.Kernel.sig Kind.scVector Space.hbm Cert.Kernel.S16384 EltTy.i32)
local notation "oW" => (Memref.whole Cert.Kernel.main_v2_scv : Memref Cert.Kernel.sig Kind.scVector Space.hbm Cert.Kernel.S16384x1000 EltTy.f32)

abbrev tabLoc (d : Dev nD) : Loc nD τ sig := (SparseCore.T d).loc main_v1
abbrev pLoc (d : Dev nD) : Loc nD τ sig := (SparseCore.T d).loc main_v0_2
abbrev rLoc (d : Dev nD) : Loc nD τ sig := (SparseCore.T d).loc main_v0_1
abbrev oLoc (d : Dev nD) : Loc nD τ sig := (SparseCore.T d).loc main_v2

/-- The task's 512 row indices, its 512 early-exit rows and its 512 result rows, as the body slices them. -/
abbrev rSl (L : grid1.Coords) : Memref sig .scVector .hbm S512 .i32 := (rW).slice (Rect.unit (s := S16384) (k1_off1 L) S512.size (k1_off1_inb L)) (fun _ => rfl)
abbrev pSl (L : grid1.Coords) : Memref sig .scVector .hbm S512x1000 .f32 := (pW).slice (Rect.unit (s := S16384x1000) (k1_off2 L) S512x1000.size (k1_off2_inb L)) (fun _ => rfl)
abbrev oSl (L : grid1.Coords) : Memref sig .scVector .hbm S512x1000 .f32 := (oW).slice (Rect.unit (s := S16384x1000) (k1_off2 L) S512x1000.size (k1_off2_inb L)) (fun _ => rfl)

abbrev thr (d : Dev nD) (L : grid1.Coords) : Thread nD τ := V d (cV L) (jV L)

abbrev cIcell (d : Dev nD) (L : grid1.Coords) : GSem nD τ sig := (thr d L, .dma cc1_scoped0.sem)
abbrev cBcell (d : Dev nD) (L : grid1.Coords) : GSem nD τ sig := (thr d L, .dma cc1_scratch1.sem)
abbrev cRcell (d : Dev nD) (L : grid1.Coords) : GSem nD τ sig := (thr d L, .dma cc1_scratch2.sem)

/-! ## What a task is handed -/

variable [FloatOps F]

/-- Every row index the task reads names a row of the table. -/
def RowsOK (R : Buf (Elt F) (rLoc d)) : Prop := ∀ j, (R j).toNat < 65536

/-- What one task is handed and hands back: a read share of the whole table, its 512 early-exit rows, its 512 row
    indices (each naming a table row) and its 512 result rows, the last three on exactly the slices the body makes. -/
def tileRes (q : PosShare TreeShare) : sProp 𝕄 :=
  iprop((∃ Tb, (tabW).view.loc (thr d L) ↦{q} Tb)
    ∗ (∃ Pc, (pSl L).view.loc (thr d L) ↦[(pSl L).view.set]{fullShare} Pc)
    ∗ (∃ R, ⌜RowsOK (F := F) d R⌝ ∗ (rSl L).view.loc (thr d L) ↦[(rSl L).view.set]{fullShare} R)
    ∗ (∃ f, (oSl L).view.loc (thr d L) ↦[(oSl L).view.set]{fullShare} f))

end Cert.Kernel.Route.Tile

end
-- ==== Proof.ConfBodyK.lean ====
/-
  The confidence kernel's body on one grid point.

  The body loads three input blocks of logits (heads 0, 1, 2 at one block of 1024 samples), computes per head
  whether the softmax confidence reaches the threshold, and stores three results whole: the exit head of each
  sample, the routed row index of each sample, and the logits of the chosen head. Here it is run once on symbolic
  staging buffers: the inputs are left as they were, and each output buffer holds the corresponding pure payload
  term of the three input blocks (and, for the row index, of the grid coordinate).
-/
import proofs.«215259_g58411555225873_cont_9to1_m_859_22_alg».proof.Proof.Gen.Kernel.Launch
import proofs.«215259_g58411555225873_cont_9to1_m_859_22_alg».proof.Proof.Gen.Kernel.Skeleton
import proofs.«215259_g58411555225873_cont_9to1_m_859_22_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.TC

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body leaves, as functions of the three input blocks -/

/-- The exit head of each sample of the block: the first head whose confidence reaches the threshold, else 3. -/
def ehBlk (b0 b1 b2 : Vec F S1x1024x1000 .f32) : IVec S1024 32 :=
  k0_pay3 (k0_pay7 b0) (k0_pay9 b1) (k0_pay11 b2) k0_pay12

/-- The routed row of each sample: exit head times 16384, plus the block's first sample, plus the sample's place. -/
def ridxBlk (a0 : BitVec 32) (b0 b1 b2 : Vec F S1x1024x1000 .f32) : IVec S1024 32 :=
  k0_pay5 a0 (k0_pay7 b0) (k0_pay9 b1) (k0_pay11 b2) k0_pay12

/-- The logits of the chosen head (head 2's where no head exits). -/
def pBlk (b0 b1 b2 : Vec F S1x1024x1000 .f32) : FVec F S1024x1000 .f32 :=
  k0_pay4 (k0_pay6 b0) (k0_pay7 b0) (k0_pay8 b1) (k0_pay9 b1) (k0_pay10 b2) (k0_pay11 b2) k0_pay12

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-! ## The body's triple -/

set_option maxHeartbeats 1000000 in
/-- On whole staging memrefs, the inputs' at contents `x0 x1 x2` and the outputs' at anything, the body at grid
    coordinates `i` runs to the continuation holding the inputs as they were and the outputs at the three payloads. -/
theorem sound_kernel (𝒱₀ : Variants) (c : Dev nD) (E : Set Name) (i : grid0.Coords)
    (arg1 : Memref sig .tc .vmem S1x1024x1000 .f32) (harg1 : arg1.IsWhole)
    (arg2 : Memref sig .tc .vmem S1x1024x1000 .f32) (harg2 : arg2.IsWhole)
    (arg3 : Memref sig .tc .vmem S1x1024x1000 .f32) (harg3 : arg3.IsWhole)
    (arg4 : Memref sig .tc .vmem S1024 .i32) (harg4 : arg4.IsWhole)
    (arg5 : Memref sig .tc .vmem S1024 .i32) (harg5 : arg5.IsWhole)
    (arg6 : Memref sig .tc .vmem S1024x1000 .f32) (harg6 : arg6.IsWhole)
    (x0 x1 x2 : Vec F S1x1024x1000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (ehBlk x0 x1 x2)
            ∗ owns (c : Thread nD τ) arg5 fullShare (ridxBlk (BitVec.ofNat 32 (i 0).val) x0 x1 x2)
            ∗ owns (c : Thread nD τ) arg6 fullShare (pBlk x0 x1 x2)) -∗ K ⟨⟩))
      ⊢ wp frame (wpE (defs₀ (F := F)) 𝒱₀ c none) E (cc0__conf_body i arg1 harg1 arg2 harg2 arg3 harg3 arg4 harg4 arg5 harg5 arg6 harg6) K := by
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
  subst hf0; subst hf1; subst hf2
  sl_unfold [cc0__conf_body, k0_part1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr; swap; · iexact H4
    ipureintro
    rw [View.read_writes_eq_canon _ _ _ (fun y => ⟨_, List.mem_singleton_self _, View.mem_set_unit_zero hz1 inb_S1024_S1024_0 y⟩), View.canon_unit_zero hz1]
    sl_unfold_words
    simp only [View.readAt_eq_ld, View.ld_unit_zero (S := S1x1024x1000) hz3]
    rfl
  isplitl [H5]
  · iexists _; isplitr; swap; · iexact H5
    ipureintro
    rw [View.read_writes_eq_canon _ _ _ (fun y => ⟨_, List.mem_singleton_self _, View.mem_set_unit_zero hz1 inb_S1024_S1024_0 y⟩), View.canon_unit_zero hz1]
    sl_unfold_words
    simp only [View.readAt_eq_ld, View.ld_unit_zero (S := S1x1024x1000) hz3]
    rfl
  · iexists _; isplitr; swap; · iexact H6
    ipureintro
    rw [View.read_writes_eq_canon _ _ _ (fun y => ⟨_, List.mem_singleton_self _, View.mem_set_unit_zero hz2 inb_S1024x1000_S1024x1000_0_0 y⟩), View.canon_unit_zero hz2]
    sl_unfold_words
    simp only [View.readAt_eq_ld, View.ld_unit_zero (S := S1x1024x1000) hz3]
    rfl

end Cert.Kernel.TC

end
-- ==== Proof.ConfDataK.lean ====
/-
  The confidence kernel as a pipeline: the proof data of its one pipeline and the body obligation at a symbolic
  grid point.

  The grid has 16 points; point t stages block t (samples 1024 t … 1024 t + 1023) of heads 0, 1, 2 of the logits,
  all three windows over the one argument array, and writes back block t of the three results.
-/
import proofs.«215259_g58411555225873_cont_9to1_m_859_22_alg».proof.Proof.ConfBodyK
import Idealize.ShloMosaic.Lib.Pipeline.Kit
import Idealize.ShloMosaic.Lib.Pipeline.Value

set_option maxRecDepth 16384

noncomputable section

namespace Cert.Kernel.TC

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

/-! ## The windows' blocks and the proof data -/

/-- The TensorCore's arrays as the region finds them. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid coordinate at point `t`, as the word the body receives. -/
abbrev a0At (t : Fin cfg0.N) : BitVec 32 := BitVec.ofNat 32 ((grid0.coords t) 0).val

/-- The proof data on core `c`: the arrays as found; after the body each input's buffer at its block and each
    output's at its payload of the three input blocks; the invariant the scoped buffers no window stages; the three
    input windows share the argument array, at three disjoint shares; the core owes `O c` throughout. -/
def dats (_ : Fin 1) (c : Dev nD) : Dat τ (Elt F) Ix Name U Lvl cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ehBlk (iblk m c 0 t) (iblk m c 1 t) (iblk m c 2 t)
    | ⟨4, _⟩ => ridxBlk (a0At t) (iblk m c 0 t) (iblk m c 1 t) (iblk m c 2 t)
    | ⟨5, _⟩ => pBlk (iblk m c 0 t) (iblk m c 1 t) (iblk m c 2 t)
  Φ _ := Pipeline.scopedRest spec0 c
  q w := match w with
    | ⟨0, _⟩ => fullShare.left.left
    | ⟨1, _⟩ => fullShare.left.right
    | ⟨2, _⟩ => fullShare.right
    | ⟨3, _⟩ => fullShare
    | ⟨4, _⟩ => fullShare
    | ⟨5, _⟩ => fullShare
  owed _ := O c
  recorded _ := B c

local notation "𝔡" => dats (Name := Name) (U := U) (Lvl := Lvl) m O B 0

theorem A_eq (c : Dev nD) (w : Fin cfg0.W) : (𝔡 c).A w = V m c (Pipeline.arrRef spec0 w) := by
  dsimp only [dats]

theorem after0_0 (c : Dev nD) (t : Fin cfg0.N) : (𝔡 c).after 0 t = iblk m c 0 t := by dsimp only [dats]
theorem after0_1 (c : Dev nD) (t : Fin cfg0.N) : (𝔡 c).after 1 t = iblk m c 1 t := by dsimp only [dats]
theorem after0_2 (c : Dev nD) (t : Fin cfg0.N) : (𝔡 c).after 2 t = iblk m c 2 t := by dsimp only [dats]
theorem after0_3 (c : Dev nD) (t : Fin cfg0.N) :
    (𝔡 c).after 3 t = ehBlk (iblk m c 0 t) (iblk m c 1 t) (iblk m c 2 t) := by dsimp only [dats]
theorem after0_4 (c : Dev nD) (t : Fin cfg0.N) :
    (𝔡 c).after 4 t = ridxBlk (a0At t) (iblk m c 0 t) (iblk m c 1 t) (iblk m c 2 t) := by dsimp only [dats]
theorem after0_5 (c : Dev nD) (t : Fin cfg0.N) :
    (𝔡 c).after 5 t = pBlk (iblk m c 0 t) (iblk m c 1 t) (iblk m c 2 t) := by dsimp only [dats]

/-- Each input's current staging buffer holds its block at every point. -/
theorem before0_0 (c : Dev nD) (t : Fin cfg0.N) (d) : (𝔡 c).before 0 t d = iblk m c 0 t :=
  ((𝔡 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (𝔡 c).before 1 t d = iblk m c 1 t :=
  ((𝔡 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (𝔡 c).before 2 t d = iblk m c 2 t :=
  ((𝔡 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (c : Dev nD) (t : Fin cfg0.N) : sProp 𝕄 :=
  iprop((𝔡 c).Φ t.castSucc ∗ (𝔡 c).owesAt ι t.castSucc
    ∗ (∃ d, owns (c : Thread nD τ) (st0_0 t) fullShare ((𝔡 c).before 0 t d))
    ∗ (∃ d, owns (c : Thread nD τ) (st0_1 t) fullShare ((𝔡 c).before 1 t d))
    ∗ (∃ d, owns (c : Thread nD τ) (st0_2 t) fullShare ((𝔡 c).before 2 t d))
    ∗ (∃ d, owns (c : Thread nD τ) (st0_3 t) fullShare ((𝔡 c).before 3 t d))
    ∗ (∃ d, owns (c : Thread nD τ) (st0_4 t) fullShare ((𝔡 c).before 4 t d))
    ∗ (∃ d, owns (c : Thread nD τ) (st0_5 t) fullShare ((𝔡 c).before 5 t d)))

/-- and what it returns. -/
def bodyPost (c : Dev nD) (t : Fin cfg0.N) : sProp 𝕄 :=
  iprop((𝔡 c).Φ t.succ ∗ (𝔡 c).owesAt ι t.succ
    ∗ owns (c : Thread nD τ) (st0_0 t) fullShare ((𝔡 c).after 0 t)
    ∗ owns (c : Thread nD τ) (st0_1 t) fullShare ((𝔡 c).after 1 t)
    ∗ owns (c : Thread nD τ) (st0_2 t) fullShare ((𝔡 c).after 2 t)
    ∗ owns (c : Thread nD τ) (st0_3 t) fullShare ((𝔡 c).after 3 t)
    ∗ owns (c : Thread nD τ) (st0_4 t) fullShare ((𝔡 c).after 4 t)
    ∗ owns (c : Thread nD τ) (st0_5 t) fullShare ((𝔡 c).after 5 t))

/-- The body at any point: the inputs' buffers hold their blocks, so the body's triple applies; the invariant and
    the core's debts pass through unread. -/
theorem sound_body (𝒱₀ : Variants) (c : Dev nD) (t : Fin cfg0.N) :
    (bodyPre (Name := Name) (U := U) (Lvl := Lvl) m O B ι c t : sProp 𝕄) ⊢ wp frame (wpE (defs₀ (F := F)) 𝒱₀ c none) Set.univ (bodyAt0 t) (fun _ => bodyPost (Name := Name) (U := U) (Lvl := Lvl) m O B ι c t) := by
  unfold bodyPre bodyPost bodyAt0
  simp only [before0_0, before0_1, before0_2]
  rw [show (𝔡 c).Φ t.succ = (𝔡 c).Φ t.castSucc from rfl,
    show (𝔡 c).owesAt ι t.succ = (𝔡 c).owesAt ι t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (𝒱₀ : Variants) (c : Dev nD) :
    BodyObligation (𝔡 c) (defs₀ (F := F)) 𝒱₀ ι Set.univ := fun t => by
  rw [bigSep_W0, bigSep_W0]
  exact sound_body (Name := Name) (U := U) (Lvl := Lvl) m O B ι 𝒱₀ c t

/-- The pipeline's arrays, one by one: the argument array three times, at the three windows' shares, and the results. -/
theorem arrays_eq6 (c : Dev nD) (G : (w : Fin cfg0.W) → Buf (Elt F) ((cfg0.win w).arr.view.loc (c : Thread nD τ))) :
    ((𝔡 c).arrays G : sProp 𝕄)
      = iprop((((c : Thread nD τ).loc main_arg0) ↦{fullShare.left.left} G 0) ∗ (((c : Thread nD τ).loc main_arg0) ↦{fullShare.left.right} G 1)
          ∗ (((c : Thread nD τ).loc main_arg0) ↦{fullShare.right} G 2) ∗ (((c : Thread nD τ).loc main_v0_0) ↦{fullShare} G 3)
          ∗ (((c : Thread nD τ).loc main_v0_1) ↦{fullShare} G 4) ∗ (((c : Thread nD τ).loc main_v0_2) ↦{fullShare} G 5)) := by
  unfold Dat.arrays
  rw [bigSep_W0]
  rw [(arr_whole0 0).set_eq_univ, (arr_whole0 3).set_eq_univ, (arr_whole0 4).set_eq_univ, (arr_whole0 5).set_eq_univ]
  rfl

end Cert.Kernel.TC

end
-- ==== Proof.ConfFinalK.lean ====
/-
  From blocks to arrays: each result of the confidence kernel as one function of the logits.
-/
import proofs.«215259_g58411555225873_cont_9to1_m_859_22_alg».proof.Proof.ConfDataK
import Idealize.ShloMosaic.Lib.ValueIdx

set_option maxRecDepth 16384

noncomputable section

namespace Cert.Kernel.TC

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

local notation "𝔡" => dats (Name := Name) (U := U) (Lvl := Lvl) m O B 0

/-! ## From blocks to the arrays

Point `t` writes back block `t` of each result, and the three input windows stage block `t` of heads 0, 1, 2. So
each result array is ONE function of the logits: at sample `j`, the payload of the three blocks of point
`j / 1024`, at place `j % 1024` within the block. -/

open Idealize.ShloMosaic.ValueIdx

/-- The printed index maps, decided over the grid. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 3) = 2 ∧ win0_2.index t (1 : Fin 3) = t.val ∧ win0_2.index t (2 : Fin 3) = 0
    ∧ win0_3.index t (0 : Fin 1) = t.val ∧ win0_4.index t (0 : Fin 1) = t.val
    ∧ win0_5.index t (0 : Fin 2) = t.val ∧ win0_5.index t (1 : Fin 2) = 0
    ∧ ((grid0.coords t) 0).val = t.val :=
  (by decide +kernel : ∀ t : Fin grid0.N, _)

/-- A grid point as a number below 16. -/
def tN (t : Fin cfg0.N) : Fin 16 := ⟨t.val, by have h := t.isLt; have e : cfg0.N = 16 := N_0; omega⟩

/-- Block `t` of head `h` of the logits: samples `1024 t … 1024 t + 1023`, as the body loads it. -/
def inBlk (A : S4x16384x1000.Idx → Elt F .f32) (h : Fin 4) (t : Fin 16) : Vec F S1x1024x1000 .f32 :=
  fun y => A (ix3 h (⟨t.val * 1024 + (y 1).val, by have h1 : (y 1).val < 1024 := (y 1).isLt; have := t.isLt; omega⟩ : Fin 16384) (⟨(y 2).val, (y 2).isLt⟩ : Fin 1000))

/-- The block of a sample and its place within the block. -/
def tOf (j : Fin 16384) : Fin 16 := ⟨j.val / 1024, by have := j.isLt; omega⟩
def rOf (j : Fin 16384) : Fin 1024 := ⟨j.val % 1024, Nat.mod_lt _ (by decide)⟩

/-- The exit heads of all samples, -/
def ehArr (A : S4x16384x1000.Idx → Elt F .f32) : S16384.Idx → Elt F .i32 := fun j =>
  ehBlk (inBlk A 0 (tOf ⟨(j 0).val, (j 0).isLt⟩)) (inBlk A 1 (tOf ⟨(j 0).val, (j 0).isLt⟩)) (inBlk A 2 (tOf ⟨(j 0).val, (j 0).isLt⟩))
    (ix1 (rOf ⟨(j 0).val, (j 0).isLt⟩))

/-- their routed rows, -/
def ridxArr (A : S4x16384x1000.Idx → Elt F .f32) : S16384.Idx → Elt F .i32 := fun j =>
  ridxBlk (BitVec.ofNat 32 (tOf ⟨(j 0).val, (j 0).isLt⟩).val)
    (inBlk A 0 (tOf ⟨(j 0).val, (j 0).isLt⟩)) (inBlk A 1 (tOf ⟨(j 0).val, (j 0).isLt⟩)) (inBlk A 2 (tOf ⟨(j 0).val, (j 0).isLt⟩))
    (ix1 (rOf ⟨(j 0).val, (j 0).isLt⟩))

/-- and the logits of the chosen heads. -/
def pArr (A : S4x16384x1000.Idx → Elt F .f32) : S16384x1000.Idx → Elt F .f32 := fun j =>
  pBlk (inBlk A 0 (tOf ⟨(j 0).val, (j 0).isLt⟩)) (inBlk A 1 (tOf ⟨(j 0).val, (j 0).isLt⟩)) (inBlk A 2 (tOf ⟨(j 0).val, (j 0).isLt⟩))
    (ix2 (rOf ⟨(j 0).val, (j 0).isLt⟩) (⟨(j 1).val, (j 1).isLt⟩ : Fin 1000))

/-- Sample `1024 t + r` reads block `t` at place `r`. -/
theorem ehArr_at (A : S4x16384x1000.Idx → Elt F .f32) (t : Fin 16) (r : Fin 1024) (j : S16384.Idx)
    (hj : (j 0).val = t.val * 1024 + r.val) :
    ehArr A j = ehBlk (inBlk A 0 t) (inBlk A 1 t) (inBlk A 2 t) (ix1 r) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  unfold ehArr; rw [ht, hr]

theorem ridxArr_at (A : S4x16384x1000.Idx → Elt F .f32) (t : Fin 16) (r : Fin 1024) (j : S16384.Idx)
    (hj : (j 0).val = t.val * 1024 + r.val) :
    ridxArr A j = ridxBlk (BitVec.ofNat 32 t.val) (inBlk A 0 t) (inBlk A 1 t) (inBlk A 2 t) (ix1 r) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  unfold ridxArr; rw [ht, hr]

theorem pArr_at (A : S4x16384x1000.Idx → Elt F .f32) (t : Fin 16) (r : Fin 1024) (k : Fin 1000) (j : S16384x1000.Idx)
    (hj : (j 0).val = t.val * 1024 + r.val) (hk : (j 1).val = k.val) :
    pArr A j = pBlk (inBlk A 0 t) (inBlk A 1 t) (inBlk A 2 t) (ix2 r k) := by
  have ht : tOf ⟨(j 0).val, (j 0).isLt⟩ = t := Fin.ext (by show (j 0).val / 1024 = t.val; have := r.isLt; omega)
  have hr : rOf ⟨(j 0).val, (j 0).isLt⟩ = r := Fin.ext (by show (j 0).val % 1024 = r.val; have := r.isLt; omega)
  have hk' : (⟨(j 1).val, (j 1).isLt⟩ : Fin 1000) = k := Fin.ext hk
  unfold pArr; rw [ht, hr, hk']

/-- The three input windows' blocks at point `t` are blocks `t` of heads 0, 1, 2. -/
theorem iblk0_eq (c : Dev nD) (t : Fin cfg0.N) : iblk m c 0 t = inBlk (V m c main_arg0) 0 (tN t) := by
  obtain ⟨e0, e1, e2, -⟩ := idx_facts t
  funext y
  show V m c main_arg0 (((cfg0.win 0).blk t).view.emb y) = V m c main_arg0 _
  congr 1
  funext a; apply Fin.ext
  match a with
  | ⟨0, _⟩ => show win0_0.index t (0 : Fin 3) * 1 + 1 * (y 0).val = 0; have hy : (y 0).val < 1 := (y 0).isLt; omega
  | ⟨1, _⟩ => show win0_0.index t (1 : Fin 3) * 1024 + 1 * (y 1).val = t.val * 1024 + (y 1).val; omega
  | ⟨2, _⟩ => show win0_0.index t (2 : Fin 3) * 1000 + 1 * (y 2).val = (y 2).val; omega

theorem iblk1_eq (c : Dev nD) (t : Fin cfg0.N) : iblk m c 1 t = inBlk (V m c main_arg0) 1 (tN t) := by
  obtain ⟨-, -, -, e0, e1, e2, -⟩ := idx_facts t
  funext y
  show V m c main_arg0 (((cfg0.win 1).blk t).view.emb y) = V m c main_arg0 _
  congr 1
  funext a; apply Fin.ext
  match a with
  | ⟨0, _⟩ => show win0_1.index t (0 : Fin 3) * 1 + 1 * (y 0).val = 1; have hy : (y 0).val < 1 := (y 0).isLt; omega
  | ⟨1, _⟩ => show win0_1.index t (1 : Fin 3) * 1024 + 1 * (y 1).val = t.val * 1024 + (y 1).val; omega
  | ⟨2, _⟩ => show win0_1.index t (2 : Fin 3) * 1000 + 1 * (y 2).val = (y 2).val; omega

theorem iblk2_eq (c : Dev nD) (t : Fin cfg0.N) : iblk m c 2 t = inBlk (V m c main_arg0) 2 (tN t) := by
  obtain ⟨-, -, -, -, -, -, e0, e1, e2, -⟩ := idx_facts t
  funext y
  show V m c main_arg0 (((cfg0.win 2).blk t).view.emb y) = V m c main_arg0 _
  congr 1
  funext a; apply Fin.ext
  match a with
  | ⟨0, _⟩ => show win0_2.index t (0 : Fin 3) * 1 + 1 * (y 0).val = 2; have hy : (y 0).val < 1 := (y 0).isLt; omega
  | ⟨1, _⟩ => show win0_2.index t (1 : Fin 3) * 1024 + 1 * (y 1).val = t.val * 1024 + (y 1).val; omega
  | ⟨2, _⟩ => show win0_2.index t (2 : Fin 3) * 1000 + 1 * (y 2).val = (y 2).val; omega

/-- What point `t` writes back of the exit heads is block `t` of `ehArr`. -/
theorem flushed3_eq (c : Dev nD) (t : Fin cfg0.N) :
    (𝔡 c).flushed 3 t = ((cfg0.win 3).blk t).view.read (Elt F) (ehArr (V m c main_arg0)) := by
  show (cfg0.win 3).cut (grid0.coords t) ((𝔡 c).after 3 t) = _
  rw [after0_3, iblk0_eq, iblk1_eq, iblk2_eq]
  obtain ⟨-, -, -, -, -, -, -, -, -, e3, -⟩ := idx_facts t
  funext y
  show ehBlk _ _ _ y = ehArr (V m c main_arg0) (((cfg0.win 3).blk t).view.emb y)
  have hy : (y 0).val < 1024 := (y 0).isLt
  rw [ehArr_at (V m c main_arg0) (tN t) ⟨(y 0).val, hy⟩ _
    (by show win0_3.index t (0 : Fin 1) * 1024 + 1 * (y 0).val = t.val * 1024 + (y 0).val; omega)]
  exact congrArg _ (eq_ix1 y)

/-- What it writes back of the routed rows is block `t` of `ridxArr`. -/
theorem flushed4_eq (c : Dev nD) (t : Fin cfg0.N) :
    (𝔡 c).flushed 4 t = ((cfg0.win 4).blk t).view.read (Elt F) (ridxArr (V m c main_arg0)) := by
  show (cfg0.win 4).cut (grid0.coords t) ((𝔡 c).after 4 t) = _
  rw [after0_4, iblk0_eq, iblk1_eq, iblk2_eq]
  obtain ⟨-, -, -, -, -, -, -, -, -, -, e4, -, -, eg⟩ := idx_facts t
  funext y
  show ridxBlk _ _ _ _ y = ridxArr (V m c main_arg0) (((cfg0.win 4).blk t).view.emb y)
  have hy : (y 0).val < 1024 := (y 0).isLt
  rw [ridxArr_at (V m c main_arg0) (tN t) ⟨(y 0).val, hy⟩ _
    (by show win0_4.index t (0 : Fin 1) * 1024 + 1 * (y 0).val = t.val * 1024 + (y 0).val; omega)]
  rw [show a0At t = BitVec.ofNat 32 (tN t).val from congrArg (BitVec.ofNat 32) eg]
  exact congrArg _ (eq_ix1 y)

/-- What it writes back of the chosen logits is block `t` of `pArr`. -/
theorem flushed5_eq (c : Dev nD) (t : Fin cfg0.N) :
    (𝔡 c).flushed 5 t = ((cfg0.win 5).blk t).view.read (Elt F) (pArr (V m c main_arg0)) := by
  show (cfg0.win 5).cut (grid0.coords t) ((𝔡 c).after 5 t) = _
  rw [after0_5, iblk0_eq, iblk1_eq, iblk2_eq]
  obtain ⟨-, -, -, -, -, -, -, -, -, -, -, e5, e6, -⟩ := idx_facts t
  funext y
  show pBlk _ _ _ y = pArr (V m c main_arg0) (((cfg0.win 5).blk t).view.emb y)
  have hy : (y 0).val < 1024 := (y 0).isLt
  have hy1 : (y 1).val < 1000 := (y 1).isLt
  rw [pArr_at (V m c main_arg0) (tN t) ⟨(y 0).val, hy⟩ ⟨(y 1).val, hy1⟩ _
    (by show win0_5.index t (0 : Fin 2) * 1024 + 1 * (y 0).val = t.val * 1024 + (y 0).val; omega)
    (by show win0_5.index t (1 : Fin 2) * 1000 + 1 * (y 1).val = (y 1).val; omega)]
  exact congrArg _ (eq_ix2 y)

/-- An index is in point `t`'s block iff each coordinate is in the block's range on its axis. -/
theorem mem_blk3 (t : Fin cfg0.N) (i : S16384.Idx) :
    i ∈ ((cfg0.win 3).blk t).view.set ↔ ∀ a : Fin 1, win0_3.index t a * S1024.size a ≤ (i a).val ∧ (i a).val < win0_3.index t a * S1024.size a + S1024.size a := by
  show i ∈ ((View.whole main_v0_0).slice (win0_3.rect t)).set ↔ _
  rw [View.set_slice_whole, Rect.mem_set_unit]
  exact Iff.rfl
theorem mem_blk4 (t : Fin cfg0.N) (i : S16384.Idx) :
    i ∈ ((cfg0.win 4).blk t).view.set ↔ ∀ a : Fin 1, win0_4.index t a * S1024.size a ≤ (i a).val ∧ (i a).val < win0_4.index t a * S1024.size a + S1024.size a := by
  show i ∈ ((View.whole main_v0_1).slice (win0_4.rect t)).set ↔ _
  rw [View.set_slice_whole, Rect.mem_set_unit]
  exact Iff.rfl
theorem mem_blk5 (t : Fin cfg0.N) (i : S16384x1000.Idx) :
    i ∈ ((cfg0.win 5).blk t).view.set ↔ ∀ a : Fin 2, win0_5.index t a * S1024x1000.size a ≤ (i a).val ∧ (i a).val < win0_5.index t a * S1024x1000.size a + S1024x1000.size a := by
  show i ∈ ((View.whole main_v0_2).slice (win0_5.rect t)).set ↔ _
  rw [View.set_slice_whole, Rect.mem_set_unit]
  exact Iff.rfl

/-- The point whose block holds sample `n`. -/
def ptOf (n : Nat) (hn : n < 16384) : Fin cfg0.N := ⟨n / 1024, by have e : cfg0.N = 16 := N_0; omega⟩

/-- Every sample is in some point's block. -/
theorem cover3 (i : S16384.Idx) : ∃ t : Fin cfg0.N, (cfg0.win 3).flush t = true ∧ i ∈ ((cfg0.win 3).blk t).view.set := by
  have hi : (i 0).val < 16384 := (i 0).isLt
  refine ⟨ptOf (i 0).val hi, flush0_3 _, ?_⟩
  obtain ⟨-, -, -, -, -, -, -, -, -, e3, -⟩ := idx_facts (ptOf (i 0).val hi)
  rw [mem_blk3]
  intro a
  match a with
  | ⟨0, _⟩ =>
    show win0_3.index (ptOf (i 0).val hi) (0 : Fin 1) * 1024 ≤ (i 0).val ∧ (i 0).val < win0_3.index (ptOf (i 0).val hi) (0 : Fin 1) * 1024 + 1024
    rw [e3]; show (i 0).val / 1024 * 1024 ≤ (i 0).val ∧ (i 0).val < (i 0).val / 1024 * 1024 + 1024; omega
theorem cover4 (i : S16384.Idx) : ∃ t : Fin cfg0.N, (cfg0.win 4).flush t = true ∧ i ∈ ((cfg0.win 4).blk t).view.set := by
  have hi : (i 0).val < 16384 := (i 0).isLt
  refine ⟨ptOf (i 0).val hi, flush0_4 _, ?_⟩
  obtain ⟨-, -, -, -, -, -, -, -, -, -, e4, -⟩ := idx_facts (ptOf (i 0).val hi)
  rw [mem_blk4]
  intro a
  match a with
  | ⟨0, _⟩ =>
    show win0_4.index (ptOf (i 0).val hi) (0 : Fin 1) * 1024 ≤ (i 0).val ∧ (i 0).val < win0_4.index (ptOf (i 0).val hi) (0 : Fin 1) * 1024 + 1024
    rw [e4]; show (i 0).val / 1024 * 1024 ≤ (i 0).val ∧ (i 0).val < (i 0).val / 1024 * 1024 + 1024; omega
theorem cover5 (i : S16384x1000.Idx) : ∃ t : Fin cfg0.N, (cfg0.win 5).flush t = true ∧ i ∈ ((cfg0.win 5).blk t).view.set := by
  have hi : (i 0).val < 16384 := (i 0).isLt
  have hi1 : (i 1).val < 1000 := (i 1).isLt
  refine ⟨ptOf (i 0).val hi, flush0_5 _, ?_⟩
  obtain ⟨-, -, -, -, -, -, -, -, -, -, -, e5, e6, -⟩ := idx_facts (ptOf (i 0).val hi)
  rw [mem_blk5]
  intro a
  match a with
  | ⟨0, _⟩ =>
    show win0_5.index (ptOf (i 0).val hi) (0 : Fin 2) * 1024 ≤ (i 0).val ∧ (i 0).val < win0_5.index (ptOf (i 0).val hi) (0 : Fin 2) * 1024 + 1024
    rw [e5]; show (i 0).val / 1024 * 1024 ≤ (i 0).val ∧ (i 0).val < (i 0).val / 1024 * 1024 + 1024; omega
  | ⟨1, _⟩ =>
    show win0_5.index (ptOf (i 0).val hi) (1 : Fin 2) * 1000 ≤ (i 1).val ∧ (i 1).val < win0_5.index (ptOf (i 0).val hi) (1 : Fin 2) * 1000 + 1000
    rw [e6]; omega

/-- THE RESULTS after the run: one function of the logits each. -/
theorem final3 (c : Dev nD) : (𝔡 c).arrAt 3 cfg0.N = ehArr (V m c main_arg0) :=
  (𝔡 c).arrAt_eq_of_cover 3 (ehArr (V m c main_arg0)) (fun t _ => flushed3_eq m O B c t) cover3
theorem final4 (c : Dev nD) : (𝔡 c).arrAt 4 cfg0.N = ridxArr (V m c main_arg0) :=
  (𝔡 c).arrAt_eq_of_cover 4 (ridxArr (V m c main_arg0)) (fun t _ => flushed4_eq m O B c t) cover4
theorem final5 (c : Dev nD) : (𝔡 c).arrAt 5 cfg0.N = pArr (V m c main_arg0) :=
  (𝔡 c).arrAt_eq_of_cover 5 (pArr (V m c main_arg0)) (fun t _ => flushed5_eq m O B c t) cover5

end Cert.Kernel.TC

end
-- ==== Proof.ConfRegionK.lean ====
/-
  The confidence kernel's region: entered from the four arrays it touches and the core's debts, its sixteen
  points run under the pipeline rule, and it is left with the logits as they were and each result array at one
  function of the logits (exit heads, routed rows, chosen logits).
-/
import proofs.«215259_g58411555225873_cont_9to1_m_859_22_alg».proof.Proof.ConfDataK
import proofs.«215259_g58411555225873_cont_9to1_m_859_22_alg».proof.Proof.ConfFinalK
import Idealize.ShloMosaic.Lib.Pipeline.Regions

set_option maxRecDepth 16384

noncomputable section

namespace Cert.Kernel.TC

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ)
  (O : Dev nD → CellTallies nD τ sig Ix) (B : Dev nD → Set (SemLoc sig × Ix))

local notation "𝔡" => dats (Name := Name) (U := U) (Lvl := Lvl) m O B 0

variable (ι : Ix)

/-! ## The region -/

/-- The prefetched tables' admissible contents: there is no table. -/
abbrev adm : (p : Fin 1) → (pcfgs (F := F) p).Adm := fun p => (cfgs p).toPCfg_adm

variable (𝒱₀ : Variants) (L : GSem nD τ sig → Finset Ix) (lv : GSem nD τ sig → Ix → Lvl)

/-- The four arrays the region touches, on core `c`: the logits at contents `a` and the three results. -/
abbrev arrs (c : Dev nD) (a : Buf (Elt F) ((c : Thread nD τ).loc main_arg0)) (e : Buf (Elt F) ((c : Thread nD τ).loc main_v0_0))
    (r : Buf (Elt F) ((c : Thread nD τ).loc main_v0_1)) (p : Buf (Elt F) ((c : Thread nD τ).loc main_v0_2)) : sProp 𝕄 :=
  iprop((((c : Thread nD τ).loc main_arg0) ↦{fullShare} a) ∗ (((c : Thread nD τ).loc main_v0_0) ↦{fullShare} e)
    ∗ (((c : Thread nD τ).loc main_v0_1) ↦{fullShare} r) ∗ (((c : Thread nD τ).loc main_v0_2) ↦{fullShare} p))

set_option backward.isDefEq.respectTransparency.types false in
/-- The region: entered from the four arrays as found and the core's debts, left with the logits as they were,
    each result at what the write-backs made of it, and the debts unchanged (the loop's own waits recorded). -/
def reg0 (hwait : ∀ (c : Dev nD) (sm : SemLoc sig), (levAts L lv : sProp 𝕄) ⊢ MayWait (c : Thread nD τ) sm ι (O c)) :
    Pipeline.RegionSeg (pcfgs (F := F)) adm (dats (Name := Name) (U := U) (Lvl := Lvl) m O B) ι defs₀ 𝒱₀ L lv 0 where
  win := winFacts₀0
  block_pos := block_pos0
  stage_whole := stage_whole0
  K := PEmpty
  osem := fun k => k.elim
  ho := Pipeline.OwnSemFacts.none _
  hbody c := (body_obligation m O B ι 𝒱₀ c).loose
  hwaits c := Pipeline.cellsWaits_intro _ _ ι 0 c fun w s t => hwait c _
  pre c := iprop(arrs c (V m c main_arg0) (V m c main_v0_0) (V m c main_v0_1) (V m c main_v0_2) ∗ Pipeline.owesWithin c (O c) (B c))
  post c := iprop(arrs c (V m c main_arg0) ((𝔡 c).arrAt 3 cfg0.N) ((𝔡 c).arrAt 4 cfg0.N) ((𝔡 c).arrAt 5 cfg0.N)
    ∗ Pipeline.owesWithin c (O c) (B c ∪ cfg0.waitPairs ι))
  X _ := iprop(emp)
  Y _ := iprop(emp)
  Z _ := iprop(emp)
  hentry c := by
    rw [arrays_eq6]
    unfold arrs
    iintro ⟨⟨⟨Ha, He, Hr, Hp⟩, HO⟩, -, -⟩
    ihave Ha := (pointsTo_share (PosShare.mem_left_op_right fullShare)).1 $$ Ha
    icases Ha with ⟨Hal, Har⟩
    ihave Hal := (pointsTo_share (PosShare.mem_left_op_right fullShare.left)).1 $$ Hal
    icases Hal with ⟨Hall, Halr⟩
    imodintro
    isplitl [Hall Halr Har He Hr Hp]
    · isplitl [Hall]; · iexact Hall
      isplitl [Halr]; · iexact Halr
      isplitl [Har]; · iexact Har
      isplitl [He]; · iexact He
      isplitl [Hr]; · iexact Hr
      iexact Hp
    isplitr; · unfold Pipeline.prefHeld; rw [show (Finset.univ : Finset (Fin 0)) = ∅ from rfl, BI.bigSep_empty]; iempintro
    isplitl [HO]
    · iapply (Pipeline.owesWithin_mono c (O c) (Set.subset_union_left (t := cfg0.waitPairs ι))); iexact HO
    isplitr <;> iempintro
  hin c := by
    rw [show (𝔡 c).Φ 0 = Pipeline.scopedRest spec0 c from rfl]
    iintro ⟨-, -, Hr⟩; iexact Hr
  hout c := by
    rw [Pipeline.ownSems0_none, show (𝔡 c).Φ (Fin.last cfg0.N) = Pipeline.scopedRest spec0 c from rfl]
    iintro Hr
    isplitr; · iempintro
    isplitr; · iempintro
    iexact Hr
  hexit c := by
    rw [arrays_eq6, (𝔡 c).arrAt_in 0 rfl, (𝔡 c).arrAt_in 1 rfl, (𝔡 c).arrAt_in 2 rfl]
    unfold arrs
    iintro ⟨⟨Hall, Halr, Har, He, Hr, Hp⟩, HO, -, -⟩
    ihave Hal := (pointsTo_share (ℓ := (c : Thread nD τ).loc main_arg0) (I := Finset.univ) (f := V m c main_arg0) (PosShare.mem_left_op_right fullShare.left)).2 $$ [Hall Halr]
    · isplitl [Hall]; · iexact Hall
      iexact Halr
    ihave Ha := (pointsTo_share (ℓ := (c : Thread nD τ).loc main_arg0) (I := Finset.univ) (f := V m c main_arg0) (PosShare.mem_left_op_right fullShare)).2 $$ [Hal Har]
    · isplitl [Hal]; · iexact Hal
      iexact Har
    imodintro
    isplitr [HO]
    · isplitl [Ha]; · iexact Ha
      isplitl [He]; · iexact He
      isplitl [Hr]; · iexact Hr
      iexact Hp
    iexact HO

set_option backward.isDefEq.respectTransparency.types false in
/-- The region's run on core `c`, for any continuation: from the region boundary, the level facts, the pipeline's
    ghost cells and duty tokens, the four arrays as found and the core's debts, the region call runs to the
    continuation entered from the boundary, the logits as they were, each result at what the write-backs made of
    it, and the debts (the loop's own waits recorded). -/
theorem region_wp_blocks [∀ e, Nonempty (Elt F e)] [Infinite Name]
    (EP : Emb (URounds (GSem nD τ sig) Unit) (MT nD τ sig Ix (Elt F) Name U Lvl)) [EP.LandsIn (upEmb : UEmb _ 𝕄)]
    (hwait : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop(boundary (c : Thread nD τ) ∗ levAts L lv
        ∗ Pipeline.cellsGhost (Pipeline.pin (pcfgs (F := F)) adm) EP 0 c ∗ Pipeline.toksInit (Pipeline.pin (pcfgs (F := F)) adm) EP 0 c
        ∗ arrs c (V m c main_arg0) (V m c main_v0_0) (V m c main_v0_1) (V m c main_v0_2)
        ∗ Pipeline.owesWithin c (O c) (B c)
        ∗ (iprop(boundary (c : Thread nD τ)
              ∗ arrs c (V m c main_arg0) ((𝔡 c).arrAt 3 cfg0.N) ((𝔡 c).arrAt 4 cfg0.N) ((𝔡 c).arrAt 5 cfg0.N)
              ∗ Pipeline.owesWithin c (O c) (B c ∪ cfg0.waitPairs ι))
            -∗ wp frame (wpE (Pipeline.defs (pcfgs (F := F)) defs₀) (Variants.lift 𝒱₀) (c : Thread nD τ) none) Set.univ (k ⟨⟩) Q))
      ⊢ wp frame (wpE (Pipeline.defs (pcfgs (F := F)) defs₀) (Variants.lift 𝒱₀) (c : Thread nD τ) none) Set.univ
          (.op (.customCall (Pipeline.entry 0) ()) k) Q := by
  iintro ⟨Hbd, #Hla, Hg, Ht, Harr, HO, Hk⟩
  have hR := Pipeline.RegionSeg.wp (pcfgs (F := F)) adm (dats (Name := Name) (U := U) (Lvl := Lvl) m O B) ι cellOf_inj EP defs₀ 𝒱₀ L lv
    (reg0 m O B ι 𝒱₀ L lv hwait) c none (fun u hu => by cases hu) k Q
  rw [show (reg0 m O B ι 𝒱₀ L lv hwait).post c
        = iprop(arrs c (V m c main_arg0) ((𝔡 c).arrAt 3 cfg0.N) ((𝔡 c).arrAt 4 cfg0.N) ((𝔡 c).arrAt 5 cfg0.N)
            ∗ Pipeline.owesWithin c (O c) (B c ∪ cfg0.waitPairs ι)) from rfl,
    show (reg0 m O B ι 𝒱₀ L lv hwait).pre c
        = iprop(arrs c (V m c main_arg0) (V m c main_v0_0) (V m c main_v0_1) (V m c main_v0_2) ∗ Pipeline.owesWithin c (O c) (B c)) from rfl] at hR
  iapply hR
  isplitl [Hk]
  · iintro ⟨Hbd, Hpost⟩
    iapply Hk
    isplitl [Hbd]; · iexact Hbd
    iexact Hpost
  isplitl [Hbd]; · iexact Hbd
  isplitl [Harr HO]
  · isplitl [Harr]; · iexact Harr
    iexact HO
  isplitr; · iexact Hla
  isplitl [Hg]; · iexact Hg
  iexact Ht

/-- The same with each result named as one function of the logits. -/
theorem region_wp [∀ e, Nonempty (Elt F e)] [Infinite Name]
    (EP : Emb (URounds (GSem nD τ sig) Unit) (MT nD τ sig Ix (Elt F) Name U Lvl)) [EP.LandsIn (upEmb : UEmb _ 𝕄)]
    (hwait : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop(boundary (c : Thread nD τ) ∗ levAts L lv
        ∗ Pipeline.cellsGhost (Pipeline.pin (pcfgs (F := F)) adm) EP 0 c ∗ Pipeline.toksInit (Pipeline.pin (pcfgs (F := F)) adm) EP 0 c
        ∗ arrs c (V m c main_arg0) (V m c main_v0_0) (V m c main_v0_1) (V m c main_v0_2)
        ∗ Pipeline.owesWithin c (O c) (B c)
        ∗ (iprop(boundary (c : Thread nD τ)
              ∗ arrs c (V m c main_arg0) (ehArr (V m c main_arg0)) (ridxArr (V m c main_arg0)) (pArr (V m c main_arg0))
              ∗ Pipeline.owesWithin c (O c) (B c ∪ cfg0.waitPairs ι))
            -∗ wp frame (wpE (Pipeline.defs (pcfgs (F := F)) defs₀) (Variants.lift 𝒱₀) (c : Thread nD τ) none) Set.univ (k ⟨⟩) Q))
      ⊢ wp frame (wpE (Pipeline.defs (pcfgs (F := F)) defs₀) (Variants.lift 𝒱₀) (c : Thread nD τ) none) Set.univ
          (.op (.customCall (Pipeline.entry 0) ()) k) Q := by
  have h := region_wp_blocks m O B ι 𝒱₀ L lv EP hwait c k Q
  rw [final3, final4, final5] at h
  exact h

/-- The TensorCore's six arrays, one by one: the four the region touches, and the two it bypasses. -/
theorem unscopedBufs_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1) ∗ (((c : Thread nD τ).loc main_v0_2) ↦{fullShare} W main_v0_2)
          ∗ (((c : Thread nD τ).loc main_v1) ↦{fullShare} W main_v1) ∗ (((c : Thread nD τ).loc main_v2) ↦{fullShare} W main_v2)) := by
  unfold unscopedBufs
  rw [bigSep_eq_bigSepL_of_eq [main_arg0, main_v0_0, main_v0_1, main_v0_2, main_v1, main_v2] (by decide) (by decide)]
  rfl

end Cert.Kernel.TC

end
-- ==== Proof.ConfRegionSCK.lean ====
/-
  The confidence kernel's region as @main meets it inside the SparseCore program: the region call lifted to the
  launch's label table, at the launch's resource algebra, the TensorCore owing the start signals of the later call.
-/
import proofs.«215259_g58411555225873_cont_9to1_m_859_22_alg».proof.Proof.ConfRegionK
import proofs.«215259_g58411555225873_cont_9to1_m_859_22_alg».proof.Proof.RouteBaseK

set_option maxRecDepth 16384

noncomputable section

namespace Cert.Kernel.TC

open Cert.Kernel Cert.Kernel.Gen
open Cert.Kernel.Route.Tile (K D 𝒱 𝒱₀ UU UP EP EP_landsIn)

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the TensorCore owes before the SparseCore call is owed at the call's index, never at a kernel's own. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply, if_neg (fun h => nomatch h.2)]
  · rfl

set_option backward.isDefEq.respectTransparency.types false in
/-- The region call as @main spells it, under the launch's label table: from the TensorCore's region boundary, the
    level facts, the pipeline's ghost cells and tokens, the four arrays as the launch memory `m` has them and the
    core's debts, to the boundary, the logits as they were, each result at its function of the logits, the debts. -/
theorem region_wp_sc [∀ e, Nonempty (Elt F e)] (m : (ℓ : Loc nD τ sig) → Buf (Elt F) ℓ)
    (B : Dev nD → Set (SemLoc sig × HIx 1)) (lv : GSem nD τ sig → HIx 1 → ℕ) (hlv : (K (F := F)).Refines lv)
    (d : Dev nD) (Φ : PUnit → sProp 𝕄) :
    iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ arrs d (V m d main_arg0) (V m d main_v0_0) (V m d main_v0_1) (V m d main_v0_2)
        ∗ Pipeline.owesWithin d ((K (F := F)).Otc d 0) (B d)
        ∗ (iprop(boundary (T d)
              ∗ arrs d (V m d main_arg0) (ehArr (V m d main_arg0)) (ridxArr (V m d main_arg0)) (pArr (V m d main_arg0))
              ∗ Pipeline.owesWithin d ((K (F := F)).Otc d 0) (B d ∪ cfg0.waitPairs none))
            -∗ Φ ⟨⟩))
      ⊢ wp frame (wpE ((K (F := F)).defs D) 𝒱 (T d) none) Set.univ
          (Prog.lift (.customCall (SparseCore.inner (Pipeline.entry 0)) ())) Φ := by
  have hl := (K (F := F)).wp_liftProg D 𝒱 (T d) Set.univ none (Prog.lift (.customCall (Pipeline.entry 0) ())) Φ
  have hp : SparseCore.liftProg (Q := 1) (Prog.lift (TpuEff.customCall (nD := nD) (τ := τ) (sig := sig) (Val := Elt F) (Λ := Route.Tile.ΛP (F := F)) (p := Proc.tc) (Pipeline.entry 0) ()))
      = Prog.lift (.customCall (SparseCore.inner (Pipeline.entry 0)) ()) := rfl
  rw [hp] at hl
  refine BIBase.Entails.trans ?_ hl
  have hr := region_wp (Name := ℕ) (U := UU) (Lvl := ℕ) m (fun d => (K (F := F)).Otc d 0) B none 𝒱₀ (K (F := F)).L lv EP
    (fun d sm => (K (F := F)).mayWait_none sm (Otc_none d 0) lv hlv) d (fun _ => .ret ⟨⟩) Φ
  refine BIBase.Entails.trans ?_ hr
  iintro ⟨Hbd, Hla, Hg, Ht, Harr, HO, Hk⟩
  isplitl [Hbd]; · iexact Hbd
  isplitl [Hla]; · iexact Hla
  isplitl [Hg]; · iexact Hg
  isplitl [Ht]; · iexact Ht
  isplitl [Harr]; · iexact Harr
  isplitl [HO]; · iexact HO
  iintro Hpost
  rw [wp_ret]; imodintro
  iapply Hk; iexact Hpost

/-- The pairs a TensorCore's waits may have recorded before the first SparseCore call: those at level 0. -/
def Bz (d : Dev nD) : Set (SemLoc sig × HIx 1) := {p | (K (F := F)).lev (T d, p.1) p.2 ≤ 0}

set_option backward.isDefEq.respectTransparency.types false in
/-- The same with the core's debts as the launch's handshake state holds them before call 0: the recorded pairs all
    at level 0, before and after (the loop's own waits are recorded at a kernel's own index, level 0). -/
theorem region_wp_tc [∀ e, Nonempty (Elt F e)] (m : (ℓ : Loc nD τ sig) → Buf (Elt F) ℓ)
    (lv : GSem nD τ sig → HIx 1 → ℕ) (hlv : (K (F := F)).Refines lv)
    (d : Dev nD) (Φ : PUnit → sProp 𝕄) :
    iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ arrs d (V m d main_arg0) (V m d main_v0_0) (V m d main_v0_1) (V m d main_v0_2)
        ∗ (∃ W, ⌜(K (F := F)).WBelow (T d) W (8 * 0)⌝ ∗ owes (T d) ((K (F := F)).Otc d 0) W)
        ∗ (iprop(boundary (T d)
              ∗ arrs d (V m d main_arg0) (ehArr (V m d main_arg0)) (ridxArr (V m d main_arg0)) (pArr (V m d main_arg0))
              ∗ (∃ W, ⌜(K (F := F)).WBelow (T d) W (8 * 0)⌝ ∗ owes (T d) ((K (F := F)).Otc d 0) W))
            -∗ Φ ⟨⟩))
      ⊢ wp frame (wpE ((K (F := F)).defs D) 𝒱 (T d) none) Set.univ
          (Prog.lift (.customCall (SparseCore.inner (Pipeline.entry 0)) ())) Φ := by
  refine BIBase.Entails.trans ?_ (region_wp_sc m (Bz (F := F)) lv hlv d Φ)
  iintro ⟨Hbd, Hla, Hg, Ht, Harr, ⟨%W, %hW, HO⟩, Hk⟩
  isplitl [Hbd]; · iexact Hbd
  isplitl [Hla]; · iexact Hla
  isplitl [Hg]; · iexact Hg
  isplitl [Ht]; · iexact Ht
  isplitl [Harr]; · iexact Harr
  isplitl [HO]
  · iexists W; isplitr; · ipureintro; exact fun p hp => hW p hp
    iexact HO
  iintro ⟨Hbd, Harr, ⟨%W', %hW', HO⟩⟩
  iapply Hk
  isplitl [Hbd]; · iexact Hbd
  isplitl [Harr]; · iexact Harr
  iexists W'; isplitr; swap; · iexact HO
  ipureintro
  intro p hp
  rcases hW' hp with h | ⟨w, s, rfl⟩
  · exact h
  · exact le_of_eq ((K (F := F)).lev_none _)

end Cert.Kernel.TC

end
-- ==== Proof.BlockFactsK.lean ====
/-
  The routing block's integer payloads, for every float instance.

  At a sample j of a block of 1024, from the three exit bits e0 e1 e2 of heads 0, 1, 2, the head
  word is the select chain  e0 ? 0 : (e1 ? 1 : (e2 ? 2 : 3)),  and the routed row index is
  head * 16384 + a0 * 1024 + j  where a0 is the block's grid coordinate. With a0 < 16 and
  j < 1024 that index is below 65536, and it reaches 49152 exactly when the head is 3.
  No float reasoning: the exit bits are opaque one-bit words here.
-/
import proofs.«215259_g58411555225873_cont_9to1_m_859_22_alg».proof.Proof.Gen.Kernel.Skeleton
import Idealize.ShloMosaic.Lib.ValueIdx
import Idealize.ShloMosaic.Lib.Pipeline.Value

namespace Cert.Kernel.Route

open Idealize.ShloMosaic Idealize.ShloMosaic.ValueIdx Cert.Kernel Cert.Kernel.Gen

/-- The head word from three exit bits: the first set bit's position, else 3. -/
def headWord (e0 e1 e2 : BitVec 1) : BitVec 32 :=
  Scalar.select e0 0#32 (Scalar.select e1 1#32 (Scalar.select e2 2#32 3#32))

theorem headWord_cases (e0 e1 e2 : BitVec 1) :
    headWord e0 e1 e2 = 0#32 ∨ headWord e0 e1 e2 = 1#32 ∨ headWord e0 e1 e2 = 2#32 ∨ headWord e0 e1 e2 = 3#32 := by
  unfold headWord Scalar.select
  split_ifs <;> simp

theorem headWord_toNat_lt (e0 e1 e2 : BitVec 1) : (headWord e0 e1 e2).toNat < 4 := by
  rcases headWord_cases e0 e1 e2 with h | h | h | h <;> rw [h] <;> decide

/-- The head block at a sample is the head word of the three exit bits there. -/
theorem pay3_apply (v11 v23 v35 : IVec S1024 1) (j : S1024.Idx) :
    k0_pay3 v11 v23 v35 k0_pay12 j = headWord (v11 j) (v23 j) (v35 j) := rfl

/-- The head block's word at a sample is 0, 1, 2 or 3. -/
theorem pay3_cases (v11 v23 v35 : IVec S1024 1) (j : S1024.Idx) :
    k0_pay3 v11 v23 v35 k0_pay12 j = 0#32 ∨ k0_pay3 v11 v23 v35 k0_pay12 j = 1#32 ∨
      k0_pay3 v11 v23 v35 k0_pay12 j = 2#32 ∨ k0_pay3 v11 v23 v35 k0_pay12 j = 3#32 := by
  rw [pay3_apply]; exact headWord_cases _ _ _

/-- The lane number vector: sample j holds the word j. -/
theorem laneIota_apply (j : S1024.Idx) :
    shapeCast S1024 (iota .tc S1x1024 32 [1] iota_S1x1024_d1_w32) shapeCasts_S1x1024_S1024 j
      = BitVec.ofNat 32 (j 0).val := by
  refine (shapeCast_dropUnit_apply (α := BitVec 32) ![1024]
    (iota .tc S1x1024 32 [1] iota_S1x1024_d1_w32) shapeCasts_S1x1024_S1024 j).trans ?_
  rw [iota_single_apply]
  rfl

/-- The routed row index block at a sample: head * 16384 + a0 * 1024 + j. -/
theorem pay5_apply (a0 : BitVec 32) (v11 v23 v35 : IVec S1024 1) (j : S1024.Idx) :
    k0_pay5 a0 v11 v23 v35 k0_pay12 j
      = headWord (v11 j) (v23 j) (v35 j) * 16384#32 + a0 * 1024#32 + BitVec.ofNat 32 (j 0).val := by
  show (k0_pay3 v11 v23 v35 k0_pay12 j * 16384#32 + a0 * 1024#32)
      + shapeCast S1024 (iota .tc S1x1024 32 [1] iota_S1x1024_d1_w32) shapeCasts_S1x1024_S1024 j = _
  rw [laneIota_apply, pay3_apply]

/-! ### The routed row index as a number -/

/-- With a head word in {0,1,2,3}, a grid coordinate t < 16 and a lane n < 1024, no product or sum wraps. -/
theorem rowIndex_toNat (e : BitVec 32) (he : e = 0#32 ∨ e = 1#32 ∨ e = 2#32 ∨ e = 3#32) (t n : Nat)
    (ht : t < 16) (hn : n < 1024) :
    (e * 16384#32 + BitVec.ofNat 32 t * 1024#32 + BitVec.ofNat 32 n).toNat = e.toNat * 16384 + t * 1024 + n := by
  rcases he with rfl | rfl | rfl | rfl <;>
    simp only [BitVec.toNat_add, BitVec.toNat_mul, BitVec.toNat_ofNat, Nat.reducePow] <;> omega

/-- A word below 2^31 compares signed as it does unsigned: it is at least 49152 signed iff its number is. -/
theorem sge_49152_iff (v : BitVec 32) (hv : v.toNat < 65536) :
    Scalar.cmpi .sge v 49152#32 = 1#1 ↔ 49152 ≤ v.toNat := by
  have hi : v.toInt = (v.toNat : Int) := BitVec.toInt_eq_toNat_of_lt (by omega)
  show BitVec.ofBool ((49152#32).sle v) = 1#1 ↔ _
  rw [BitVec.sle, hi]
  have hc : (49152#32 : BitVec 32).toInt = 49152 := by decide
  rw [hc]
  constructor
  · intro h
    have : decide ((49152 : Int) ≤ (v.toNat : Int)) = true := by
      cases hd : decide ((49152 : Int) ≤ (v.toNat : Int)) with
      | true => rfl
      | false => rw [hd] at h; exact absurd h (by decide)
    have := of_decide_eq_true this
    omega
  · intro h
    have : decide ((49152 : Int) ≤ (v.toNat : Int)) = true := decide_eq_true (by omega)
    rw [this]; rfl

/-- The routed row index of a sample, as a number, for the block at grid coordinate t < 16. -/
theorem pay5_toNat (t : Nat) (ht : t < 16) (v11 v23 v35 : IVec S1024 1) (j : S1024.Idx) :
    (k0_pay5 (BitVec.ofNat 32 t) v11 v23 v35 k0_pay12 j).toNat
      = (headWord (v11 j) (v23 j) (v35 j)).toNat * 16384 + t * 1024 + (j 0).val := by
  rw [pay5_apply]
  exact rowIndex_toNat _ (headWord_cases _ _ _) t (j 0).val ht (j 0).isLt

/-- It names a row of the [65536, 1000] array. -/
theorem pay5_toNat_lt (t : Nat) (ht : t < 16) (v11 v23 v35 : IVec S1024 1) (j : S1024.Idx) :
    (k0_pay5 (BitVec.ofNat 32 t) v11 v23 v35 k0_pay12 j).toNat < 65536 := by
  rw [pay5_toNat t ht]
  have h4 := headWord_toNat_lt (v11 j) (v23 j) (v35 j)
  have hj : (j 0).val < 1024 := (j 0).isLt
  omega

/-- It reaches 49152 (signed) exactly when the head word is 3. -/
theorem pay5_sge_iff (t : Nat) (ht : t < 16) (v11 v23 v35 : IVec S1024 1) (j : S1024.Idx) :
    Scalar.cmpi .sge (k0_pay5 (BitVec.ofNat 32 t) v11 v23 v35 k0_pay12 j) 49152#32 = 1#1
      ↔ k0_pay3 v11 v23 v35 k0_pay12 j = 3#32 := by
  rw [sge_49152_iff _ (pay5_toNat_lt t ht v11 v23 v35 j), pay5_toNat t ht, pay3_apply]
  have hj : (j 0).val < 1024 := (j 0).isLt
  rcases headWord_cases (v11 j) (v23 j) (v35 j) with h | h | h | h <;> rw [h] <;>
    simp only [BitVec.toNat_ofNat, Nat.reducePow, Nat.reduceMod] <;>
    constructor <;> intro h' <;> first | trivial | contradiction | omega | exact absurd h' (by decide)

/-! ### Layout steps of the block, read at a sample -/

section Layout
variable {α : Type}

/-- A [1024] vector viewed as a [1024, 1] column reads sample p at (p, 0). -/
theorem colCast_apply (v : S1024.Idx → α) (p : Fin 1024) (z : Fin 1) :
    shapeCast S1024x1 v shapeCasts_S1024_S1024x1 (ix2 p z) = v (ix1 p) := by
  refine shapeCast_apply v _ (ix2 p z) (ix1 p) ?_
  rw [Shape.rowMajor_val_one, Shape.rowMajor_val_two]
  have hz : z.val = 0 := by omega
  show p.val = p.val * 1 + z.val
  omega

/-- A [1024, 1] column viewed as itself. -/
theorem colSelf_apply (v : S1024x1.Idx → α) (i : S1024x1.Idx) :
    shapeCast S1024x1 v shapeCasts_S1024x1_S1024x1 i = v i := by
  rw [shapeCast_self]

/-- A [1024, 1] column broadcast along the 1000 classes reads (p, 0) at (p, c). -/
theorem colBroadcast_apply (v : S1024x1.Idx → α) (p : Fin 1024) (c : Fin 1000) :
    broadcastTo S1024x1000 v broadcasts_S1024x1_S1024x1000 (ix2 p c) = v (ix2 p (0 : Fin 1)) := by
  refine broadcastTo_apply v _ (ix2 p c) (ix2 p (0 : Fin 1)) ?_
  intro a
  match a with
  | ⟨0, _⟩ => rfl
  | ⟨1, _⟩ => rfl

/-- A per-sample vector spread over the classes (column view, then broadcast) reads sample p at (p, c). -/
theorem spread_apply (v : S1024.Idx → α) (p : Fin 1024) (c : Fin 1000) :
    broadcastTo S1024x1000
        (shapeCast S1024x1 (shapeCast S1024x1 v shapeCasts_S1024_S1024x1) shapeCasts_S1024x1_S1024x1)
        broadcasts_S1024x1_S1024x1000 (ix2 p c) = v (ix1 p) := by
  rw [colBroadcast_apply, colSelf_apply, colCast_apply]

/-- A [1, 1024, 1000] block viewed as [1024, 1000] reads (0, p, c) at (p, c). -/
theorem blockCast_apply (v : S1x1024x1000.Idx → α) (p : Fin 1024) (c : Fin 1000) :
    shapeCast S1024x1000 v shapeCasts_S1x1024x1000_S1024x1000 (ix2 p c) = v (ix3 (0 : Fin 1) p c) := by
  refine (shapeCast_dropUnit_apply (α := α) ![1024, 1000] v shapeCasts_S1x1024x1000_S1024x1000 (ix2 p c)).trans ?_
  refine congrArg v (funext fun a => ?_)
  match a with
  | ⟨0, _⟩ => rfl
  | ⟨1, _⟩ => rfl
  | ⟨2, _⟩ => rfl

end Layout

/-! ### The routed logits block, for every float instance -/

section AnyFloat
variable {F : FTy → Type} [FloatOps F]

theorem pay6_apply (b : Vec F S1x1024x1000 .f32) (p : Fin 1024) (c : Fin 1000) :
    k0_pay6 b (ix2 p c) = b (ix3 (0 : Fin 1) p c) := blockCast_apply b p c

theorem pay8_apply (b : Vec F S1x1024x1000 .f32) (p : Fin 1024) (c : Fin 1000) :
    k0_pay8 b (ix2 p c) = b (ix3 (0 : Fin 1) p c) := blockCast_apply b p c

theorem pay10_apply (b : Vec F S1x1024x1000 .f32) (p : Fin 1024) (c : Fin 1000) :
    k0_pay10 b (ix2 p c) = b (ix3 (0 : Fin 1) p c) := blockCast_apply b p c

/-- The second select of the head chain is 1 exactly when head 1's bit is set. -/
theorem pay2_eq_one_iff (v23 v35 : IVec S1024 1) (j : S1024.Idx) :
    k0_pay2 v23 v35 k0_pay12 j = 1#32 ↔ v23 j = 1#1 := by
  show Scalar.select (v23 j) 1#32 (Scalar.select (v35 j) 2#32 3#32) = 1#32 ↔ _
  unfold Scalar.select
  split_ifs <;> simp_all

/-- The head word is 0 exactly when head 0's bit is set. -/
theorem pay3_eq_zero_iff (v11 v23 v35 : IVec S1024 1) (j : S1024.Idx) :
    k0_pay3 v11 v23 v35 k0_pay12 j = 0#32 ↔ v11 j = 1#1 := by
  rw [pay3_apply]
  unfold headWord Scalar.select
  split_ifs <;> simp_all

/-- The routed logits block at (p, c): head 0's logit if its bit is set at p, else head 1's if its
    bit is set, else head 2's (whether or not head 2's bit is set). -/
theorem pay4_apply (v1 v13 v25 : FVec F S1024x1000 .f32) (v11 v23 v35 : IVec S1024 1) (p : Fin 1024) (c : Fin 1000) :
    k0_pay4 v1 v11 v13 v23 v25 v35 k0_pay12 (ix2 p c)
      = Scalar.select (v11 (ix1 p)) (v1 (ix2 p c)) (Scalar.select (v23 (ix1 p)) (v13 (ix2 p c)) (v25 (ix2 p c))) := by
  unfold k0_pay4
  simp only [select_apply, spread_apply]
  show Scalar.select (IntOp.cmpi .eq (k0_pay3 v11 v23 v35 k0_pay12 (ix1 p)) 0#32) _
      (Scalar.select (IntOp.cmpi .eq (k0_pay2 v23 v35 k0_pay12 (ix1 p)) 1#32) _ (Scalar.select _ _ _)) = _
  have h0 : IntOp.cmpi .eq (k0_pay3 v11 v23 v35 k0_pay12 (ix1 p)) 0#32 = v11 (ix1 p) := by
    rcases BitVec.eq_zero_or_eq_one (v11 (ix1 p)) with h | h
    · have : ¬ k0_pay3 v11 v23 v35 k0_pay12 (ix1 p) = 0#32 := fun e => by
        rw [pay3_eq_zero_iff] at e; rw [e] at h; exact absurd h (by decide)
      rw [h]; show BitVec.ofBool (_ == _) = _; rw [beq_eq_false_iff_ne.2 this]; rfl
    · rw [h, (pay3_eq_zero_iff v11 v23 v35 (ix1 p)).2 h]; rfl
  have h1 : IntOp.cmpi .eq (k0_pay2 v23 v35 k0_pay12 (ix1 p)) 1#32 = v23 (ix1 p) := by
    rcases BitVec.eq_zero_or_eq_one (v23 (ix1 p)) with h | h
    · have : ¬ k0_pay2 v23 v35 k0_pay12 (ix1 p) = 1#32 := fun e => by
        rw [pay2_eq_one_iff] at e; rw [e] at h; exact absurd h (by decide)
      rw [h]; show BitVec.ofBool (_ == _) = _; rw [beq_eq_false_iff_ne.2 this]; rfl
    · rw [h, (pay2_eq_one_iff v23 v35 (ix1 p)).2 h]; rfl
  rw [h0, h1]
  unfold Scalar.select
  split_ifs <;> rfl

end AnyFloat

end Cert.Kernel.Route
-- ==== Proof.RouteLaunchK.lean ====
/-
  The routing program's launch: the SparseCore launch theorem applied to it. The TensorCore runs the confidence
  pipeline, reshapes the four heads' logits into one table of 65536 rows, and starts the routing kernel on both
  SparseCores; each of the 32 vector subcores' tasks is handed a read share of the table and its own 512 rows of the
  row indices, of the early-exit rows and of the result, pairwise disjoint slices.
-/
import proofs.«215259_g58411555225873_cont_9to1_m_859_22_alg».proof.Proof.RouteTaskK
import proofs.«215259_g58411555225873_cont_9to1_m_859_22_alg».proof.Proof.Gen.Kernel.Launch
import proofs.«215259_g58411555225873_cont_9to1_m_859_22_alg».proof.Proof.Gen.Pre_finite_inputs
import proofs.«215259_g58411555225873_cont_9to1_m_859_22_alg».proof.Proof.ConfRegionSCK
import proofs.«215259_g58411555225873_cont_9to1_m_859_22_alg».proof.Proof.BlockFactsK

noncomputable section

namespace Cert.Kernel.Route.Launch

open Cert.Kernel Cert.Kernel.Gen Cert.Kernel.Route.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "tabW" => (Memref.whole Cert.Kernel.main_v1_scv : Memref Cert.Kernel.sig Kind.scVector Space.hbm Cert.Kernel.S65536x1000 EltTy.f32)
local notation "pW" => (Memref.whole Cert.Kernel.main_v0_2_scv : Memref Cert.Kernel.sig Kind.scVector Space.hbm Cert.Kernel.S16384x1000 EltTy.f32)
local notation "rW" => (Memref.whole Cert.Kernel.main_v0_1_scv : Memref Cert.Kernel.sig Kind.scVector Space.hbm Cert.Kernel.S16384 EltTy.i32)
local notation "oW" => (Memref.whole Cert.Kernel.main_v2_scv : Memref Cert.Kernel.sig Kind.scVector Space.hbm Cert.Kernel.S16384x1000 EltTy.f32)
local notation "xW" => (Memref.whole Cert.Kernel.cc1_scratch0 : Memref Cert.Kernel.sig Kind.scVector Space.vmem Cert.Kernel.S512 EltTy.i32)

/-! ## The tasks -/

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The table's read share of SparseCore `c`, and of its task `i`: the full share halved per SparseCore, then per task. -/
def qCore (c : Fin 2) : PosShare TreeShare := Transfers.shareTok fullShare 2 c
def qTask (c : Fin 2) (i : Fin 16) : PosShare TreeShare := Transfers.shareTok (qCore c) 16 i

variable [FloatOps F]

/-- What task `(c, i)` of device `d` is handed and hands back. -/
def goRes (d : Dev nD) (c : Fin 2) (i : Fin 16) : sProp 𝕄 := tileRes (F := F) d (coordsV c i) (qTask c i)
/-- What SparseCore `c` is handed and hands back: its sixteen tasks'. -/
def stRes (d : Dev nD) (c : Fin 2) : sProp 𝕄 := bigSep Finset.univ fun i : Fin 16 => goRes (F := F) d c i

/-- The one call takes, per SparseCore, its sixteen tasks' resources and brings them back; the kernel's proof consumes
    nothing of the launch's. -/
def P : (K (F := F)).Pay (nD := nD) (Val := Elt F) (Name := ℕ) (U := UU) where
  st := fun q d c => match q with | 0 => stRes (F := F) d c
  dn := fun q d c => match q with | 0 => stRes (F := F) d c
  go := fun q d c i => match q with | 0 => goRes (F := F) d c i
  td := fun q d c i => match q with | 0 => goRes (F := F) d c i
  x := fun _ _ => iprop(emp)

theorem P_st (d : Dev nD) (c : Fin 2) : (P (F := F)).st 0 d c = stRes (F := F) d c := rfl
theorem P_dn (d : Dev nD) (c : Fin 2) : (P (F := F)).dn 0 d c = stRes (F := F) d c := rfl
theorem P_go (d : Dev nD) (c : Fin 2) (i : Fin 16) : (P (F := F)).go 0 d c i = goRes (F := F) d c i := rfl
theorem P_td (d : Dev nD) (c : Fin 2) (i : Fin 16) : (P (F := F)).td 0 d c i = goRes (F := F) d c i := rfl

set_option synthInstance.maxHeartbeats 400000 in
instance goRes_storable (d : Dev nD) (c : Fin 2) (i : Fin 16) : BI.Storable (upEmb : UEmb _ 𝕄) (goRes (F := F) d c i) := by
  unfold goRes tileRes; infer_instance
instance stRes_storable (d : Dev nD) (c : Fin 2) : BI.Storable (upEmb : UEmb _ 𝕄) (stRes (F := F) d c) := by
  unfold stRes; infer_instance

instance P_storable : (P (F := F)).IsStorable where
  st q d c := match q with | 0 => stRes_storable d c
  dn q d c := match q with | 0 => stRes_storable d c
  go q d c i := match q with | 0 => goRes_storable d c i
  td q d c i := match q with | 0 => goRes_storable d c i

/-! ## The launch theorem's obligations -/

theorem defs₀_vector (c : Fin τ.nSC) (s : Fin τ.nSub) :
    defs₀ (F := F) (.scVector c s) 1 ()
      = SparseCore.onTile hcore1 hsub1 (fun c s => cc1_sc_route (coordsV c s)
          tabW (Memref.isWhole_whole _) pW (Memref.isWhole_whole _) rW (Memref.isWhole_whole _) oW (Memref.isWhole_whole _)
          xW (Memref.isWhole_whole _) cc1_scratch1 cc1_scratch2 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One task's obligation, at frame strength: from the task's resources, its subcore's scoped storage and what it owes, the
    routing kernel's body at the task's grid point runs and gives the same back. -/
def TileBody : Prop :=
  ∀ (d : Dev nD) (L : grid1.Coords) (_ : (K (F := F)).Facts) (O : CellTallies nD τ sig (HIx 1)) (W : Waits sig (HIx 1)) (_ : ∀ g, O g none = 0)
    (q : PosShare TreeShare),
    (iprop(levAts (K (F := F)).L (K (F := F)).lev ∗ emp
        ∗ tileRes (F := F) d L q
        ∗ scopedBufs (thr d L) ∗ scopedSems0 (thr d L) ∗ owes (thr d L) O W) : sProp 𝕄)
      ⊢ wp frame (wpE (defs₀ (F := F)) 𝒱₀ (thr d L) none) Set.univ
          (cc1_sc_route L tabW (Memref.isWhole_whole _) pW (Memref.isWhole_whole _) rW (Memref.isWhole_whole _) oW (Memref.isWhole_whole _)
            xW (Memref.isWhole_whole _) cc1_scratch1 cc1_scratch2 cc1_scoped0)
          fun _ => iprop(tileRes (F := F) d L q
            ∗ scopedBufs (thr d L) ∗ scopedSems0 (thr d L)
            ∗ ∃ W', ⌜∀ p ∈ W', p ∈ W ∨ p.2 = none⌝ ∗ owes (thr d L) O W')

theorem tileObl (htile : TileBody (F := F)) (hF : (K (F := F)).Facts) : (K (F := F)).TileObl (D (F := F)) 𝒱 (P (F := F)) v₀ 0 := by
  intro d c i O W hO _ _
  -- this kernel owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) hF O W hO (qTask c i)).trans (wp_mono frame _ _ fun _ => obl_post)

theorem vecSplit : (K (F := F)).VecSplit' (P (F := F)) 0 := by
  intro d c
  show stRes (F := F) d c ⊢ |={Set.univ}=> iprop((bigSep Finset.univ fun i : Fin 16 => goRes (F := F) d c i)
      ∗ ((bigSep Finset.univ fun i : Fin 16 => goRes (F := F) d c i) -∗ stRes (F := F) d c))
  unfold stRes
  iintro H; imodintro
  isplitl [H]; · iexact H
  iintro H; iexact H

/-! ## The launch element: the handshakes' rounds and the pipeline's staging cells' -/

abbrev adm : (p : Fin 1) → (pcfgs (F := F) p).Adm := fun p => (cfgs p).toPCfg_adm
/-- The TensorCore pipelines at their (trivial) prefetch data. -/
abbrev pcs : Fin 1 → Pipeline.Cfg sig Λ₀ := Pipeline.pin (pcfgs (F := F)) (adm (F := F))

def u₀ : UU :=
  (initOf (K (F := F)).hsCells (K (F := F)).hsToks,
    (initOf (Pipeline.cells (nD := nD) (τ := τ) (pcs (F := F)) cellOf_inj) (Pipeline.launchToks (nD := nD) (τ := τ) (pcs (F := F)) cellOf_inj), (1 : Counters)))

/-- What @main's proof starts from beside what the launch deals the TensorCore: the staging cells' ghost state and the
    loop's duty tokens. -/
def G (d : Dev nD) : sProp 𝕄 :=
  iprop(Pipeline.cellsGhost (pcs (F := F)) (EP (F := F)) 0 d ∗ Pipeline.toksInit (pcs (F := F)) (EP (F := F)) 0 d)

omit [FloatOps F] in
theorem ownU_split (a : UH) (b : UP) (c : Counters) :
    (ownU (a, (b, c)) : sProp 𝕄) ⊢ iprop(BI.own (EH (F := F) a) ∗ BI.own (EP (F := F) b)) := by
  iintro Hu
  ihave H := (ownU_pair a (b, c)) $$ Hu
  icases H with ⟨HH, HR⟩
  ihave H2 := (own_pair_emb embR b c) $$ HR
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem Px_all : (bigSep Finset.univ fun thr : Thread nD τ => bigSep Finset.univ fun q : Fin 1 => (P (F := F)).x q thr) = (iprop(emp) : sProp 𝕄) := by
  rw [show (fun thr : Thread nD τ => bigSep Finset.univ fun q : Fin 1 => (P (F := F)).x q thr) = fun _ => (iprop(emp) : sProp 𝕄) from
    funext fun thr => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F)).x q thr) := by
  have hg : (bigSep Finset.univ fun c : Dev nD => bigSep Finset.univ fun p : Fin 1 => Pipeline.cellsGhost (pcs (F := F)) (EP (F := F)) p c : sProp 𝕄)
      = bigSep Finset.univ fun c : Dev nD => Pipeline.cellsGhost (pcs (F := F)) (EP (F := F)) 0 c :=
    bigSep_congr fun c _ => bigSep_univ_of_subsingleton (0 : Fin 1)
  have ht : (bigSep Finset.univ fun c : Dev nD => bigSep Finset.univ fun p : Fin 1 => Pipeline.toksInit (pcs (F := F)) (EP (F := F)) p c : sProp 𝕄)
      = bigSep Finset.univ fun c : Dev nD => Pipeline.toksInit (pcs (F := F)) (EP (F := F)) 0 c :=
    bigSep_congr fun c _ => bigSep_univ_of_subsingleton (0 : Fin 1)
  unfold u₀
  iintro Hu
  ihave H := (ownU_split _ _ _) $$ Hu
  icases H with ⟨HH, HP⟩
  imod (Pipeline.fund_ghost (pcs (F := F)) (EP (F := F)) cellOf_inj) $$ HP with ⟨Hg, Ht⟩
  ihave Hg' := (Entails.of_eq hg) $$ Hg
  ihave Ht' := (Entails.of_eq ht) $$ Ht
  imodintro
  isplitl [HH]; · iexact HH
  isplitl [Hg' Ht']
  · unfold G; rw [bigSep_sep']
    isplitl [Hg']; · iexact Hg'
    iexact Ht'
  · rw [Px_all]; iempintro

/-! ## The operands dealt to the 32 tasks -/

section Split

variable (d : Dev nD)

omit [FloatOps F] in
theorem off2_task (c : Fin 2) (i : Fin 16) : k1_off2 (coordsV c i) = ![1024 * i.val + 512 * c.val, 0] := k1_off2_eq _
omit [FloatOps F] in
theorem off1_task (c : Fin 2) (i : Fin 16) : k1_off1 (coordsV c i) = ![1024 * i.val + 512 * c.val] := k1_off1_eq _

omit [FloatOps F] in
/-- Two tasks' blocks of 512 rows are apart. -/
theorem tasks_sep {c c' : Fin 2} {i i' : Fin 16} (h : (c, i) ≠ (c', i')) :
    1024 * i.val + 512 * c.val + 512 ≤ 1024 * i'.val + 512 * c'.val ∨ 1024 * i'.val + 512 * c'.val + 512 ≤ 1024 * i.val + 512 * c.val := by
  have hc := c.isLt; have hc' := c'.isLt
  by_contra hn
  apply h
  have : i.val = i'.val ∧ c.val = c'.val := by omega
  exact Prod.ext (Fin.ext this.2) (Fin.ext this.1)

omit [FloatOps F] in
theorem set_pSl (L : grid1.Coords) : (pSl L).view.set = (Rect.unit (s := S16384x1000) (k1_off2 L) S512x1000.size (k1_off2_inb L)).set :=
  View.set_slice_whole _ _

omit [FloatOps F] in
theorem pSet_disjoint : ∀ t ∈ (Finset.univ : Finset (Fin 2 × Fin 16)), ∀ t' ∈ (Finset.univ : Finset (Fin 2 × Fin 16)), t ≠ t' →
    Disjoint (pSl (coordsV t.1 t.2)).view.set (pSl (coordsV t'.1 t'.2)).view.set := by
  rintro ⟨c, i⟩ - ⟨c', i'⟩ - h
  dsimp only
  rw [set_pSl, set_pSl]
  refine Rect.unit_disjoint 0 ?_
  rw [off2_task, off2_task]
  exact tasks_sep h

omit [FloatOps F] in
theorem set_oSl (L : grid1.Coords) : (oSl L).view.set = (Rect.unit (s := S16384x1000) (k1_off2 L) S512x1000.size (k1_off2_inb L)).set :=
  View.set_slice_whole _ _

omit [FloatOps F] in
theorem oSet_disjoint : ∀ t ∈ (Finset.univ : Finset (Fin 2 × Fin 16)), ∀ t' ∈ (Finset.univ : Finset (Fin 2 × Fin 16)), t ≠ t' →
    Disjoint (oSl (coordsV t.1 t.2)).view.set (oSl (coordsV t'.1 t'.2)).view.set := by
  rintro ⟨c, i⟩ - ⟨c', i'⟩ - h
  dsimp only
  rw [set_oSl, set_oSl]
  refine Rect.unit_disjoint 0 ?_
  rw [off2_task, off2_task]
  exact tasks_sep h

omit [FloatOps F] in
theorem set_rSl (L : grid1.Coords) : (rSl L).view.set = (Rect.unit (s := S16384) (k1_off1 L) S512.size (k1_off1_inb L)).set :=
  View.set_slice_whole _ _

omit [FloatOps F] in
theorem rSet_disjoint : ∀ t ∈ (Finset.univ : Finset (Fin 2 × Fin 16)), ∀ t' ∈ (Finset.univ : Finset (Fin 2 × Fin 16)), t ≠ t' →
    Disjoint (rSl (coordsV t.1 t.2)).view.set (rSl (coordsV t'.1 t'.2)).view.set := by
  rintro ⟨c, i⟩ - ⟨c', i'⟩ - h
  dsimp only
  rw [set_rSl, set_rSl]
  refine Rect.unit_disjoint 0 ?_
  rw [off1_task, off1_task]
  exact tasks_sep h

omit [FloatOps F] in
/-- An array held whole deals each task the elements of a family of pairwise disjoint sets (the rest is dropped). -/
theorem slices_of_whole {ℓ : Loc nD τ sig} (Kf : Fin 2 × Fin 16 → Finset (Idx ℓ))
    (hd : ∀ t ∈ (Finset.univ : Finset (Fin 2 × Fin 16)), ∀ t' ∈ (Finset.univ : Finset (Fin 2 × Fin 16)), t ≠ t' → Disjoint (Kf t) (Kf t'))
    (f : Buf (Elt F) ℓ) :
    (ℓ ↦{fullShare} f : sProp 𝕄) ⊢ bigSep Finset.univ fun c : Fin 2 => bigSep Finset.univ fun i : Fin 16 => ℓ ↦[Kf (c, i)]{fullShare} f := by
  rw [← bigSep_univ_prod (fun t : Fin 2 × Fin 16 => (ℓ ↦[Kf t]{fullShare} f : sProp 𝕄)), ← pointsTo_biUnion Finset.univ Kf hd]
  exact (pointsTo_split_subset (Finset.subset_univ _)).1.trans sep_elim_left

omit [FloatOps F] in
/-- An array held whole deals each task a read share of all of it. -/
theorem shares_of_whole {ℓ : Loc nD τ sig} (f : Buf (Elt F) ℓ) :
    (ℓ ↦{fullShare} f : sProp 𝕄) ⊢ bigSep Finset.univ fun c : Fin 2 => bigSep Finset.univ fun i : Fin 16 => ℓ ↦{qTask c i} f := by
  refine (Transfers.pointsTo_toks_split fullShare 2).trans (sep_elim_right.trans (bigSep_mono fun c _ => ?_))
  exact (Transfers.pointsTo_toks_split (qCore c) 16).trans sep_elim_right

theorem goRes_intro (c : Fin 2) (i : Fin 16) (Tb : Buf (Elt F) (tabLoc d)) (Pc : Buf (Elt F) (pLoc d)) (R : Buf (Elt F) (rLoc d))
    (hR : RowsOK (F := F) d R) (f : Buf (Elt F) (oLoc d)) :
    iprop((tabLoc d ↦{qTask c i} Tb) ∗ (pLoc d ↦[(pSl (coordsV c i)).view.set]{fullShare} Pc)
        ∗ (rLoc d ↦[(rSl (coordsV c i)).view.set]{fullShare} R) ∗ (oLoc d ↦[(oSl (coordsV c i)).view.set]{fullShare} f))
      ⊢ goRes (F := F) d c i := by
  unfold goRes tileRes
  iintro ⟨Ht, Hp, Hr, Ho⟩
  isplitl [Ht]; · iexists Tb; iexact Ht
  isplitl [Hp]; · iexists Pc; iexact Hp
  isplitl [Hr]
  · iexists R; isplitr; · ipureintro; exact hR
    iexact Hr
  iexists f; iexact Ho

/-- The table, the early-exit rows, the row indices (each naming a table row) and the result, held whole, are every task's
    resources. -/
theorem tasks_intro (Tb : Buf (Elt F) (tabLoc d)) (Pc : Buf (Elt F) (pLoc d)) (R : Buf (Elt F) (rLoc d))
    (hR : RowsOK (F := F) d R) (f : Buf (Elt F) (oLoc d)) :
    iprop((tabLoc d ↦{fullShare} Tb) ∗ (pLoc d ↦{fullShare} Pc) ∗ (rLoc d ↦{fullShare} R) ∗ (oLoc d ↦{fullShare} f))
      ⊢ (bigSep Finset.univ fun c : Fin 2 => stRes (F := F) d c : sProp 𝕄) := by
  unfold stRes
  refine BIBase.Entails.trans ?_ (bigSep_mono fun c _ => bigSep_mono fun i _ => goRes_intro d c i Tb Pc R hR f)
  simp only [bigSep_sep']
  iintro ⟨Ht, Hp, Hr, Ho⟩
  isplitl [Ht]; · iapply (shares_of_whole Tb); iexact Ht
  isplitl [Hp]; · iapply (slices_of_whole (fun t => (pSl (coordsV t.1 t.2)).view.set) pSet_disjoint Pc); iexact Hp
  isplitl [Hr]; · iapply (slices_of_whole (fun t => (rSl (coordsV t.1 t.2)).view.set) rSet_disjoint R); iexact Hr
  iapply (slices_of_whole (fun t => (oSl (coordsV t.1 t.2)).view.set) oSet_disjoint f); iexact Ho

end Split

/-! ## @main on the TensorCore -/

section Main

variable (m : (ℓ : Loc nD τ sig) → Buf (Elt F) ℓ) (ρ : Dev nD → PrngReg)

abbrev aLoc (d : Dev nD) : Loc nD τ sig := (SparseCore.T d).loc main_arg0
abbrev eLoc (d : Dev nD) : Loc nD τ sig := (SparseCore.T d).loc main_v0_0

/-- The recorded pairs the TensorCore may hold before the SparseCore call: those at level 0. -/
def B0 (d : Dev nD) : Set (SemLoc sig × HIx 1) := {p | (K (F := F)).lev (SparseCore.T d, p.1) p.2 ≤ 0}

/-- What is asked of the confidence pipeline's region (frame strength): from the boundary, the staging cells' ghost state,
    the logits and the three results' arrays whole, and the TensorCore's debts, it ends with the logits unchanged, the
    three results at some contents — every routed row index naming a table row — and the debts as they were, the
    recorded pairs grown by the loop's own waits. -/
def RegionOK : Prop :=
  ∀ (d : Dev nD) (B : Set (SemLoc sig × HIx 1)) (Φ : PUnit → sProp 𝕄),
    iprop(boundary (SparseCore.T d) ∗ levAts (K (F := F)).L (K (F := F)).lev ∗ G (F := F) d
        ∗ ((aLoc d ↦{fullShare} m (aLoc d)) ∗ (eLoc d ↦{fullShare} m (eLoc d)) ∗ (rLoc d ↦{fullShare} m (rLoc d)) ∗ (pLoc d ↦{fullShare} m (pLoc d)))
        ∗ Pipeline.owesWithin d ((K (F := F)).Otc d 0) B
        ∗ (iprop(boundary (SparseCore.T d)
              ∗ ((aLoc d ↦{fullShare} m (aLoc d)) ∗ (∃ e, eLoc d ↦{fullShare} e)
                ∗ (∃ R, ⌜RowsOK (F := F) d R⌝ ∗ rLoc d ↦{fullShare} R) ∗ (∃ p, pLoc d ↦{fullShare} p))
              ∗ Pipeline.owesWithin d ((K (F := F)).Otc d 0) (B ∪ cfg0.waitPairs none))
            -∗ Φ ⟨⟩))
      ⊢ wp frame (wpE ((K (F := F)).defs (D (F := F))) 𝒱 (SparseCore.T d) none) Set.univ
          (Prog.lift (.customCall (SparseCore.inner (Pipeline.entry 0)) ())) Φ

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (eLoc d ↦{fullShare} W main_v0_0) ∗ (rLoc d ↦{fullShare} W main_v0_1)
          ∗ (pLoc d ↦{fullShare} W main_v0_2) ∗ (tabLoc d ↦{fullShare} W main_v1) ∗ (oLoc d ↦{fullShare} W main_v2)) := by
  unfold unscopedBufs
  rw [show (Finset.univ.filter fun b : Ref sig .tc => ¬ b.isScoped) = {main_arg0, main_v0_0, main_v0_1, main_v0_2, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The TensorCore's state before a call lends what it owes and takes it back at any recorded set within the bound. -/
theorem tcSt_reowe (d : Dev nD) (n : ℕ) :
    (K (F := F)).tcSt EH d n ⊢ (iprop(∃ W, ⌜(K (F := F)).WBelow (SparseCore.T d) W (8 * n)⌝ ∗ owes (SparseCore.T d) ((K (F := F)).Otc d n) W
      ∗ (∀ W', ⌜(K (F := F)).WBelow (SparseCore.T d) W' (8 * n)⌝ -∗ owes (SparseCore.T d) ((K (F := F)).Otc d n) W' -∗ (K (F := F)).tcSt EH d n)) : sProp 𝕄) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  iexact Hrest

abbrev a' : DevRef τ sig := Proc.devRef .tc (main_arg0 : Ref sig .tc)
abbrev t' : DevRef τ sig := Proc.devRef .tc (main_v1 : Ref sig .tc)
/-- The reshape of the four heads' logits into one table of 65536 rows. -/
abbrev opR : HloOp τ sig (Elt F) := StableHlo.reshape main_arg0 main_v1 rfl shapeCasts_S4x16384x1000_S65536x1000
abbrev S2 : Finset (DevRef τ sig) := {a', t'}

omit [FloatOps F] in
theorem held_S2 (d : Dev nD) (W : Valuation τ sig (Elt F)) :
    (held (SparseCore.T d) S2 W : sProp 𝕄) = iprop((aLoc d ↦{fullShare} W a') ∗ (tabLoc d ↦{fullShare} W t')) := by
  unfold held S2
  rw [SparseCore.bigSep_insert' (by decide), bigSep_singleton]

/-- The launch valuation. -/
def V0 (d : Dev nD) : Valuation τ sig (Elt F) := fun b => m (d, b)

omit [FloatOps F] in
theorem hR2 : (opR (F := F)).bufs ⊆ S2 := show ({a', t'} : Finset (DevRef τ sig)) ⊆ S2 from Finset.Subset.refl _
omit [FloatOps F] in
theorem res_a (d : Dev nD) : (opR (F := F)).result (V0 m d) a' = m (aLoc d) :=
  (opR (F := F)).result_of_not_mem (V0 m d) (b := a') (show a' ∉ ({t'} : Finset (DevRef τ sig)) by decide)

omit [FloatOps F] in
/-- The loop's own waits are recorded at level 0: the recorded pairs stay within the bound of the state before the call. -/
theorem wbelow_after (d : Dev nD) {W' : Waits sig (HIx 1)} (h : (↑W' : Set (SemLoc sig × HIx 1)) ⊆ B0 (F := F) d ∪ cfg0.waitPairs none) :
    (K (F := F)).WBelow (SparseCore.T d) W' (8 * 0) := by
  intro p hp
  rcases h (Finset.mem_coe.mpr hp) with hb | ⟨w, s, rfl⟩
  · exact hb
  · exact Nat.le_of_eq rfl

/-- What @main leaves the claim: the logits at their launch contents. -/
abbrev FIN (d : Dev nD) : sProp 𝕄 := aLoc d ↦{fullShare} m (aLoc d)

theorem hmain (hreg : RegionOK (F := F) m) (κ : GSem nD τ sig → ℕ) (d : Dev nD) :
    iprop((K (F := F)).ctx EH (P (F := F)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, He, Hr, Hp, Ht, Ho⟩, -, -⟩, HG⟩
  ihave Hlev := (SparseCore.Cfg.ctx_levAts κ) $$ Hctx
  ihave Hst' := (tcSt_reowe d 0) $$ Hst
  icases Hst' with ⟨%W, %hW, HO, Hback⟩
  -- the confidence pipeline's region
  iapply (hreg d (B0 (F := F) d) _) $$ [Hb HG Ha He Hr Hp HO Ht Ho Hback]
  isplitl [Hb]; · iexact Hb
  isplitr; · iexact Hlev
  isplitl [HG]; · iexact HG
  isplitl [Ha He Hr Hp]
  · isplitl [Ha]; · iexact Ha
    isplitl [He]; · iexact He
    isplitl [Hr]; · iexact Hr
    iexact Hp
  isplitl [HO]
  · iexists W; isplitr
    · ipureintro; intro p hp; exact hW p (Finset.mem_coe.mp hp)
    iexact HO
  iintro ⟨Hb, ⟨Ha, -, ⟨%R, %hR, Hr⟩, ⟨%Pc, Hp⟩⟩, ⟨%W', %hW', HO⟩⟩
  ihave Hst := Hback $$ %W' %(wbelow_after d hW') HO
  -- the reshape, over the logits and the table
  iapply (wp_hlo_within 𝒱 (SparseCore.T d) none Set.univ (op := opR) (S := S2) hR2 (V := V0 m d)) $$ [Hb Ha Ht]
  · isplitl [Hb]; · iexact Hb
    rw [held_S2]
    isplitl [Ha]; · iexact Ha
    iexact Ht
  iintro ⟨Hb, Hheld⟩
  ihave Hh := (Entails.of_eq (held_S2 (F := F) d _)) $$ Hheld
  icases Hh with ⟨Ha, Ht⟩
  rw [res_a]
  -- the tasks' resources, and the call
  ihave Htasks := (tasks_intro d _ Pc R hR _) $$ [Ht Hp Hr Ho]
  · isplitl [Ht]; · iexact Ht
    isplitl [Hp]; · iexact Hp
    isplitl [Hr]; · iexact Hr
    iexact Ho
  rw [wp_ret]; imodintro
  iapply ((K (F := F)).wp_run (D (F := F)) 𝒱 (EH := EH) (P := P (F := F)) κ d 0) $$ [Hst Htasks Ha]
  isplitr; · iexact Hctx
  isplitl [Hst]; · iexact Hst
  isplitl [Htasks]; · iexact Htasks
  iintro ⟨Hst, -⟩
  imodintro
  isplitl [Hst]; · iexact Hst
  iexact Ha

end Main

/-! ## The final memory, the program's run and the claim -/

section Run

variable (m : (ℓ : Loc nD τ sig) → Buf (Elt F) ℓ) (ρ : Dev nD → PrngReg)

def fq (d : Dev nD) (s' : Phys nD τ sig (Elt F)) : Prop := s'.mem.mem (aLoc d) = m (aLoc d)

theorem hfin (d : Dev nD) (s' : Phys nD τ sig (Elt F)) : iprop(FIN m d ∗ SI s') ⊢ (⌜fq m d s'⌝ : sProp 𝕄) := by
  iintro ⟨Ha, HSI⟩
  ihave H := (SI_pointsTo_agree (st := s') (ℓ := aLoc d) (I := Finset.univ) (q := fullShare) (f := m (aLoc d))) $$ [HSI Ha]
  · isplitl [HSI] <;> iassumption
  icases H with %ha
  ipureintro; exact funext fun i => ha i (Finset.mem_univ i)

def QC : PUnit × MemSt nD τ sig (Elt F) → Prop := fun r => ∀ c : Dev nD, r.2.mem (aLoc c) = m (aLoc c)

/-- The routing program runs from any launch memory, the logits unchanged, given the confidence pipeline's region. -/
theorem run_main [∀ e, Nonempty (Elt F e)] (htile : TileBody (F := F)) (hreg : RegionOK (F := F) m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl htile facts)
    (fun q _ => match q with | 0 => SparseCore.Cfg.VecSplit.of_plain vecSplit)
    m ρ main (G (F := F)) (FIN m) (u₀ (F := F)) (sep_elim_left.trans hu₀) (hmain m ρ hreg) (fq m) (hfin m) (QC m) (fun _ h => h)

end Run

/-! ## The region's contract from the confidence pipeline's proof, and the frame -/

section Frame

/-- Every routed row index the confidence kernel leaves names a row of the table of 65536. -/
theorem rowsOK_ridx (d : Dev nD) (A : S4x16384x1000.Idx → Elt F .f32) : RowsOK (F := F) d (TC.ridxArr A) := by
  intro j
  unfold TC.ridxArr TC.ridxBlk
  exact pay5_toNat_lt _ (TC.tOf _).isLt _ _ _ _

theorem regionOK [∀ e, Nonempty (Elt F e)] (m : (ℓ : Loc nD τ sig) → Buf (Elt F) ℓ) : RegionOK (F := F) m := by
  intro d B Φ
  refine BIBase.Entails.trans ?_ (TC.region_wp_sc m (fun _ => B) (K (F := F)).lev (K (F := F)).refines_self d Φ)
  unfold G
  iintro ⟨Hb, Hlev, ⟨Hg, Ht⟩, Harr, HO, Hk⟩
  isplitl [Hb]; · iexact Hb
  isplitl [Hlev]; · iexact Hlev
  isplitl [Hg]; · iexact Hg
  isplitl [Ht]; · iexact Ht
  isplitl [Harr]; · iexact Harr
  isplitl [HO]; · iexact HO
  iintro ⟨Hb, ⟨Ha, He, Hr, Hp⟩, HO⟩
  iapply Hk
  isplitl [Hb]; · iexact Hb
  isplitl [Ha He Hr Hp]
  · isplitl [Ha]; · iexact Ha
    isplitl [He]; · iexists (TC.ehArr (TC.V m d main_arg0)); iexact He
    isplitl [Hr]
    · iexists (TC.ridxArr (TC.V m d main_arg0)); isplitr; · ipureintro; exact rowsOK_ridx d _
      iexact Hr
    iexists (TC.pArr (TC.V m d main_arg0)); iexact Hp
  iexact HO

/-- The routing program runs from any launch memory, the logits unchanged. -/
theorem run [∀ e, Nonempty (Elt F e)] (htile : TileBody (F := F)) (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ htile (regionOK m)

end Frame

/-! ## The same launch with the results named

The task's obligation is taken here at value strength, over a function `spec` of the table, the early-exit rows and
the row indices that names the result: each task leaves its 512 result rows at `spec`'s, and the 32 slices, which
cover the result, join to the whole of it. -/

section Value

variable (m : (ℓ : Loc nD τ sig) → Buf (Elt F) ℓ) (ρ : Dev nD → PrngReg)

/-- The table: the four heads' logits reshaped to 65536 rows. -/
def tab0 (d : Dev nD) : Buf (Elt F) (tabLoc d) := (opR (F := F)).result (V0 m d) t'
/-- The confidence kernel's three results, as functions of the logits. -/
abbrev e0 (d : Dev nD) : Buf (Elt F) (eLoc d) := TC.ehArr (m (aLoc d))
abbrev r0 (d : Dev nD) : Buf (Elt F) (rLoc d) := TC.ridxArr (m (aLoc d))
abbrev p0 (d : Dev nD) : Buf (Elt F) (pLoc d) := TC.pArr (m (aLoc d))

variable (spec : (d : Dev nD) → Buf (Elt F) (tabLoc d) → Buf (Elt F) (pLoc d) → Buf (Elt F) (rLoc d) → Buf (Elt F) (oLoc d))

/-- What one task is handed, the contents named: a read share of the table, its early-exit rows, its row indices, and its
    result rows at some contents; -/
def tileIn (d : Dev nD) (L : grid1.Coords) (q : PosShare TreeShare) (Tb : Buf (Elt F) (tabLoc d)) (Pc : Buf (Elt F) (pLoc d))
    (R : Buf (Elt F) (rLoc d)) : sProp 𝕄 :=
  iprop(((tabW).view.loc (thr d L) ↦{q} Tb)
    ∗ ((pSl L).view.loc (thr d L) ↦[(pSl L).view.set]{fullShare} Pc)
    ∗ ((rSl L).view.loc (thr d L) ↦[(rSl L).view.set]{fullShare} R)
    ∗ (∃ f, (oSl L).view.loc (thr d L) ↦[(oSl L).view.set]{fullShare} f))
/-- and what it hands back: the same, its result rows at `spec`'s. -/
def tileOut (d : Dev nD) (L : grid1.Coords) (q : PosShare TreeShare) (Tb : Buf (Elt F) (tabLoc d)) (Pc : Buf (Elt F) (pLoc d))
    (R : Buf (Elt F) (rLoc d)) : sProp 𝕄 :=
  iprop(((tabW).view.loc (thr d L) ↦{q} Tb)
    ∗ ((pSl L).view.loc (thr d L) ↦[(pSl L).view.set]{fullShare} Pc)
    ∗ ((rSl L).view.loc (thr d L) ↦[(rSl L).view.set]{fullShare} R)
    ∗ ((oSl L).view.loc (thr d L) ↦[(oSl L).view.set]{fullShare} spec d Tb Pc R))

/-- One task's obligation at value strength, for any contents whose row indices name table rows. -/
def TileBodyV : Prop :=
  ∀ (d : Dev nD) (L : grid1.Coords) (_ : (K (F := F)).Facts) (O : CellTallies nD τ sig (HIx 1)) (W : Waits sig (HIx 1)) (_ : ∀ g, O g none = 0)
    (q : PosShare TreeShare) (Tb : Buf (Elt F) (tabLoc d)) (Pc : Buf (Elt F) (pLoc d)) (R : Buf (Elt F) (rLoc d)) (_ : RowsOK (F := F) d R),
    (iprop(levAts (K (F := F)).L (K (F := F)).lev ∗ emp
        ∗ tileIn (F := F) d L q Tb Pc R
        ∗ scopedBufs (thr d L) ∗ scopedSems0 (thr d L) ∗ owes (thr d L) O W) : sProp 𝕄)
      ⊢ wp frame (wpE (defs₀ (F := F)) 𝒱₀ (thr d L) none) Set.univ
          (cc1_sc_route L tabW (Memref.isWhole_whole _) pW (Memref.isWhole_whole _) rW (Memref.isWhole_whole _) oW (Memref.isWhole_whole _)
            xW (Memref.isWhole_whole _) cc1_scratch1 cc1_scratch2 cc1_scoped0)
          fun _ => iprop(tileOut (F := F) spec d L q Tb Pc R
            ∗ scopedBufs (thr d L) ∗ scopedSems0 (thr d L)
            ∗ ∃ W', ⌜∀ p ∈ W', p ∈ W ∨ p.2 = none⌝ ∗ owes (thr d L) O W')

def goV (d : Dev nD) (c : Fin 2) (i : Fin 16) : sProp 𝕄 := tileIn (F := F) d (coordsV c i) (qTask c i) (tab0 m d) (p0 m d) (r0 m d)
def tdV (d : Dev nD) (c : Fin 2) (i : Fin 16) : sProp 𝕄 := tileOut (F := F) spec d (coordsV c i) (qTask c i) (tab0 m d) (p0 m d) (r0 m d)
def stV (d : Dev nD) (c : Fin 2) : sProp 𝕄 := bigSep Finset.univ fun i : Fin 16 => goV (F := F) m d c i
def dnV (d : Dev nD) (c : Fin 2) : sProp 𝕄 := bigSep Finset.univ fun i : Fin 16 => tdV (F := F) m spec d c i

/-- The one call takes, per SparseCore, its sixteen tasks' resources and brings them back, the result rows at `spec`'s. -/
def PV : (K (F := F)).Pay (nD := nD) (Val := Elt F) (Name := ℕ) (U := UU) where
  st := fun q d c => match q with | 0 => stV (F := F) m d c
  dn := fun q d c => match q with | 0 => dnV (F := F) m spec d c
  go := fun q d c i => match q with | 0 => goV (F := F) m d c i
  td := fun q d c i => match q with | 0 => tdV (F := F) m spec d c i
  x := fun _ _ => iprop(emp)

set_option synthInstance.maxHeartbeats 400000 in
instance goV_storable (d : Dev nD) (c : Fin 2) (i : Fin 16) : BI.Storable (upEmb : UEmb _ 𝕄) (goV (F := F) m d c i) := by
  unfold goV tileIn; infer_instance
set_option synthInstance.maxHeartbeats 400000 in
instance tdV_storable (d : Dev nD) (c : Fin 2) (i : Fin 16) : BI.Storable (upEmb : UEmb _ 𝕄) (tdV (F := F) m spec d c i) := by
  unfold tdV tileOut; infer_instance
instance stV_storable (d : Dev nD) (c : Fin 2) : BI.Storable (upEmb : UEmb _ 𝕄) (stV (F := F) m d c) := by
  unfold stV; infer_instance
instance dnV_storable (d : Dev nD) (c : Fin 2) : BI.Storable (upEmb : UEmb _ 𝕄) (dnV (F := F) m spec d c) := by
  unfold dnV; infer_instance

instance PV_storable : (PV (F := F) m spec).IsStorable where
  st q d c := match q with | 0 => stV_storable m d c
  dn q d c := match q with | 0 => dnV_storable m spec d c
  go q d c i := match q with | 0 => goV_storable m d c i
  td q d c i := match q with | 0 => tdV_storable m spec d c i

theorem tileOblV (htile : TileBodyV (F := F) spec) (hF : (K (F := F)).Facts) : (K (F := F)).TileObl (D (F := F)) 𝒱 (PV (F := F) m spec) v₀ 0 := by
  intro d c i O W hO _ _
  simp only [show (PV (F := F) m spec).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) hF O W hO (qTask c i) (tab0 m d) (p0 m d) (r0 m d) (rowsOK_ridx d _)).trans
    (wp_mono frame _ _ fun _ => obl_post)

theorem vecSplitV : (K (F := F)).VecSplit' (PV (F := F) m spec) 0 := by
  intro d c
  show stV (F := F) m d c ⊢ |={Set.univ}=> iprop((bigSep Finset.univ fun i : Fin 16 => goV (F := F) m d c i)
      ∗ ((bigSep Finset.univ fun i : Fin 16 => tdV (F := F) m spec d c i) -∗ dnV (F := F) m spec d c))
  unfold stV dnV
  iintro H; imodintro
  isplitl [H]; · iexact H
  iintro H; iexact H

theorem PxV_all : (bigSep Finset.univ fun thr : Thread nD τ => bigSep Finset.univ fun q : Fin 1 => (PV (F := F) m spec).x q thr) = (iprop(emp) : sProp 𝕄) := by
  rw [show (fun thr : Thread nD τ => bigSep Finset.univ fun q : Fin 1 => (PV (F := F) m spec).x q thr) = fun _ => (iprop(emp) : sProp 𝕄) from
    funext fun thr => bigSep_emp' _, bigSep_emp']

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PV (F := F) m spec).x q thr) := by
  rw [PxV_all, ← Px_all (F := F)]; exact hu₀

omit [FloatOps F] in
/-- The 32 tasks' result rows are all of the result. -/
theorem oSet_cover (d : Dev nD) : (Finset.univ : Finset (Fin 2 × Fin 16)).biUnion (fun t => ((oSl (coordsV t.1 t.2)).view.set : Finset (Idx (oLoc d))))
    = (Finset.univ : Finset (Idx (oLoc d))) := by
  ext j
  simp only [Finset.mem_biUnion, Finset.mem_univ, true_and, iff_true]
  have hj0 : (j 0).val < 16384 := (j 0).isLt
  have hj1 : (j 1).val < 1000 := (j 1).isLt
  refine ⟨(⟨(j 0).val % 1024 / 512, by omega⟩, ⟨(j 0).val / 1024, by omega⟩), ?_⟩
  dsimp only
  rw [set_oSl, Rect.mem_set_unit, off2_task]
  intro a
  fin_cases a
  · show 1024 * ((j 0).val / 1024) + 512 * ((j 0).val % 1024 / 512) ≤ (j 0).val ∧ (j 0).val < 1024 * ((j 0).val / 1024) + 512 * ((j 0).val % 1024 / 512) + 512
    omega
  · show 0 ≤ (j 1).val ∧ (j 1).val < 0 + 1000
    omega

omit [FloatOps F] in
/-- The elements of a family of pairwise disjoint sets that cover an array are the array whole. -/
theorem whole_of_slices {ℓ : Loc nD τ sig} (Kf : Fin 2 × Fin 16 → Finset (Idx ℓ))
    (hd : ∀ t ∈ (Finset.univ : Finset (Fin 2 × Fin 16)), ∀ t' ∈ (Finset.univ : Finset (Fin 2 × Fin 16)), t ≠ t' → Disjoint (Kf t) (Kf t'))
    (hc : (Finset.univ : Finset (Fin 2 × Fin 16)).biUnion Kf = Finset.univ) (f : Buf (Elt F) ℓ) :
    (bigSep Finset.univ fun c : Fin 2 => bigSep Finset.univ fun i : Fin 16 => ℓ ↦[Kf (c, i)]{fullShare} f) ⊢ (ℓ ↦{fullShare} f : sProp 𝕄) := by
  rw [← bigSep_univ_prod (fun t : Fin 2 × Fin 16 => (ℓ ↦[Kf t]{fullShare} f : sProp 𝕄)), ← pointsTo_biUnion Finset.univ Kf hd, hc]
  try exact .refl _

omit [FloatOps F] in
theorem out_join (d : Dev nD) (f : Buf (Elt F) (oLoc d)) :
    (bigSep Finset.univ fun c : Fin 2 => bigSep Finset.univ fun i : Fin 16 => oLoc d ↦[(oSl (coordsV c i)).view.set]{fullShare} f)
      ⊢ (oLoc d ↦{fullShare} f : sProp 𝕄) := by
  iintro H
  iapply (whole_of_slices (fun t => (oSl (coordsV t.1 t.2)).view.set) oSet_disjoint (oSet_cover d) f)
  iexact H

theorem goV_intro (d : Dev nD) (c : Fin 2) (i : Fin 16) (f : Buf (Elt F) (oLoc d)) :
    iprop((tabLoc d ↦{qTask c i} tab0 m d) ∗ (pLoc d ↦[(pSl (coordsV c i)).view.set]{fullShare} p0 m d)
        ∗ (rLoc d ↦[(rSl (coordsV c i)).view.set]{fullShare} r0 m d) ∗ (oLoc d ↦[(oSl (coordsV c i)).view.set]{fullShare} f))
      ⊢ goV (F := F) m d c i := by
  unfold goV tileIn
  iintro ⟨Ht, Hp, Hr, Ho⟩
  isplitl [Ht]; · iexact Ht
  isplitl [Hp]; · iexact Hp
  isplitl [Hr]; · iexact Hr
  iexists f; iexact Ho

theorem tasksV_intro (d : Dev nD) (f : Buf (Elt F) (oLoc d)) :
    iprop((tabLoc d ↦{fullShare} tab0 m d) ∗ (pLoc d ↦{fullShare} p0 m d) ∗ (rLoc d ↦{fullShare} r0 m d) ∗ (oLoc d ↦{fullShare} f))
      ⊢ (bigSep Finset.univ fun c : Fin 2 => stV (F := F) m d c : sProp 𝕄) := by
  unfold stV
  refine BIBase.Entails.trans ?_ (bigSep_mono fun c _ => bigSep_mono fun i _ => goV_intro m d c i f)
  simp only [bigSep_sep']
  iintro ⟨Ht, Hp, Hr, Ho⟩
  isplitl [Ht]; · iapply (shares_of_whole (tab0 m d)); iexact Ht
  isplitl [Hp]; · iapply (slices_of_whole (fun t => (pSl (coordsV t.1 t.2)).view.set) pSet_disjoint (p0 m d)); iexact Hp
  isplitl [Hr]; · iapply (slices_of_whole (fun t => (rSl (coordsV t.1 t.2)).view.set) rSet_disjoint (r0 m d)); iexact Hr
  iapply (slices_of_whole (fun t => (oSl (coordsV t.1 t.2)).view.set) oSet_disjoint f); iexact Ho

theorem tdV_out (d : Dev nD) (c : Fin 2) (i : Fin 16) :
    tdV (F := F) m spec d c i ⊢ oLoc d ↦[(oSl (coordsV c i)).view.set]{fullShare} spec d (tab0 m d) (p0 m d) (r0 m d) := by
  unfold tdV tileOut
  iintro ⟨-, -, -, Ho⟩
  iexact Ho

theorem dn0V_eq (d : Dev nD) :
    (bigSep Finset.univ fun c : Fin ((K (F := F)).nCore 0) => (PV (F := F) m spec).dn 0 d c) = bigSep Finset.univ fun c : Fin 2 => dnV (F := F) m spec d c := rfl

/-- What the tasks bring back holds the whole result at `spec`'s. -/
theorem tasksV_out (d : Dev nD) :
    (bigSep Finset.univ fun c : Fin 2 => dnV (F := F) m spec d c : sProp 𝕄) ⊢ oLoc d ↦{fullShare} spec d (tab0 m d) (p0 m d) (r0 m d) := by
  unfold dnV
  exact BIBase.Entails.trans (bigSep_mono fun c _ => bigSep_mono fun i _ => tdV_out m spec d c i) (out_join d _)

/-- What @main leaves the claim: the logits at their launch contents, the exit heads and the routed logits at their
    functions of them. -/
abbrev FINV (d : Dev nD) : sProp 𝕄 :=
  iprop((aLoc d ↦{fullShare} m (aLoc d)) ∗ (eLoc d ↦{fullShare} e0 m d) ∗ (oLoc d ↦{fullShare} spec d (tab0 m d) (p0 m d) (r0 m d)))

theorem hmainV [∀ e, Nonempty (Elt F e)] (κ : GSem nD τ sig → ℕ) (d : Dev nD) :
    iprop((K (F := F)).ctx EH (PV (F := F) m spec) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m spec d) := by
  unfold SparseCore.Cfg.tcRes
  rw [unscopedBufs_eq]
  simp only [main, wp_bind, wp_pure]
  iintro ⟨#Hctx, Hst, ⟨Hb, ⟨Ha, He, Hr, Hp, Ht, Ho⟩, -, -⟩, HG⟩
  ihave Hlev := (SparseCore.Cfg.ctx_levAts κ) $$ Hctx
  ihave Hst' := (tcSt_reowe d 0) $$ Hst
  icases Hst' with ⟨%W, %hW, HO, Hback⟩
  unfold G
  icases HG with ⟨Hg, Htk⟩
  -- the confidence pipeline's region
  iapply (TC.region_wp_sc m (fun d => B0 (F := F) d) (K (F := F)).lev (K (F := F)).refines_self d _) $$ [Hb Hg Htk Ha He Hr Hp HO Ht Ho Hback]
  isplitl [Hb]; · iexact Hb
  isplitr; · iexact Hlev
  isplitl [Hg]; · iexact Hg
  isplitl [Htk]; · iexact Htk
  isplitl [Ha He Hr Hp]
  · isplitl [Ha]; · iexact Ha
    isplitl [He]; · iexact He
    isplitl [Hr]; · iexact Hr
    iexact Hp
  isplitl [HO]
  · iexists W; isplitr
    · ipureintro; intro p hp; exact hW p (Finset.mem_coe.mp hp)
    iexact HO
  iintro ⟨Hb, ⟨Ha, He, Hr, Hp⟩, ⟨%W', %hW', HO⟩⟩
  ihave Hst := Hback $$ %W' %(wbelow_after d hW') HO
  -- the reshape, over the logits and the table
  iapply (wp_hlo_within 𝒱 (SparseCore.T d) none Set.univ (op := opR) (S := S2) hR2 (V := V0 m d)) $$ [Hb Ha Ht]
  · isplitl [Hb]; · iexact Hb
    rw [held_S2]
    isplitl [Ha]; · iexact Ha
    iexact Ht
  iintro ⟨Hb, Hheld⟩
  ihave Hh := (Entails.of_eq (held_S2 (F := F) d _)) $$ Hheld
  icases Hh with ⟨Ha, Ht⟩
  rw [res_a]
  -- the tasks' resources, and the call
  ihave Htasks := (tasksV_intro m d _) $$ [Ht Hp Hr Ho]
  · isplitl [Ht]; · iexact Ht
    isplitl [Hp]; · iexact Hp
    isplitl [Hr]; · iexact Hr
    iexact Ho
  rw [wp_ret]; imodintro
  iapply ((K (F := F)).wp_run (D (F := F)) 𝒱 (EH := EH) (P := PV (F := F) m spec) κ d 0) $$ [Hst Htasks Ha He]
  isplitr; · iexact Hctx
  isplitl [Hst]; · iexact Hst
  isplitl [Htasks]; · iexact Htasks
  iintro ⟨Hst, Hdn⟩
  ihave Hdn' := (Entails.of_eq (dn0V_eq m spec d)) $$ Hdn
  ihave Hout := (tasksV_out m spec d) $$ Hdn'
  imodintro
  isplitl [Hst]; · iexact Hst
  isplitl [Ha]; · iexact Ha
  isplitl [He]; · iexact He
  iexact Hout

def fqV (d : Dev nD) (s' : Phys nD τ sig (Elt F)) : Prop :=
  s'.mem.mem (oLoc d) = spec d (tab0 m d) (p0 m d) (r0 m d) ∧ s'.mem.mem (eLoc d) = e0 m d ∧ s'.mem.mem (aLoc d) = m (aLoc d)

theorem hfinV (d : Dev nD) (s' : Phys nD τ sig (Elt F)) : iprop(FINV m spec d ∗ SI s') ⊢ (⌜fqV m spec d s'⌝ : sProp 𝕄) := by
  iintro ⟨⟨Ha, He, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := e0 m d))) $$ [HSI He]
  · isplitl [HSI] <;> iassumption
  icases H with ⟨%h2, HSI, -⟩
  ihave H := (SI_pointsTo_agree (st := s') (ℓ := oLoc d) (I := Finset.univ) (q := fullShare) (f := spec d (tab0 m d) (p0 m d) (r0 m d))) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

/-- The claim read off the final memory: the routed logits and the exit heads at their functions of the logits, the logits unchanged. -/
def QCV : PUnit × MemSt nD τ sig (Elt F) → Prop := fun r => ∀ c : Dev nD,
  r.2.mem (oLoc c) = spec c (tab0 m c) (p0 m c) (r0 m c) ∧ r.2.mem (eLoc c) = e0 m c ∧ r.2.mem (aLoc c) = m (aLoc c)

/-- The routing program's run with its results named, given one task's obligation at value strength. -/
theorem runV [∀ e, Nonempty (Elt F e)] (htile : TileBodyV (F := F) spec) :
    θ_run (Cert.Kernel.defs (F := F)) (Cert.Kernel.threads (F := F)) ⟨m, fun _ => 0, ρ⟩ (QCV m spec) :=
  SparseCore.Cfg.θ_run_sc (K := K (F := F)) (D := D (F := F)) (𝒱 := 𝒱) (EH := EH) (P := PV (F := F) m spec) facts v₀
    (fun q hq => match q with | 0 => nomatch hq)
    (fun q _ => match q with | 0 => tileOblV m spec htile facts)
    (fun q _ => match q with | 0 => SparseCore.Cfg.VecSplit.of_plain (vecSplitV m spec))
    m ρ main (G (F := F)) (FINV m spec) (u₀ (F := F)) (sep_elim_left.trans (hu₀V m spec)) (hmainV m ρ spec) (fqV m spec) (hfinV m spec)
    (QCV m spec) (fun _ h => h)

/-- What a task hands back at value strength is what it hands back at frame strength. -/
theorem tileOut_tileRes (d : Dev nD) (L : grid1.Coords) (q : PosShare TreeShare) (Tb : Buf (Elt F) (tabLoc d)) (Pc : Buf (Elt F) (pLoc d))
    (R : Buf (Elt F) (rLoc d)) (hR : RowsOK (F := F) d R) {X : sProp 𝕄} :
    iprop(tileOut (F := F) spec d L q Tb Pc R ∗ X) ⊢ iprop(tileRes (F := F) d L q ∗ X) := by
  unfold tileOut tileRes
  iintro ⟨⟨Ht, Hp, Hr, Ho⟩, HX⟩
  isplitr [HX]
  · isplitl [Ht]; · iexists Tb; iexact Ht
    isplitl [Hp]; · iexists Pc; iexact Hp
    isplitl [Hr]
    · iexists R; isplitr; · ipureintro; exact hR
      iexact Hr
    iexists (spec d Tb Pc R); iexact Ho
  · iexact HX

/-- One task's obligation at frame strength from the one at value strength: the contents it is handed are named at the
    entry, and forgotten again at the exit. -/
theorem tileBody_of_V {spec : (d : Dev nD) → Buf (Elt F) (tabLoc d) → Buf (Elt F) (pLoc d) → Buf (Elt F) (rLoc d) → Buf (Elt F) (oLoc d)}
    (h : TileBodyV (F := F) spec) : TileBody (F := F) := by
  intro d L hF O W hO q
  unfold tileRes
  iintro ⟨#Hlv, Hemp, ⟨⟨%Tb, Htab⟩, ⟨%Pc, Hp⟩, ⟨%R, %hR, Hr⟩, Ho⟩, Hsb, Hss, HO⟩
  iapply ((h d L hF O W hO q Tb Pc R hR).trans (wp_mono frame _ _ fun _ => tileOut_tileRes spec d L q Tb Pc R hR))
  isplitr; · iexact Hlv
  isplitl [Hemp]; · iexact Hemp
  isplitl [Htab Hp Hr Ho]
  · unfold tileIn
    isplitl [Htab]; · iexact Htab
    isplitl [Hp]; · iexact Hp
    isplitl [Hr]; · iexact Hr
    iexact Ho
  isplitl [Hsb]; · iexact Hsb
  isplitl [Hss]; · iexact Hss
  iexact HO

end Value

end Cert.Kernel.Route.Launch

end
-- ==== Proof.RouteFrameK.lean ====
/-
  The routing program as printed, at the word-level instance: its frame.
-/
import proofs.«215259_g58411555225873_cont_9to1_m_859_22_alg».proof.Proof.RouteLaunchK

noncomputable section

namespace Cert.Kernel.Route.Launch

open Cert.Kernel Cert.Kernel.Gen Cert.Kernel.Route.Tile
open Idealize.ShloMosaic Idealize.SL Idealize.SL.Sem

/-- The frame claim of the kernel as printed: it runs from any launch memory and leaves the logits unchanged. -/
theorem frame_k (htile : TileBody (F := Bits)) : Cert.frame_Kernel := fun m ρ _ =>
  (θ_run Cert.Kernel.defs _ _).mono (fun _ h c => h c) (run (F := Bits) htile m ρ)

end Cert.Kernel.Route.Launch

end
-- ==== Proof.RouteGeom.lean ====
/-
  One trip of the routing task, lane by lane, in a uniform spelling: the sixteen row indices a trip loads, the result
  row each lane writes (row base + 16·trip + lane of the task's slice), the table row a lane reads (the row its index
  names), and the condition under which a lane copies (its index names a row of the last head's part of the table).
-/
import proofs.«215259_g58411555225873_cont_9to1_m_859_22_alg».proof.Proof.RouteBase
import proofs.«215259_g58411555225873_cont_9to1_m_859_22_alg».proof.Proof.TripFacts

noncomputable section

namespace Cert.KernelIdeal.Route.Tile

open Cert.KernelIdeal Cert.KernelIdeal.Gen Cert.KernelIdeal.Route

open Idealize.ShloMosaic
open Idealize.ShloMosaic.SparseCore (S V T)

variable {F : FTy → Type}

/-- The first row of the task at grid point `L`, as the body computes it. -/
def baseWord (L : grid1.Coords) : BitVec 32 :=
  Scalar.muli (Scalar.addi (Scalar.muli (BitVec.ofNat 32 (L 1).val) 2#32) (BitVec.ofNat 32 (L 0).val)) 512#32

/-- The result row lane `r` of trip `k` writes, as the body computes it: base + 16·k + r. -/
def dstWord (L : grid1.Coords) (k : Fin k1_t1_loop.trips) (r : BitVec 32) : BitVec 32 :=
  Scalar.addi (Scalar.addi (baseWord L) (Scalar.muli (Scf.iv 0#32 1#32 k) 16#32)) r

/-- The sixteen row indices of a trip, as the body extracts them from the loaded vector. -/
def wd [hF : Cert.KernelIdeal.Facts] (v11 : IVec S16 32) : ℕ → BitVec 32
  | 0 => extractAt ![0] (extractStridedSlice S1 ![0] v11 Facts₀.slices_S16_o0_S1) Facts₀.inpos_S1_p0
  | 1 => extractAt ![0] (extractStridedSlice S1 ![1] v11 Facts₀.slices_S16_o1_S1) Facts₀.inpos_S1_p0
  | 2 => extractAt ![0] (extractStridedSlice S1 ![2] v11 Facts₀.slices_S16_o2_S1) Facts₀.inpos_S1_p0
  | 3 => extractAt ![0] (extractStridedSlice S1 ![3] v11 Facts₀.slices_S16_o3_S1) Facts₀.inpos_S1_p0
  | 4 => extractAt ![0] (extractStridedSlice S1 ![4] v11 Facts₀.slices_S16_o4_S1) Facts₀.inpos_S1_p0
  | 5 => extractAt ![0] (extractStridedSlice S1 ![5] v11 Facts₀.slices_S16_o5_S1) Facts₀.inpos_S1_p0
  | 6 => extractAt ![0] (extractStridedSlice S1 ![6] v11 Facts₀.slices_S16_o6_S1) Facts₀.inpos_S1_p0
  | 7 => extractAt ![0] (extractStridedSlice S1 ![7] v11 Facts₀.slices_S16_o7_S1) Facts₀.inpos_S1_p0
  | 8 => extractAt ![0] (extractStridedSlice S1 ![8] v11 Facts₀.slices_S16_o8_S1) Facts₀.inpos_S1_p0
  | 9 => extractAt ![0] (extractStridedSlice S1 ![9] v11 Facts₀.slices_S16_o9_S1) Facts₀.inpos_S1_p0
  | 10 => extractAt ![0] (extractStridedSlice S1 ![10] v11 Facts₀.slices_S16_o10_S1) Facts₀.inpos_S1_p0
  | 11 => extractAt ![0] (extractStridedSlice S1 ![11] v11 Facts₀.slices_S16_o11_S1) Facts₀.inpos_S1_p0
  | 12 => extractAt ![0] (extractStridedSlice S1 ![12] v11 Facts₀.slices_S16_o12_S1) Facts₀.inpos_S1_p0
  | 13 => extractAt ![0] (extractStridedSlice S1 ![13] v11 Facts₀.slices_S16_o13_S1) Facts₀.inpos_S1_p0
  | 14 => extractAt ![0] (extractStridedSlice S1 ![14] v11 Facts₀.slices_S16_o14_S1) Facts₀.inpos_S1_p0
  | 15 => extractAt ![0] (extractStridedSlice S1 ![15] v11 Facts₀.slices_S16_o15_S1) Facts₀.inpos_S1_p0
  | _ => 0#32

/-- A lane copies when its index names a row of the last head's part of the table. -/
def cnd (v11 : IVec S16 32) (r : ℕ) : Prop := routeCond (wd v11 r) = 1#1
instance (v11 : IVec S16 32) : DecidablePred (cnd v11) := fun r => inferInstanceAs (Decidable (routeCond (wd v11 r) = 1#1))

/-- The uniform spelling of a lane's result row is the trip's destination row word. -/
theorem dstWord_eq (L : grid1.Coords) (k : Fin k1_t1_loop.trips) (n : ℕ) :
    dstWord L k (BitVec.ofNat 32 n) = destRowWord (L 1).val (L 0).val k.val n := rfl

/-- As a number: (subcore · 2 + core) · 512 + 16 · trip + lane. -/
theorem dstWord_toNat (L : grid1.Coords) (k : Fin k1_t1_loop.trips) (n : ℕ) (hn : n < 16) :
    (dstWord L k (BitVec.ofNat 32 n)).toNat = ((L 1).val * 2 + (L 0).val) * 512 + 16 * k.val + n :=
  destRowWord_toNat _ _ _ _ (L 1).isLt (L 0).isLt (trips_lt k) hn

/-- The task's first row, as a number. -/
theorem baseWord_toNat (L : grid1.Coords) : (baseWord L).toNat = ((L 1).val * 2 + (L 0).val) * 512 := by
  have h1 : (L 1).val < 16 := (L 1).isLt
  have h0 : (L 0).val < 2 := (L 0).isLt
  show ((BitVec.ofNat 32 (L 1).val * 2#32 + BitVec.ofNat 32 (L 0).val) * 512#32).toNat = _
  simp only [BitVec.toNat_add, BitVec.toNat_mul, BitVec.toNat_ofNat, Nat.reducePow]
  omega

/-- The task's 512 rows start at (subcore · 2 + core) · 512. -/
theorem off2_eq (L : grid1.Coords) : k1_off2 L = ![((L 1).val * 2 + (L 0).val) * 512, 0] := by
  show ![(baseWord L).toNat, 0] = _
  rw [baseWord_toNat]

/-- The result row of lane `r` lies inside the result array. -/
theorem dstWord_inb (L : grid1.Coords) (k : Fin k1_t1_loop.trips) (r : ℕ) :
    ∀ a, (![(dstWord L k (BitVec.ofNat 32 (r % 16))).toNat, 0] : Fin 2 → Nat) a + S1x1000.size a ≤ S16384x1000.size a := by
  have h := dstWord_toNat L k (r % 16) (Nat.mod_lt _ (by omega))
  have h1 : (L 1).val < 16 := (L 1).isLt
  have h0 : (L 0).val < 2 := (L 0).isLt
  have hk := trips_lt k
  have hr : r % 16 < 16 := Nat.mod_lt _ (by omega)
  refine Rect.inb₂ ?_ ?_
  · show (dstWord L k (BitVec.ofNat 32 (r % 16))).toNat + 1 ≤ 16384
    omega
  · show 0 + 1000 ≤ 1000
    omega

/-- The result row lane `r` of trip `k` writes, as a slice of the result array. -/
def dstU (L : grid1.Coords) (k : Fin k1_t1_loop.trips) (r : ℕ) : Memref sig .scVector .hbm S1x1000 .f32 :=
  (Memref.whole main_v2_scv).slice (Rect.unit (s := S16384x1000) ![(dstWord L k (BitVec.ofNat 32 (r % 16))).toNat, 0] S1x1000.size (dstWord_inb L k r)) (fun _ => rfl)

theorem srcWord_inb (v : BitVec 32) (hv : v.toNat < 65536) :
    ∀ a, (![v.toNat, 0] : Fin 2 → Nat) a + S1x1000.size a ≤ S65536x1000.size a := by
  refine Rect.inb₂ ?_ ?_
  · show v.toNat + 1 ≤ 65536
    omega
  · show 0 + 1000 ≤ 1000
    omega

/-- The table row an index names, as a slice of the table. -/
def srcU (v : BitVec 32) (hv : v.toNat < 65536) : Memref sig .scVector .hbm S1x1000 .f32 :=
  (Memref.whole main_v1_scv).slice (Rect.unit (s := S65536x1000) ![v.toNat, 0] S1x1000.size (srcWord_inb v hv)) (fun _ => rfl)

-- the uniform spelling IS the printed one, lane by lane
example (L : grid1.Coords) (k : Fin k1_t1_loop.trips) : k1_off4 L k = ![(dstWord L k (BitVec.ofNat 32 (0 % 16))).toNat, 0] := rfl
example (L : grid1.Coords) (k : Fin k1_t1_loop.trips) : k1_off10 L k = ![(dstWord L k (BitVec.ofNat 32 (3 % 16))).toNat, 0] := rfl
example (L : grid1.Coords) (k : Fin k1_t1_loop.trips) : k1_off34 L k = ![(dstWord L k (BitVec.ofNat 32 (15 % 16))).toNat, 0] := rfl
example (L : grid1.Coords) (k : Fin k1_t1_loop.trips) : k1_off36 L k = ![(dstWord L k (BitVec.ofNat 32 (0 % 16))).toNat, 0] := rfl
example (v : BitVec 32) : k1_off5 v = ![v.toNat, 0] := rfl
example (v : BitVec 32) : k1_off67 v = ![v.toNat, 0] := rfl
example (v : BitVec 32) : (k1_cond7 v = 1#1) = (routeCond v = 1#1) := rfl
example (v11 : IVec S16 32) : extractAt ![0] (k1_pay6 v11) inpos_S1_p0 = wd v11 4 := rfl
example (v10 : Vec F S16 .i32) [FloatOps F] : extractAt ![0] (k1_pay3 v10) inpos_S1_p0 = wd (k1_pay1 v10) 1 := rfl

/-- The task's result rows and, inside them, the row of each lane of a trip. -/
abbrev outSet (d : Dev nD) (L : grid1.Coords) : Finset (Idx (((Memref.whole main_v2_scv : Memref sig .scVector .hbm S16384x1000 .f32).slice
    (Rect.unit (s := S16384x1000) (k1_off2 L) S512x1000.size (k1_off2_inb L)) (fun _ => rfl)).view.loc (V d ((L 0).castLE hcore1) ((L 1).castLE hsub1)))) :=
  ((Memref.whole main_v2_scv : Memref sig .scVector .hbm S16384x1000 .f32).slice
    (Rect.unit (s := S16384x1000) (k1_off2 L) S512x1000.size (k1_off2_inb L)) (fun _ => rfl)).view.set

/-- Lane `r`'s row, as elements of the result array. -/
def laneSet (d : Dev nD) (L : grid1.Coords) (k : Fin k1_t1_loop.trips) (r : ℕ) :
    Finset (Idx (((Memref.whole main_v2_scv : Memref sig .scVector .hbm S16384x1000 .f32).slice
      (Rect.unit (s := S16384x1000) (k1_off2 L) S512x1000.size (k1_off2_inb L)) (fun _ => rfl)).view.loc (V d ((L 0).castLE hcore1) ((L 1).castLE hsub1)))) :=
  (dstU L k r).view.set

/-- A lane's row as a rectangle of the result array: one row, all 1000 columns. -/
theorem laneSet_eq (d : Dev nD) (L : grid1.Coords) (k : Fin k1_t1_loop.trips) (r : ℕ) :
    laneSet d L k r = (Rect.unit (s := S16384x1000) ![(dstWord L k (BitVec.ofNat 32 (r % 16))).toNat, 0] S1x1000.size (dstWord_inb L k r)).set := by
  exact View.set_slice_whole main_v2_scv _

/-- The task's rows as a rectangle of the result array: 512 rows, all 1000 columns. -/
theorem outSet_eq (d : Dev nD) (L : grid1.Coords) :
    outSet d L = (Rect.unit (s := S16384x1000) (k1_off2 L) S512x1000.size (k1_off2_inb L)).set := by
  exact View.set_slice_whole main_v2_scv _

/-- A lane's row is one of the task's rows; -/
theorem laneSet_sub (d : Dev nD) (L : grid1.Coords) (k : Fin k1_t1_loop.trips) : ∀ r < 16, laneSet d L k r ⊆ outSet d L := by
  intro r hr
  rw [laneSet_eq, outSet_eq]
  intro i hi
  rw [Rect.mem_set_unit] at hi ⊢
  have h := dstWord_toNat L k (r % 16) (Nat.mod_lt _ (by omega))
  have hk := trips_lt k
  have hr' : r % 16 < 16 := Nat.mod_lt _ (by omega)
  rw [off2_eq]
  intro a
  have ha := hi a
  match a with
  | ⟨0, _⟩ =>
    have ha' : (dstWord L k (BitVec.ofNat 32 (r % 16))).toNat ≤ (i 0).val
        ∧ (i 0).val < (dstWord L k (BitVec.ofNat 32 (r % 16))).toNat + 1 := ha
    show ((L 1).val * 2 + (L 0).val) * 512 ≤ (i 0).val ∧ (i 0).val < ((L 1).val * 2 + (L 0).val) * 512 + 512
    omega
  | ⟨1, _⟩ => exact ha

/-- two lanes' rows have no element in common. -/
theorem laneSet_disj (d : Dev nD) (L : grid1.Coords) (k : Fin k1_t1_loop.trips) :
    ∀ i < 16, ∀ j < 16, i ≠ j → Disjoint (laneSet d L k i) (laneSet d L k j) := by
  intro i hi j hj hij
  rw [laneSet_eq, laneSet_eq]
  have h1 := dstWord_toNat L k (i % 16) (Nat.mod_lt _ (by omega))
  have h2 := dstWord_toNat L k (j % 16) (Nat.mod_lt _ (by omega))
  have e1 : i % 16 = i := Nat.mod_eq_of_lt hi
  have e2 : j % 16 = j := Nat.mod_eq_of_lt hj
  refine Rect.unit_disjoint (0 : Fin 2) ?_
  show (dstWord L k (BitVec.ofNat 32 (i % 16))).toNat + 1 ≤ (dstWord L k (BitVec.ofNat 32 (j % 16))).toNat
    ∨ (dstWord L k (BitVec.ofNat 32 (j % 16))).toNat + 1 ≤ (dstWord L k (BitVec.ofNat 32 (i % 16))).toNat
  omega

/-- The lane words are the lanes of the loaded vector. -/
theorem wd_eq [hF : Cert.KernelIdeal.Facts] (v11 : IVec S16 32) (r : ℕ) (hr : r < 16) :
    wd v11 r = v11 (Idealize.ShloMosaic.ValueIdx.ix1 (⟨r, hr⟩ : Fin 16)) := by
  interval_cases r <;> exact lane_extract v11 _ hr _ _

end Cert.KernelIdeal.Route.Tile

end
-- ==== Proof.LibGuardedBatch.lean ====
/-
  A recorded batch of local copies on one DMA semaphore whose members are GUARDED: each issue stands under a run-time
  condition, and so does the matching wait. Either branch of a guarded issue ends at the same junction, holding the
  batch with the copy's delivery recorded or unchanged; a guarded wait either consumes one copy's units — silently, or,
  when it is the wait that brings the units consumed to the batch's total, handing back every delivery and the
  semaphore's counter at zero — or does nothing. The counting of which wait is the last is the caller's.
-/
import Idealize.ShloMosaic.Lib.Batch

noncomputable section

namespace Idealize.ShloMosaic.Transfers

open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))

section GuardedRules

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {m : ℕ}

/-- A guarded statement whose branches meet again at `J`: the guarded branch is run up to `J` holding `R`, or skipped
    holding `R`. -/
theorem wp_guard {g : Prop} [Decidable g] (A : g → Prog (TpuEff nD τ sig Val Λ c.2) α) (J : Prog (TpuEff nD τ sig Val Λ c.2) α)
    {P R : sProp 𝕄}
    (hpos : ∀ h : g, P ⊢ iprop((R -∗ wp frame (wpE defs 𝒱 c bd) Set.univ J Q) -∗ wp frame (wpE defs 𝒱 c bd) Set.univ (A h) Q))
    (hneg : ¬ g → P ⊢ R) :
    iprop(P ∗ (R -∗ wp frame (wpE defs 𝒱 c bd) Set.univ J Q)) ⊢ wp frame (wpE defs 𝒱 c bd) Set.univ (if h : g then A h else J) Q := by
  by_cases h : g
  · rw [dif_pos h]
    iintro ⟨HP, Hk⟩
    ihave H := (hpos h) $$ HP
    iapply H; iexact Hk
  · rw [dif_neg h]
    iintro ⟨HP, Hk⟩
    iapply Hk; iapply (hneg h); iexact HP

/-- The delivery a copy into `dst` (held on `Sd` at `fd`) out of `src` (held at share `q`, contents `fs`) records. -/
abbrev copyDelivery {s₀ : Shape} {e₀ : EltTy} (src : Memref sig c.2.kind sp s₀ e₀) (via : ReadAs Val s₀ e₀ s e) (dst : Memref sig c.2.kind sp' s e)
    (q : PosShare TreeShare) (fs : Buf Val (src.view.loc c)) (Sd : Finset (Idx (dst.view.loc c))) (fd : Buf Val (dst.view.loc c)) : sProp 𝕄 :=
  iprop((dst.view.loc c ↦[Sd]{fullShare} (dst.view.write Val fd (via.apply (src.view.read Val fs)) Finset.univ))
    ∗ (src.view.loc c ↦[src.view.set]{q} fs))

/-- A GUARDED issue on a recorded batch. Under the guard the caller's `P` lends the source's elements, the destination's
    and a rest `R h`; the copy is issued as the batch's next and the junction `J` is entered holding `R h` and the batch
    with the copy's delivery appended. Otherwise `J` is entered holding `P` and the batch as it was. -/
theorem wp_guardedIssue [Infinite Name] [EC.LandsIn (upEmb : UEmb _ 𝕄)] {g : Prop} [Decidable g] {s₀ : Shape} {e₀ : EltTy}
    {src : g → Memref sig c.2.kind sp s₀ e₀} {via : ReadAs Val s₀ e₀ s e} {dst : Memref sig c.2.kind sp' s e} {sm : SemLoc sig}
    {hsrc : ∀ h, (src h).view.WordExact} {hdst : dst.view.WordExact} {hsem : DmaTarget.Typed (nD := nD) sp sm (.here dst)}
    {J : Prog (TpuEff nD τ sig Val Λ c.2) α} {q : PosShare TreeShare} {fs : (h : g) → Buf Val ((src h).view.loc c)}
    {Sd : Finset (Idx (dst.view.loc c))} {fd : Buf Val (dst.view.loc c)} {Ds : List (sProp 𝕄)} {u : ℕ}
    (ι : Ix) (N : ℕ) (hN : dst.view.amount sm = N) (hSd : dst.view.set ⊆ Sd) (hj : g → Ds.length < m) (hu : u ≤ Ds.length * N)
    {P : sProp 𝕄} {R : g → sProp 𝕄}
    (hlend : ∀ h : g, P ⊢ iprop(((src h).view.loc c ↦[(src h).view.set]{q} fs h) ∗ (dst.view.loc c ↦[Sd]{fullShare} fd) ∗ R h)) :
    iprop(P ∗ Batched EC c sm ι N m Ds u
        ∗ ((if h : g then iprop(R h ∗ Batched EC c sm ι N m (Ds ++ [copyDelivery c (src h) via dst q (fs h) Sd fd]) u)
              else iprop(P ∗ Batched EC c sm ι N m Ds u))
            -∗ wp frame (wpE defs 𝒱 c bd) Set.univ J Q))
      ⊢ wp frame (wpE defs 𝒱 c bd) Set.univ
          (if h : g then .op (.enqueueDmaAs (src h) (.here dst) via sm (hsrc h) hdst hsem) (fun _ => J) else J) Q := by
  by_cases h : g
  · rw [dif_pos h, dif_pos h]
    iintro ⟨HP, Hb, Hk⟩
    ihave H := (hlend h) $$ HP
    icases H with ⟨Hs, Hd, HR⟩
    iapply (wp_dmaBatched EC 𝒱 c bd ι N hN hSd (hj h) hu) $$ [Hs Hd Hb]
    · isplitl [Hs]; · iexact Hs
      isplitl [Hd]; · iexact Hd
      iexact Hb
    iintro Hb
    iapply Hk
    isplitl [HR]; · iexact HR
    iexact Hb
  · rw [dif_neg h, dif_neg h]
    iintro ⟨HP, Hb, Hk⟩
    iapply Hk
    isplitl [HP]; · iexact HP
    iexact Hb

/-- What the core holds of a recorded batch of `m` copies of `N` units while it is drained by waits of `N`: after `w`
    waits the batch with `w * N` units consumed, and once `w = m` every delivery and the counter at zero. -/
def Draining (sem : DmaSem sig) (ι : Ix) (N m : ℕ) (Ds : List (sProp 𝕄)) (w : ℕ) : sProp 𝕄 :=
  if w = m then iprop(bigSep Finset.univ (deliv (m := m) Ds) ∗ semVal (c, .dma sem) 0) else Batched EC c (.dma sem) ι N m Ds (w * N)

/-- A GUARDED wait draining a recorded batch one copy's units at a time: under the guard (with a wait still due,
    `w < m`) one more wait is done — the draining one if it is the `m`-th —; otherwise nothing changes. -/
theorem wp_guardedWait [EC.LandsIn (upEmb : UEmb _ 𝕄)] {g : Prop} [Decidable g] {s' : Shape} {e' : EltTy} {κ' : Kind} {sem : DmaSem sig}
    {srcw : g → Memref sig c.2.kind sp' s' e'} {dstw : Memref sig κ' sp s e} {hsrc : ∀ h, (srcw h).view.WordExact} {hdst : dstw.view.WordExact}
    {J : Prog (TpuEff nD τ sig Val Λ c.2) α} (ι : Ix) {N : ℕ} (hN : dstw.view.dmaCredit = N) (hN0 : 0 < N)
    {Ds : List (sProp 𝕄)} (hm : Ds.length = m) {w : ℕ} (hw : g → w < m) {O : CellTallies nD τ sig Ix} {W : Waits sig Ix} :
    iprop(Draining EC c sem ι N m Ds w ∗ owes c O W ∗ MayWait c (.dma sem) ι O
        ∗ (iprop(Draining EC c sem ι N m Ds (if g then w + 1 else w) ∗ owes c O (if g then insert (SemLoc.dma sem, ι) W else W))
            -∗ wp frame (wpE defs 𝒱 c bd) Set.univ J Q))
      ⊢ wp frame (wpE defs 𝒱 c bd) Set.univ
          (if h : g then .op (.waitDma2 sem (srcw h) dstw (hsrc h) hdst) (fun _ => J) else J) Q := by
  by_cases h : g
  · rw [dif_pos h, if_pos h, if_pos h]
    have hwm : w < m := hw h
    unfold Draining
    rw [if_neg (Nat.ne_of_lt hwm)]
    by_cases hl : w + 1 = m
    · rw [if_pos hl]
      iintro ⟨Hb, HO, HMW, Hk⟩
      iapply (wp_waitBatchedAllO EC 𝒱 c bd ι hN hN0 hm (u := w * N) (by rw [← hl, Nat.mul_comm N, Nat.succ_mul])) $$ [Hb HO HMW]
      · isplitl [Hb]; · iexact Hb
        isplitl [HO]; · iexact HO
        iexact HMW
      iintro ⟨HD, Hv, HO⟩
      iapply Hk
      isplitl [HD Hv]
      · isplitl [HD]; · iexact HD
        iexact Hv
      iexact HO
    · rw [if_neg hl]
      iintro ⟨Hb, HO, HMW, Hk⟩
      iapply (wp_waitBatchedO EC 𝒱 c bd ι hN hm (u := w * N) (by
          have : w + 1 < m := lt_of_le_of_ne hwm hl
          calc w * N + N = (w + 1) * N := (Nat.succ_mul w N).symm
            _ < m * N := Nat.mul_lt_mul_of_pos_right this hN0
            _ = N * m := Nat.mul_comm _ _)) $$ [Hb HO HMW]
      · isplitl [Hb]; · iexact Hb
        isplitl [HO]; · iexact HO
        iexact HMW
      iintro ⟨Hb, HO⟩
      iapply Hk
      isplitl [Hb]
      · rw [Nat.succ_mul w N]; iexact Hb
      iexact HO
  · rw [dif_neg h, if_neg h, if_neg h]
    iintro ⟨Hb, HO, -, Hk⟩
    iapply Hk
    isplitl [Hb]; · iexact Hb
    iexact HO

end GuardedRules

end Transfers

end Idealize.ShloMosaic

end
-- ==== Proof.BatchBook.lean ====
/-
  Bookkeeping for a batch of copies whose members are chosen by run-time conditions.

  Lane j of a round is taken iff c j. The taken lanes below r are counted (cntTo), their
  deliveries listed in increasing lane order (DsTo), and a separating conjunction over the
  lanes with emp at the lanes not taken is the same conjunction over the taken lanes in
  order, however it is indexed: by the recorded batch's positions, or by the count so far.
  Then the two uses: rows carved out of an array at the taken lanes and put back, and read
  shares lent at the taken lanes and joined again.
-/
import Idealize.ShloMosaic.Lib.Batch

noncomputable section

namespace Cert.Route.Book

open Idealize.ShloMosaic
open Idealize.SL
open Idealize.SL.BI (sProp bigSep bigSep_insert bigSep_empty bigSep_congr)
open scoped Idealize.SL.BI
open Idealize.SL.BI.BIBase Idealize.SL.BI.Laws Idealize.SL.Sem Idealize.SL.ProofMode
open Idealize.SL.RA

/-! ### Counting the taken lanes -/

section Count
variable (c : ℕ → Prop) [DecidablePred c]

/-- How many lanes below r are taken. -/
def cntTo : ℕ → ℕ
  | 0 => 0
  | r + 1 => cntTo r + (if c r then 1 else 0)

theorem cntTo_zero : cntTo c 0 = 0 := rfl

theorem cntTo_succ (r : ℕ) : cntTo c (r + 1) = cntTo c r + (if c r then 1 else 0) := rfl

theorem cntTo_mono {r r' : ℕ} (h : r ≤ r') : cntTo c r ≤ cntTo c r' := by
  induction r' with
  | zero => rw [Nat.le_zero.mp h]
  | succ k ih =>
    rcases Nat.lt_or_ge r (k + 1) with hlt | hge
    · exact (ih (Nat.lt_succ_iff.mp hlt)).trans (by rw [cntTo_succ]; exact Nat.le_add_right _ _)
    · rw [Nat.le_antisymm h hge]

theorem cntTo_lt {r n : ℕ} (h : c r) (hr : r < n) : cntTo c r < cntTo c n :=
  calc cntTo c r < cntTo c (r + 1) := by rw [cntTo_succ, if_pos h]; omega
    _ ≤ cntTo c n := cntTo_mono c hr

theorem cntTo_le (r : ℕ) : cntTo c r ≤ r := by
  induction r with
  | zero => exact Nat.le_refl _
  | succ k ih => rw [cntTo_succ]; by_cases h : c k <;> simp [h] <;> omega

end Count

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ### The deliveries of the taken lanes, in order -/

section Lists
variable (c : ℕ → Prop) [DecidablePred c]

/-- The deliveries D j of the taken lanes j < r, in increasing j. -/
def DsTo (D : ℕ → sProp 𝕄) : ℕ → List (sProp 𝕄)
  | 0 => []
  | r + 1 => if c r then DsTo D r ++ [D r] else DsTo D r

theorem DsTo_zero (D : ℕ → sProp 𝕄) : DsTo c D 0 = [] := rfl

theorem DsTo_succ (D : ℕ → sProp 𝕄) (r : ℕ) :
    DsTo c D (r + 1) = if c r then DsTo c D r ++ [D r] else DsTo c D r := rfl

theorem DsTo_length (D : ℕ → sProp 𝕄) (r : ℕ) : (DsTo c D r).length = cntTo c r := by
  induction r with
  | zero => rw [DsTo_zero, cntTo_zero]; rfl
  | succ r ih =>
    rw [DsTo_succ, cntTo_succ]
    by_cases h : c r
    · rw [if_pos h, if_pos h, List.length_append, ih]; rfl
    · rw [if_neg h, if_neg h, ih]; rfl

/-- The listed deliveries, conjoined by position, are the lanes' deliveries with emp at the lanes not taken. -/
theorem bigSep_range_DsTo (D : ℕ → sProp 𝕄) (n : ℕ) :
    bigSep (Finset.range (cntTo c n)) (fun i => (DsTo c D n).getD i emp)
      = bigSep (Finset.range n) (fun j => if c j then D j else emp) := by
  induction n with
  | zero => rw [cntTo_zero, Finset.range_zero]; rfl
  | succ n ih =>
    rw [Finset.range_add_one (n := n), bigSep_insert Finset.notMem_range_self]
    by_cases h : c n
    · have hk : cntTo c (n + 1) = cntTo c n + 1 := by rw [cntTo_succ, if_pos h]
      rw [if_pos h, hk, Finset.range_add_one, bigSep_insert Finset.notMem_range_self, DsTo_succ, if_pos h, ← ih]
      have hlen := DsTo_length c D n
      congr 1
      · simp [List.getD_eq_getElem?_getD, hlen]
      · refine bigSep_congr fun i hi => ?_
        have hi' : i < (DsTo c D n).length := by rw [hlen]; exact Finset.mem_range.mp hi
        simp only [List.getD_eq_getElem?_getD, List.getElem?_append_left hi']
    · have hk : cntTo c (n + 1) = cntTo c n := by rw [cntTo_succ, if_neg h]; rfl
      rw [if_neg h, hk, DsTo_succ, if_neg h, ih]
      exact (BI.equiv_iff.mp Idealize.SL.BI.emp_sep).symm

/-- A conjunction over the positions Fin m is the conjunction over the numbers below m. -/
theorem bigSep_univ_fin (m : ℕ) (Φ : ℕ → sProp 𝕄) :
    bigSep (Finset.univ : Finset (Fin m)) (fun t => Φ t.val) = bigSep (Finset.range m) Φ := by
  rw [← Nat.Iio_eq_range, ← Fin.map_valEmbedding_univ, BI.bigSep_map]; rfl

/-- Collecting a drained recorded batch of the taken lanes: every delivery, lane by lane. -/
theorem bigSep_deliv_DsTo (D : ℕ → sProp 𝕄) (n m : ℕ) (hm : m = cntTo c n) :
    bigSep (Finset.univ : Finset (Fin m)) (Transfers.deliv (m := m) (DsTo c D n))
      = bigSep (Finset.range n) (fun j => if c j then D j else emp) := by
  subst hm
  rw [← bigSep_range_DsTo]
  exact bigSep_univ_fin (cntTo c n) (fun i => (DsTo c D n).getD i emp)

/-- Reindexing the taken lanes by their count so far. -/
theorem bigSep_range_cnt (Φ : ℕ → sProp 𝕄) (n : ℕ) :
    bigSep (Finset.range n) (fun j => if c j then Φ (cntTo c j) else emp) = bigSep (Finset.range (cntTo c n)) Φ := by
  induction n with
  | zero => rw [cntTo_zero, Finset.range_zero]; rfl
  | succ n ih =>
    rw [Finset.range_add_one (n := n), bigSep_insert Finset.notMem_range_self, ih]
    by_cases h : c n
    · have hk : cntTo c (n + 1) = cntTo c n + 1 := by rw [cntTo_succ, if_pos h]
      rw [if_pos h, hk, Finset.range_add_one, bigSep_insert Finset.notMem_range_self]
    · have hk : cntTo c (n + 1) = cntTo c n := by rw [cntTo_succ, if_neg h]; rfl
      rw [if_neg h, hk]
      exact BI.equiv_iff.mp Idealize.SL.BI.emp_sep

end Lists

/-! ### Rows carved out of an array at the taken lanes, and put back -/

section Rows
variable (c : ℕ → Prop) [DecidablePred c]
variable {ℓ : Loc nD τ sig}

/-- What is left of S once the rows I j of the taken lanes j < r are carved out. -/
def Sc (S : Finset (Idx ℓ)) (I : ℕ → Finset (Idx ℓ)) : ℕ → Finset (Idx ℓ)
  | 0 => S
  | r + 1 => if c r then Sc S I r \ I r else Sc S I r

theorem Sc_zero (S : Finset (Idx ℓ)) (I : ℕ → Finset (Idx ℓ)) : Sc c S I 0 = S := rfl

theorem Sc_succ (S : Finset (Idx ℓ)) (I : ℕ → Finset (Idx ℓ)) (r : ℕ) :
    Sc c S I (r + 1) = if c r then Sc c S I r \ I r else Sc c S I r := rfl

theorem Sc_subset (S : Finset (Idx ℓ)) (I : ℕ → Finset (Idx ℓ)) (r : ℕ) : Sc c S I r ⊆ S := by
  induction r with
  | zero => exact Finset.Subset.refl _
  | succ k ih =>
    rw [Sc_succ]
    by_cases h : c k
    · rw [if_pos h]; exact Finset.sdiff_subset.trans ih
    · rw [if_neg h]; exact ih

/-- A later lane's rows are still there: nothing carved so far meets them. -/
theorem I_sub_Sc_of_le {S : Finset (Idx ℓ)} {I : ℕ → Finset (Idx ℓ)} {n : ℕ} (hsub : ∀ j < n, I j ⊆ S)
    (hdisj : ∀ i < n, ∀ j < n, i ≠ j → Disjoint (I i) (I j)) {r r' : ℕ} (hr : r ≤ r') (hr' : r' < n) :
    I r' ⊆ Sc c S I r := by
  induction r with
  | zero => exact hsub r' hr'
  | succ k ih =>
    have hk : I r' ⊆ Sc c S I k := ih (by omega)
    rw [Sc_succ]
    by_cases h : c k
    · rw [if_pos h]
      exact Finset.subset_sdiff.mpr ⟨hk, hdisj r' hr' k (by omega) (by omega)⟩
    · rw [if_neg h]; exact hk

theorem I_sub_Sc {S : Finset (Idx ℓ)} {I : ℕ → Finset (Idx ℓ)} {n : ℕ} (hsub : ∀ j < n, I j ⊆ S)
    (hdisj : ∀ i < n, ∀ j < n, i ≠ j → Disjoint (I i) (I j)) {r : ℕ} (hr : r < n) : I r ⊆ Sc c S I r :=
  I_sub_Sc_of_le c hsub hdisj (Nat.le_refl r) hr

/-- Putting the carved rows back, whatever they now hold: the array whole again, at some contents. -/
theorem rows_join_le {S : Finset (Idx ℓ)} {I : ℕ → Finset (Idx ℓ)} {n : ℕ} (hsub : ∀ j < n, I j ⊆ S)
    (hdisj : ∀ i < n, ∀ j < n, i ≠ j → Disjoint (I i) (I j)) (r : ℕ) (hrn : r ≤ n) (f : Buf Val ℓ) :
    iprop((ℓ ↦[Sc c S I r]{fullShare} f)
        ∗ bigSep (Finset.range r) (fun j => if c j then iprop(∃ g, ℓ ↦[I j]{fullShare} g) else emp))
      ⊢ (iprop(∃ g, ℓ ↦[S]{fullShare} g) : sProp 𝕄) := by
  induction r generalizing f with
  | zero =>
    rw [Sc_zero, Finset.range_zero, bigSep_empty]
    iintro ⟨H, -⟩
    iexists f
    iexact H
  | succ k ih =>
    rw [Finset.range_add_one, bigSep_insert Finset.notMem_range_self, Sc_succ]
    by_cases h : c k
    · rw [if_pos h, if_pos h]
      refine (show iprop((ℓ ↦[Sc c S I k \ I k]{fullShare} f) ∗ iprop(∃ g, ℓ ↦[I k]{fullShare} g)
          ∗ bigSep (Finset.range k) (fun j => if c j then iprop(∃ g, ℓ ↦[I j]{fullShare} g) else emp))
        ⊢ (iprop(∃ g, ℓ ↦[S]{fullShare} g) : sProp 𝕄) from ?_)
      iintro ⟨Hs, ⟨%g, Hg⟩, Hrest⟩
      iapply (ih (by omega) ((I k).piecewise g f))
      isplitl [Hs Hg]
      · iapply (pointsTo_join_subset (I_sub_Sc c hsub hdisj (show k < n by omega)))
        isplitl [Hg]
        · iexact Hg
        · iexact Hs
      · iexact Hrest
    · rw [if_neg h, if_neg h]
      refine (show iprop((ℓ ↦[Sc c S I k]{fullShare} f) ∗ emp
          ∗ bigSep (Finset.range k) (fun j => if c j then iprop(∃ g, ℓ ↦[I j]{fullShare} g) else emp))
        ⊢ (iprop(∃ g, ℓ ↦[S]{fullShare} g) : sProp 𝕄) from ?_)
      iintro ⟨Hs, -, Hrest⟩
      iapply (ih (by omega) f)
      isplitl [Hs]
      · iexact Hs
      · iexact Hrest

theorem rows_join {S : Finset (Idx ℓ)} {I : ℕ → Finset (Idx ℓ)} {n : ℕ} (hsub : ∀ j < n, I j ⊆ S)
    (hdisj : ∀ i < n, ∀ j < n, i ≠ j → Disjoint (I i) (I j)) (f : Buf Val ℓ) :
    iprop((ℓ ↦[Sc c S I n]{fullShare} f)
        ∗ bigSep (Finset.range n) (fun j => if c j then iprop(∃ g, ℓ ↦[I j]{fullShare} g) else emp))
      ⊢ (iprop(∃ g, ℓ ↦[S]{fullShare} g) : sProp 𝕄) :=
  rows_join_le c hsub hdisj n (Nat.le_refl n) f

/-- Putting the carved rows back at KNOWN contents: if what is left agrees with G and each taken lane's rows
    hold G there, the array is whole again at G. -/
theorem rows_join_to_le {S : Finset (Idx ℓ)} {I : ℕ → Finset (Idx ℓ)} {n : ℕ} (hsub : ∀ j < n, I j ⊆ S)
    (hdisj : ∀ i < n, ∀ j < n, i ≠ j → Disjoint (I i) (I j)) (G : Buf Val ℓ) (g : ℕ → Buf Val ℓ)
    (hg : ∀ j < n, c j → ∀ i ∈ I j, g j i = G i) (r : ℕ) (hrn : r ≤ n) (f : Buf Val ℓ)
    (hf : ∀ i ∈ Sc c S I r, f i = G i) :
    iprop((ℓ ↦[Sc c S I r]{fullShare} f)
        ∗ bigSep (Finset.range r) (fun j => if c j then (ℓ ↦[I j]{fullShare} (g j) : sProp 𝕄) else emp))
      ⊢ (ℓ ↦[S]{fullShare} G : sProp 𝕄) := by
  induction r generalizing f with
  | zero =>
    rw [Sc_zero, Finset.range_zero, bigSep_empty, pointsTo_congr (show ∀ i ∈ S, f i = G i from hf)]
    iintro ⟨H, -⟩
    iexact H
  | succ k ih =>
    rw [Finset.range_add_one, bigSep_insert Finset.notMem_range_self]
    by_cases h : c k
    · rw [if_pos h]
      refine (show iprop((ℓ ↦[Sc c S I (k + 1)]{fullShare} f) ∗ (ℓ ↦[I k]{fullShare} (g k))
          ∗ bigSep (Finset.range k) (fun j => if c j then (ℓ ↦[I j]{fullShare} (g j) : sProp 𝕄) else emp))
        ⊢ (ℓ ↦[S]{fullShare} G : sProp 𝕄) from ?_)
      have hS : Sc c S I (k + 1) = Sc c S I k \ I k := by rw [Sc_succ, if_pos h]
      have hf' : ∀ i ∈ Sc c S I k, ((I k).piecewise (g k) f) i = G i := by
        intro i hi
        by_cases hik : i ∈ I k
        · rw [Finset.piecewise_eq_of_mem _ _ _ hik]; exact hg k (by omega) h i hik
        · rw [Finset.piecewise_eq_of_notMem _ _ _ hik]
          exact hf i (by rw [hS]; exact Finset.mem_sdiff.mpr ⟨hi, hik⟩)
      rw [hS]
      iintro ⟨Hs, Hg, Hrest⟩
      iapply (ih (by omega) ((I k).piecewise (g k) f) hf')
      isplitl [Hs Hg]
      · iapply (pointsTo_join_subset (I_sub_Sc c hsub hdisj (show k < n by omega)))
        isplitl [Hg]
        · iexact Hg
        · iexact Hs
      · iexact Hrest
    · rw [if_neg h]
      have hS : Sc c S I (k + 1) = Sc c S I k := by rw [Sc_succ, if_neg h]
      refine (show iprop((ℓ ↦[Sc c S I (k + 1)]{fullShare} f) ∗ emp
          ∗ bigSep (Finset.range k) (fun j => if c j then (ℓ ↦[I j]{fullShare} (g j) : sProp 𝕄) else emp))
        ⊢ (ℓ ↦[S]{fullShare} G : sProp 𝕄) from ?_)
      rw [hS]
      iintro ⟨Hs, -, Hrest⟩
      iapply (ih (by omega) f (by rw [← hS]; exact hf))
      isplitl [Hs]
      · iexact Hs
      · iexact Hrest

theorem rows_join_to {S : Finset (Idx ℓ)} {I : ℕ → Finset (Idx ℓ)} {n : ℕ} (hsub : ∀ j < n, I j ⊆ S)
    (hdisj : ∀ i < n, ∀ j < n, i ≠ j → Disjoint (I i) (I j)) (f G : Buf Val ℓ) (g : ℕ → Buf Val ℓ)
    (hf : ∀ i ∈ Sc c S I n, f i = G i) (hg : ∀ j < n, c j → ∀ i ∈ I j, g j i = G i) :
    iprop((ℓ ↦[Sc c S I n]{fullShare} f)
        ∗ bigSep (Finset.range n) (fun j => if c j then (ℓ ↦[I j]{fullShare} (g j) : sProp 𝕄) else emp))
      ⊢ (ℓ ↦[S]{fullShare} G : sProp 𝕄) :=
  rows_join_to_le c hsub hdisj G g hg n (Nat.le_refl n) f hf

end Rows

/-! ### Read shares lent at the taken lanes, and joined again -/

section Shares
variable (c : ℕ → Prop) [DecidablePred c]
variable {ℓ : Loc nD τ sig}

theorem shares_join (q : PosShare TreeShare) (S : Finset (Idx ℓ)) (f : Buf Val ℓ) (n : ℕ) :
    iprop((ℓ ↦[S]{Transfers.shareDrop q (cntTo c n)} f)
        ∗ bigSep (Finset.range n) (fun j => if c j then (ℓ ↦[S]{Transfers.shareTokN q (cntTo c j)} f : sProp 𝕄) else emp))
      ⊢ (ℓ ↦[S]{q} f : sProp 𝕄) := by
  rw [bigSep_range_cnt c (fun k => (ℓ ↦[S]{Transfers.shareTokN q k} f : sProp 𝕄)) n]
  exact (Transfers.pointsTo_toks_range q (cntTo c n)).2

end Shares

end Cert.Route.Book
-- ==== Proof.ChkFacts.lean ====
/-
  The row-copy side conditions of the routing body. Each asks, of a routed row index word v and
  under the body's own condition, that the one-row slice [v, 0] of extent [1, 1000] lies inside
  the [65536, 1000] array: v + 1 ≤ 65536 and 0 + 1000 ≤ 1000. Every word below 65536 satisfies
  them, whatever the condition says.
-/
import proofs.«215259_g58411555225873_cont_9to1_m_859_22_alg».proof.KernelIdeal

namespace Cert.KernelIdeal.Route

open Idealize.ShloMosaic

/-- Both conjuncts of a side condition, axis by axis, from v.toNat < 65536 (the hypothesis h). -/
macro "row_in_range" : tactic => `(tactic|
  (refine ⟨fun _ a => ?_, fun _ a => ?_⟩ <;>
    (fin_cases a
     · show BitVec.toNat _ + 1 ≤ 65536
       omega
     · show 0 + 1000 ≤ 1000
       omega)))

theorem chk1_of_lt (v : BitVec 32) (h : v.toNat < 65536) : Cert.KernelIdeal.k1_chk1 v := by row_in_range
theorem chk2_of_lt (v : BitVec 32) (h : v.toNat < 65536) : Cert.KernelIdeal.k1_chk2 v := by row_in_range
theorem chk3_of_lt (v : BitVec 32) (h : v.toNat < 65536) : Cert.KernelIdeal.k1_chk3 v := by row_in_range
theorem chk4_of_lt (v : BitVec 32) (h : v.toNat < 65536) : Cert.KernelIdeal.k1_chk4 v := by row_in_range
theorem chk5_of_lt (v : BitVec 32) (h : v.toNat < 65536) : Cert.KernelIdeal.k1_chk5 v := by row_in_range
theorem chk6_of_lt (v : BitVec 32) (h : v.toNat < 65536) : Cert.KernelIdeal.k1_chk6 v := by row_in_range
theorem chk7_of_lt (v : BitVec 32) (h : v.toNat < 65536) : Cert.KernelIdeal.k1_chk7 v := by row_in_range
theorem chk8_of_lt (v : BitVec 32) (h : v.toNat < 65536) : Cert.KernelIdeal.k1_chk8 v := by row_in_range
theorem chk9_of_lt (v : BitVec 32) (h : v.toNat < 65536) : Cert.KernelIdeal.k1_chk9 v := by row_in_range
theorem chk10_of_lt (v : BitVec 32) (h : v.toNat < 65536) : Cert.KernelIdeal.k1_chk10 v := by row_in_range
theorem chk11_of_lt (v : BitVec 32) (h : v.toNat < 65536) : Cert.KernelIdeal.k1_chk11 v := by row_in_range
theorem chk12_of_lt (v : BitVec 32) (h : v.toNat < 65536) : Cert.KernelIdeal.k1_chk12 v := by row_in_range
theorem chk13_of_lt (v : BitVec 32) (h : v.toNat < 65536) : Cert.KernelIdeal.k1_chk13 v := by row_in_range
theorem chk14_of_lt (v : BitVec 32) (h : v.toNat < 65536) : Cert.KernelIdeal.k1_chk14 v := by row_in_range
theorem chk15_of_lt (v : BitVec 32) (h : v.toNat < 65536) : Cert.KernelIdeal.k1_chk15 v := by row_in_range
theorem chk16_of_lt (v : BitVec 32) (h : v.toNat < 65536) : Cert.KernelIdeal.k1_chk16 v := by row_in_range

end Cert.KernelIdeal.Route
-- ==== Proof.RouteLane.lean ====
/-
  One lane of a trip of the routing task. A trip starts its copies lane by lane — lane r copies the table row its index
  names into result row base + 16·trip + r when the index names a row of the last head's part — all on one DMA
  semaphore, and then waits for them lane by lane. What the task holds between two lanes is stated once, over the
  number of lanes passed: the result rows not yet lent, the table's read share not yet lent, the remainders of the
  shares lent, and the batch with the copies started so far recorded.
-/
import proofs.«215259_g58411555225873_cont_9to1_m_859_22_alg».proof.Proof.RouteGeom
import proofs.«215259_g58411555225873_cont_9to1_m_859_22_alg».proof.Proof.RouteTask
import proofs.«215259_g58411555225873_cont_9to1_m_859_22_alg».proof.Proof.LibGuardedBatch
import proofs.«215259_g58411555225873_cont_9to1_m_859_22_alg».proof.Proof.BatchBook
import proofs.«215259_g58411555225873_cont_9to1_m_859_22_alg».proof.Proof.ChkFacts

noncomputable section

namespace Cert.KernelIdeal.Route.Tile

open Cert.KernelIdeal Cert.KernelIdeal.Gen Cert.KernelIdeal.Route

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batched copyDelivery Draining wp_guardedIssue wp_guardedWait shareDrop shareTokN)
open Cert.Route.Book (cntTo DsTo Sc)

variable {F : FTy → Type}

local notation "𝕄" => MT nD τ sig (HIx 1) (Elt F) ℕ UU ℕ

open Lean Elab Tactic Meta in
/-- In the goal, every application of a local definition named `__do_jp` (the rest of a block after a guarded statement,
    once it has been made a local definition) is replaced by the definition's body at its arguments. -/
elab "unfold_jp" : tactic => do
  let g ← getMainGoal
  g.withContext do
    let tgt ← instantiateMVars (← g.getType)
    let tgt' ← Meta.transform tgt (pre := fun e => do
      let fn := e.getAppFn
      if e.isApp && fn.isFVar then
        let decl ← fn.fvarId!.getDecl
        if decl.userName.eraseMacroScopes == `__do_jp then
          if let some v := decl.value? then
            return .visit (v.beta e.getAppArgs)
      return .continue)
    let g' ← g.replaceTargetDefEq tgt'
    replaceMainGoal [g']

/-! ## One task: its thread and its buffers -/

variable (d : Dev nD) (L : grid1.Coords)

-- the kernel's memrefs, spelt as the body table passes them
local notation "tabW" => (Memref.whole Cert.KernelIdeal.main_v1_scv : Memref Cert.KernelIdeal.sig Kind.scVector Space.hbm Cert.KernelIdeal.S65536x1000 EltTy.f32)
local notation "pW" => (Memref.whole Cert.KernelIdeal.main_v0_2_scv : Memref Cert.KernelIdeal.sig Kind.scVector Space.hbm Cert.KernelIdeal.S16384x1000 EltTy.f32)
local notation "rW" => (Memref.whole Cert.KernelIdeal.main_v0_1_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S16384x1000 EltTy.f32)
local notation "xW" => (Memref.whole Cert.KernelIdeal.cc1_scratch0 : Memref Cert.KernelIdeal.sig Kind.scVector Space.vmem Cert.KernelIdeal.S512 EltTy.i32)

/-! ## The lanes of one trip -/

/-- The units one row copy credits. -/
abbrev NR : ℕ := sig.dmaCredit .scVector (Kind.scVector.table .hbm) (main_v2_scv : Ref sig .scVector).idx S1x1000 .f32

/-- The transfers' counters, found in the rightmost factor of the ghost state. -/
abbrev EC : UEmb Counters (MT nD τ sig (HIx 1) (Elt F) ℕ UU ℕ) := countersEmb

/-- The table, and a task's result rows, as one task's thread addresses them. -/
abbrev tabL (d : Dev nD) (L : grid1.Coords) : Loc nD τ sig := (tabW).view.loc (thr d L)
abbrev outL (d : Dev nD) (L : grid1.Coords) : Loc nD τ sig := (oSl L).view.loc (thr d L)

/-- The read share lane `r` lends its copy: the next token of what is left of `q`. -/
def tokq (v11 : IVec S16 32) (q : PosShare TreeShare) (r : ℕ) : PosShare TreeShare := shareTokN q (cntTo (cnd v11) r)

/-- The table row lane `r` reads, as elements of the table. -/
def srcSet (d : Dev nD) (L : grid1.Coords) (v11 : IVec S16 32) (hwd : ∀ r, (wd v11 r).toNat < 65536) (r : ℕ) : Finset (Idx (tabL d L)) :=
  (srcU (wd v11 r) (hwd r)).view.set

variable [FloatOps F]

/-- What lane `r`'s copy delivers when it lands: its result row rewritten with the table row, and the row's share back. -/
def Dl (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) (r : ℕ) : sProp 𝕄 :=
  copyDelivery (thr d L) (srcU (wd v11 r) (hwd r)) .same (dstU L k r) (tokq v11 q r) Tb (laneSet d L k r) f

/-- What is left of lane `r`'s lent share beside the row it reads. -/
def restOf (d : Dev nD) (L : grid1.Coords) (v11 : IVec S16 32) (hwd : ∀ r, (wd v11 r).toNat < 65536)
    (q : PosShare TreeShare) (Tb : Buf (Elt F) (tabL d L)) (r : ℕ) : sProp 𝕄 :=
  tabL d L ↦[Finset.univ \ srcSet d L v11 hwd r]{tokq v11 q r} Tb

/-- The copies' semaphore while a trip issues: the batch recorded so far — or, in a trip where no lane copies, the
    semaphore's counter at zero, untouched. -/
def batchOr (d : Dev nD) (L : grid1.Coords) (v11 : IVec S16 32) (Ds : List (sProp 𝕄)) : sProp 𝕄 :=
  if cntTo (cnd v11) 16 = 0 then semVal (thr d L, SemLoc.dma cc1_scratch2.sem) 0
  else Batched (EC (F := F)) (thr d L) (.dma cc1_scratch2.sem) none NR (cntTo (cnd v11) 16) Ds 0

/-- Between lanes `r - 1` and `r` of the issuing half of a trip. -/
def issueSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) (r : ℕ) : sProp 𝕄 :=
  iprop((outL d L ↦[Sc (cnd v11) (outSet d L) (laneSet d L k) r]{fullShare} f)
    ∗ (tabL d L ↦{shareDrop q (cntTo (cnd v11) r)} Tb)
    ∗ bigSep (Finset.range r) (fun j => if cnd v11 j then restOf d L v11 hwd q Tb j else iprop(emp))
    ∗ batchOr (F := F) d L v11 (DsTo (cnd v11) (Dl d L k v11 hwd q Tb f) r))

/-- Lane `r` of the issuing half: the guarded copy, from the state before the lane to the state after it. -/
theorem issue_lane (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact)
    (hsem : DmaTarget.Typed (nD := nD) Space.hbm (SemLoc.dma cc1_scratch2.sem)
      (DmaTarget.here (dstU L k r) : DmaTarget nD τ sig (thr d L).2 Space.hbm S1x1000 EltTy.f32)) :
    iprop(issueSt d L k v11 hwd q Tb f r
        ∗ (issueSt d L k v11 hwd q Tb f (r + 1) -∗ wp frame (wpE (defs₀ (F := F)) 𝒱₀ (thr d L) none) Set.univ J Q))
      ⊢ wp frame (wpE (defs₀ (F := F)) 𝒱₀ (thr d L) none) Set.univ
          (if _h : cnd v11 r then
            .op (.enqueueDmaAs (srcU (wd v11 r) (hwd r)) (.here (dstU L k r)) .same (.dma cc1_scratch2.sem) hsrc hdst hsem) (fun _ => J)
           else J) Q := by
  have hsub : laneSet d L k r ⊆ Sc (cnd v11) (outSet d L) (laneSet d L k) r :=
    Cert.Route.Book.I_sub_Sc (cnd v11) (laneSet_sub d L k) (laneSet_disj d L k) hr
  unfold issueSt batchOr
  by_cases hm : cntTo (cnd v11) 16 = 0
  · have hn : ¬ cnd v11 r := fun h => by have := Cert.Route.Book.cntTo_lt (cnd v11) h hr; omega
    rw [dif_neg hn,
      show Sc (cnd v11) (outSet d L) (laneSet d L k) (r + 1) = Sc (cnd v11) (outSet d L) (laneSet d L k) r from if_neg hn,
      show cntTo (cnd v11) (r + 1) = cntTo (cnd v11) r from by rw [Cert.Route.Book.cntTo_succ, if_neg hn, Nat.add_zero],
      show DsTo (cnd v11) (Dl d L k v11 hwd q Tb f) (r + 1) = DsTo (cnd v11) (Dl d L k v11 hwd q Tb f) r from if_neg hn,
      Finset.range_add_one, SparseCore.bigSep_insert' Finset.notMem_range_self, if_neg hn, if_pos hm]
    iintro ⟨⟨Ho, Htab, Hrests, Hb⟩, Hk⟩
    iapply Hk
    isplitl [Ho]; · iexact Ho
    isplitl [Htab]; · iexact Htab
    isplitl [Hrests]
    · isplitr; · iempintro
      iexact Hrests
    iexact Hb
  rw [if_neg hm, if_neg hm]
  iintro ⟨⟨Ho, Htab, Hrests, Hb⟩, Hk⟩
  iapply (wp_guardedIssue (EC (F := F)) 𝒱₀ (thr d L) none (g := cnd v11 r)
      (src := fun _ => srcU (wd v11 r) (hwd r)) (via := .same) (dst := dstU L k r) (sm := .dma cc1_scratch2.sem)
      (hsrc := fun _ => hsrc) (hdst := hdst) (hsem := hsem) (J := J)
      (q := tokq v11 q r) (fs := fun _ => Tb) (Sd := laneSet d L k r) (fd := f)
      (Ds := DsTo (cnd v11) (Dl d L k v11 hwd q Tb f) r) (u := 0) (m := cntTo (cnd v11) 16)
      none NR rfl (Finset.Subset.refl _)
      (fun h => by rw [Cert.Route.Book.DsTo_length]; exact Cert.Route.Book.cntTo_lt (cnd v11) h hr) (Nat.zero_le _)
      (P := iprop((outL d L ↦[Sc (cnd v11) (outSet d L) (laneSet d L k) r]{fullShare} f) ∗ (tabL d L ↦{shareDrop q (cntTo (cnd v11) r)} Tb)))
      (R := fun _ => iprop((outL d L ↦[Sc (cnd v11) (outSet d L) (laneSet d L k) r \ laneSet d L k r]{fullShare} f)
          ∗ (tabL d L ↦{shareDrop q (cntTo (cnd v11) r + 1)} Tb) ∗ restOf d L v11 hwd q Tb r))
      ?hlend) $$ [Ho Htab Hb Hrests Hk]
  case hlend =>
    intro _
    unfold restOf tokq Transfers.shareTokN
    iintro ⟨Ho, Htab⟩
    ihave Ho' := (pointsTo_split_subset hsub).1 $$ Ho
    icases Ho' with ⟨Hrow, Hrest⟩
    ihave Htab' := (pointsTo_share (PosShare.mem_left_op_right (shareDrop q (cntTo (cnd v11) r)))).1 $$ Htab
    icases Htab' with ⟨Hl, Hr⟩
    ihave Hr' := (pointsTo_split_subset (Finset.subset_univ (srcSet d L v11 hwd r))).1 $$ Hr
    icases Hr' with ⟨Hsrc, Hsrest⟩
    isplitl [Hsrc]; · iexact Hsrc
    isplitl [Hrow]; · iexact Hrow
    isplitl [Hrest]; · iexact Hrest
    isplitl [Hl]; · iexact Hl
    iexact Hsrest
  · isplitl [Ho Htab]
    · isplitl [Ho]; · iexact Ho
      iexact Htab
    isplitl [Hb]; · iexact Hb
    iintro Hpost
    iapply Hk
    by_cases h : cnd v11 r
    · rw [dif_pos h]
      unfold Entails'
      iintro ⟨Hrests, ⟨Ho, Htab, Hrest⟩, Hb⟩
      rw [show Sc (cnd v11) (outSet d L) (laneSet d L k) (r + 1) = Sc (cnd v11) (outSet d L) (laneSet d L k) r \ laneSet d L k r from if_pos h,
        show cntTo (cnd v11) (r + 1) = cntTo (cnd v11) r + 1 from by rw [Cert.Route.Book.cntTo_succ, if_pos h],
        show DsTo (cnd v11) (Dl d L k v11 hwd q Tb f) (r + 1) = DsTo (cnd v11) (Dl d L k v11 hwd q Tb f) r ++ [Dl d L k v11 hwd q Tb f r] from if_pos h,
        Finset.range_add_one, SparseCore.bigSep_insert' Finset.notMem_range_self, if_pos h]
      isplitl [Ho]; · iexact Ho
      isplitl [Htab]; · iexact Htab
      isplitl [Hrest Hrests]
      · isplitl [Hrest]; · iexact Hrest
        iexact Hrests
      iexact Hb
    · rw [dif_neg h]
      unfold Entails'
      iintro ⟨Hrests, ⟨Ho, Htab⟩, Hb⟩
      rw [show Sc (cnd v11) (outSet d L) (laneSet d L k) (r + 1) = Sc (cnd v11) (outSet d L) (laneSet d L k) r from if_neg h,
        show cntTo (cnd v11) (r + 1) = cntTo (cnd v11) r from by rw [Cert.Route.Book.cntTo_succ, if_neg h, Nat.add_zero],
        show DsTo (cnd v11) (Dl d L k v11 hwd q Tb f) (r + 1) = DsTo (cnd v11) (Dl d L k v11 hwd q Tb f) r from if_neg h,
        Finset.range_add_one, SparseCore.bigSep_insert' Finset.notMem_range_self, if_neg h]
      isplitl [Ho]; · iexact Ho
      isplitl [Htab]; · iexact Htab
      isplitl [Hrests]
      · isplitr; · iempintro
        iexact Hrests
      iexact Hb

/-- `issue_lane` at a program given by an equation, the guarded copy spelt as a `do` block spells it: the run's
    program is never unfolded, only the equation checked. -/
theorem issue_lane' (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (r : ℕ) (hr : r < 16) {α : Type} (J : Prog (TpuEff nD τ sig (Elt F) Λ₀ (thr d L).2) α) (Q : α → sProp 𝕄)
    (hsrc : (srcU (wd v11 r) (hwd r)).view.WordExact)
    (hdst : (DmaTarget.here (dstU L k r) : DmaTarget nD τ sig (thr d L).2 Space.hbm S1x1000 EltTy.f32).view.WordExact)
    (hsem : DmaTarget.Typed (nD := nD) Space.hbm (SemLoc.dma cc1_scratch2.sem)
      (DmaTarget.here (dstU L k r) : DmaTarget nD τ sig (thr d L).2 Space.hbm S1x1000 EltTy.f32))
    (prog : Prog (TpuEff nD τ sig (Elt F) Λ₀ (thr d L).2) α)
    (hprog : prog = (if _h : cnd v11 r then
            (Prog.lift (TpuEff.enqueueDma (srcU (wd v11 r) (hwd r)) (.here (dstU L k r)) (.dma cc1_scratch2.sem) hsrc hdst hsem) >>= fun _ => J)
           else J)) :
    iprop(issueSt d L k v11 hwd q Tb f r
        ∗ (issueSt d L k v11 hwd q Tb f (r + 1) -∗ wp frame (wpE (defs₀ (F := F)) 𝒱₀ (thr d L) none) Set.univ J Q))
      ⊢ wp frame (wpE (defs₀ (F := F)) 𝒱₀ (thr d L) none) Set.univ prog Q := by
  subst hprog
  have e : (Prog.lift (TpuEff.enqueueDma (Val := Elt F) (Λ := Λ₀) (srcU (wd v11 r) (hwd r)) (.here (dstU L k r)) (.dma cc1_scratch2.sem) hsrc hdst hsem) >>= fun _ => J)
      = Prog.op (.enqueueDmaAs (srcU (wd v11 r) (hwd r)) (.here (dstU L k r)) .same (.dma cc1_scratch2.sem) hsrc hdst hsem) (fun _ => J) := rfl
  rw [e]
  exact issue_lane d L k v11 hwd q Tb f r hr J Q hsrc hdst hsem

/-- An `assume` whose proposition holds, at the head of a block: the block continues with its proof. -/
theorem wp_assume_lift (d : Dev nD) (L : grid1.Coords) {α : Type} {P : Prop} {dP : Decidable P}
    {kk : PLift P → Prog (TpuEff nD τ sig (Elt F) Λ₀ (thr d L).2) α} {Q : α → sProp 𝕄} (h : P) :
    wp frame (wpE (defs₀ (F := F)) 𝒱₀ (thr d L) none) Set.univ (Prog.lift (TpuEff.assume P dP) >>= kk) Q
      = wp frame (wpE (defs₀ (F := F)) 𝒱₀ (thr d L) none) Set.univ (kk ⟨h⟩) Q :=
  wp_assume_of 𝒱₀ (thr d L) none Set.univ h

/-- The same at a program given by an equation. -/
theorem wp_assume_prog (d : Dev nD) (L : grid1.Coords) {α : Type} {P : Prop} {dP : Decidable P}
    {kk : PLift P → Prog (TpuEff nD τ sig (Elt F) Λ₀ (thr d L).2) α} {Q : α → sProp 𝕄}
    (prog : Prog (TpuEff nD τ sig (Elt F) Λ₀ (thr d L).2) α) (hprog : prog = (Prog.lift (TpuEff.assume P dP) >>= kk)) (h : P) :
    wp frame (wpE (defs₀ (F := F)) 𝒱₀ (thr d L) none) Set.univ (kk ⟨h⟩) Q
      ⊢ wp frame (wpE (defs₀ (F := F)) 𝒱₀ (thr d L) none) Set.univ prog Q := by
  subst hprog
  exact Entails.of_eq (wp_assume_lift (F := F) d L h).symm

/-- A trip's issuing half starts from the semaphore at zero, the task's result rows and the table's read share. -/
theorem trip_start (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) :
    iprop(semVal (thr d L, SemLoc.dma cc1_scratch2.sem) 0 ∗ (outL d L ↦[outSet d L]{fullShare} f) ∗ (tabL d L ↦{q} Tb))
      ⊢ |={Set.univ}=> issueSt (F := F) d L k v11 hwd q Tb f 0 := by
  unfold issueSt batchOr
  rw [Finset.range_zero, bigSep_empty]
  by_cases hm : cntTo (cnd v11) 16 = 0
  · rw [if_pos hm]
    iintro ⟨Hs, Ho, Htab⟩
    imodintro
    isplitl [Ho]; · iexact Ho
    isplitl [Htab]; · iexact Htab
    isplitr; · iempintro
    iexact Hs
  · rw [if_neg hm]
    iintro ⟨Hs, Ho, Htab⟩
    imod (Transfers.batched_alloc (EC (F := F)) (thr d L) (sm := .dma cc1_scratch2.sem) none NR (cntTo (cnd v11) 16) (E := Set.univ)) $$ Hs with Hb
    imodintro
    isplitl [Ho]; · iexact Ho
    isplitl [Htab]; · iexact Htab
    isplitr; · iempintro
    iexact Hb

/-- The units of a row copy are positive. -/
theorem NR_pos : 0 < NR := sig.dmaCredit_pos _ _ _ _ _ (by decide)

/-- What the task owes, with the waits it has recorded since the call: all at index `none`. -/
def owesSt (d : Dev nD) (L : grid1.Coords) (O : CellTallies nD τ sig (HIx 1)) (W : Waits sig (HIx 1)) : sProp 𝕄 :=
  iprop(∃ W', ⌜∀ p ∈ W', p ∈ W ∨ p.2 = none⌝ ∗ owes (thr d L) O W')

/-- Between lanes `r - 1` and `r` of the waiting half of a trip: the batch drained by as many waits as lanes passed
    copied — every delivery and the semaphore's counter at zero once all of them have —, and what the task owes. -/
def waitSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) (r : ℕ) : sProp 𝕄 :=
  iprop(Draining (EC (F := F)) (thr d L) cc1_scratch2.sem none NR (cntTo (cnd v11) 16) (DsTo (cnd v11) (Dl d L k v11 hwd q Tb f) 16) (cntTo (cnd v11) r)
    ∗ owesSt (F := F) d L O W)

/-- Lane `r` of the waiting half: the guarded wait. -/
theorem wait_lane (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact) :
    iprop(waitSt d L k v11 hwd q Tb f O W r ∗ Transfers.MayWaits (thr d L) (none : HIx 1) O
        ∗ (waitSt d L k v11 hwd q Tb f O W (r + 1) -∗ wp frame (wpE (defs₀ (F := F)) 𝒱₀ (thr d L) none) Set.univ J Q))
      ⊢ wp frame (wpE (defs₀ (F := F)) 𝒱₀ (thr d L) none) Set.univ
          (if _h : cnd v11 r then
            .op (.waitDma2 cc1_scratch2.sem (srcU (wd v11 r) (hwd r)) (dstU L k r) hsrc hdst) (fun _ => J)
           else J) Q := by
  unfold waitSt owesSt
  iintro ⟨⟨Hb, %W', %hW', HO⟩, #Hmw, Hk⟩
  ihave HMW := (Transfers.MayWaits.elim (SemLoc.dma cc1_scratch2.sem)) $$ Hmw
  iapply (wp_guardedWait (EC (F := F)) 𝒱₀ (thr d L) none (g := cnd v11 r)
      (srcw := fun _ => srcU (wd v11 r) (hwd r)) (dstw := dstU L k r) (sem := cc1_scratch2.sem)
      (hsrc := fun _ => hsrc) (hdst := hdst) (J := J) none (N := NR) rfl NR_pos
      (Ds := DsTo (cnd v11) (Dl d L k v11 hwd q Tb f) 16) (m := cntTo (cnd v11) 16) (Cert.Route.Book.DsTo_length _ _ _)
      (w := cntTo (cnd v11) r) (fun h => Cert.Route.Book.cntTo_lt (cnd v11) h hr) (O := O) (W := W')) $$ [Hb HO HMW Hk]
  isplitl [Hb]; · iexact Hb
  isplitl [HO]; · iexact HO
  isplitl [HMW]; · iexact HMW
  iintro ⟨Hb, HO⟩
  iapply Hk
  isplitl [Hb]
  · rw [show cntTo (cnd v11) (r + 1) = cntTo (cnd v11) r + (if cnd v11 r then 1 else 0) from rfl]
    by_cases h : cnd v11 r
    · rw [if_pos h, if_pos h]; iexact Hb
    · rw [if_neg h, if_neg h, Nat.add_zero]; iexact Hb
  by_cases h : cnd v11 r
  · rw [if_pos h]
    iexists (insert (SemLoc.dma cc1_scratch2.sem, (none : HIx 1)) W'); isplitr
    · ipureintro; intro p hp
      rcases Finset.mem_insert.mp hp with hp | hp
      · exact .inr (hp ▸ rfl)
      · exact hW' p hp
    · iexact HO
  · rw [if_neg h]
    iexists W'; isplitr
    · ipureintro; exact hW'
    · iexact HO

/-- `wait_lane` at a program given by an equation, the guarded wait spelt as a `do` block spells it. -/
theorem wait_lane' (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact)
    (prog : Prog (TpuEff nD τ sig (Elt F) Λ₀ (thr d L).2) α)
    (hprog : prog = (if _h : cnd v11 r then
            (Prog.lift (TpuEff.waitDma2 (nD := nD) (Val := Elt F) (Λ := Λ₀) (p := (thr d L).2) cc1_scratch2.sem (srcU (wd v11 r) (hwd r)) (dstU L k r) hsrc hdst) >>= fun _ => J)
           else J)) :
    iprop(waitSt d L k v11 hwd q Tb f O W r ∗ Transfers.MayWaits (thr d L) (none : HIx 1) O
        ∗ (waitSt d L k v11 hwd q Tb f O W (r + 1) -∗ wp frame (wpE (defs₀ (F := F)) 𝒱₀ (thr d L) none) Set.univ J Q))
      ⊢ wp frame (wpE (defs₀ (F := F)) 𝒱₀ (thr d L) none) Set.univ prog Q := by
  subst hprog
  have e : (Prog.lift (TpuEff.waitDma2 (nD := nD) (Val := Elt F) (Λ := Λ₀) (p := (thr d L).2) cc1_scratch2.sem (srcU (wd v11 r) (hwd r)) (dstU L k r) hsrc hdst) >>= fun _ => J)
      = Prog.op (.waitDma2 cc1_scratch2.sem (srcU (wd v11 r) (hwd r)) (dstU L k r) hsrc hdst) (fun _ => J) := rfl
  rw [e]
  exact wait_lane d L k v11 hwd q Tb f O W r hr J Q hsrc hdst

/-- What a trip holds beside the batch once every lane has issued: the result rows not lent, the table's read share not
    lent, and the remainders of the shares lent. -/
def heldSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) : sProp 𝕄 :=
  iprop((outL d L ↦[Sc (cnd v11) (outSet d L) (laneSet d L k) 16]{fullShare} f)
    ∗ (tabL d L ↦{shareDrop q (cntTo (cnd v11) 16)} Tb)
    ∗ bigSep (Finset.range 16) (fun j => if cnd v11 j then restOf d L v11 hwd q Tb j else iprop(emp)))

/-- In a trip where no lane copies, no lane does. -/
theorem no_lane (v11 : IVec S16 32) (hm : cntTo (cnd v11) 16 = 0) : ∀ j < 16, ¬ cnd v11 j :=
  fun j hj h => by have := Cert.Route.Book.cntTo_lt (cnd v11) h hj; omega

/-- The issuing half done, the waiting half begins: the batch recorded is the batch to drain, no wait done yet. -/
theorem phase_switch (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) :
    iprop(issueSt d L k v11 hwd q Tb f 16 ∗ owesSt (F := F) d L O W)
      ⊢ iprop(heldSt d L k v11 hwd q Tb f ∗ waitSt d L k v11 hwd q Tb f O W 0) := by
  unfold issueSt heldSt waitSt batchOr Draining
  rw [show cntTo (cnd v11) 0 = 0 from rfl]
  by_cases hm : cntTo (cnd v11) 16 = 0
  · have hD : (bigSep (Finset.range 16) (fun j => if cnd v11 j then Dl d L k v11 hwd q Tb f j else iprop(emp)) : sProp 𝕄) = iprop(emp) :=
      (bigSep_congr (fun j hj => if_neg (no_lane v11 hm j (Finset.mem_range.mp hj)))).trans (bigSep_emp_const _)
    rw [if_pos hm, if_pos hm.symm, Cert.Route.Book.bigSep_deliv_DsTo (cnd v11) _ 16 _ rfl, hD]
    iintro ⟨⟨Ho, Htab, Hrests, Hs⟩, HO⟩
    isplitl [Ho Htab Hrests]
    · isplitl [Ho]; · iexact Ho
      isplitl [Htab]; · iexact Htab
      iexact Hrests
    isplitl [Hs]
    · isplitr; · iempintro
      iexact Hs
    iexact HO
  · rw [if_neg hm, if_neg (Ne.symm hm), Nat.zero_mul]
    iintro ⟨⟨Ho, Htab, Hrests, Hb⟩, HO⟩
    isplitl [Ho Htab Hrests]
    · isplitl [Ho]; · iexact Ho
      isplitl [Htab]; · iexact Htab
      iexact Hrests
    isplitl [Hb]; · iexact Hb
    iexact HO

/-- The waiting half done: every copy has landed. The rows lent come back rewritten and rejoin the rows kept — the task's
    result rows at some contents —, the shares lent rejoin the share kept, and the semaphore's counter reads zero. -/
theorem trip_collect (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) :
    iprop(heldSt d L k v11 hwd q Tb f ∗ waitSt d L k v11 hwd q Tb f O W 16)
      ⊢ iprop((∃ f', outL d L ↦[outSet d L]{fullShare} f') ∗ (tabL d L ↦{q} Tb)
          ∗ semVal (thr d L, SemLoc.dma cc1_scratch2.sem) 0 ∗ owesSt (F := F) d L O W) := by
  have hj : ∀ j ∈ Finset.range 16,
      iprop((if cnd v11 j then restOf d L v11 hwd q Tb j else iprop(emp)) ∗ (if cnd v11 j then Dl d L k v11 hwd q Tb f j else iprop(emp)))
        ⊢ iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp))) := by
    intro j _
    by_cases h : cnd v11 j
    · simp only [if_pos h]
      unfold Dl copyDelivery restOf tokq srcSet
      iintro ⟨Hrest, Hd, Hs⟩
      isplitl [Hd]; · iexists _; iexact Hd
      iapply (pointsTo_split_subset (Finset.subset_univ ((srcU (wd v11 j) (hwd j)).view.set))).2
      isplitl [Hs]; · iexact Hs
      iexact Hrest
    · simp only [if_neg h]
      iintro ⟨-, -⟩
      isplitr <;> iempintro
  have e1 : iprop(bigSep (Finset.range 16) (fun j => if cnd v11 j then restOf d L v11 hwd q Tb j else iprop(emp))
        ∗ bigSep (Finset.range 16) (fun j => if cnd v11 j then Dl d L k v11 hwd q Tb f j else iprop(emp)))
      ⊢ bigSep (Finset.range 16) (fun j => iprop((if cnd v11 j then restOf d L v11 hwd q Tb j else iprop(emp))
          ∗ (if cnd v11 j then Dl d L k v11 hwd q Tb f j else iprop(emp)))) :=
    Entails.of_eq (BI.bigSep_sep (Finset.range 16) _ _).symm
  have e2 : bigSep (Finset.range 16) (fun j => iprop((if cnd v11 j then restOf d L v11 hwd q Tb j else iprop(emp))
          ∗ (if cnd v11 j then Dl d L k v11 hwd q Tb f j else iprop(emp))))
      ⊢ bigSep (Finset.range 16) (fun j => iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp)))) :=
    bigSep_mono hj
  have e3 : bigSep (Finset.range 16) (fun j => iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp))))
      ⊢ iprop(bigSep (Finset.range 16) (fun j => if cnd v11 j then iprop(∃ g, outL d L ↦[laneSet d L k j]{fullShare} g) else iprop(emp))
        ∗ bigSep (Finset.range 16) (fun j => if cnd v11 j then (tabL d L ↦[Finset.univ]{shareTokN q (cntTo (cnd v11) j)} Tb : sProp 𝕄) else iprop(emp))) :=
    Entails.of_eq (BI.bigSep_sep (Finset.range 16) _ _)
  have e := BIBase.Entails.trans e1 (BIBase.Entails.trans e2 e3)
  unfold heldSt waitSt Draining
  rw [if_pos rfl, Cert.Route.Book.bigSep_deliv_DsTo (cnd v11) _ 16 _ rfl]
  iintro ⟨⟨Ho, Htab, Hrests⟩, ⟨HD, Hs⟩, HO⟩
  ihave Hsplit := e $$ [Hrests HD]
  · isplitl [Hrests]; · iexact Hrests
    iexact HD
  icases Hsplit with ⟨Hrows, Hshares⟩
  isplitl [Ho Hrows]
  · iapply (Cert.Route.Book.rows_join (cnd v11) (laneSet_sub d L k) (laneSet_disj d L k) f)
    isplitl [Ho]; · iexact Ho
    iexact Hrows
  isplitl [Htab Hshares]
  · iapply (Cert.Route.Book.shares_join (cnd v11) q Finset.univ Tb 16)
    isplitl [Htab]; · iexact Htab
    iexact Hshares
  isplitl [Hs]; · iexact Hs
  iexact HO

/-- The same at value strength: when the rows kept agree with `G` and every copied row is rewritten to `G`'s values, the
    task's result rows are held at `G`. -/
theorem trip_collect_to (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) (G : Buf (Elt F) (outL d L))
    (hf : ∀ i ∈ Sc (cnd v11) (outSet d L) (laneSet d L k) 16, f i = G i)
    (hg : ∀ j < 16, cnd v11 j → ∀ i ∈ laneSet d L k j,
      (dstU L k j).view.write (Elt F) f (ReadAs.same.apply ((srcU (wd v11 j) (hwd j)).view.read (Elt F) Tb)) Finset.univ i = G i) :
    iprop(heldSt d L k v11 hwd q Tb f ∗ waitSt d L k v11 hwd q Tb f O W 16)
      ⊢ iprop((outL d L ↦[outSet d L]{fullShare} G) ∗ (tabL d L ↦{q} Tb)
          ∗ semVal (thr d L, SemLoc.dma cc1_scratch2.sem) 0 ∗ owesSt (F := F) d L O W) := by
  have hj : ∀ j ∈ Finset.range 16,
      iprop((if cnd v11 j then restOf d L v11 hwd q Tb j else iprop(emp)) ∗ (if cnd v11 j then Dl d L k v11 hwd q Tb f j else iprop(emp)))
        ⊢ iprop((if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
            ∗ (if cnd v11 j then (tabL d L ↦[Finset.univ]{shareTokN q (cntTo (cnd v11) j)} Tb : sProp 𝕄) else iprop(emp))) := by
    intro j _
    by_cases h : cnd v11 j
    · simp only [if_pos h]
      unfold Dl copyDelivery restOf tokq srcSet
      iintro ⟨Hrest, Hd, Hs⟩
      isplitl [Hd]; · iexact Hd
      iapply (pointsTo_split_subset (Finset.subset_univ ((srcU (wd v11 j) (hwd j)).view.set))).2
      isplitl [Hs]; · iexact Hs
      iexact Hrest
    · simp only [if_neg h]
      iintro ⟨-, -⟩
      isplitr <;> iempintro
  have e1 : iprop(bigSep (Finset.range 16) (fun j => if cnd v11 j then restOf d L v11 hwd q Tb j else iprop(emp))
        ∗ bigSep (Finset.range 16) (fun j => if cnd v11 j then Dl d L k v11 hwd q Tb f j else iprop(emp)))
      ⊢ bigSep (Finset.range 16) (fun j => iprop((if cnd v11 j then restOf d L v11 hwd q Tb j else iprop(emp))
          ∗ (if cnd v11 j then Dl d L k v11 hwd q Tb f j else iprop(emp)))) :=
    Entails.of_eq (BI.bigSep_sep (Finset.range 16) _ _).symm
  have e2 := bigSep_mono hj
  have e3 : bigSep (Finset.range 16) (fun j => iprop((if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
            ∗ (if cnd v11 j then (tabL d L ↦[Finset.univ]{shareTokN q (cntTo (cnd v11) j)} Tb : sProp 𝕄) else iprop(emp))))
      ⊢ iprop(bigSep (Finset.range 16) (fun j => if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
        ∗ bigSep (Finset.range 16) (fun j => if cnd v11 j then (tabL d L ↦[Finset.univ]{shareTokN q (cntTo (cnd v11) j)} Tb : sProp 𝕄) else iprop(emp))) :=
    Entails.of_eq (BI.bigSep_sep (Finset.range 16) _ _)
  have e := BIBase.Entails.trans e1 (BIBase.Entails.trans e2 e3)
  unfold heldSt waitSt Draining
  rw [if_pos rfl, Cert.Route.Book.bigSep_deliv_DsTo (cnd v11) _ 16 _ rfl]
  iintro ⟨⟨Ho, Htab, Hrests⟩, ⟨HD, Hs⟩, HO⟩
  ihave Hsplit := e $$ [Hrests HD]
  · isplitl [Hrests]; · iexact Hrests
    iexact HD
  icases Hsplit with ⟨Hrows, Hshares⟩
  isplitl [Ho Hrows]
  · iapply (Cert.Route.Book.rows_join_to (cnd v11) (laneSet_sub d L k) (laneSet_disj d L k) f G
      (fun j => (dstU L k j).view.write (Elt F) f (ReadAs.same.apply ((srcU (wd v11 j) (hwd j)).view.read (Elt F) Tb)) Finset.univ) hf hg)
    isplitl [Ho]; · iexact Ho
    iexact Hrows
  isplitl [Htab Hshares]
  · iapply (Cert.Route.Book.shares_join (cnd v11) q Finset.univ Tb 16)
    isplitl [Htab]; · iexact Htab
    iexact Hshares
  isplitl [Hs]; · iexact Hs
  iexact HO

end Cert.KernelIdeal.Route.Tile

end
-- ==== Proof.RouteRead.lean ====
/-
  Reading the routing task's buffers through its views, index by index: what a row copy leaves in the result row it
  writes (the table row the lane's index names) and off it (nothing), what the task's two opening copies leave (the
  early-exit rows in the result rows, the task's row indices in the index scratch), what a trip's load reads (the
  trip's sixteen row indices), and the routed result's value on a lane's row. Plain equations between functions of
  indices.
-/
import proofs.«215259_g58411555225873_cont_9to1_m_859_22_alg».proof.Proof.RouteGeom
import proofs.«215259_g58411555225873_cont_9to1_m_859_22_alg».proof.Proof.RouteOut
import proofs.«215259_g58411555225873_cont_9to1_m_859_22_alg».proof.Proof.RouteTask

noncomputable section

namespace Cert.KernelIdeal.Route.Tile

open Cert.KernelIdeal Cert.KernelIdeal.Gen Cert.KernelIdeal.Route

open Idealize.ShloMosaic Idealize.ShloMosaic.ValueIdx
open Idealize.ShloMosaic.SparseCore (S V T)

variable {F : FTy → Type}

/-! ## A lane's row -/

/-- An element of lane `r`'s row: its row is the lane's result row, its column any. -/
theorem mem_laneSet (d : Dev nD) (L : grid1.Coords) (k : Fin k1_t1_loop.trips) (r : ℕ) (hr : r < 16) (i : S16384x1000.Idx) :
    i ∈ laneSet d L k r ↔ (i 0).val = ((L 1).val * 2 + (L 0).val) * 512 + 16 * k.val + r := by
  rw [laneSet_eq, Rect.mem_set_unit]
  have h := dstWord_toNat L k (r % 16) (Nat.mod_lt _ (by omega))
  have e : r % 16 = r := Nat.mod_eq_of_lt hr
  have h1 : (i 1).val < 1000 := (i 1).isLt
  constructor
  · intro hi
    have h0 : (dstWord L k (BitVec.ofNat 32 (r % 16))).toNat ≤ (i 0).val
        ∧ (i 0).val < (dstWord L k (BitVec.ofNat 32 (r % 16))).toNat + 1 := hi 0
    omega
  · intro hi a
    match a with
    | ⟨0, _⟩ =>
      show (dstWord L k (BitVec.ofNat 32 (r % 16))).toNat ≤ (i 0).val
        ∧ (i 0).val < (dstWord L k (BitVec.ofNat 32 (r % 16))).toNat + 1
      omega
    | ⟨1, _⟩ =>
      show 0 ≤ (i 1).val ∧ (i 1).val < 0 + 1000
      omega

/-- The place of a lane's row among the row indices. -/
theorem rowOfIdx_of_mem (d : Dev nD) (L : grid1.Coords) (k : Fin k1_t1_loop.trips) (r : ℕ) (hr : r < 16) (i : S16384x1000.Idx)
    (hi : i ∈ laneSet d L k r) (hlt : ((L 1).val * 2 + (L 0).val) * 512 + 16 * k.val + r < 16384) :
    rowOfIdx i = ix1 (⟨((L 1).val * 2 + (L 0).val) * 512 + 16 * k.val + r, hlt⟩ : Fin 16384) := by
  have h := (mem_laneSet d L k r hr i).mp hi
  unfold rowOfIdx
  exact congrArg ix1 (Fin.ext h)

/-! ## (R1) One row copy -/

/-- On the lane's row a row copy leaves the table row the index names: at column c, the table's element (v, c). -/
theorem rowCopy_apply (d : Dev nD) (L : grid1.Coords) (k : Fin k1_t1_loop.trips) (r : ℕ) (v : BitVec 32) (hv : v.toNat < 65536)
    (Tb : S65536x1000.Idx → Elt F .f32) (f : S16384x1000.Idx → Elt F .f32) (i : S16384x1000.Idx) (hi : i ∈ laneSet d L k r) :
    (dstU L k r).view.write (Elt F) f (ReadAs.same.apply ((srcU v hv).view.read (Elt F) Tb)) Finset.univ i
      = Tb (tabIx v (colOfIdx i)) := by
  obtain ⟨x, -, rfl⟩ := Finset.mem_map.mp hi
  refine (View.write_emb_of_mem (v := (dstU L k r).view) f _ (Finset.mem_univ x)).trans ?_
  show Tb ((srcU v hv).view.emb x) = Tb (tabIx v (colOfIdx ((dstU L k r).view.emb x)))
  refine congrArg Tb ?_
  have hx0 : (x 0).val = 0 := by have : (x 0).val < 1 := (x 0).isLt; omega
  funext a
  match a with
  | ⟨0, _⟩ =>
    refine Fin.ext ?_
    show v.toNat + 1 * (x 0).val = v.toNat % 65536
    rw [hx0, Nat.mod_eq_of_lt hv, Nat.mul_zero, Nat.add_zero]
  | ⟨1, _⟩ =>
    refine Fin.ext ?_
    show 0 + 1 * (x 1).val = 0 + 1 * (x 1).val
    rfl

/-- Off the lane's row it leaves what was there. -/
theorem rowCopy_off (d : Dev nD) (L : grid1.Coords) (k : Fin k1_t1_loop.trips) (r : ℕ) (v : BitVec 32) (hv : v.toNat < 65536)
    (Tb : S65536x1000.Idx → Elt F .f32) (f : S16384x1000.Idx → Elt F .f32) (i : S16384x1000.Idx) (hi : i ∉ laneSet d L k r) :
    (dstU L k r).view.write (Elt F) f (ReadAs.same.apply ((srcU v hv).view.read (Elt F) Tb)) Finset.univ i = f i :=
  View.write_of_not_mem _ _ _ (by rw [View.setOn_univ]; exact hi)

/-! ## (R2) The task's two opening copies -/

/-- The copy of the task's early-exit rows into its result rows leaves, on those rows, the early-exit rows (as one
    unmasked write through the result slice, over any prior contents); -/
theorem copyRows_apply (d : Dev nD) (L : grid1.Coords) (Pc : S16384x1000.Idx → Elt F .f32) (f : S16384x1000.Idx → Elt F .f32)
    (i : S16384x1000.Idx) (hi : i ∈ outSet d L) :
    (oSl L).view.write (Elt F) f (ReadAs.same.apply ((pSl L).view.read (Elt F) Pc)) Finset.univ i = Pc i := by
  obtain ⟨x, -, rfl⟩ := Finset.mem_map.mp hi
  refine (View.write_emb_of_mem (v := (oSl L).view) f _ (Finset.mem_univ x)).trans ?_
  show Pc ((pSl L).view.emb x) = Pc ((oSl L).view.emb x)
  rfl

/-- the same as a list of one write through the whole slice. -/
theorem copyRows_writes_apply (d : Dev nD) (L : grid1.Coords) (Pc : S16384x1000.Idx → Elt F .f32) (f : S16384x1000.Idx → Elt F .f32)
    (i : S16384x1000.Idx) (hi : i ∈ outSet d L) :
    (oSl L).view.writes (Elt F) f [⟨Rect.whole S512x1000, ReadAs.same.apply ((pSl L).view.read (Elt F) Pc)⟩] i = Pc i := by
  obtain ⟨x, -, rfl⟩ := Finset.mem_map.mp hi
  have hx : (oSl L).view.emb x = ((oSl L).view.slice (Rect.whole S512x1000)).emb x := by
    show (oSl L).view.emb x = (oSl L).view.emb ((Rect.whole S512x1000).emb x)
    refine congrArg _ (funext fun a => Fin.ext ?_)
    show (x a).val = 0 + 1 * (x a).val
    omega
  rw [View.writes_singleton]
  refine (congrArg _ hx).trans ((View.write_emb_of_mem (v := (oSl L).view.slice (Rect.whole S512x1000)) f _ (Finset.mem_univ x)).trans ?_)
  show Pc ((pSl L).view.emb x) = Pc ((oSl L).view.emb x)
  rfl

/-- The fetch of the task's row indices leaves the index scratch at them: word j is the task's j-th row index. -/
theorem fetchIdx_apply (L : grid1.Coords) (R : S16384.Idx → BitVec 32) (fx : S512.Idx → BitVec 32) (j : S512.Idx) :
    (Memref.whole cc1_scratch0 : Memref sig .scVector .vmem S512 .i32).view.write (Elt F) fx
        (ReadAs.same.apply ((rSl L).view.read (Elt F) R)) Finset.univ j
      = R ((rSl L).view.emb j) := by
  refine (View.write_emb_of_mem (Val := Elt F) (v := (Memref.whole cc1_scratch0 : Memref sig .scVector .vmem S512 .i32).view) fx _ (Finset.mem_univ j)).trans ?_
  rfl

/-- The task's j-th row index sits at row (subcore · 2 + core) · 512 + j of the row indices. -/
theorem rSl_emb_val (L : grid1.Coords) (j : S512.Idx) :
    ((rSl L).view.emb j 0).val = ((L 1).val * 2 + (L 0).val) * 512 + (j 0).val := by
  show k1_off1 L 0 + 1 * (j 0).val = _
  rw [k1_off1_eq]
  show 1024 * (L 1).val + 512 * (L 0).val + 1 * (j 0).val = _
  omega

/-! ## (R3) A trip's load -/

/-- The sixteen words a trip loads from the index scratch are the task's row indices 16·trip … 16·trip + 15: lane r is
    the row index of result row (subcore · 2 + core) · 512 + 16·trip + r. -/
theorem tripLoad_apply (L : grid1.Coords) (k : Fin k1_t1_loop.trips) (R : S16384.Idx → BitVec 32) (fx : S512.Idx → BitVec 32)
    (r : ℕ) (hr : r < 16) (hlt : ((L 1).val * 2 + (L 0).val) * 512 + 16 * k.val + r < 16384) :
    (Memref.whole cc1_scratch0 : Memref sig .scVector .vmem S512 .i32).view.readAt (Elt F)
        (Rect.unit (s := S512) (k1_off3 k) S16.size (k1_off3_inb k)).toLoadRect
        ((Memref.whole cc1_scratch0 : Memref sig .scVector .vmem S512 .i32).view.write (Elt F) fx
          (ReadAs.same.apply ((rSl L).view.read (Elt F) R)) Finset.univ)
        (ix1 (⟨r, hr⟩ : Fin 16))
      = R (ix1 (⟨((L 1).val * 2 + (L 0).val) * 512 + 16 * k.val + r, hlt⟩ : Fin 16384)) := by
  rw [View.readAt_apply]
  show (Memref.whole cc1_scratch0 : Memref sig .scVector .vmem S512 .i32).view.write (Elt F) fx
      (ReadAs.same.apply ((rSl L).view.read (Elt F) R)) Finset.univ _ = _
  rw [fetchIdx_apply]
  refine congrArg R (funext fun a => ?_)
  match a with
  | ⟨0, _⟩ =>
    refine Fin.ext ?_
    refine (rSl_emb_val L _).trans ?_
    show ((L 1).val * 2 + (L 0).val) * 512 + (k1_off3 k 0 + 1 * r) = ((L 1).val * 2 + (L 0).val) * 512 + 16 * k.val + r
    rw [k1_off3_eq]
    show ((L 1).val * 2 + (L 0).val) * 512 + (16 * k.val + 1 * r) = _
    omega

/-- A task's rows lie in the result: (subcore · 2 + core) · 512 + 16·trip + lane < 16384. -/
theorem taskRow_lt (L : grid1.Coords) (k : Fin k1_t1_loop.trips) (r : ℕ) (hr : r < 16) :
    ((L 1).val * 2 + (L 0).val) * 512 + 16 * k.val + r < 16384 := by
  have h1 : (L 1).val < 16 := (L 1).isLt
  have h0 : (L 0).val < 2 := (L 0).isLt
  have hk := trips_lt k
  omega

/-- The vector a trip loads, over the index scratch as the fetch left it. -/
abbrev tripVec (L : grid1.Coords) (k : Fin k1_t1_loop.trips) (R : S16384.Idx → BitVec 32) (fx : S512.Idx → BitVec 32) : Vec F S16 .i32 :=
  (Memref.whole cc1_scratch0 : Memref sig .scVector .vmem S512 .i32).view.readAt (Elt F)
    (Rect.unit (s := S512) (k1_off3 k) S16.size (k1_off3_inb k)).toLoadRect
    ((Memref.whole cc1_scratch0 : Memref sig .scVector .vmem S512 .i32).view.write (Elt F) fx
      (ReadAs.same.apply ((rSl L).view.read (Elt F) R)) Finset.univ)

/-- Lane r's word of a trip is the row index of the lane's result row. -/
theorem tripWord_eq [FloatOps F] (d : Dev nD) (L : grid1.Coords) (k : Fin k1_t1_loop.trips) (R : S16384.Idx → BitVec 32) (fx : S512.Idx → BitVec 32)
    (r : ℕ) (hr : r < 16) (i : S16384x1000.Idx) (hi : i ∈ laneSet d L k r) :
    wd (k1_pay1 (tripVec (F := F) L k R fx)) r = R (rowOfIdx i) := by
  rw [pay1_eq, wd_eq _ r hr, rowOfIdx_of_mem d L k r hr i hi (taskRow_lt L k r hr)]
  exact tripLoad_apply L k R fx r hr (taskRow_lt L k r hr)

/-- Past the sixteenth lane there is no word: the zero word. -/
theorem wd_ge (v11 : IVec S16 32) (r : ℕ) (hr : 16 ≤ r) : wd v11 r = 0#32 := by
  match r, hr with
  | r + 16, _ => rfl

/-- Every word of a trip names a table row when every row index does. -/
theorem tripWords_lt [FloatOps F] (d : Dev nD) (L : grid1.Coords) (k : Fin k1_t1_loop.trips) (R : S16384.Idx → BitVec 32) (fx : S512.Idx → BitVec 32)
    (hR : ∀ j, (R j).toNat < 65536) : ∀ r : ℕ, (wd (k1_pay1 (tripVec (F := F) L k R fx)) r).toNat < 65536 := by
  intro r
  by_cases hr : r < 16
  · rw [pay1_eq, wd_eq _ r hr]
    exact lt_of_eq_of_lt (congrArg BitVec.toNat (tripLoad_apply (F := F) L k R fx r hr (taskRow_lt L k r hr))) (hR _)
  · rw [wd_ge _ r (by omega)]
    decide

/-! ## (R4) The routed result on a lane's row -/

theorem outSpec_apply (Tb : S65536x1000.Idx → Elt F .f32) (Pc : S16384x1000.Idx → Elt F .f32) (R : S16384.Idx → BitVec 32)
    (i : S16384x1000.Idx) :
    outSpec (F := F) Tb Pc R i = if routeCond (R (rowOfIdx i)) = 1#1 then Tb (tabIx (R (rowOfIdx i)) (colOfIdx i)) else Pc i := rfl

/-- One lane's step: over contents that still hold the early-exit row on the lane's row, the lane's guarded row copy
    leaves the routed result there, -/
theorem lane_value (d : Dev nD) (L : grid1.Coords) (k : Fin k1_t1_loop.trips) (r : ℕ)
    (Tb : S65536x1000.Idx → Elt F .f32) (Pc : S16384x1000.Idx → Elt F .f32) (R : S16384.Idx → BitVec 32)
    (f : S16384x1000.Idx → Elt F .f32) (i : S16384x1000.Idx) (hi : i ∈ laneSet d L k r) (hf : f i = Pc i)
    (w : BitVec 32) (hw : w.toNat < 65536) (hwi : w = R (rowOfIdx i)) :
    (if routeCond w = 1#1 then (dstU L k r).view.write (Elt F) f (ReadAs.same.apply ((srcU w hw).view.read (Elt F) Tb)) Finset.univ else f) i
      = outSpec (F := F) Tb Pc R i := by
  by_cases h : routeCond w = 1#1
  · exact (congrFun (if_pos h) i).trans ((rowCopy_apply d L k r w hw Tb f i hi).trans (by rw [outSpec_apply, ← hwi, if_pos h]))
  · exact (congrFun (if_neg h) i).trans (hf.trans (by rw [outSpec_apply, ← hwi, if_neg h]))

/-- and changes nothing off it. -/
theorem lane_off (d : Dev nD) (L : grid1.Coords) (k : Fin k1_t1_loop.trips) (r : ℕ)
    (Tb : S65536x1000.Idx → Elt F .f32) (f : S16384x1000.Idx → Elt F .f32) (i : S16384x1000.Idx) (hi : i ∉ laneSet d L k r)
    (w : BitVec 32) (hw : w.toNat < 65536) :
    (if routeCond w = 1#1 then (dstU L k r).view.write (Elt F) f (ReadAs.same.apply ((srcU w hw).view.read (Elt F) Tb)) Finset.univ else f) i
      = f i := by
  by_cases h : routeCond w = 1#1
  · exact (congrFun (if_pos h) i).trans (rowCopy_off d L k r w hw Tb f i hi)
  · exact congrFun (if_neg h) i

end Cert.KernelIdeal.Route.Tile

end
-- ==== Proof.RouteTrip.lean ====
/-
  The routing task's result rows trip by trip, as one function of the trip count: rows of the trips done hold the
  routed result, the rows still to come hold the early-exit rows. A trip's taken lanes take their rows from the one
  to the next; every other row of the task is the same in both.
-/
import proofs.«215259_g58411555225873_cont_9to1_m_859_22_alg».proof.Proof.RouteRead
import proofs.«215259_g58411555225873_cont_9to1_m_859_22_alg».proof.Proof.BatchBook

noncomputable section

namespace Cert.KernelIdeal.Route.Tile

open Cert.KernelIdeal Cert.KernelIdeal.Gen Cert.KernelIdeal.Route

open Idealize.ShloMosaic Idealize.ShloMosaic.ValueIdx
open Idealize.ShloMosaic.SparseCore (S V T)
open Cert.Route.Book (cntTo DsTo Sc)

variable {F : FTy → Type}

/-- What is left after carving holds none of a taken lane's rows. -/
theorem mem_Sc {nD : Nat} {τ : Topo} {sig : RefSig} {ℓ : Loc nD τ sig} (c : ℕ → Prop) [DecidablePred c] (S : Finset (Idx ℓ)) (I : ℕ → Finset (Idx ℓ)) :
    ∀ (n : ℕ) (i : Idx ℓ), i ∈ Sc c S I n → i ∈ S ∧ ∀ j < n, c j → i ∉ I j := by
  intro n
  induction n with
  | zero => intro i hi; exact ⟨hi, fun j hj => absurd hj (Nat.not_lt_zero j)⟩
  | succ n ih =>
    intro i hi
    rw [Cert.Route.Book.Sc_succ] at hi
    by_cases h : c n
    · rw [if_pos h] at hi
      obtain ⟨h1, h2⟩ := Finset.mem_sdiff.mp hi
      obtain ⟨hS, hI⟩ := ih i h1
      refine ⟨hS, fun j hj hc => ?_⟩
      rcases Nat.lt_succ_iff_lt_or_eq.mp hj with hlt | rfl
      · exact hI j hlt hc
      · exact h2
    · rw [if_neg h] at hi
      obtain ⟨hS, hI⟩ := ih i hi
      refine ⟨hS, fun j hj hc => ?_⟩
      rcases Nat.lt_succ_iff_lt_or_eq.mp hj with hlt | rfl
      · exact hI j hlt hc
      · exact absurd hc h

/-- The task's first row. -/
abbrev baseRow (L : grid1.Coords) : ℕ := ((L 1).val * 2 + (L 0).val) * 512

/-- The result after n trips: the routed result on the rows of the trips done, the early-exit rows on the rest. -/
def tripFn (L : grid1.Coords) (Tb : S65536x1000.Idx → Elt F .f32) (Pc : S16384x1000.Idx → Elt F .f32) (R : S16384.Idx → BitVec 32) (n : ℕ) :
    S16384x1000.Idx → Elt F .f32 :=
  fun i => if (i 0).val < baseRow L + 16 * n then outSpec (F := F) Tb Pc R i else Pc i

/-- An element of the task's rows: its row is one of the task's 512. -/
theorem mem_outSet (d : Dev nD) (L : grid1.Coords) (i : S16384x1000.Idx) :
    i ∈ outSet d L ↔ baseRow L ≤ (i 0).val ∧ (i 0).val < baseRow L + 512 := by
  rw [outSet_eq, Rect.mem_set_unit, off2_eq]
  have h1 : (i 1).val < 1000 := (i 1).isLt
  constructor
  · intro hi
    exact hi 0
  · intro hi a
    match a with
    | ⟨0, _⟩ => exact hi
    | ⟨1, _⟩ =>
      show 0 ≤ (i 1).val ∧ (i 1).val < 0 + 1000
      omega

/-- Before the first trip the task's rows hold the early-exit rows; -/
theorem tripFn_zero (d : Dev nD) (L : grid1.Coords) (Tb : S65536x1000.Idx → Elt F .f32) (Pc : S16384x1000.Idx → Elt F .f32) (R : S16384.Idx → BitVec 32)
    (i : S16384x1000.Idx) (hi : i ∈ outSet d L) : tripFn (F := F) L Tb Pc R 0 i = Pc i := by
  have h := (mem_outSet d L i).mp hi
  unfold tripFn
  rw [if_neg (by omega)]

/-- after the last they hold the routed result. -/
theorem tripFn_last (d : Dev nD) (L : grid1.Coords) (Tb : S65536x1000.Idx → Elt F .f32) (Pc : S16384x1000.Idx → Elt F .f32) (R : S16384.Idx → BitVec 32)
    (i : S16384x1000.Idx) (hi : i ∈ outSet d L) : tripFn (F := F) L Tb Pc R 32 i = outSpec (F := F) Tb Pc R i := by
  have h := (mem_outSet d L i).mp hi
  unfold tripFn
  rw [if_pos (by omega)]

/-- A taken lane's row copy, over the result after k trips, leaves on its row the result after k + 1 trips. -/
theorem trip_taken [FloatOps F] (d : Dev nD) (L : grid1.Coords) (k : Fin k1_t1_loop.trips)
    (Tb : S65536x1000.Idx → Elt F .f32) (Pc : S16384x1000.Idx → Elt F .f32) (R : S16384.Idx → BitVec 32) (fx : S512.Idx → BitVec 32)
    (hwd : ∀ r, (wd (k1_pay1 (tripVec (F := F) L k R fx)) r).toNat < 65536)
    (j : ℕ) (hj : j < 16) (hc : cnd (k1_pay1 (tripVec (F := F) L k R fx)) j) (i : S16384x1000.Idx) (hi : i ∈ laneSet d L k j) :
    (dstU L k j).view.write (Elt F) (tripFn (F := F) L Tb Pc R k.val)
        (ReadAs.same.apply ((srcU (wd (k1_pay1 (tripVec (F := F) L k R fx)) j) (hwd j)).view.read (Elt F) Tb)) Finset.univ i
      = tripFn (F := F) L Tb Pc R (k.val + 1) i := by
  have hrow := (mem_laneSet d L k j hj i).mp hi
  have hb : baseRow L = ((L 1).val * 2 + (L 0).val) * 512 := rfl
  have hf : tripFn (F := F) L Tb Pc R k.val i = Pc i := by
    unfold tripFn; rw [if_neg (by show ¬ (i 0).val < baseRow L + 16 * k.val; omega)]
  have hv := lane_value d L k j Tb Pc R (tripFn (F := F) L Tb Pc R k.val) i hi hf
    (wd (k1_pay1 (tripVec (F := F) L k R fx)) j) (hwd j) (tripWord_eq d L k R fx j hj i hi)
  have hn : tripFn (F := F) L Tb Pc R (k.val + 1) i = outSpec (F := F) Tb Pc R i := by
    unfold tripFn; rw [if_pos (by show (i 0).val < baseRow L + 16 * (k.val + 1); omega)]
  exact ((congrFun (if_pos hc) i).symm.trans hv).trans hn.symm

/-- What a trip's taken lanes leave untouched is the same after k and after k + 1 trips. -/
theorem trip_rest [FloatOps F] (d : Dev nD) (L : grid1.Coords) (k : Fin k1_t1_loop.trips)
    (Tb : S65536x1000.Idx → Elt F .f32) (Pc : S16384x1000.Idx → Elt F .f32) (R : S16384.Idx → BitVec 32) (fx : S512.Idx → BitVec 32)
    (i : S16384x1000.Idx) (hi : i ∈ Sc (cnd (k1_pay1 (tripVec (F := F) L k R fx))) (outSet d L) (laneSet d L k) 16) :
    tripFn (F := F) L Tb Pc R k.val i = tripFn (F := F) L Tb Pc R (k.val + 1) i := by
  obtain ⟨hS, hI⟩ := mem_Sc (cnd (k1_pay1 (tripVec (F := F) L k R fx))) (outSet d L) (laneSet d L k) 16 i hi
  have hb : baseRow L = ((L 1).val * 2 + (L 0).val) * 512 := rfl
  unfold tripFn
  by_cases h1 : (i 0).val < baseRow L + 16 * k.val
  · rw [if_pos h1, if_pos (by omega)]
  · by_cases h2 : (i 0).val < baseRow L + 16 * (k.val + 1)
    · rw [if_neg h1, if_pos h2]
      -- the row is lane j's of this trip, and lane j is not taken
      have hj : (i 0).val - baseRow L - 16 * k.val < 16 := by omega
      have hmem : i ∈ laneSet d L k ((i 0).val - baseRow L - 16 * k.val) :=
        (mem_laneSet d L k _ hj i).mpr (by show (i 0).val = baseRow L + 16 * k.val + ((i 0).val - baseRow L - 16 * k.val); omega)
      have hnc : ¬ cnd (k1_pay1 (tripVec (F := F) L k R fx)) ((i 0).val - baseRow L - 16 * k.val) := fun hc => hI _ hj hc hmem
      have hw := tripWord_eq (F := F) d L k R fx _ hj i hmem
      rw [outSpec_apply, ← hw]
      exact (if_neg hnc).symm
    · rw [if_neg h1, if_neg h2]

end Cert.KernelIdeal.Route.Tile

end
-- ==== Proof.RouteTile.lean ====
/-
  The SparseCore routing kernel, one vector subcore's task: fetch the task's 512 row indices, copy the task's
  512 rows of the early-exit rows into the result, then, sixteen rows at a time, overwrite every row whose index
  names the last head's table (index ≥ 49152) by that table row — the copies of a group all started before any
  is waited for, each to a row of its own, nothing touching those rows in between.
-/
import proofs.«215259_g58411555225873_cont_9to1_m_859_22_alg».proof.Proof.RouteLane
import proofs.«215259_g58411555225873_cont_9to1_m_859_22_alg».proof.Proof.TripFacts
import proofs.«215259_g58411555225873_cont_9to1_m_859_22_alg».proof.Proof.RouteRead
import proofs.«215259_g58411555225873_cont_9to1_m_859_22_alg».proof.Proof.RouteTrip
import proofs.«215259_g58411555225873_cont_9to1_m_859_22_alg».proof.Proof.RouteLaunch

noncomputable section

namespace Cert.KernelIdeal.Route.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batched copyDelivery Draining wp_guardedIssue wp_guardedWait shareDrop shareTokN)
open Cert.Route.Book (cntTo DsTo Sc)
open Cert.KernelIdeal.Route

variable {F : FTy → Type}

local notation "𝕄" => MT nD τ sig (HIx 1) (Elt F) ℕ UU ℕ

/-! ## One task -/

variable (d : Dev nD) (L : grid1.Coords)

-- the kernel's memrefs, spelt as the body table passes them
local notation "tabW" => (Memref.whole Cert.KernelIdeal.main_v1_scv : Memref Cert.KernelIdeal.sig Kind.scVector Space.hbm Cert.KernelIdeal.S65536x1000 EltTy.f32)
local notation "pW" => (Memref.whole Cert.KernelIdeal.main_v0_2_scv : Memref Cert.KernelIdeal.sig Kind.scVector Space.hbm Cert.KernelIdeal.S16384x1000 EltTy.f32)
local notation "rW" => (Memref.whole Cert.KernelIdeal.main_v0_1_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S16384x1000 EltTy.f32)
local notation "xW" => (Memref.whole Cert.KernelIdeal.cc1_scratch0 : Memref Cert.KernelIdeal.sig Kind.scVector Space.vmem Cert.KernelIdeal.S512 EltTy.i32)

variable [FloatOps F]

omit [FloatOps F] in
theorem ownSems0_V :
    (ownSems0 (thr d L) : sProp 𝕄)
      = iprop(semVal (cIcell d L) 0 ∗ semVal (cBcell d L) 0 ∗ semVal (cRcell d L) 0
          ∗ bigSep ((((ownCells (thr d L)).erase (cIcell d L)).erase (cBcell d L)).erase (cRcell d L)) fun g => semVal g 0) := by
  unfold SparseCore.Cfg.ownSems0
  rw [SparseCore.bigSep_erase' ((mem_ownCells (g := cIcell d L)).mpr ⟨rfl, by
      show (SemLoc.dma cc1_scoped0.sem : SemLoc sig).isScoped .scVector = true; decide⟩),
    SparseCore.bigSep_erase' (Finset.mem_erase.mpr ⟨by simp [cIcell, cBcell]; decide, (mem_ownCells (g := cBcell d L)).mpr ⟨rfl, by
      show (SemLoc.dma cc1_scratch1.sem : SemLoc sig).isScoped .scVector = true; decide⟩⟩),
    SparseCore.bigSep_erase' (Finset.mem_erase.mpr ⟨by simp [cBcell, cRcell]; decide, Finset.mem_erase.mpr ⟨by simp [cIcell, cRcell]; decide,
      (mem_ownCells (g := cRcell d L)).mpr ⟨rfl, by show (SemLoc.dma cc1_scratch2.sem : SemLoc sig).isScoped .scVector = true; decide⟩⟩⟩)]

omit [FloatOps F] in
/-- The index scratch is among the subcore's own buffers. -/
theorem ownBufs_V :
    (ownBufs (thr d L) : sProp 𝕄)
      = iprop((∃ f, (thr d L).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

omit [FloatOps F] in
theorem pts_x (f : Buf (Elt F) ((thr d L).loc cc1_scratch0)) :
    ((xW).view.loc (thr d L) ↦{fullShare} f : sProp 𝕄) = (thr d L).loc cc1_scratch0 ↦{fullShare} f := rfl

set_option hygiene false in
/-- Step the check of a lane's row index (an `assume` at the head of the block) with its proof. -/
local macro "lane_assume " c:ident r:num : tactic =>
  `(tactic| (
    iapply (wp_assume_prog (F := F) d L _ ?hp ?h)
    case hp => exact rfl
    case h => exact $c _ (hwd $r)))

set_option hygiene false in
/-- One lane of the issuing half: the block's local definitions out of the way, the guarded copy by `issue_lane'`, the
    state handed over and taken back, the rest of the block unfolded. -/
local macro "lane_issue " r:num : tactic =>
  `(tactic| (
    try lift_lets
    try extract_lets
    iapply (issue_lane' (F := F) d L k (tile_bodyV.sl.v11 d L R fx k) hwd q Tb (tripFn (F := F) L Tb Pc R k.val) $r (by decide) _ _
      (View.wordExact_bits rfl) (View.wordExact_bits rfl) ⟨Or.inl rfl, trivial⟩ _ ?hp)
    case hp => exact rfl
    isplitl [Hst]
    · iexact Hst
    iintro Hst
    unfold_jp))

set_option hygiene false in
/-- One lane of the waiting half. -/
local macro "lane_wait " r:num : tactic =>
  `(tactic| (
    try lift_lets
    try extract_lets
    iapply (wait_lane' (F := F) d L k (tile_bodyV.sl.v11 d L R fx k) hwd q Tb (tripFn (F := F) L Tb Pc R k.val) O W $r (by decide) _ _
      (View.wordExact_bits rfl) (View.wordExact_bits rfl) _ ?hp)
    case hp => exact rfl
    isplitl [Hst]
    · iexact Hst
    isplitr
    · iexact Hmw
    iintro Hst
    unfold_jp))

/-- The loop's invariant before trip `n`: the table's read share, the fetched indices in the task's scratch, the task's
    result rows at the routed result on the rows of the trips done and at the early-exit rows elsewhere, the row copies'
    semaphore at zero, and what the task owes. -/
def inv (O : CellTallies nD τ sig (HIx 1)) (W : Waits sig (HIx 1)) (q : PosShare TreeShare)
    (Tb : Buf (Elt F) (tabLoc d)) (Pc : Buf (Elt F) (pLoc d)) (R : Buf (Elt F) (rLoc d))
    (X : Buf (Elt F) ((xW).view.loc (thr d L))) (n : Nat) (_ : PUnit) : sProp 𝕄 :=
  iprop(Transfers.MayWaits (thr d L) (none : HIx 1) O
    ∗ ((tabW).view.loc (thr d L) ↦{q} Tb)
    ∗ ((xW).view.loc (thr d L) ↦{fullShare} X)
    ∗ ((oSl L).view.loc (thr d L) ↦[(oSl L).view.set]{fullShare} tripFn (F := F) L Tb Pc R n)
    ∗ semVal (thr d L, SemLoc.dma cc1_scratch2.sem) 0
    ∗ ∃ W', ⌜∀ p ∈ W', p ∈ W ∨ p.2 = none⌝ ∗ owes (thr d L) O W')

set_option maxHeartbeats 40000000 in
/-- One routing task, at value strength: handed the table, its early-exit rows and its row indices at known contents,
    every index naming a table row, it leaves its 512 result rows at the routed result of those contents. -/
theorem tile_bodyV : Cert.KernelIdeal.Route.Launch.TileBodyV (F := F) (fun _ Tb Pc R => outSpec Tb Pc R) := by
  intro d L hF O W hO q Tb Pc R hR
  rw [cc1_sc_route_eq_skeleton]; unfold cc1_sc_route_skel Cert.KernelIdeal.Route.Launch.tileIn Cert.KernelIdeal.Route.Launch.tileOut
  rw [(K (F := F)).scopedBufs_V hF d (cV L) (jV L), SparseCore.Cfg.scopedSems0_V (Val := Elt F) d (cV L) (jV L), ownSems0_V, ownBufs_V]
  iintro ⟨#Hlv, -, ⟨Htab, Hp, Hr, ⟨%f0, Ho⟩⟩, ⟨⟨%fx, Hx⟩, Hbufs⟩, ⟨HsemI, HsemB, HsemR, Hsems⟩, HO⟩
  ihave Hmw := ((K (F := F)).mayWaits_none (thr := thr d L) hO) $$ Hlv
  ihave Hx' := (Entails.of_eq (pts_x (F := F) d L _).symm) $$ Hx
  sl_exec
  -- the result rows now hold the early-exit rows: the invariant before the first trip
  ihave Ho' := (Entails.of_eq (pointsTo_congr (ℓ := (oSl L).view.loc (thr d L)) (I := (oSl L).view.set) (q := fullShare)
      (f := (oSl L).view.writes (Elt F) (oSl L).view.junk [⟨Rect.whole S512x1000, tile_bodyV.sl.dma0_1 d L Pc⟩])
      (g := tripFn (F := F) L Tb Pc R 0)
      (fun i hi => (copyRows_writes_apply (F := F) d L Pc (oSl L).view.junk i hi).trans (tripFn_zero (F := F) d L Tb Pc R i hi).symm))) $$ Ho
  sl_for (inv d L O W q Tb Pc R (View.write (Elt F) (xW).view fx (tile_bodyV.sl.dma0 d L R) Finset.univ)) $$ [Hmw Htab Hx' Ho' HsemR HO]
  case region =>
    intro k _
    unfold inv
    iintro ⟨#Hmw, Htab, Hx, Ho, Hsem, %W', %hW', HO⟩
    sl_exec
    have hwd : ∀ r, (wd (tile_bodyV.sl.v11 d L R fx k) r).toNat < 65536 := tripWords_lt (F := F) d L k R fx hR
    imod (trip_start (F := F) d L k (tile_bodyV.sl.v11 d L R fx k) hwd q Tb (tripFn (F := F) L Tb Pc R k.val)) $$ [Hsem Ho Htab] with Hst
    · isplitl [Hsem]; · iexact Hsem
      isplitl [Ho]; · iexact Ho
      iexact Htab
    -- lane 0
    rw [wp_assume_of _ _ _ _ (show k1_chk1 (tile_bodyV.sl.v13 d L R fx k) from chk1_of_lt _ (hwd 0))]
    lane_issue 0
    lane_assume chk2_of_lt 1
    lane_issue 1
    lane_assume chk3_of_lt 2
    lane_issue 2
    lane_assume chk4_of_lt 3
    set_option sl_exec.stopBefore "k1_cond4" in sl_exec
    lane_issue 3
    lane_assume chk5_of_lt 4
    lane_issue 4
    lane_assume chk6_of_lt 5
    lane_issue 5
    lane_assume chk7_of_lt 6
    lane_issue 6
    lane_assume chk8_of_lt 7
    lane_issue 7
    sl_exec
    lane_assume chk9_of_lt 8
    lane_issue 8
    lane_assume chk10_of_lt 9
    lane_issue 9
    lane_assume chk11_of_lt 10
    lane_issue 10
    lane_assume chk12_of_lt 11
    lane_issue 11
    lane_assume chk13_of_lt 12
    set_option sl_exec.stopBefore "k1_cond13" in sl_exec
    lane_issue 12
    lane_assume chk14_of_lt 13
    lane_issue 13
    lane_assume chk15_of_lt 14
    lane_issue 14
    lane_assume chk16_of_lt 15
    lane_issue 15
    -- every lane has issued: the batch recorded is the batch to drain
    ihave Hsw := (phase_switch (F := F) d L k (tile_bodyV.sl.v11 d L R fx k) hwd q Tb (tripFn (F := F) L Tb Pc R k.val) O W) $$ [Hst HO]
    · isplitl [Hst]; · iexact Hst
      unfold owesSt
      iexists W'; isplitr
      · ipureintro; exact hW'
      iexact HO
    icases Hsw with ⟨Hheld, Hst⟩
    lane_wait 0
    sl_exec
    lift_lets
    extract_lets
    beta_reduce
    set_option sl_exec.stopBefore "k1_cond18" in sl_exec
    lane_wait 1
    lane_wait 2
    lane_wait 3
    lane_wait 4
    lane_wait 5
    lane_wait 6
    lane_wait 7
    lane_wait 8
    lane_wait 9
    lane_wait 10
    sl_exec
    dsimp -zeta only
    lane_wait 11
    lane_wait 12
    lane_wait 13
    lane_wait 14
    lane_wait 15
    -- every copy has landed: the rows of this trip are at the routed result
    rw [wp_pure]
    imodintro
    ihave Hc := (trip_collect_to (F := F) d L k (tile_bodyV.sl.v11 d L R fx k) hwd q Tb (tripFn (F := F) L Tb Pc R k.val) O W
        (tripFn (F := F) L Tb Pc R (k.val + 1))
        (fun i hi => trip_rest (F := F) d L k Tb Pc R fx i hi)
        (fun j hj hc i hi => trip_taken (F := F) d L k Tb Pc R fx hwd j hj hc i hi)) $$ [Hheld Hst]
    · isplitl [Hheld]; · iexact Hheld
      iexact Hst
    icases Hc with ⟨Ho, Htab, Hsem, HO⟩
    unfold owesSt
    icases HO with ⟨%W'', %hW'', HO⟩
    isplitr; · iexact Hmw
    isplitl [Htab]; · iexact Htab
    isplitl [Hx]; · iexact Hx
    isplitl [Ho]; · iexact Ho
    isplitl [Hsem]; · iexact Hsem
    iexists W''; isplitr
    · ipureintro; exact hW''
    iexact HO
  · -- the invariant before the first trip: the two prologue waits are recorded at the call's own index
    unfold inv
    isplitr; · iexact Hmw
    isplitl [Htab]; · iexact Htab
    isplitl [Hx']; · iexact Hx'
    isplitl [Ho']; · iexact Ho'
    isplitl [HsemR]; · iexact HsemR
    iexists _; isplitr
    swap
    · iexact HO
    · ipureintro; intro p hp
      rcases Finset.mem_insert.mp hp with rfl | hp
      · exact .inr rfl
      rcases Finset.mem_insert.mp hp with rfl | hp
      · exact .inr rfl
      · exact .inl hp
  -- after the last trip every row of the task is at the routed result
  unfold inv
  iintro %acc ⟨-, Htab, Hx, Ho, HsemR, %W', %hW', HO⟩
  sl_exec
  have h32 : Scf.trips k1_t1_loop.lb k1_t1_loop.ub k1_t1_loop.st = 32 := trips_eq
  ihave Ho' := (Entails.of_eq (pointsTo_congr (ℓ := (oSl L).view.loc (thr d L)) (I := (oSl L).view.set) (q := fullShare)
      (f := tripFn (F := F) L Tb Pc R (Scf.trips k1_t1_loop.lb k1_t1_loop.ub k1_t1_loop.st))
      (g := outSpec Tb Pc R)
      (fun i hi => by rw [h32]; exact tripFn_last (F := F) d L Tb Pc R i hi))) $$ Ho
  rw [wp_ret]
  imodintro
  isplitl [Htab Hp Hr Ho']
  · isplitl [Htab]; · iexact Htab
    isplitl [Hp]; · iexact Hp
    isplitl [Hr]; · iexact Hr
    iexact Ho'
  ihave Hx0 := (Entails.of_eq (pts_x (F := F) d L _)) $$ Hx
  isplitl [Hx0 Hbufs]
  · isplitl [Hx0]
    · iexists _; iexact Hx0
    iexact Hbufs
  isplitl [HsemI HsemB HsemR Hsems]
  · isplitl [HsemI]; · iexact HsemI
    isplitl [HsemB]; · iexact HsemB
    isplitl [HsemR]; · iexact HsemR
    iexact Hsems
  iexists W'; isplitr
  · ipureintro; exact hW'
  iexact HO

end Cert.KernelIdeal.Route.Tile

end
-- ==== Proof.TripFactsK.lean ====
/-
  Facts about one trip of the row-routing loop, for every float instance.

  A trip reads 16 routed row indices, takes them lane by lane, and for lane r copies one row to
  destination row ((s * 2 + q) * 512 + 16 * k + r) of the output, where (q, s) are the core and
  subcore coordinates and k the trip; the copy's source is the routed row when the index is at
  least 49152. Here: each lane extraction reads that lane; every one of the 32 conditions is the
  one comparison index ≥ 49152; and the destination offsets in closed form.
-/
import proofs.«215259_g58411555225873_cont_9to1_m_859_22_alg».proof.Proof.Gen.Kernel.Skeleton
import proofs.«215259_g58411555225873_cont_9to1_m_859_22_alg».proof.Proof.BlockFactsK
import Idealize.ShloMosaic.Lib.ValueIdx
import Idealize.ShloMosaic.Lib.Pipeline.Value

namespace Cert.Kernel.Route

open Idealize.ShloMosaic Idealize.ShloMosaic.ValueIdx Cert.Kernel Cert.Kernel.Gen

/-! ### Lanes -/

/-- Extracting the one element of the one-lane slice at lane r reads lane r. -/
theorem lane_extract {α : Type} (v : S16.Idx → α) (r : Nat) (hr : r < 16) (h : S16.Slices ![r] S1)
    (hp : ∀ a, (![0] : Fin 1 → Nat) a < S1.size a) :
    extractAt ![0] (extractStridedSlice S1 ![r] v h) hp = v (ix1 (⟨r, hr⟩ : Fin 16)) := by
  refine congrArg v (funext fun a => Fin.ext ?_)
  match a with
  | ⟨0, _⟩ => rfl

section AnyFloat
variable {F : FTy → Type} [FloatOps F]

/-- The 16 loaded indices viewed at their own shape are themselves. -/
theorem pay1_eq (v10 : Vec F S16 .i32) : k1_pay1 v10 = v10 := shapeCast_self v10 _

theorem pay2_lane (v10 : Vec F S16 .i32) : extractAt ![0] (k1_pay2 v10) inpos_S1_p0 = v10 (ix1 (0 : Fin 16)) := by
  show extractAt ![0] (extractStridedSlice S1 ![0] (shapeCast S16 v10 shapeCasts_S16_S16) slices_S16_o0_S1) inpos_S1_p0 = _
  rw [shapeCast_self]
  exact lane_extract v10 0 (by omega) slices_S16_o0_S1 inpos_S1_p0
theorem pay3_lane (v10 : Vec F S16 .i32) : extractAt ![0] (k1_pay3 v10) inpos_S1_p0 = v10 (ix1 (1 : Fin 16)) := by
  show extractAt ![0] (extractStridedSlice S1 ![1] (shapeCast S16 v10 shapeCasts_S16_S16) slices_S16_o1_S1) inpos_S1_p0 = _
  rw [shapeCast_self]
  exact lane_extract v10 1 (by omega) slices_S16_o1_S1 inpos_S1_p0
theorem pay4_lane (v10 : Vec F S16 .i32) : extractAt ![0] (k1_pay4 v10) inpos_S1_p0 = v10 (ix1 (2 : Fin 16)) := by
  show extractAt ![0] (extractStridedSlice S1 ![2] (shapeCast S16 v10 shapeCasts_S16_S16) slices_S16_o2_S1) inpos_S1_p0 = _
  rw [shapeCast_self]
  exact lane_extract v10 2 (by omega) slices_S16_o2_S1 inpos_S1_p0
theorem pay5_lane (v10 : Vec F S16 .i32) : extractAt ![0] (k1_pay5 v10) inpos_S1_p0 = v10 (ix1 (3 : Fin 16)) := by
  show extractAt ![0] (extractStridedSlice S1 ![3] (shapeCast S16 v10 shapeCasts_S16_S16) slices_S16_o3_S1) inpos_S1_p0 = _
  rw [shapeCast_self]
  exact lane_extract v10 3 (by omega) slices_S16_o3_S1 inpos_S1_p0

end AnyFloat

theorem pay6_lane (v11 : IVec S16 32) : extractAt ![0] (k1_pay6 v11) inpos_S1_p0 = v11 (ix1 (4 : Fin 16)) :=
  lane_extract v11 4 (by omega) slices_S16_o4_S1 inpos_S1_p0
theorem pay7_lane (v11 : IVec S16 32) : extractAt ![0] (k1_pay7 v11) inpos_S1_p0 = v11 (ix1 (5 : Fin 16)) :=
  lane_extract v11 5 (by omega) slices_S16_o5_S1 inpos_S1_p0
theorem pay8_lane (v11 : IVec S16 32) : extractAt ![0] (k1_pay8 v11) inpos_S1_p0 = v11 (ix1 (6 : Fin 16)) :=
  lane_extract v11 6 (by omega) slices_S16_o6_S1 inpos_S1_p0
theorem pay9_lane (v11 : IVec S16 32) : extractAt ![0] (k1_pay9 v11) inpos_S1_p0 = v11 (ix1 (7 : Fin 16)) :=
  lane_extract v11 7 (by omega) slices_S16_o7_S1 inpos_S1_p0
theorem pay10_lane (v11 : IVec S16 32) : extractAt ![0] (k1_pay10 v11) inpos_S1_p0 = v11 (ix1 (8 : Fin 16)) :=
  lane_extract v11 8 (by omega) slices_S16_o8_S1 inpos_S1_p0
theorem pay11_lane (v11 : IVec S16 32) : extractAt ![0] (k1_pay11 v11) inpos_S1_p0 = v11 (ix1 (9 : Fin 16)) :=
  lane_extract v11 9 (by omega) slices_S16_o9_S1 inpos_S1_p0
theorem pay12_lane (v11 : IVec S16 32) : extractAt ![0] (k1_pay12 v11) inpos_S1_p0 = v11 (ix1 (10 : Fin 16)) :=
  lane_extract v11 10 (by omega) slices_S16_o10_S1 inpos_S1_p0
theorem pay13_lane (v11 : IVec S16 32) : extractAt ![0] (k1_pay13 v11) inpos_S1_p0 = v11 (ix1 (11 : Fin 16)) :=
  lane_extract v11 11 (by omega) slices_S16_o11_S1 inpos_S1_p0
theorem pay14_lane (v11 : IVec S16 32) : extractAt ![0] (k1_pay14 v11) inpos_S1_p0 = v11 (ix1 (12 : Fin 16)) :=
  lane_extract v11 12 (by omega) slices_S16_o12_S1 inpos_S1_p0
theorem pay15_lane (v11 : IVec S16 32) : extractAt ![0] (k1_pay15 v11) inpos_S1_p0 = v11 (ix1 (13 : Fin 16)) :=
  lane_extract v11 13 (by omega) slices_S16_o13_S1 inpos_S1_p0
theorem pay16_lane (v11 : IVec S16 32) : extractAt ![0] (k1_pay16 v11) inpos_S1_p0 = v11 (ix1 (14 : Fin 16)) :=
  lane_extract v11 14 (by omega) slices_S16_o14_S1 inpos_S1_p0
theorem pay17_lane (v11 : IVec S16 32) : extractAt ![0] (k1_pay17 v11) inpos_S1_p0 = v11 (ix1 (15 : Fin 16)) :=
  lane_extract v11 15 (by omega) slices_S16_o15_S1 inpos_S1_p0

/-! ### Conditions -/

/-- The one condition of the trip's 32 branches: the routed row index is at least 49152, signed. -/
def routeCond (v : BitVec 32) : BitVec 1 :=
  Scalar.cmpi .ne (Scalar.extui (Scalar.cmpi .sge v 49152#32)) 0#32

theorem routeCond_eq_sge (v : BitVec 32) : routeCond v = Scalar.cmpi .sge v 49152#32 := by
  unfold routeCond
  rcases BitVec.eq_zero_or_eq_one (Scalar.cmpi .sge v 49152#32) with h | h <;> rw [h] <;> decide

theorem routeCond_iff (v : BitVec 32) (hv : v.toNat < 65536) : routeCond v = 1#1 ↔ 49152 ≤ v.toNat := by
  rw [routeCond_eq_sge]; exact sge_49152_iff v hv

theorem cond1_eq (v : BitVec 32) : k1_cond1 v = routeCond v := rfl
theorem cond1_iff (v : BitVec 32) (hv : v.toNat < 65536) : k1_cond1 v = 1#1 ↔ 49152 ≤ v.toNat := routeCond_iff v hv
theorem cond2_eq (v : BitVec 32) : k1_cond2 v = routeCond v := rfl
theorem cond2_iff (v : BitVec 32) (hv : v.toNat < 65536) : k1_cond2 v = 1#1 ↔ 49152 ≤ v.toNat := routeCond_iff v hv
theorem cond3_eq (v : BitVec 32) : k1_cond3 v = routeCond v := rfl
theorem cond3_iff (v : BitVec 32) (hv : v.toNat < 65536) : k1_cond3 v = 1#1 ↔ 49152 ≤ v.toNat := routeCond_iff v hv
theorem cond4_eq (v : BitVec 32) : k1_cond4 v = routeCond v := rfl
theorem cond4_iff (v : BitVec 32) (hv : v.toNat < 65536) : k1_cond4 v = 1#1 ↔ 49152 ≤ v.toNat := routeCond_iff v hv
theorem cond5_eq (v : BitVec 32) : k1_cond5 v = routeCond v := rfl
theorem cond5_iff (v : BitVec 32) (hv : v.toNat < 65536) : k1_cond5 v = 1#1 ↔ 49152 ≤ v.toNat := routeCond_iff v hv
theorem cond6_eq (v : BitVec 32) : k1_cond6 v = routeCond v := rfl
theorem cond6_iff (v : BitVec 32) (hv : v.toNat < 65536) : k1_cond6 v = 1#1 ↔ 49152 ≤ v.toNat := routeCond_iff v hv
theorem cond7_eq (v : BitVec 32) : k1_cond7 v = routeCond v := rfl
theorem cond7_iff (v : BitVec 32) (hv : v.toNat < 65536) : k1_cond7 v = 1#1 ↔ 49152 ≤ v.toNat := routeCond_iff v hv
theorem cond8_eq (v : BitVec 32) : k1_cond8 v = routeCond v := rfl
theorem cond8_iff (v : BitVec 32) (hv : v.toNat < 65536) : k1_cond8 v = 1#1 ↔ 49152 ≤ v.toNat := routeCond_iff v hv
theorem cond9_eq (v : BitVec 32) : k1_cond9 v = routeCond v := rfl
theorem cond9_iff (v : BitVec 32) (hv : v.toNat < 65536) : k1_cond9 v = 1#1 ↔ 49152 ≤ v.toNat := routeCond_iff v hv
theorem cond10_eq (v : BitVec 32) : k1_cond10 v = routeCond v := rfl
theorem cond10_iff (v : BitVec 32) (hv : v.toNat < 65536) : k1_cond10 v = 1#1 ↔ 49152 ≤ v.toNat := routeCond_iff v hv
theorem cond11_eq (v : BitVec 32) : k1_cond11 v = routeCond v := rfl
theorem cond11_iff (v : BitVec 32) (hv : v.toNat < 65536) : k1_cond11 v = 1#1 ↔ 49152 ≤ v.toNat := routeCond_iff v hv
theorem cond12_eq (v : BitVec 32) : k1_cond12 v = routeCond v := rfl
theorem cond12_iff (v : BitVec 32) (hv : v.toNat < 65536) : k1_cond12 v = 1#1 ↔ 49152 ≤ v.toNat := routeCond_iff v hv
theorem cond13_eq (v : BitVec 32) : k1_cond13 v = routeCond v := rfl
theorem cond13_iff (v : BitVec 32) (hv : v.toNat < 65536) : k1_cond13 v = 1#1 ↔ 49152 ≤ v.toNat := routeCond_iff v hv
theorem cond14_eq (v : BitVec 32) : k1_cond14 v = routeCond v := rfl
theorem cond14_iff (v : BitVec 32) (hv : v.toNat < 65536) : k1_cond14 v = 1#1 ↔ 49152 ≤ v.toNat := routeCond_iff v hv
theorem cond15_eq (v : BitVec 32) : k1_cond15 v = routeCond v := rfl
theorem cond15_iff (v : BitVec 32) (hv : v.toNat < 65536) : k1_cond15 v = 1#1 ↔ 49152 ≤ v.toNat := routeCond_iff v hv
theorem cond16_eq (v : BitVec 32) : k1_cond16 v = routeCond v := rfl
theorem cond16_iff (v : BitVec 32) (hv : v.toNat < 65536) : k1_cond16 v = 1#1 ↔ 49152 ≤ v.toNat := routeCond_iff v hv
theorem cond17_eq (v : BitVec 32) : k1_cond17 v = routeCond v := rfl
theorem cond17_iff (v : BitVec 32) (hv : v.toNat < 65536) : k1_cond17 v = 1#1 ↔ 49152 ≤ v.toNat := routeCond_iff v hv
theorem cond18_eq (v : BitVec 32) : k1_cond18 v = routeCond v := rfl
theorem cond18_iff (v : BitVec 32) (hv : v.toNat < 65536) : k1_cond18 v = 1#1 ↔ 49152 ≤ v.toNat := routeCond_iff v hv
theorem cond19_eq (v : BitVec 32) : k1_cond19 v = routeCond v := rfl
theorem cond19_iff (v : BitVec 32) (hv : v.toNat < 65536) : k1_cond19 v = 1#1 ↔ 49152 ≤ v.toNat := routeCond_iff v hv
theorem cond20_eq (v : BitVec 32) : k1_cond20 v = routeCond v := rfl
theorem cond20_iff (v : BitVec 32) (hv : v.toNat < 65536) : k1_cond20 v = 1#1 ↔ 49152 ≤ v.toNat := routeCond_iff v hv
theorem cond21_eq (v : BitVec 32) : k1_cond21 v = routeCond v := rfl
theorem cond21_iff (v : BitVec 32) (hv : v.toNat < 65536) : k1_cond21 v = 1#1 ↔ 49152 ≤ v.toNat := routeCond_iff v hv
theorem cond22_eq (v : BitVec 32) : k1_cond22 v = routeCond v := rfl
theorem cond22_iff (v : BitVec 32) (hv : v.toNat < 65536) : k1_cond22 v = 1#1 ↔ 49152 ≤ v.toNat := routeCond_iff v hv
theorem cond23_eq (v : BitVec 32) : k1_cond23 v = routeCond v := rfl
theorem cond23_iff (v : BitVec 32) (hv : v.toNat < 65536) : k1_cond23 v = 1#1 ↔ 49152 ≤ v.toNat := routeCond_iff v hv
theorem cond24_eq (v : BitVec 32) : k1_cond24 v = routeCond v := rfl
theorem cond24_iff (v : BitVec 32) (hv : v.toNat < 65536) : k1_cond24 v = 1#1 ↔ 49152 ≤ v.toNat := routeCond_iff v hv
theorem cond25_eq (v : BitVec 32) : k1_cond25 v = routeCond v := rfl
theorem cond25_iff (v : BitVec 32) (hv : v.toNat < 65536) : k1_cond25 v = 1#1 ↔ 49152 ≤ v.toNat := routeCond_iff v hv
theorem cond26_eq (v : BitVec 32) : k1_cond26 v = routeCond v := rfl
theorem cond26_iff (v : BitVec 32) (hv : v.toNat < 65536) : k1_cond26 v = 1#1 ↔ 49152 ≤ v.toNat := routeCond_iff v hv
theorem cond27_eq (v : BitVec 32) : k1_cond27 v = routeCond v := rfl
theorem cond27_iff (v : BitVec 32) (hv : v.toNat < 65536) : k1_cond27 v = 1#1 ↔ 49152 ≤ v.toNat := routeCond_iff v hv
theorem cond28_eq (v : BitVec 32) : k1_cond28 v = routeCond v := rfl
theorem cond28_iff (v : BitVec 32) (hv : v.toNat < 65536) : k1_cond28 v = 1#1 ↔ 49152 ≤ v.toNat := routeCond_iff v hv
theorem cond29_eq (v : BitVec 32) : k1_cond29 v = routeCond v := rfl
theorem cond29_iff (v : BitVec 32) (hv : v.toNat < 65536) : k1_cond29 v = 1#1 ↔ 49152 ≤ v.toNat := routeCond_iff v hv
theorem cond30_eq (v : BitVec 32) : k1_cond30 v = routeCond v := rfl
theorem cond30_iff (v : BitVec 32) (hv : v.toNat < 65536) : k1_cond30 v = 1#1 ↔ 49152 ≤ v.toNat := routeCond_iff v hv
theorem cond31_eq (v : BitVec 32) : k1_cond31 v = routeCond v := rfl
theorem cond31_iff (v : BitVec 32) (hv : v.toNat < 65536) : k1_cond31 v = 1#1 ↔ 49152 ≤ v.toNat := routeCond_iff v hv
theorem cond32_eq (v : BitVec 32) : k1_cond32 v = routeCond v := rfl
theorem cond32_iff (v : BitVec 32) (hv : v.toNat < 65536) : k1_cond32 v = 1#1 ↔ 49152 ≤ v.toNat := routeCond_iff v hv
theorem cond17_eq_cond1 (v : BitVec 32) : k1_cond17 v = k1_cond1 v := rfl
theorem cond18_eq_cond2 (v : BitVec 32) : k1_cond18 v = k1_cond2 v := rfl
theorem cond19_eq_cond3 (v : BitVec 32) : k1_cond19 v = k1_cond3 v := rfl
theorem cond20_eq_cond4 (v : BitVec 32) : k1_cond20 v = k1_cond4 v := rfl
theorem cond21_eq_cond5 (v : BitVec 32) : k1_cond21 v = k1_cond5 v := rfl
theorem cond22_eq_cond6 (v : BitVec 32) : k1_cond22 v = k1_cond6 v := rfl
theorem cond23_eq_cond7 (v : BitVec 32) : k1_cond23 v = k1_cond7 v := rfl
theorem cond24_eq_cond8 (v : BitVec 32) : k1_cond24 v = k1_cond8 v := rfl
theorem cond25_eq_cond9 (v : BitVec 32) : k1_cond25 v = k1_cond9 v := rfl
theorem cond26_eq_cond10 (v : BitVec 32) : k1_cond26 v = k1_cond10 v := rfl
theorem cond27_eq_cond11 (v : BitVec 32) : k1_cond27 v = k1_cond11 v := rfl
theorem cond28_eq_cond12 (v : BitVec 32) : k1_cond28 v = k1_cond12 v := rfl
theorem cond29_eq_cond13 (v : BitVec 32) : k1_cond29 v = k1_cond13 v := rfl
theorem cond30_eq_cond14 (v : BitVec 32) : k1_cond30 v = k1_cond14 v := rfl
theorem cond31_eq_cond15 (v : BitVec 32) : k1_cond31 v = k1_cond15 v := rfl
theorem cond32_eq_cond16 (v : BitVec 32) : k1_cond32 v = k1_cond16 v := rfl

/-! ### Destination rows -/

/-- The destination row word of lane r at trip k on subcore s of core q. -/
def destRowWord (s q k r : Nat) : BitVec 32 :=
  Scalar.addi
    (Scalar.addi
      (Scalar.muli (Scalar.addi (Scalar.muli (BitVec.ofNat 32 s) 2#32) (BitVec.ofNat 32 q)) 512#32)
      (Scalar.muli (Scf.iv 0#32 1#32 k) 16#32))
    (BitVec.ofNat 32 r)

theorem destRowWord_toNat (s q k r : Nat) (hs : s < 16) (hq : q < 2) (hk : k < 32) (hr : r < 16) :
    (destRowWord s q k r).toNat = (s * 2 + q) * 512 + 16 * k + r := by
  show ((BitVec.ofNat 32 s * 2#32 + BitVec.ofNat 32 q) * 512#32 + (0#32 + BitVec.ofNat 32 k * 1#32) * 16#32
    + BitVec.ofNat 32 r).toNat = _
  simp only [BitVec.toNat_add, BitVec.toNat_mul, BitVec.toNat_ofNat, Nat.reducePow]
  omega

/-- The loop has 32 trips. -/
theorem trips_eq : k1_t1_loop.trips = 32 := by decide

theorem trips_lt (k : Fin k1_t1_loop.trips) : k.val < 32 := by
  exact Nat.lt_of_lt_of_le k.isLt (Nat.le_of_eq trips_eq)

/-- The 16 indices a trip loads start at 16 * k. -/
theorem off3_eq (k : Fin k1_t1_loop.trips) : k1_off3 k = ![16 * k.val] := by
  show ![((0#32 + BitVec.ofNat 32 k.val * 1#32) * 16#32).toNat] = _
  have hk := trips_lt k
  have : ((0#32 + BitVec.ofNat 32 k.val * 1#32) * 16#32).toNat = 16 * k.val := by
    simp only [BitVec.toNat_add, BitVec.toNat_mul, BitVec.toNat_ofNat, Nat.reducePow]
    omega
  rw [this]

theorem off4_eq (L : grid1.Coords) (k : Fin k1_t1_loop.trips) :
    k1_off4 L k = ![((L 1).val * 2 + (L 0).val) * 512 + 16 * k.val + 0, 0] := by
  show ![(destRowWord (L 1).val (L 0).val k.val 0).toNat, 0] = _
  rw [destRowWord_toNat _ _ _ _ (L 1).isLt (L 0).isLt (trips_lt k) (by omega)]
theorem off36_eq (L : grid1.Coords) (k : Fin k1_t1_loop.trips) :
    k1_off36 L k = ![((L 1).val * 2 + (L 0).val) * 512 + 16 * k.val + 0, 0] := by
  show ![(destRowWord (L 1).val (L 0).val k.val 0).toNat, 0] = _
  rw [destRowWord_toNat _ _ _ _ (L 1).isLt (L 0).isLt (trips_lt k) (by omega)]
theorem off6_eq (L : grid1.Coords) (k : Fin k1_t1_loop.trips) :
    k1_off6 L k = ![((L 1).val * 2 + (L 0).val) * 512 + 16 * k.val + 1, 0] := by
  show ![(destRowWord (L 1).val (L 0).val k.val 1).toNat, 0] = _
  rw [destRowWord_toNat _ _ _ _ (L 1).isLt (L 0).isLt (trips_lt k) (by omega)]
theorem off38_eq (L : grid1.Coords) (k : Fin k1_t1_loop.trips) :
    k1_off38 L k = ![((L 1).val * 2 + (L 0).val) * 512 + 16 * k.val + 1, 0] := by
  show ![(destRowWord (L 1).val (L 0).val k.val 1).toNat, 0] = _
  rw [destRowWord_toNat _ _ _ _ (L 1).isLt (L 0).isLt (trips_lt k) (by omega)]
theorem off8_eq (L : grid1.Coords) (k : Fin k1_t1_loop.trips) :
    k1_off8 L k = ![((L 1).val * 2 + (L 0).val) * 512 + 16 * k.val + 2, 0] := by
  show ![(destRowWord (L 1).val (L 0).val k.val 2).toNat, 0] = _
  rw [destRowWord_toNat _ _ _ _ (L 1).isLt (L 0).isLt (trips_lt k) (by omega)]
theorem off40_eq (L : grid1.Coords) (k : Fin k1_t1_loop.trips) :
    k1_off40 L k = ![((L 1).val * 2 + (L 0).val) * 512 + 16 * k.val + 2, 0] := by
  show ![(destRowWord (L 1).val (L 0).val k.val 2).toNat, 0] = _
  rw [destRowWord_toNat _ _ _ _ (L 1).isLt (L 0).isLt (trips_lt k) (by omega)]
theorem off10_eq (L : grid1.Coords) (k : Fin k1_t1_loop.trips) :
    k1_off10 L k = ![((L 1).val * 2 + (L 0).val) * 512 + 16 * k.val + 3, 0] := by
  show ![(destRowWord (L 1).val (L 0).val k.val 3).toNat, 0] = _
  rw [destRowWord_toNat _ _ _ _ (L 1).isLt (L 0).isLt (trips_lt k) (by omega)]
theorem off42_eq (L : grid1.Coords) (k : Fin k1_t1_loop.trips) :
    k1_off42 L k = ![((L 1).val * 2 + (L 0).val) * 512 + 16 * k.val + 3, 0] := by
  show ![(destRowWord (L 1).val (L 0).val k.val 3).toNat, 0] = _
  rw [destRowWord_toNat _ _ _ _ (L 1).isLt (L 0).isLt (trips_lt k) (by omega)]
theorem off12_eq (L : grid1.Coords) (k : Fin k1_t1_loop.trips) :
    k1_off12 L k = ![((L 1).val * 2 + (L 0).val) * 512 + 16 * k.val + 4, 0] := by
  show ![(destRowWord (L 1).val (L 0).val k.val 4).toNat, 0] = _
  rw [destRowWord_toNat _ _ _ _ (L 1).isLt (L 0).isLt (trips_lt k) (by omega)]
theorem off44_eq (L : grid1.Coords) (k : Fin k1_t1_loop.trips) :
    k1_off44 L k = ![((L 1).val * 2 + (L 0).val) * 512 + 16 * k.val + 4, 0] := by
  show ![(destRowWord (L 1).val (L 0).val k.val 4).toNat, 0] = _
  rw [destRowWord_toNat _ _ _ _ (L 1).isLt (L 0).isLt (trips_lt k) (by omega)]
theorem off14_eq (L : grid1.Coords) (k : Fin k1_t1_loop.trips) :
    k1_off14 L k = ![((L 1).val * 2 + (L 0).val) * 512 + 16 * k.val + 5, 0] := by
  show ![(destRowWord (L 1).val (L 0).val k.val 5).toNat, 0] = _
  rw [destRowWord_toNat _ _ _ _ (L 1).isLt (L 0).isLt (trips_lt k) (by omega)]
theorem off46_eq (L : grid1.Coords) (k : Fin k1_t1_loop.trips) :
    k1_off46 L k = ![((L 1).val * 2 + (L 0).val) * 512 + 16 * k.val + 5, 0] := by
  show ![(destRowWord (L 1).val (L 0).val k.val 5).toNat, 0] = _
  rw [destRowWord_toNat _ _ _ _ (L 1).isLt (L 0).isLt (trips_lt k) (by omega)]
theorem off16_eq (L : grid1.Coords) (k : Fin k1_t1_loop.trips) :
    k1_off16 L k = ![((L 1).val * 2 + (L 0).val) * 512 + 16 * k.val + 6, 0] := by
  show ![(destRowWord (L 1).val (L 0).val k.val 6).toNat, 0] = _
  rw [destRowWord_toNat _ _ _ _ (L 1).isLt (L 0).isLt (trips_lt k) (by omega)]
theorem off48_eq (L : grid1.Coords) (k : Fin k1_t1_loop.trips) :
    k1_off48 L k = ![((L 1).val * 2 + (L 0).val) * 512 + 16 * k.val + 6, 0] := by
  show ![(destRowWord (L 1).val (L 0).val k.val 6).toNat, 0] = _
  rw [destRowWord_toNat _ _ _ _ (L 1).isLt (L 0).isLt (trips_lt k) (by omega)]
theorem off18_eq (L : grid1.Coords) (k : Fin k1_t1_loop.trips) :
    k1_off18 L k = ![((L 1).val * 2 + (L 0).val) * 512 + 16 * k.val + 7, 0] := by
  show ![(destRowWord (L 1).val (L 0).val k.val 7).toNat, 0] = _
  rw [destRowWord_toNat _ _ _ _ (L 1).isLt (L 0).isLt (trips_lt k) (by omega)]
theorem off50_eq (L : grid1.Coords) (k : Fin k1_t1_loop.trips) :
    k1_off50 L k = ![((L 1).val * 2 + (L 0).val) * 512 + 16 * k.val + 7, 0] := by
  show ![(destRowWord (L 1).val (L 0).val k.val 7).toNat, 0] = _
  rw [destRowWord_toNat _ _ _ _ (L 1).isLt (L 0).isLt (trips_lt k) (by omega)]
theorem off20_eq (L : grid1.Coords) (k : Fin k1_t1_loop.trips) :
    k1_off20 L k = ![((L 1).val * 2 + (L 0).val) * 512 + 16 * k.val + 8, 0] := by
  show ![(destRowWord (L 1).val (L 0).val k.val 8).toNat, 0] = _
  rw [destRowWord_toNat _ _ _ _ (L 1).isLt (L 0).isLt (trips_lt k) (by omega)]
theorem off52_eq (L : grid1.Coords) (k : Fin k1_t1_loop.trips) :
    k1_off52 L k = ![((L 1).val * 2 + (L 0).val) * 512 + 16 * k.val + 8, 0] := by
  show ![(destRowWord (L 1).val (L 0).val k.val 8).toNat, 0] = _
  rw [destRowWord_toNat _ _ _ _ (L 1).isLt (L 0).isLt (trips_lt k) (by omega)]
theorem off22_eq (L : grid1.Coords) (k : Fin k1_t1_loop.trips) :
    k1_off22 L k = ![((L 1).val * 2 + (L 0).val) * 512 + 16 * k.val + 9, 0] := by
  show ![(destRowWord (L 1).val (L 0).val k.val 9).toNat, 0] = _
  rw [destRowWord_toNat _ _ _ _ (L 1).isLt (L 0).isLt (trips_lt k) (by omega)]
theorem off54_eq (L : grid1.Coords) (k : Fin k1_t1_loop.trips) :
    k1_off54 L k = ![((L 1).val * 2 + (L 0).val) * 512 + 16 * k.val + 9, 0] := by
  show ![(destRowWord (L 1).val (L 0).val k.val 9).toNat, 0] = _
  rw [destRowWord_toNat _ _ _ _ (L 1).isLt (L 0).isLt (trips_lt k) (by omega)]
theorem off24_eq (L : grid1.Coords) (k : Fin k1_t1_loop.trips) :
    k1_off24 L k = ![((L 1).val * 2 + (L 0).val) * 512 + 16 * k.val + 10, 0] := by
  show ![(destRowWord (L 1).val (L 0).val k.val 10).toNat, 0] = _
  rw [destRowWord_toNat _ _ _ _ (L 1).isLt (L 0).isLt (trips_lt k) (by omega)]
theorem off56_eq (L : grid1.Coords) (k : Fin k1_t1_loop.trips) :
    k1_off56 L k = ![((L 1).val * 2 + (L 0).val) * 512 + 16 * k.val + 10, 0] := by
  show ![(destRowWord (L 1).val (L 0).val k.val 10).toNat, 0] = _
  rw [destRowWord_toNat _ _ _ _ (L 1).isLt (L 0).isLt (trips_lt k) (by omega)]
theorem off26_eq (L : grid1.Coords) (k : Fin k1_t1_loop.trips) :
    k1_off26 L k = ![((L 1).val * 2 + (L 0).val) * 512 + 16 * k.val + 11, 0] := by
  show ![(destRowWord (L 1).val (L 0).val k.val 11).toNat, 0] = _
  rw [destRowWord_toNat _ _ _ _ (L 1).isLt (L 0).isLt (trips_lt k) (by omega)]
theorem off58_eq (L : grid1.Coords) (k : Fin k1_t1_loop.trips) :
    k1_off58 L k = ![((L 1).val * 2 + (L 0).val) * 512 + 16 * k.val + 11, 0] := by
  show ![(destRowWord (L 1).val (L 0).val k.val 11).toNat, 0] = _
  rw [destRowWord_toNat _ _ _ _ (L 1).isLt (L 0).isLt (trips_lt k) (by omega)]
theorem off28_eq (L : grid1.Coords) (k : Fin k1_t1_loop.trips) :
    k1_off28 L k = ![((L 1).val * 2 + (L 0).val) * 512 + 16 * k.val + 12, 0] := by
  show ![(destRowWord (L 1).val (L 0).val k.val 12).toNat, 0] = _
  rw [destRowWord_toNat _ _ _ _ (L 1).isLt (L 0).isLt (trips_lt k) (by omega)]
theorem off60_eq (L : grid1.Coords) (k : Fin k1_t1_loop.trips) :
    k1_off60 L k = ![((L 1).val * 2 + (L 0).val) * 512 + 16 * k.val + 12, 0] := by
  show ![(destRowWord (L 1).val (L 0).val k.val 12).toNat, 0] = _
  rw [destRowWord_toNat _ _ _ _ (L 1).isLt (L 0).isLt (trips_lt k) (by omega)]
theorem off30_eq (L : grid1.Coords) (k : Fin k1_t1_loop.trips) :
    k1_off30 L k = ![((L 1).val * 2 + (L 0).val) * 512 + 16 * k.val + 13, 0] := by
  show ![(destRowWord (L 1).val (L 0).val k.val 13).toNat, 0] = _
  rw [destRowWord_toNat _ _ _ _ (L 1).isLt (L 0).isLt (trips_lt k) (by omega)]
theorem off62_eq (L : grid1.Coords) (k : Fin k1_t1_loop.trips) :
    k1_off62 L k = ![((L 1).val * 2 + (L 0).val) * 512 + 16 * k.val + 13, 0] := by
  show ![(destRowWord (L 1).val (L 0).val k.val 13).toNat, 0] = _
  rw [destRowWord_toNat _ _ _ _ (L 1).isLt (L 0).isLt (trips_lt k) (by omega)]
theorem off32_eq (L : grid1.Coords) (k : Fin k1_t1_loop.trips) :
    k1_off32 L k = ![((L 1).val * 2 + (L 0).val) * 512 + 16 * k.val + 14, 0] := by
  show ![(destRowWord (L 1).val (L 0).val k.val 14).toNat, 0] = _
  rw [destRowWord_toNat _ _ _ _ (L 1).isLt (L 0).isLt (trips_lt k) (by omega)]
theorem off64_eq (L : grid1.Coords) (k : Fin k1_t1_loop.trips) :
    k1_off64 L k = ![((L 1).val * 2 + (L 0).val) * 512 + 16 * k.val + 14, 0] := by
  show ![(destRowWord (L 1).val (L 0).val k.val 14).toNat, 0] = _
  rw [destRowWord_toNat _ _ _ _ (L 1).isLt (L 0).isLt (trips_lt k) (by omega)]
theorem off34_eq (L : grid1.Coords) (k : Fin k1_t1_loop.trips) :
    k1_off34 L k = ![((L 1).val * 2 + (L 0).val) * 512 + 16 * k.val + 15, 0] := by
  show ![(destRowWord (L 1).val (L 0).val k.val 15).toNat, 0] = _
  rw [destRowWord_toNat _ _ _ _ (L 1).isLt (L 0).isLt (trips_lt k) (by omega)]
theorem off66_eq (L : grid1.Coords) (k : Fin k1_t1_loop.trips) :
    k1_off66 L k = ![((L 1).val * 2 + (L 0).val) * 512 + 16 * k.val + 15, 0] := by
  show ![(destRowWord (L 1).val (L 0).val k.val 15).toNat, 0] = _
  rw [destRowWord_toNat _ _ _ _ (L 1).isLt (L 0).isLt (trips_lt k) (by omega)]

end Cert.Kernel.Route
-- ==== Proof.RouteGeomK.lean ====
/-
  One trip of the routing task, lane by lane, in a uniform spelling: the sixteen row indices a trip loads, the result
  row each lane writes (row base + 16·trip + lane of the task's slice), the table row a lane reads (the row its index
  names), and the condition under which a lane copies (its index names a row of the last head's part of the table).
-/
import proofs.«215259_g58411555225873_cont_9to1_m_859_22_alg».proof.Proof.RouteBaseK
import proofs.«215259_g58411555225873_cont_9to1_m_859_22_alg».proof.Proof.TripFactsK

noncomputable section

namespace Cert.Kernel.Route.Tile

open Cert.Kernel Cert.Kernel.Gen Cert.Kernel.Route

open Idealize.ShloMosaic
open Idealize.ShloMosaic.SparseCore (S V T)

variable {F : FTy → Type}

/-- The first row of the task at grid point `L`, as the body computes it. -/
def baseWord (L : grid1.Coords) : BitVec 32 :=
  Scalar.muli (Scalar.addi (Scalar.muli (BitVec.ofNat 32 (L 1).val) 2#32) (BitVec.ofNat 32 (L 0).val)) 512#32

/-- The result row lane `r` of trip `k` writes, as the body computes it: base + 16·k + r. -/
def dstWord (L : grid1.Coords) (k : Fin k1_t1_loop.trips) (r : BitVec 32) : BitVec 32 :=
  Scalar.addi (Scalar.addi (baseWord L) (Scalar.muli (Scf.iv 0#32 1#32 k) 16#32)) r

/-- The sixteen row indices of a trip, as the body extracts them from the loaded vector. -/
def wd [hF : Cert.Kernel.Facts] (v11 : IVec S16 32) : ℕ → BitVec 32
  | 0 => extractAt ![0] (extractStridedSlice S1 ![0] v11 Facts₀.slices_S16_o0_S1) Facts₀.inpos_S1_p0
  | 1 => extractAt ![0] (extractStridedSlice S1 ![1] v11 Facts₀.slices_S16_o1_S1) Facts₀.inpos_S1_p0
  | 2 => extractAt ![0] (extractStridedSlice S1 ![2] v11 Facts₀.slices_S16_o2_S1) Facts₀.inpos_S1_p0
  | 3 => extractAt ![0] (extractStridedSlice S1 ![3] v11 Facts₀.slices_S16_o3_S1) Facts₀.inpos_S1_p0
  | 4 => extractAt ![0] (extractStridedSlice S1 ![4] v11 Facts₀.slices_S16_o4_S1) Facts₀.inpos_S1_p0
  | 5 => extractAt ![0] (extractStridedSlice S1 ![5] v11 Facts₀.slices_S16_o5_S1) Facts₀.inpos_S1_p0
  | 6 => extractAt ![0] (extractStridedSlice S1 ![6] v11 Facts₀.slices_S16_o6_S1) Facts₀.inpos_S1_p0
  | 7 => extractAt ![0] (extractStridedSlice S1 ![7] v11 Facts₀.slices_S16_o7_S1) Facts₀.inpos_S1_p0
  | 8 => extractAt ![0] (extractStridedSlice S1 ![8] v11 Facts₀.slices_S16_o8_S1) Facts₀.inpos_S1_p0
  | 9 => extractAt ![0] (extractStridedSlice S1 ![9] v11 Facts₀.slices_S16_o9_S1) Facts₀.inpos_S1_p0
  | 10 => extractAt ![0] (extractStridedSlice S1 ![10] v11 Facts₀.slices_S16_o10_S1) Facts₀.inpos_S1_p0
  | 11 => extractAt ![0] (extractStridedSlice S1 ![11] v11 Facts₀.slices_S16_o11_S1) Facts₀.inpos_S1_p0
  | 12 => extractAt ![0] (extractStridedSlice S1 ![12] v11 Facts₀.slices_S16_o12_S1) Facts₀.inpos_S1_p0
  | 13 => extractAt ![0] (extractStridedSlice S1 ![13] v11 Facts₀.slices_S16_o13_S1) Facts₀.inpos_S1_p0
  | 14 => extractAt ![0] (extractStridedSlice S1 ![14] v11 Facts₀.slices_S16_o14_S1) Facts₀.inpos_S1_p0
  | 15 => extractAt ![0] (extractStridedSlice S1 ![15] v11 Facts₀.slices_S16_o15_S1) Facts₀.inpos_S1_p0
  | _ => 0#32

/-- A lane copies when its index names a row of the last head's part of the table. -/
def cnd (v11 : IVec S16 32) (r : ℕ) : Prop := routeCond (wd v11 r) = 1#1
instance (v11 : IVec S16 32) : DecidablePred (cnd v11) := fun r => inferInstanceAs (Decidable (routeCond (wd v11 r) = 1#1))

/-- The uniform spelling of a lane's result row is the trip's destination row word. -/
theorem dstWord_eq (L : grid1.Coords) (k : Fin k1_t1_loop.trips) (n : ℕ) :
    dstWord L k (BitVec.ofNat 32 n) = destRowWord (L 1).val (L 0).val k.val n := rfl

/-- As a number: (subcore · 2 + core) · 512 + 16 · trip + lane. -/
theorem dstWord_toNat (L : grid1.Coords) (k : Fin k1_t1_loop.trips) (n : ℕ) (hn : n < 16) :
    (dstWord L k (BitVec.ofNat 32 n)).toNat = ((L 1).val * 2 + (L 0).val) * 512 + 16 * k.val + n :=
  destRowWord_toNat _ _ _ _ (L 1).isLt (L 0).isLt (trips_lt k) hn

/-- The task's first row, as a number. -/
theorem baseWord_toNat (L : grid1.Coords) : (baseWord L).toNat = ((L 1).val * 2 + (L 0).val) * 512 := by
  have h1 : (L 1).val < 16 := (L 1).isLt
  have h0 : (L 0).val < 2 := (L 0).isLt
  show ((BitVec.ofNat 32 (L 1).val * 2#32 + BitVec.ofNat 32 (L 0).val) * 512#32).toNat = _
  simp only [BitVec.toNat_add, BitVec.toNat_mul, BitVec.toNat_ofNat, Nat.reducePow]
  omega

/-- The task's 512 rows start at (subcore · 2 + core) · 512. -/
theorem off2_eq (L : grid1.Coords) : k1_off2 L = ![((L 1).val * 2 + (L 0).val) * 512, 0] := by
  show ![(baseWord L).toNat, 0] = _
  rw [baseWord_toNat]

/-- The result row of lane `r` lies inside the result array. -/
theorem dstWord_inb (L : grid1.Coords) (k : Fin k1_t1_loop.trips) (r : ℕ) :
    ∀ a, (![(dstWord L k (BitVec.ofNat 32 (r % 16))).toNat, 0] : Fin 2 → Nat) a + S1x1000.size a ≤ S16384x1000.size a := by
  have h := dstWord_toNat L k (r % 16) (Nat.mod_lt _ (by omega))
  have h1 : (L 1).val < 16 := (L 1).isLt
  have h0 : (L 0).val < 2 := (L 0).isLt
  have hk := trips_lt k
  have hr : r % 16 < 16 := Nat.mod_lt _ (by omega)
  refine Rect.inb₂ ?_ ?_
  · show (dstWord L k (BitVec.ofNat 32 (r % 16))).toNat + 1 ≤ 16384
    omega
  · show 0 + 1000 ≤ 1000
    omega

/-- The result row lane `r` of trip `k` writes, as a slice of the result array. -/
def dstU (L : grid1.Coords) (k : Fin k1_t1_loop.trips) (r : ℕ) : Memref sig .scVector .hbm S1x1000 .f32 :=
  (Memref.whole main_v2_scv).slice (Rect.unit (s := S16384x1000) ![(dstWord L k (BitVec.ofNat 32 (r % 16))).toNat, 0] S1x1000.size (dstWord_inb L k r)) (fun _ => rfl)

theorem srcWord_inb (v : BitVec 32) (hv : v.toNat < 65536) :
    ∀ a, (![v.toNat, 0] : Fin 2 → Nat) a + S1x1000.size a ≤ S65536x1000.size a := by
  refine Rect.inb₂ ?_ ?_
  · show v.toNat + 1 ≤ 65536
    omega
  · show 0 + 1000 ≤ 1000
    omega

/-- The table row an index names, as a slice of the table. -/
def srcU (v : BitVec 32) (hv : v.toNat < 65536) : Memref sig .scVector .hbm S1x1000 .f32 :=
  (Memref.whole main_v1_scv).slice (Rect.unit (s := S65536x1000) ![v.toNat, 0] S1x1000.size (srcWord_inb v hv)) (fun _ => rfl)

-- the uniform spelling IS the printed one, lane by lane
example (L : grid1.Coords) (k : Fin k1_t1_loop.trips) : k1_off4 L k = ![(dstWord L k (BitVec.ofNat 32 (0 % 16))).toNat, 0] := rfl
example (L : grid1.Coords) (k : Fin k1_t1_loop.trips) : k1_off10 L k = ![(dstWord L k (BitVec.ofNat 32 (3 % 16))).toNat, 0] := rfl
example (L : grid1.Coords) (k : Fin k1_t1_loop.trips) : k1_off34 L k = ![(dstWord L k (BitVec.ofNat 32 (15 % 16))).toNat, 0] := rfl
example (L : grid1.Coords) (k : Fin k1_t1_loop.trips) : k1_off36 L k = ![(dstWord L k (BitVec.ofNat 32 (0 % 16))).toNat, 0] := rfl
example (v : BitVec 32) : k1_off5 v = ![v.toNat, 0] := rfl
example (v : BitVec 32) : k1_off67 v = ![v.toNat, 0] := rfl
example (v : BitVec 32) : (k1_cond7 v = 1#1) = (routeCond v = 1#1) := rfl
example (v11 : IVec S16 32) : extractAt ![0] (k1_pay6 v11) inpos_S1_p0 = wd v11 4 := rfl
example (v10 : Vec F S16 .i32) [FloatOps F] : extractAt ![0] (k1_pay3 v10) inpos_S1_p0 = wd (k1_pay1 v10) 1 := rfl

/-- The task's result rows and, inside them, the row of each lane of a trip. -/
abbrev outSet (d : Dev nD) (L : grid1.Coords) : Finset (Idx (((Memref.whole main_v2_scv : Memref sig .scVector .hbm S16384x1000 .f32).slice
    (Rect.unit (s := S16384x1000) (k1_off2 L) S512x1000.size (k1_off2_inb L)) (fun _ => rfl)).view.loc (V d ((L 0).castLE hcore1) ((L 1).castLE hsub1)))) :=
  ((Memref.whole main_v2_scv : Memref sig .scVector .hbm S16384x1000 .f32).slice
    (Rect.unit (s := S16384x1000) (k1_off2 L) S512x1000.size (k1_off2_inb L)) (fun _ => rfl)).view.set

/-- Lane `r`'s row, as elements of the result array. -/
def laneSet (d : Dev nD) (L : grid1.Coords) (k : Fin k1_t1_loop.trips) (r : ℕ) :
    Finset (Idx (((Memref.whole main_v2_scv : Memref sig .scVector .hbm S16384x1000 .f32).slice
      (Rect.unit (s := S16384x1000) (k1_off2 L) S512x1000.size (k1_off2_inb L)) (fun _ => rfl)).view.loc (V d ((L 0).castLE hcore1) ((L 1).castLE hsub1)))) :=
  (dstU L k r).view.set

/-- A lane's row as a rectangle of the result array: one row, all 1000 columns. -/
theorem laneSet_eq (d : Dev nD) (L : grid1.Coords) (k : Fin k1_t1_loop.trips) (r : ℕ) :
    laneSet d L k r = (Rect.unit (s := S16384x1000) ![(dstWord L k (BitVec.ofNat 32 (r % 16))).toNat, 0] S1x1000.size (dstWord_inb L k r)).set := by
  exact View.set_slice_whole main_v2_scv _

/-- The task's rows as a rectangle of the result array: 512 rows, all 1000 columns. -/
theorem outSet_eq (d : Dev nD) (L : grid1.Coords) :
    outSet d L = (Rect.unit (s := S16384x1000) (k1_off2 L) S512x1000.size (k1_off2_inb L)).set := by
  exact View.set_slice_whole main_v2_scv _

/-- A lane's row is one of the task's rows; -/
theorem laneSet_sub (d : Dev nD) (L : grid1.Coords) (k : Fin k1_t1_loop.trips) : ∀ r < 16, laneSet d L k r ⊆ outSet d L := by
  intro r hr
  rw [laneSet_eq, outSet_eq]
  intro i hi
  rw [Rect.mem_set_unit] at hi ⊢
  have h := dstWord_toNat L k (r % 16) (Nat.mod_lt _ (by omega))
  have hk := trips_lt k
  have hr' : r % 16 < 16 := Nat.mod_lt _ (by omega)
  rw [off2_eq]
  intro a
  have ha := hi a
  match a with
  | ⟨0, _⟩ =>
    have ha' : (dstWord L k (BitVec.ofNat 32 (r % 16))).toNat ≤ (i 0).val
        ∧ (i 0).val < (dstWord L k (BitVec.ofNat 32 (r % 16))).toNat + 1 := ha
    show ((L 1).val * 2 + (L 0).val) * 512 ≤ (i 0).val ∧ (i 0).val < ((L 1).val * 2 + (L 0).val) * 512 + 512
    omega
  | ⟨1, _⟩ => exact ha

/-- two lanes' rows have no element in common. -/
theorem laneSet_disj (d : Dev nD) (L : grid1.Coords) (k : Fin k1_t1_loop.trips) :
    ∀ i < 16, ∀ j < 16, i ≠ j → Disjoint (laneSet d L k i) (laneSet d L k j) := by
  intro i hi j hj hij
  rw [laneSet_eq, laneSet_eq]
  have h1 := dstWord_toNat L k (i % 16) (Nat.mod_lt _ (by omega))
  have h2 := dstWord_toNat L k (j % 16) (Nat.mod_lt _ (by omega))
  have e1 : i % 16 = i := Nat.mod_eq_of_lt hi
  have e2 : j % 16 = j := Nat.mod_eq_of_lt hj
  refine Rect.unit_disjoint (0 : Fin 2) ?_
  show (dstWord L k (BitVec.ofNat 32 (i % 16))).toNat + 1 ≤ (dstWord L k (BitVec.ofNat 32 (j % 16))).toNat
    ∨ (dstWord L k (BitVec.ofNat 32 (j % 16))).toNat + 1 ≤ (dstWord L k (BitVec.ofNat 32 (i % 16))).toNat
  omega

/-- The lane words are the lanes of the loaded vector. -/
theorem wd_eq [hF : Cert.Kernel.Facts] (v11 : IVec S16 32) (r : ℕ) (hr : r < 16) :
    wd v11 r = v11 (Idealize.ShloMosaic.ValueIdx.ix1 (⟨r, hr⟩ : Fin 16)) := by
  interval_cases r <;> exact lane_extract v11 _ hr _ _

end Cert.Kernel.Route.Tile

end
-- ==== Proof.ChkFactsK.lean ====
/-
  The row-copy side conditions of the routing body. Each asks, of a routed row index word v and
  under the body's own condition, that the one-row slice [v, 0] of extent [1, 1000] lies inside
  the [65536, 1000] array: v + 1 ≤ 65536 and 0 + 1000 ≤ 1000. Every word below 65536 satisfies
  them, whatever the condition says.
-/
import proofs.«215259_g58411555225873_cont_9to1_m_859_22_alg».proof.Kernel

namespace Cert.Kernel.Route

open Idealize.ShloMosaic

/-- Both conjuncts of a side condition, axis by axis, from v.toNat < 65536 (the hypothesis h). -/
macro "row_in_range" : tactic => `(tactic|
  (refine ⟨fun _ a => ?_, fun _ a => ?_⟩ <;>
    (fin_cases a
     · show BitVec.toNat _ + 1 ≤ 65536
       omega
     · show 0 + 1000 ≤ 1000
       omega)))

theorem chk1_of_lt (v : BitVec 32) (h : v.toNat < 65536) : Cert.Kernel.k1_chk1 v := by row_in_range
theorem chk2_of_lt (v : BitVec 32) (h : v.toNat < 65536) : Cert.Kernel.k1_chk2 v := by row_in_range
theorem chk3_of_lt (v : BitVec 32) (h : v.toNat < 65536) : Cert.Kernel.k1_chk3 v := by row_in_range
theorem chk4_of_lt (v : BitVec 32) (h : v.toNat < 65536) : Cert.Kernel.k1_chk4 v := by row_in_range
theorem chk5_of_lt (v : BitVec 32) (h : v.toNat < 65536) : Cert.Kernel.k1_chk5 v := by row_in_range
theorem chk6_of_lt (v : BitVec 32) (h : v.toNat < 65536) : Cert.Kernel.k1_chk6 v := by row_in_range
theorem chk7_of_lt (v : BitVec 32) (h : v.toNat < 65536) : Cert.Kernel.k1_chk7 v := by row_in_range
theorem chk8_of_lt (v : BitVec 32) (h : v.toNat < 65536) : Cert.Kernel.k1_chk8 v := by row_in_range
theorem chk9_of_lt (v : BitVec 32) (h : v.toNat < 65536) : Cert.Kernel.k1_chk9 v := by row_in_range
theorem chk10_of_lt (v : BitVec 32) (h : v.toNat < 65536) : Cert.Kernel.k1_chk10 v := by row_in_range
theorem chk11_of_lt (v : BitVec 32) (h : v.toNat < 65536) : Cert.Kernel.k1_chk11 v := by row_in_range
theorem chk12_of_lt (v : BitVec 32) (h : v.toNat < 65536) : Cert.Kernel.k1_chk12 v := by row_in_range
theorem chk13_of_lt (v : BitVec 32) (h : v.toNat < 65536) : Cert.Kernel.k1_chk13 v := by row_in_range
theorem chk14_of_lt (v : BitVec 32) (h : v.toNat < 65536) : Cert.Kernel.k1_chk14 v := by row_in_range
theorem chk15_of_lt (v : BitVec 32) (h : v.toNat < 65536) : Cert.Kernel.k1_chk15 v := by row_in_range
theorem chk16_of_lt (v : BitVec 32) (h : v.toNat < 65536) : Cert.Kernel.k1_chk16 v := by row_in_range

end Cert.Kernel.Route
-- ==== Proof.RouteLaneK.lean ====
/-
  One lane of a trip of the routing task. A trip starts its copies lane by lane — lane r copies the table row its index
  names into result row base + 16·trip + r when the index names a row of the last head's part — all on one DMA
  semaphore, and then waits for them lane by lane. What the task holds between two lanes is stated once, over the
  number of lanes passed: the result rows not yet lent, the table's read share not yet lent, the remainders of the
  shares lent, and the batch with the copies started so far recorded.
-/
import proofs.«215259_g58411555225873_cont_9to1_m_859_22_alg».proof.Proof.RouteGeomK
import proofs.«215259_g58411555225873_cont_9to1_m_859_22_alg».proof.Proof.RouteTaskK
import proofs.«215259_g58411555225873_cont_9to1_m_859_22_alg».proof.Proof.LibGuardedBatch
import proofs.«215259_g58411555225873_cont_9to1_m_859_22_alg».proof.Proof.BatchBook
import proofs.«215259_g58411555225873_cont_9to1_m_859_22_alg».proof.Proof.ChkFactsK

noncomputable section

namespace Cert.Kernel.Route.Tile

open Cert.Kernel Cert.Kernel.Gen Cert.Kernel.Route

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batched copyDelivery Draining wp_guardedIssue wp_guardedWait shareDrop shareTokN)
open Cert.Route.Book (cntTo DsTo Sc)

variable {F : FTy → Type}

local notation "𝕄" => MT nD τ sig (HIx 1) (Elt F) ℕ UU ℕ

open Lean Elab Tactic Meta in
/-- In the goal, every application of a local definition named `__do_jp` (the rest of a block after a guarded statement,
    once it has been made a local definition) is replaced by the definition's body at its arguments. -/
elab "unfold_jp" : tactic => do
  let g ← getMainGoal
  g.withContext do
    let tgt ← instantiateMVars (← g.getType)
    let tgt' ← Meta.transform tgt (pre := fun e => do
      let fn := e.getAppFn
      if e.isApp && fn.isFVar then
        let decl ← fn.fvarId!.getDecl
        if decl.userName.eraseMacroScopes == `__do_jp then
          if let some v := decl.value? then
            return .visit (v.beta e.getAppArgs)
      return .continue)
    let g' ← g.replaceTargetDefEq tgt'
    replaceMainGoal [g']

/-! ## One task: its thread and its buffers -/

variable (d : Dev nD) (L : grid1.Coords)

-- the kernel's memrefs, spelt as the body table passes them
local notation "tabW" => (Memref.whole Cert.Kernel.main_v1_scv : Memref Cert.Kernel.sig Kind.scVector Space.hbm Cert.Kernel.S65536x1000 EltTy.f32)
local notation "pW" => (Memref.whole Cert.Kernel.main_v0_2_scv : Memref Cert.Kernel.sig Kind.scVector Space.hbm Cert.Kernel.S16384x1000 EltTy.f32)
local notation "rW" => (Memref.whole Cert.Kernel.main_v0_1_scv : Memref Cert.Kernel.sig Kind.scVector Space.hbm Cert.Kernel.S16384 EltTy.i32)
local notation "oW" => (Memref.whole Cert.Kernel.main_v2_scv : Memref Cert.Kernel.sig Kind.scVector Space.hbm Cert.Kernel.S16384x1000 EltTy.f32)
local notation "xW" => (Memref.whole Cert.Kernel.cc1_scratch0 : Memref Cert.Kernel.sig Kind.scVector Space.vmem Cert.Kernel.S512 EltTy.i32)

/-! ## The lanes of one trip -/

/-- The units one row copy credits. -/
abbrev NR : ℕ := sig.dmaCredit .scVector (Kind.scVector.table .hbm) (main_v2_scv : Ref sig .scVector).idx S1x1000 .f32

/-- The transfers' counters, found in the rightmost factor of the ghost state. -/
abbrev EC : UEmb Counters (MT nD τ sig (HIx 1) (Elt F) ℕ UU ℕ) := countersEmb

/-- The table, and a task's result rows, as one task's thread addresses them. -/
abbrev tabL (d : Dev nD) (L : grid1.Coords) : Loc nD τ sig := (tabW).view.loc (thr d L)
abbrev outL (d : Dev nD) (L : grid1.Coords) : Loc nD τ sig := (oSl L).view.loc (thr d L)

/-- The read share lane `r` lends its copy: the next token of what is left of `q`. -/
def tokq (v11 : IVec S16 32) (q : PosShare TreeShare) (r : ℕ) : PosShare TreeShare := shareTokN q (cntTo (cnd v11) r)

/-- The table row lane `r` reads, as elements of the table. -/
def srcSet (d : Dev nD) (L : grid1.Coords) (v11 : IVec S16 32) (hwd : ∀ r, (wd v11 r).toNat < 65536) (r : ℕ) : Finset (Idx (tabL d L)) :=
  (srcU (wd v11 r) (hwd r)).view.set

variable [FloatOps F]

/-- What lane `r`'s copy delivers when it lands: its result row rewritten with the table row, and the row's share back. -/
def Dl (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) (r : ℕ) : sProp 𝕄 :=
  copyDelivery (thr d L) (srcU (wd v11 r) (hwd r)) .same (dstU L k r) (tokq v11 q r) Tb (laneSet d L k r) f

/-- What is left of lane `r`'s lent share beside the row it reads. -/
def restOf (d : Dev nD) (L : grid1.Coords) (v11 : IVec S16 32) (hwd : ∀ r, (wd v11 r).toNat < 65536)
    (q : PosShare TreeShare) (Tb : Buf (Elt F) (tabL d L)) (r : ℕ) : sProp 𝕄 :=
  tabL d L ↦[Finset.univ \ srcSet d L v11 hwd r]{tokq v11 q r} Tb

/-- The copies' semaphore while a trip issues: the batch recorded so far — or, in a trip where no lane copies, the
    semaphore's counter at zero, untouched. -/
def batchOr (d : Dev nD) (L : grid1.Coords) (v11 : IVec S16 32) (Ds : List (sProp 𝕄)) : sProp 𝕄 :=
  if cntTo (cnd v11) 16 = 0 then semVal (thr d L, SemLoc.dma cc1_scratch2.sem) 0
  else Batched (EC (F := F)) (thr d L) (.dma cc1_scratch2.sem) none NR (cntTo (cnd v11) 16) Ds 0

/-- Between lanes `r - 1` and `r` of the issuing half of a trip. -/
def issueSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) (r : ℕ) : sProp 𝕄 :=
  iprop((outL d L ↦[Sc (cnd v11) (outSet d L) (laneSet d L k) r]{fullShare} f)
    ∗ (tabL d L ↦{shareDrop q (cntTo (cnd v11) r)} Tb)
    ∗ bigSep (Finset.range r) (fun j => if cnd v11 j then restOf d L v11 hwd q Tb j else iprop(emp))
    ∗ batchOr (F := F) d L v11 (DsTo (cnd v11) (Dl d L k v11 hwd q Tb f) r))

/-- Lane `r` of the issuing half: the guarded copy, from the state before the lane to the state after it. -/
theorem issue_lane (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact)
    (hsem : DmaTarget.Typed (nD := nD) Space.hbm (SemLoc.dma cc1_scratch2.sem)
      (DmaTarget.here (dstU L k r) : DmaTarget nD τ sig (thr d L).2 Space.hbm S1x1000 EltTy.f32)) :
    iprop(issueSt d L k v11 hwd q Tb f r
        ∗ (issueSt d L k v11 hwd q Tb f (r + 1) -∗ wp frame (wpE (defs₀ (F := F)) 𝒱₀ (thr d L) none) Set.univ J Q))
      ⊢ wp frame (wpE (defs₀ (F := F)) 𝒱₀ (thr d L) none) Set.univ
          (if _h : cnd v11 r then
            .op (.enqueueDmaAs (srcU (wd v11 r) (hwd r)) (.here (dstU L k r)) .same (.dma cc1_scratch2.sem) hsrc hdst hsem) (fun _ => J)
           else J) Q := by
  have hsub : laneSet d L k r ⊆ Sc (cnd v11) (outSet d L) (laneSet d L k) r :=
    Cert.Route.Book.I_sub_Sc (cnd v11) (laneSet_sub d L k) (laneSet_disj d L k) hr
  unfold issueSt batchOr
  by_cases hm : cntTo (cnd v11) 16 = 0
  · have hn : ¬ cnd v11 r := fun h => by have := Cert.Route.Book.cntTo_lt (cnd v11) h hr; omega
    rw [dif_neg hn,
      show Sc (cnd v11) (outSet d L) (laneSet d L k) (r + 1) = Sc (cnd v11) (outSet d L) (laneSet d L k) r from if_neg hn,
      show cntTo (cnd v11) (r + 1) = cntTo (cnd v11) r from by rw [Cert.Route.Book.cntTo_succ, if_neg hn, Nat.add_zero],
      show DsTo (cnd v11) (Dl d L k v11 hwd q Tb f) (r + 1) = DsTo (cnd v11) (Dl d L k v11 hwd q Tb f) r from if_neg hn,
      Finset.range_add_one, SparseCore.bigSep_insert' Finset.notMem_range_self, if_neg hn, if_pos hm]
    iintro ⟨⟨Ho, Htab, Hrests, Hb⟩, Hk⟩
    iapply Hk
    isplitl [Ho]; · iexact Ho
    isplitl [Htab]; · iexact Htab
    isplitl [Hrests]
    · isplitr; · iempintro
      iexact Hrests
    iexact Hb
  rw [if_neg hm, if_neg hm]
  iintro ⟨⟨Ho, Htab, Hrests, Hb⟩, Hk⟩
  iapply (wp_guardedIssue (EC (F := F)) 𝒱₀ (thr d L) none (g := cnd v11 r)
      (src := fun _ => srcU (wd v11 r) (hwd r)) (via := .same) (dst := dstU L k r) (sm := .dma cc1_scratch2.sem)
      (hsrc := fun _ => hsrc) (hdst := hdst) (hsem := hsem) (J := J)
      (q := tokq v11 q r) (fs := fun _ => Tb) (Sd := laneSet d L k r) (fd := f)
      (Ds := DsTo (cnd v11) (Dl d L k v11 hwd q Tb f) r) (u := 0) (m := cntTo (cnd v11) 16)
      none NR rfl (Finset.Subset.refl _)
      (fun h => by rw [Cert.Route.Book.DsTo_length]; exact Cert.Route.Book.cntTo_lt (cnd v11) h hr) (Nat.zero_le _)
      (P := iprop((outL d L ↦[Sc (cnd v11) (outSet d L) (laneSet d L k) r]{fullShare} f) ∗ (tabL d L ↦{shareDrop q (cntTo (cnd v11) r)} Tb)))
      (R := fun _ => iprop((outL d L ↦[Sc (cnd v11) (outSet d L) (laneSet d L k) r \ laneSet d L k r]{fullShare} f)
          ∗ (tabL d L ↦{shareDrop q (cntTo (cnd v11) r + 1)} Tb) ∗ restOf d L v11 hwd q Tb r))
      ?hlend) $$ [Ho Htab Hb Hrests Hk]
  case hlend =>
    intro _
    unfold restOf tokq Transfers.shareTokN
    iintro ⟨Ho, Htab⟩
    ihave Ho' := (pointsTo_split_subset hsub).1 $$ Ho
    icases Ho' with ⟨Hrow, Hrest⟩
    ihave Htab' := (pointsTo_share (PosShare.mem_left_op_right (shareDrop q (cntTo (cnd v11) r)))).1 $$ Htab
    icases Htab' with ⟨Hl, Hr⟩
    ihave Hr' := (pointsTo_split_subset (Finset.subset_univ (srcSet d L v11 hwd r))).1 $$ Hr
    icases Hr' with ⟨Hsrc, Hsrest⟩
    isplitl [Hsrc]; · iexact Hsrc
    isplitl [Hrow]; · iexact Hrow
    isplitl [Hrest]; · iexact Hrest
    isplitl [Hl]; · iexact Hl
    iexact Hsrest
  · isplitl [Ho Htab]
    · isplitl [Ho]; · iexact Ho
      iexact Htab
    isplitl [Hb]; · iexact Hb
    iintro Hpost
    iapply Hk
    by_cases h : cnd v11 r
    · rw [dif_pos h]
      unfold Entails'
      iintro ⟨Hrests, ⟨Ho, Htab, Hrest⟩, Hb⟩
      rw [show Sc (cnd v11) (outSet d L) (laneSet d L k) (r + 1) = Sc (cnd v11) (outSet d L) (laneSet d L k) r \ laneSet d L k r from if_pos h,
        show cntTo (cnd v11) (r + 1) = cntTo (cnd v11) r + 1 from by rw [Cert.Route.Book.cntTo_succ, if_pos h],
        show DsTo (cnd v11) (Dl d L k v11 hwd q Tb f) (r + 1) = DsTo (cnd v11) (Dl d L k v11 hwd q Tb f) r ++ [Dl d L k v11 hwd q Tb f r] from if_pos h,
        Finset.range_add_one, SparseCore.bigSep_insert' Finset.notMem_range_self, if_pos h]
      isplitl [Ho]; · iexact Ho
      isplitl [Htab]; · iexact Htab
      isplitl [Hrest Hrests]
      · isplitl [Hrest]; · iexact Hrest
        iexact Hrests
      iexact Hb
    · rw [dif_neg h]
      unfold Entails'
      iintro ⟨Hrests, ⟨Ho, Htab⟩, Hb⟩
      rw [show Sc (cnd v11) (outSet d L) (laneSet d L k) (r + 1) = Sc (cnd v11) (outSet d L) (laneSet d L k) r from if_neg h,
        show cntTo (cnd v11) (r + 1) = cntTo (cnd v11) r from by rw [Cert.Route.Book.cntTo_succ, if_neg h, Nat.add_zero],
        show DsTo (cnd v11) (Dl d L k v11 hwd q Tb f) (r + 1) = DsTo (cnd v11) (Dl d L k v11 hwd q Tb f) r from if_neg h,
        Finset.range_add_one, SparseCore.bigSep_insert' Finset.notMem_range_self, if_neg h]
      isplitl [Ho]; · iexact Ho
      isplitl [Htab]; · iexact Htab
      isplitl [Hrests]
      · isplitr; · iempintro
        iexact Hrests
      iexact Hb

/-- `issue_lane` at a program given by an equation, the guarded copy spelt as a `do` block spells it: the run's
    program is never unfolded, only the equation checked. -/
theorem issue_lane' (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (r : ℕ) (hr : r < 16) {α : Type} (J : Prog (TpuEff nD τ sig (Elt F) Λ₀ (thr d L).2) α) (Q : α → sProp 𝕄)
    (hsrc : (srcU (wd v11 r) (hwd r)).view.WordExact)
    (hdst : (DmaTarget.here (dstU L k r) : DmaTarget nD τ sig (thr d L).2 Space.hbm S1x1000 EltTy.f32).view.WordExact)
    (hsem : DmaTarget.Typed (nD := nD) Space.hbm (SemLoc.dma cc1_scratch2.sem)
      (DmaTarget.here (dstU L k r) : DmaTarget nD τ sig (thr d L).2 Space.hbm S1x1000 EltTy.f32))
    (prog : Prog (TpuEff nD τ sig (Elt F) Λ₀ (thr d L).2) α)
    (hprog : prog = (if _h : cnd v11 r then
            (Prog.lift (TpuEff.enqueueDma (srcU (wd v11 r) (hwd r)) (.here (dstU L k r)) (.dma cc1_scratch2.sem) hsrc hdst hsem) >>= fun _ => J)
           else J)) :
    iprop(issueSt d L k v11 hwd q Tb f r
        ∗ (issueSt d L k v11 hwd q Tb f (r + 1) -∗ wp frame (wpE (defs₀ (F := F)) 𝒱₀ (thr d L) none) Set.univ J Q))
      ⊢ wp frame (wpE (defs₀ (F := F)) 𝒱₀ (thr d L) none) Set.univ prog Q := by
  subst hprog
  have e : (Prog.lift (TpuEff.enqueueDma (Val := Elt F) (Λ := Λ₀) (srcU (wd v11 r) (hwd r)) (.here (dstU L k r)) (.dma cc1_scratch2.sem) hsrc hdst hsem) >>= fun _ => J)
      = Prog.op (.enqueueDmaAs (srcU (wd v11 r) (hwd r)) (.here (dstU L k r)) .same (.dma cc1_scratch2.sem) hsrc hdst hsem) (fun _ => J) := rfl
  rw [e]
  exact issue_lane d L k v11 hwd q Tb f r hr J Q hsrc hdst hsem

/-- An `assume` whose proposition holds, at the head of a block: the block continues with its proof. -/
theorem wp_assume_lift (d : Dev nD) (L : grid1.Coords) {α : Type} {P : Prop} {dP : Decidable P}
    {kk : PLift P → Prog (TpuEff nD τ sig (Elt F) Λ₀ (thr d L).2) α} {Q : α → sProp 𝕄} (h : P) :
    wp frame (wpE (defs₀ (F := F)) 𝒱₀ (thr d L) none) Set.univ (Prog.lift (TpuEff.assume P dP) >>= kk) Q
      = wp frame (wpE (defs₀ (F := F)) 𝒱₀ (thr d L) none) Set.univ (kk ⟨h⟩) Q :=
  wp_assume_of 𝒱₀ (thr d L) none Set.univ h

/-- The same at a program given by an equation. -/
theorem wp_assume_prog (d : Dev nD) (L : grid1.Coords) {α : Type} {P : Prop} {dP : Decidable P}
    {kk : PLift P → Prog (TpuEff nD τ sig (Elt F) Λ₀ (thr d L).2) α} {Q : α → sProp 𝕄}
    (prog : Prog (TpuEff nD τ sig (Elt F) Λ₀ (thr d L).2) α) (hprog : prog = (Prog.lift (TpuEff.assume P dP) >>= kk)) (h : P) :
    wp frame (wpE (defs₀ (F := F)) 𝒱₀ (thr d L) none) Set.univ (kk ⟨h⟩) Q
      ⊢ wp frame (wpE (defs₀ (F := F)) 𝒱₀ (thr d L) none) Set.univ prog Q := by
  subst hprog
  exact Entails.of_eq (wp_assume_lift (F := F) d L h).symm

/-- A trip's issuing half starts from the semaphore at zero, the task's result rows and the table's read share. -/
theorem trip_start (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) :
    iprop(semVal (thr d L, SemLoc.dma cc1_scratch2.sem) 0 ∗ (outL d L ↦[outSet d L]{fullShare} f) ∗ (tabL d L ↦{q} Tb))
      ⊢ |={Set.univ}=> issueSt (F := F) d L k v11 hwd q Tb f 0 := by
  unfold issueSt batchOr
  rw [Finset.range_zero, bigSep_empty]
  by_cases hm : cntTo (cnd v11) 16 = 0
  · rw [if_pos hm]
    iintro ⟨Hs, Ho, Htab⟩
    imodintro
    isplitl [Ho]; · iexact Ho
    isplitl [Htab]; · iexact Htab
    isplitr; · iempintro
    iexact Hs
  · rw [if_neg hm]
    iintro ⟨Hs, Ho, Htab⟩
    imod (Transfers.batched_alloc (EC (F := F)) (thr d L) (sm := .dma cc1_scratch2.sem) none NR (cntTo (cnd v11) 16) (E := Set.univ)) $$ Hs with Hb
    imodintro
    isplitl [Ho]; · iexact Ho
    isplitl [Htab]; · iexact Htab
    isplitr; · iempintro
    iexact Hb

/-- The units of a row copy are positive. -/
theorem NR_pos : 0 < NR := sig.dmaCredit_pos _ _ _ _ _ (by decide)

/-- What the task owes, with the waits it has recorded since the call: all at index `none`. -/
def owesSt (d : Dev nD) (L : grid1.Coords) (O : CellTallies nD τ sig (HIx 1)) (W : Waits sig (HIx 1)) : sProp 𝕄 :=
  iprop(∃ W', ⌜∀ p ∈ W', p ∈ W ∨ p.2 = none⌝ ∗ owes (thr d L) O W')

/-- Between lanes `r - 1` and `r` of the waiting half of a trip: the batch drained by as many waits as lanes passed
    copied — every delivery and the semaphore's counter at zero once all of them have —, and what the task owes. -/
def waitSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) (r : ℕ) : sProp 𝕄 :=
  iprop(Draining (EC (F := F)) (thr d L) cc1_scratch2.sem none NR (cntTo (cnd v11) 16) (DsTo (cnd v11) (Dl d L k v11 hwd q Tb f) 16) (cntTo (cnd v11) r)
    ∗ owesSt (F := F) d L O W)

/-- Lane `r` of the waiting half: the guarded wait. -/
theorem wait_lane (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact) :
    iprop(waitSt d L k v11 hwd q Tb f O W r ∗ Transfers.MayWaits (thr d L) (none : HIx 1) O
        ∗ (waitSt d L k v11 hwd q Tb f O W (r + 1) -∗ wp frame (wpE (defs₀ (F := F)) 𝒱₀ (thr d L) none) Set.univ J Q))
      ⊢ wp frame (wpE (defs₀ (F := F)) 𝒱₀ (thr d L) none) Set.univ
          (if _h : cnd v11 r then
            .op (.waitDma2 cc1_scratch2.sem (srcU (wd v11 r) (hwd r)) (dstU L k r) hsrc hdst) (fun _ => J)
           else J) Q := by
  unfold waitSt owesSt
  iintro ⟨⟨Hb, %W', %hW', HO⟩, #Hmw, Hk⟩
  ihave HMW := (Transfers.MayWaits.elim (SemLoc.dma cc1_scratch2.sem)) $$ Hmw
  iapply (wp_guardedWait (EC (F := F)) 𝒱₀ (thr d L) none (g := cnd v11 r)
      (srcw := fun _ => srcU (wd v11 r) (hwd r)) (dstw := dstU L k r) (sem := cc1_scratch2.sem)
      (hsrc := fun _ => hsrc) (hdst := hdst) (J := J) none (N := NR) rfl NR_pos
      (Ds := DsTo (cnd v11) (Dl d L k v11 hwd q Tb f) 16) (m := cntTo (cnd v11) 16) (Cert.Route.Book.DsTo_length _ _ _)
      (w := cntTo (cnd v11) r) (fun h => Cert.Route.Book.cntTo_lt (cnd v11) h hr) (O := O) (W := W')) $$ [Hb HO HMW Hk]
  isplitl [Hb]; · iexact Hb
  isplitl [HO]; · iexact HO
  isplitl [HMW]; · iexact HMW
  iintro ⟨Hb, HO⟩
  iapply Hk
  isplitl [Hb]
  · rw [show cntTo (cnd v11) (r + 1) = cntTo (cnd v11) r + (if cnd v11 r then 1 else 0) from rfl]
    by_cases h : cnd v11 r
    · rw [if_pos h, if_pos h]; iexact Hb
    · rw [if_neg h, if_neg h, Nat.add_zero]; iexact Hb
  by_cases h : cnd v11 r
  · rw [if_pos h]
    iexists (insert (SemLoc.dma cc1_scratch2.sem, (none : HIx 1)) W'); isplitr
    · ipureintro; intro p hp
      rcases Finset.mem_insert.mp hp with hp | hp
      · exact .inr (hp ▸ rfl)
      · exact hW' p hp
    · iexact HO
  · rw [if_neg h]
    iexists W'; isplitr
    · ipureintro; exact hW'
    · iexact HO

/-- `wait_lane` at a program given by an equation, the guarded wait spelt as a `do` block spells it. -/
theorem wait_lane' (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1))
    (r : ℕ) (hr : r < 16) {α : Type} (J : Prog (TpuEff nD τ sig (Elt F) Λ₀ (thr d L).2) α) (Q : α → sProp 𝕄)
    (hsrc : (srcU (wd v11 r) (hwd r)).view.WordExact) (hdst : (dstU L k r).view.WordExact)
    (prog : Prog (TpuEff nD τ sig (Elt F) Λ₀ (thr d L).2) α)
    (hprog : prog = (if _h : cnd v11 r then
            (Prog.lift (TpuEff.waitDma2 (nD := nD) (Val := Elt F) (Λ := Λ₀) (p := (thr d L).2) cc1_scratch2.sem (srcU (wd v11 r) (hwd r)) (dstU L k r) hsrc hdst) >>= fun _ => J)
           else J)) :
    iprop(waitSt d L k v11 hwd q Tb f O W r ∗ Transfers.MayWaits (thr d L) (none : HIx 1) O
        ∗ (waitSt d L k v11 hwd q Tb f O W (r + 1) -∗ wp frame (wpE (defs₀ (F := F)) 𝒱₀ (thr d L) none) Set.univ J Q))
      ⊢ wp frame (wpE (defs₀ (F := F)) 𝒱₀ (thr d L) none) Set.univ prog Q := by
  subst hprog
  have e : (Prog.lift (TpuEff.waitDma2 (nD := nD) (Val := Elt F) (Λ := Λ₀) (p := (thr d L).2) cc1_scratch2.sem (srcU (wd v11 r) (hwd r)) (dstU L k r) hsrc hdst) >>= fun _ => J)
      = Prog.op (.waitDma2 cc1_scratch2.sem (srcU (wd v11 r) (hwd r)) (dstU L k r) hsrc hdst) (fun _ => J) := rfl
  rw [e]
  exact wait_lane d L k v11 hwd q Tb f O W r hr J Q hsrc hdst

/-- What a trip holds beside the batch once every lane has issued: the result rows not lent, the table's read share not
    lent, and the remainders of the shares lent. -/
def heldSt (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L)) : sProp 𝕄 :=
  iprop((outL d L ↦[Sc (cnd v11) (outSet d L) (laneSet d L k) 16]{fullShare} f)
    ∗ (tabL d L ↦{shareDrop q (cntTo (cnd v11) 16)} Tb)
    ∗ bigSep (Finset.range 16) (fun j => if cnd v11 j then restOf d L v11 hwd q Tb j else iprop(emp)))

/-- In a trip where no lane copies, no lane does. -/
theorem no_lane (v11 : IVec S16 32) (hm : cntTo (cnd v11) 16 = 0) : ∀ j < 16, ¬ cnd v11 j :=
  fun j hj h => by have := Cert.Route.Book.cntTo_lt (cnd v11) h hj; omega

/-- The issuing half done, the waiting half begins: the batch recorded is the batch to drain, no wait done yet. -/
theorem phase_switch (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) :
    iprop(issueSt d L k v11 hwd q Tb f 16 ∗ owesSt (F := F) d L O W)
      ⊢ iprop(heldSt d L k v11 hwd q Tb f ∗ waitSt d L k v11 hwd q Tb f O W 0) := by
  unfold issueSt heldSt waitSt batchOr Draining
  rw [show cntTo (cnd v11) 0 = 0 from rfl]
  by_cases hm : cntTo (cnd v11) 16 = 0
  · have hD : (bigSep (Finset.range 16) (fun j => if cnd v11 j then Dl d L k v11 hwd q Tb f j else iprop(emp)) : sProp 𝕄) = iprop(emp) :=
      (bigSep_congr (fun j hj => if_neg (no_lane v11 hm j (Finset.mem_range.mp hj)))).trans (bigSep_emp_const _)
    rw [if_pos hm, if_pos hm.symm, Cert.Route.Book.bigSep_deliv_DsTo (cnd v11) _ 16 _ rfl, hD]
    iintro ⟨⟨Ho, Htab, Hrests, Hs⟩, HO⟩
    isplitl [Ho Htab Hrests]
    · isplitl [Ho]; · iexact Ho
      isplitl [Htab]; · iexact Htab
      iexact Hrests
    isplitl [Hs]
    · isplitr; · iempintro
      iexact Hs
    iexact HO
  · rw [if_neg hm, if_neg (Ne.symm hm), Nat.zero_mul]
    iintro ⟨⟨Ho, Htab, Hrests, Hb⟩, HO⟩
    isplitl [Ho Htab Hrests]
    · isplitl [Ho]; · iexact Ho
      isplitl [Htab]; · iexact Htab
      iexact Hrests
    isplitl [Hb]; · iexact Hb
    iexact HO

/-- The waiting half done: every copy has landed. The rows lent come back rewritten and rejoin the rows kept — the task's
    result rows at some contents —, the shares lent rejoin the share kept, and the semaphore's counter reads zero. -/
theorem trip_collect (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) :
    iprop(heldSt d L k v11 hwd q Tb f ∗ waitSt d L k v11 hwd q Tb f O W 16)
      ⊢ iprop((∃ f', outL d L ↦[outSet d L]{fullShare} f') ∗ (tabL d L ↦{q} Tb)
          ∗ semVal (thr d L, SemLoc.dma cc1_scratch2.sem) 0 ∗ owesSt (F := F) d L O W) := by
  have hj : ∀ j ∈ Finset.range 16,
      iprop((if cnd v11 j then restOf d L v11 hwd q Tb j else iprop(emp)) ∗ (if cnd v11 j then Dl d L k v11 hwd q Tb f j else iprop(emp)))
        ⊢ iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp))) := by
    intro j _
    by_cases h : cnd v11 j
    · simp only [if_pos h]
      unfold Dl copyDelivery restOf tokq srcSet
      iintro ⟨Hrest, Hd, Hs⟩
      isplitl [Hd]; · iexists _; iexact Hd
      iapply (pointsTo_split_subset (Finset.subset_univ ((srcU (wd v11 j) (hwd j)).view.set))).2
      isplitl [Hs]; · iexact Hs
      iexact Hrest
    · simp only [if_neg h]
      iintro ⟨-, -⟩
      isplitr <;> iempintro
  have e1 : iprop(bigSep (Finset.range 16) (fun j => if cnd v11 j then restOf d L v11 hwd q Tb j else iprop(emp))
        ∗ bigSep (Finset.range 16) (fun j => if cnd v11 j then Dl d L k v11 hwd q Tb f j else iprop(emp)))
      ⊢ bigSep (Finset.range 16) (fun j => iprop((if cnd v11 j then restOf d L v11 hwd q Tb j else iprop(emp))
          ∗ (if cnd v11 j then Dl d L k v11 hwd q Tb f j else iprop(emp)))) :=
    Entails.of_eq (BI.bigSep_sep (Finset.range 16) _ _).symm
  have e2 : bigSep (Finset.range 16) (fun j => iprop((if cnd v11 j then restOf d L v11 hwd q Tb j else iprop(emp))
          ∗ (if cnd v11 j then Dl d L k v11 hwd q Tb f j else iprop(emp))))
      ⊢ bigSep (Finset.range 16) (fun j => iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp)))) :=
    bigSep_mono hj
  have e3 : bigSep (Finset.range 16) (fun j => iprop((if cnd v11 j then iprop(∃ g, outL d L ↦[laneSet d L k j]{fullShare} g) else iprop(emp))
            ∗ (if cnd v11 j then (tabL d L ↦[Finset.univ]{shareTokN q (cntTo (cnd v11) j)} Tb : sProp 𝕄) else iprop(emp))))
      ⊢ iprop(bigSep (Finset.range 16) (fun j => if cnd v11 j then iprop(∃ g, outL d L ↦[laneSet d L k j]{fullShare} g) else iprop(emp))
        ∗ bigSep (Finset.range 16) (fun j => if cnd v11 j then (tabL d L ↦[Finset.univ]{shareTokN q (cntTo (cnd v11) j)} Tb : sProp 𝕄) else iprop(emp))) :=
    Entails.of_eq (BI.bigSep_sep (Finset.range 16) _ _)
  have e := BIBase.Entails.trans e1 (BIBase.Entails.trans e2 e3)
  unfold heldSt waitSt Draining
  rw [if_pos rfl, Cert.Route.Book.bigSep_deliv_DsTo (cnd v11) _ 16 _ rfl]
  iintro ⟨⟨Ho, Htab, Hrests⟩, ⟨HD, Hs⟩, HO⟩
  ihave Hsplit := e $$ [Hrests HD]
  · isplitl [Hrests]; · iexact Hrests
    iexact HD
  icases Hsplit with ⟨Hrows, Hshares⟩
  isplitl [Ho Hrows]
  · iapply (Cert.Route.Book.rows_join (cnd v11) (laneSet_sub d L k) (laneSet_disj d L k) f)
    isplitl [Ho]; · iexact Ho
    iexact Hrows
  isplitl [Htab Hshares]
  · iapply (Cert.Route.Book.shares_join (cnd v11) q Finset.univ Tb 16)
    isplitl [Htab]; · iexact Htab
    iexact Hshares
  isplitl [Hs]; · iexact Hs
  iexact HO

/-- The same at value strength: when the rows kept agree with `G` and every copied row is rewritten to `G`'s values, the
    task's result rows are held at `G`. -/
theorem trip_collect_to (d : Dev nD) (L : grid1.Coords) (k : Fin k1_t1_loop.trips) (v11 : IVec S16 32) (hwd : ∀ r, (wd v11 r).toNat < 65536)
    (q : PosShare TreeShare) (Tb : Buf (Elt F) (tabL d L)) (f : Buf (Elt F) (outL d L))
    (O : CellTallies nD τ sig (HIx 1)) (W : Waits sig (HIx 1)) (G : Buf (Elt F) (outL d L))
    (hf : ∀ i ∈ Sc (cnd v11) (outSet d L) (laneSet d L k) 16, f i = G i)
    (hg : ∀ j < 16, cnd v11 j → ∀ i ∈ laneSet d L k j,
      (dstU L k j).view.write (Elt F) f (ReadAs.same.apply ((srcU (wd v11 j) (hwd j)).view.read (Elt F) Tb)) Finset.univ i = G i) :
    iprop(heldSt d L k v11 hwd q Tb f ∗ waitSt d L k v11 hwd q Tb f O W 16)
      ⊢ iprop((outL d L ↦[outSet d L]{fullShare} G) ∗ (tabL d L ↦{q} Tb)
          ∗ semVal (thr d L, SemLoc.dma cc1_scratch2.sem) 0 ∗ owesSt (F := F) d L O W) := by
  have hj : ∀ j ∈ Finset.range 16,
      iprop((if cnd v11 j then restOf d L v11 hwd q Tb j else iprop(emp)) ∗ (if cnd v11 j then Dl d L k v11 hwd q Tb f j else iprop(emp)))
        ⊢ iprop((if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
            ∗ (if cnd v11 j then (tabL d L ↦[Finset.univ]{shareTokN q (cntTo (cnd v11) j)} Tb : sProp 𝕄) else iprop(emp))) := by
    intro j _
    by_cases h : cnd v11 j
    · simp only [if_pos h]
      unfold Dl copyDelivery restOf tokq srcSet
      iintro ⟨Hrest, Hd, Hs⟩
      isplitl [Hd]; · iexact Hd
      iapply (pointsTo_split_subset (Finset.subset_univ ((srcU (wd v11 j) (hwd j)).view.set))).2
      isplitl [Hs]; · iexact Hs
      iexact Hrest
    · simp only [if_neg h]
      iintro ⟨-, -⟩
      isplitr <;> iempintro
  have e1 : iprop(bigSep (Finset.range 16) (fun j => if cnd v11 j then restOf d L v11 hwd q Tb j else iprop(emp))
        ∗ bigSep (Finset.range 16) (fun j => if cnd v11 j then Dl d L k v11 hwd q Tb f j else iprop(emp)))
      ⊢ bigSep (Finset.range 16) (fun j => iprop((if cnd v11 j then restOf d L v11 hwd q Tb j else iprop(emp))
          ∗ (if cnd v11 j then Dl d L k v11 hwd q Tb f j else iprop(emp)))) :=
    Entails.of_eq (BI.bigSep_sep (Finset.range 16) _ _).symm
  have e2 := bigSep_mono hj
  have e3 : bigSep (Finset.range 16) (fun j => iprop((if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
            ∗ (if cnd v11 j then (tabL d L ↦[Finset.univ]{shareTokN q (cntTo (cnd v11) j)} Tb : sProp 𝕄) else iprop(emp))))
      ⊢ iprop(bigSep (Finset.range 16) (fun j => if cnd v11 j then (outL d L ↦[laneSet d L k j]{fullShare}
              ((dstU L k j).view.write (Elt F) f (ReadAs.same.apply ((srcU (wd v11 j) (hwd j)).view.read (Elt F) Tb)) Finset.univ) : sProp 𝕄) else iprop(emp))
        ∗ bigSep (Finset.range 16) (fun j => if cnd v11 j then (tabL d L ↦[Finset.univ]{shareTokN q (cntTo (cnd v11) j)} Tb : sProp 𝕄) else iprop(emp))) :=
    Entails.of_eq (BI.bigSep_sep (Finset.range 16) _ _)
  have e := BIBase.Entails.trans e1 (BIBase.Entails.trans e2 e3)
  unfold heldSt waitSt Draining
  rw [if_pos rfl, Cert.Route.Book.bigSep_deliv_DsTo (cnd v11) _ 16 _ rfl]
  iintro ⟨⟨Ho, Htab, Hrests⟩, ⟨HD, Hs⟩, HO⟩
  ihave Hsplit := e $$ [Hrests HD]
  · isplitl [Hrests]; · iexact Hrests
    iexact HD
  icases Hsplit with ⟨Hrows, Hshares⟩
  isplitl [Ho Hrows]
  · iapply (Cert.Route.Book.rows_join_to (cnd v11) (laneSet_sub d L k) (laneSet_disj d L k) f G
      (fun j => (dstU L k j).view.write (Elt F) f (ReadAs.same.apply ((srcU (wd v11 j) (hwd j)).view.read (Elt F) Tb)) Finset.univ) hf hg)
    isplitl [Ho]; · iexact Ho
    iexact Hrows
  isplitl [Htab Hshares]
  · iapply (Cert.Route.Book.shares_join (cnd v11) q Finset.univ Tb 16)
    isplitl [Htab]; · iexact Htab
    iexact Hshares
  isplitl [Hs]; · iexact Hs
  iexact HO

end Cert.Kernel.Route.Tile

end
-- ==== Proof.RouteOutK.lean ====
/-
  What the routing task leaves in the result array, as one function of the table, the early-exit rows and the row
  indices: row b is the table row its index names when the index names a row of the last head's part of the table
  (index ≥ 49152), and the early-exit row otherwise.
-/
import proofs.«215259_g58411555225873_cont_9to1_m_859_22_alg».proof.Proof.RouteBaseK
import proofs.«215259_g58411555225873_cont_9to1_m_859_22_alg».proof.Proof.TripFactsK

noncomputable section

namespace Cert.Kernel.Route.Tile

open Cert.Kernel Cert.Kernel.Gen Cert.Kernel.Route

open Idealize.ShloMosaic Idealize.ShloMosaic.ValueIdx

variable {F : FTy → Type}

/-- The table row a word names (read modulo the table's 65536 rows, so that the index is total), at a column. -/
def tabIx (v : BitVec 32) (c : Fin 1000) : S65536x1000.Idx :=
  ix2 (⟨v.toNat % 65536, Nat.mod_lt _ (by decide)⟩ : Fin 65536) c

/-- A sample's place in the row indices, and its column, read off a result index. -/
def rowOfIdx (i : S16384x1000.Idx) : S16384.Idx := ix1 (⟨(i 0).val, (i 0).isLt⟩ : Fin 16384)
def colOfIdx (i : S16384x1000.Idx) : Fin 1000 := ⟨(i 1).val, (i 1).isLt⟩

/-- The routed result: per sample, the table row its index names or its early-exit row. -/
def outSpec (Tb : S65536x1000.Idx → Elt F .f32) (Pc : S16384x1000.Idx → Elt F .f32) (R : S16384.Idx → BitVec 32) :
    S16384x1000.Idx → Elt F .f32 :=
  fun i => if routeCond (R (rowOfIdx i)) = 1#1 then Tb (tabIx (R (rowOfIdx i)) (colOfIdx i)) else Pc i

end Cert.Kernel.Route.Tile

end
-- ==== Proof.RouteReadK.lean ====
/-
  Reading the routing task's buffers through its views, index by index: what a row copy leaves in the result row it
  writes (the table row the lane's index names) and off it (nothing), what the task's two opening copies leave (the
  early-exit rows in the result rows, the task's row indices in the index scratch), what a trip's load reads (the
  trip's sixteen row indices), and the routed result's value on a lane's row. Plain equations between functions of
  indices.
-/
import proofs.«215259_g58411555225873_cont_9to1_m_859_22_alg».proof.Proof.RouteGeomK
import proofs.«215259_g58411555225873_cont_9to1_m_859_22_alg».proof.Proof.RouteOutK
import proofs.«215259_g58411555225873_cont_9to1_m_859_22_alg».proof.Proof.RouteTaskK

noncomputable section

namespace Cert.Kernel.Route.Tile

open Cert.Kernel Cert.Kernel.Gen Cert.Kernel.Route

open Idealize.ShloMosaic Idealize.ShloMosaic.ValueIdx
open Idealize.ShloMosaic.SparseCore (S V T)

variable {F : FTy → Type}

/-! ## A lane's row -/

/-- An element of lane `r`'s row: its row is the lane's result row, its column any. -/
theorem mem_laneSet (d : Dev nD) (L : grid1.Coords) (k : Fin k1_t1_loop.trips) (r : ℕ) (hr : r < 16) (i : S16384x1000.Idx) :
    i ∈ laneSet d L k r ↔ (i 0).val = ((L 1).val * 2 + (L 0).val) * 512 + 16 * k.val + r := by
  rw [laneSet_eq, Rect.mem_set_unit]
  have h := dstWord_toNat L k (r % 16) (Nat.mod_lt _ (by omega))
  have e : r % 16 = r := Nat.mod_eq_of_lt hr
  have h1 : (i 1).val < 1000 := (i 1).isLt
  constructor
  · intro hi
    have h0 : (dstWord L k (BitVec.ofNat 32 (r % 16))).toNat ≤ (i 0).val
        ∧ (i 0).val < (dstWord L k (BitVec.ofNat 32 (r % 16))).toNat + 1 := hi 0
    omega
  · intro hi a
    match a with
    | ⟨0, _⟩ =>
      show (dstWord L k (BitVec.ofNat 32 (r % 16))).toNat ≤ (i 0).val
        ∧ (i 0).val < (dstWord L k (BitVec.ofNat 32 (r % 16))).toNat + 1
      omega
    | ⟨1, _⟩ =>
      show 0 ≤ (i 1).val ∧ (i 1).val < 0 + 1000
      omega

/-- The place of a lane's row among the row indices. -/
theorem rowOfIdx_of_mem (d : Dev nD) (L : grid1.Coords) (k : Fin k1_t1_loop.trips) (r : ℕ) (hr : r < 16) (i : S16384x1000.Idx)
    (hi : i ∈ laneSet d L k r) (hlt : ((L 1).val * 2 + (L 0).val) * 512 + 16 * k.val + r < 16384) :
    rowOfIdx i = ix1 (⟨((L 1).val * 2 + (L 0).val) * 512 + 16 * k.val + r, hlt⟩ : Fin 16384) := by
  have h := (mem_laneSet d L k r hr i).mp hi
  unfold rowOfIdx
  exact congrArg ix1 (Fin.ext h)

/-! ## (R1) One row copy -/

/-- On the lane's row a row copy leaves the table row the index names: at column c, the table's element (v, c). -/
theorem rowCopy_apply (d : Dev nD) (L : grid1.Coords) (k : Fin k1_t1_loop.trips) (r : ℕ) (v : BitVec 32) (hv : v.toNat < 65536)
    (Tb : S65536x1000.Idx → Elt F .f32) (f : S16384x1000.Idx → Elt F .f32) (i : S16384x1000.Idx) (hi : i ∈ laneSet d L k r) :
    (dstU L k r).view.write (Elt F) f (ReadAs.same.apply ((srcU v hv).view.read (Elt F) Tb)) Finset.univ i
      = Tb (tabIx v (colOfIdx i)) := by
  obtain ⟨x, -, rfl⟩ := Finset.mem_map.mp hi
  refine (View.write_emb_of_mem (v := (dstU L k r).view) f _ (Finset.mem_univ x)).trans ?_
  show Tb ((srcU v hv).view.emb x) = Tb (tabIx v (colOfIdx ((dstU L k r).view.emb x)))
  refine congrArg Tb ?_
  have hx0 : (x 0).val = 0 := by have : (x 0).val < 1 := (x 0).isLt; omega
  funext a
  match a with
  | ⟨0, _⟩ =>
    refine Fin.ext ?_
    show v.toNat + 1 * (x 0).val = v.toNat % 65536
    rw [hx0, Nat.mod_eq_of_lt hv, Nat.mul_zero, Nat.add_zero]
  | ⟨1, _⟩ =>
    refine Fin.ext ?_
    show 0 + 1 * (x 1).val = 0 + 1 * (x 1).val
    rfl

/-- Off the lane's row it leaves what was there. -/
theorem rowCopy_off (d : Dev nD) (L : grid1.Coords) (k : Fin k1_t1_loop.trips) (r : ℕ) (v : BitVec 32) (hv : v.toNat < 65536)
    (Tb : S65536x1000.Idx → Elt F .f32) (f : S16384x1000.Idx → Elt F .f32) (i : S16384x1000.Idx) (hi : i ∉ laneSet d L k r) :
    (dstU L k r).view.write (Elt F) f (ReadAs.same.apply ((srcU v hv).view.read (Elt F) Tb)) Finset.univ i = f i :=
  View.write_of_not_mem _ _ _ (by rw [View.setOn_univ]; exact hi)

/-! ## (R2) The task's two opening copies -/

/-- The copy of the task's early-exit rows into its result rows leaves, on those rows, the early-exit rows (as one
    unmasked write through the result slice, over any prior contents); -/
theorem copyRows_apply (d : Dev nD) (L : grid1.Coords) (Pc : S16384x1000.Idx → Elt F .f32) (f : S16384x1000.Idx → Elt F .f32)
    (i : S16384x1000.Idx) (hi : i ∈ outSet d L) :
    (oSl L).view.write (Elt F) f (ReadAs.same.apply ((pSl L).view.read (Elt F) Pc)) Finset.univ i = Pc i := by
  obtain ⟨x, -, rfl⟩ := Finset.mem_map.mp hi
  refine (View.write_emb_of_mem (v := (oSl L).view) f _ (Finset.mem_univ x)).trans ?_
  show Pc ((pSl L).view.emb x) = Pc ((oSl L).view.emb x)
  rfl

/-- the same as a list of one write through the whole slice. -/
theorem copyRows_writes_apply (d : Dev nD) (L : grid1.Coords) (Pc : S16384x1000.Idx → Elt F .f32) (f : S16384x1000.Idx → Elt F .f32)
    (i : S16384x1000.Idx) (hi : i ∈ outSet d L) :
    (oSl L).view.writes (Elt F) f [⟨Rect.whole S512x1000, ReadAs.same.apply ((pSl L).view.read (Elt F) Pc)⟩] i = Pc i := by
  obtain ⟨x, -, rfl⟩ := Finset.mem_map.mp hi
  have hx : (oSl L).view.emb x = ((oSl L).view.slice (Rect.whole S512x1000)).emb x := by
    show (oSl L).view.emb x = (oSl L).view.emb ((Rect.whole S512x1000).emb x)
    refine congrArg _ (funext fun a => Fin.ext ?_)
    show (x a).val = 0 + 1 * (x a).val
    omega
  rw [View.writes_singleton]
  refine (congrArg _ hx).trans ((View.write_emb_of_mem (v := (oSl L).view.slice (Rect.whole S512x1000)) f _ (Finset.mem_univ x)).trans ?_)
  show Pc ((pSl L).view.emb x) = Pc ((oSl L).view.emb x)
  rfl

/-- The fetch of the task's row indices leaves the index scratch at them: word j is the task's j-th row index. -/
theorem fetchIdx_apply (L : grid1.Coords) (R : S16384.Idx → BitVec 32) (fx : S512.Idx → BitVec 32) (j : S512.Idx) :
    (Memref.whole cc1_scratch0 : Memref sig .scVector .vmem S512 .i32).view.write (Elt F) fx
        (ReadAs.same.apply ((rSl L).view.read (Elt F) R)) Finset.univ j
      = R ((rSl L).view.emb j) := by
  refine (View.write_emb_of_mem (Val := Elt F) (v := (Memref.whole cc1_scratch0 : Memref sig .scVector .vmem S512 .i32).view) fx _ (Finset.mem_univ j)).trans ?_
  rfl

/-- The task's j-th row index sits at row (subcore · 2 + core) · 512 + j of the row indices. -/
theorem rSl_emb_val (L : grid1.Coords) (j : S512.Idx) :
    ((rSl L).view.emb j 0).val = ((L 1).val * 2 + (L 0).val) * 512 + (j 0).val := by
  show k1_off1 L 0 + 1 * (j 0).val = _
  rw [k1_off1_eq]
  show 1024 * (L 1).val + 512 * (L 0).val + 1 * (j 0).val = _
  omega

/-! ## (R3) A trip's load -/

/-- The sixteen words a trip loads from the index scratch are the task's row indices 16·trip … 16·trip + 15: lane r is
    the row index of result row (subcore · 2 + core) · 512 + 16·trip + r. -/
theorem tripLoad_apply (L : grid1.Coords) (k : Fin k1_t1_loop.trips) (R : S16384.Idx → BitVec 32) (fx : S512.Idx → BitVec 32)
    (r : ℕ) (hr : r < 16) (hlt : ((L 1).val * 2 + (L 0).val) * 512 + 16 * k.val + r < 16384) :
    (Memref.whole cc1_scratch0 : Memref sig .scVector .vmem S512 .i32).view.readAt (Elt F)
        (Rect.unit (s := S512) (k1_off3 k) S16.size (k1_off3_inb k)).toLoadRect
        ((Memref.whole cc1_scratch0 : Memref sig .scVector .vmem S512 .i32).view.write (Elt F) fx
          (ReadAs.same.apply ((rSl L).view.read (Elt F) R)) Finset.univ)
        (ix1 (⟨r, hr⟩ : Fin 16))
      = R (ix1 (⟨((L 1).val * 2 + (L 0).val) * 512 + 16 * k.val + r, hlt⟩ : Fin 16384)) := by
  rw [View.readAt_apply]
  show (Memref.whole cc1_scratch0 : Memref sig .scVector .vmem S512 .i32).view.write (Elt F) fx
      (ReadAs.same.apply ((rSl L).view.read (Elt F) R)) Finset.univ _ = _
  rw [fetchIdx_apply]
  refine congrArg R (funext fun a => ?_)
  match a with
  | ⟨0, _⟩ =>
    refine Fin.ext ?_
    refine (rSl_emb_val L _).trans ?_
    show ((L 1).val * 2 + (L 0).val) * 512 + (k1_off3 k 0 + 1 * r) = ((L 1).val * 2 + (L 0).val) * 512 + 16 * k.val + r
    rw [k1_off3_eq]
    show ((L 1).val * 2 + (L 0).val) * 512 + (16 * k.val + 1 * r) = _
    omega

/-- A task's rows lie in the result: (subcore · 2 + core) · 512 + 16·trip + lane < 16384. -/
theorem taskRow_lt (L : grid1.Coords) (k : Fin k1_t1_loop.trips) (r : ℕ) (hr : r < 16) :
    ((L 1).val * 2 + (L 0).val) * 512 + 16 * k.val + r < 16384 := by
  have h1 : (L 1).val < 16 := (L 1).isLt
  have h0 : (L 0).val < 2 := (L 0).isLt
  have hk := trips_lt k
  omega

/-- The vector a trip loads, over the index scratch as the fetch left it. -/
abbrev tripVec (L : grid1.Coords) (k : Fin k1_t1_loop.trips) (R : S16384.Idx → BitVec 32) (fx : S512.Idx → BitVec 32) : Vec F S16 .i32 :=
  (Memref.whole cc1_scratch0 : Memref sig .scVector .vmem S512 .i32).view.readAt (Elt F)
    (Rect.unit (s := S512) (k1_off3 k) S16.size (k1_off3_inb k)).toLoadRect
    ((Memref.whole cc1_scratch0 : Memref sig .scVector .vmem S512 .i32).view.write (Elt F) fx
      (ReadAs.same.apply ((rSl L).view.read (Elt F) R)) Finset.univ)

/-- Lane r's word of a trip is the row index of the lane's result row. -/
theorem tripWord_eq [FloatOps F] (d : Dev nD) (L : grid1.Coords) (k : Fin k1_t1_loop.trips) (R : S16384.Idx → BitVec 32) (fx : S512.Idx → BitVec 32)
    (r : ℕ) (hr : r < 16) (i : S16384x1000.Idx) (hi : i ∈ laneSet d L k r) :
    wd (k1_pay1 (tripVec (F := F) L k R fx)) r = R (rowOfIdx i) := by
  rw [pay1_eq, wd_eq _ r hr, rowOfIdx_of_mem d L k r hr i hi (taskRow_lt L k r hr)]
  exact tripLoad_apply L k R fx r hr (taskRow_lt L k r hr)

/-- Past the sixteenth lane there is no word: the zero word. -/
theorem wd_ge (v11 : IVec S16 32) (r : ℕ) (hr : 16 ≤ r) : wd v11 r = 0#32 := by
  match r, hr with
  | r + 16, _ => rfl

/-- Every word of a trip names a table row when every row index does. -/
theorem tripWords_lt [FloatOps F] (d : Dev nD) (L : grid1.Coords) (k : Fin k1_t1_loop.trips) (R : S16384.Idx → BitVec 32) (fx : S512.Idx → BitVec 32)
    (hR : ∀ j, (R j).toNat < 65536) : ∀ r : ℕ, (wd (k1_pay1 (tripVec (F := F) L k R fx)) r).toNat < 65536 := by
  intro r
  by_cases hr : r < 16
  · rw [pay1_eq, wd_eq _ r hr]
    exact lt_of_eq_of_lt (congrArg BitVec.toNat (tripLoad_apply (F := F) L k R fx r hr (taskRow_lt L k r hr))) (hR _)
  · rw [wd_ge _ r (by omega)]
    decide

/-! ## (R4) The routed result on a lane's row -/

theorem outSpec_apply (Tb : S65536x1000.Idx → Elt F .f32) (Pc : S16384x1000.Idx → Elt F .f32) (R : S16384.Idx → BitVec 32)
    (i : S16384x1000.Idx) :
    outSpec (F := F) Tb Pc R i = if routeCond (R (rowOfIdx i)) = 1#1 then Tb (tabIx (R (rowOfIdx i)) (colOfIdx i)) else Pc i := rfl

/-- One lane's step: over contents that still hold the early-exit row on the lane's row, the lane's guarded row copy
    leaves the routed result there, -/
theorem lane_value (d : Dev nD) (L : grid1.Coords) (k : Fin k1_t1_loop.trips) (r : ℕ)
    (Tb : S65536x1000.Idx → Elt F .f32) (Pc : S16384x1000.Idx → Elt F .f32) (R : S16384.Idx → BitVec 32)
    (f : S16384x1000.Idx → Elt F .f32) (i : S16384x1000.Idx) (hi : i ∈ laneSet d L k r) (hf : f i = Pc i)
    (w : BitVec 32) (hw : w.toNat < 65536) (hwi : w = R (rowOfIdx i)) :
    (if routeCond w = 1#1 then (dstU L k r).view.write (Elt F) f (ReadAs.same.apply ((srcU w hw).view.read (Elt F) Tb)) Finset.univ else f) i
      = outSpec (F := F) Tb Pc R i := by
  by_cases h : routeCond w = 1#1
  · exact (congrFun (if_pos h) i).trans ((rowCopy_apply d L k r w hw Tb f i hi).trans (by rw [outSpec_apply, ← hwi, if_pos h]))
  · exact (congrFun (if_neg h) i).trans (hf.trans (by rw [outSpec_apply, ← hwi, if_neg h]))

/-- and changes nothing off it. -/
theorem lane_off (d : Dev nD) (L : grid1.Coords) (k : Fin k1_t1_loop.trips) (r : ℕ)
    (Tb : S65536x1000.Idx → Elt F .f32) (f : S16384x1000.Idx → Elt F .f32) (i : S16384x1000.Idx) (hi : i ∉ laneSet d L k r)
    (w : BitVec 32) (hw : w.toNat < 65536) :
    (if routeCond w = 1#1 then (dstU L k r).view.write (Elt F) f (ReadAs.same.apply ((srcU w hw).view.read (Elt F) Tb)) Finset.univ else f) i
      = f i := by
  by_cases h : routeCond w = 1#1
  · exact (congrFun (if_pos h) i).trans (rowCopy_off d L k r w hw Tb f i hi)
  · exact congrFun (if_neg h) i

end Cert.Kernel.Route.Tile

end
-- ==== Proof.RouteTripK.lean ====
/-
  The routing task's result rows trip by trip, as one function of the trip count: rows of the trips done hold the
  routed result, the rows still to come hold the early-exit rows. A trip's taken lanes take their rows from the one
  to the next; every other row of the task is the same in both.
-/
import proofs.«215259_g58411555225873_cont_9to1_m_859_22_alg».proof.Proof.RouteReadK
import proofs.«215259_g58411555225873_cont_9to1_m_859_22_alg».proof.Proof.BatchBook

noncomputable section

namespace Cert.Kernel.Route.Tile

open Cert.Kernel Cert.Kernel.Gen Cert.Kernel.Route

open Idealize.ShloMosaic Idealize.ShloMosaic.ValueIdx
open Idealize.ShloMosaic.SparseCore (S V T)
open Cert.Route.Book (cntTo DsTo Sc)

variable {F : FTy → Type}

/-- What is left after carving holds none of a taken lane's rows. -/
theorem mem_Sc {nD : Nat} {τ : Topo} {sig : RefSig} {ℓ : Loc nD τ sig} (c : ℕ → Prop) [DecidablePred c] (S : Finset (Idx ℓ)) (I : ℕ → Finset (Idx ℓ)) :
    ∀ (n : ℕ) (i : Idx ℓ), i ∈ Sc c S I n → i ∈ S ∧ ∀ j < n, c j → i ∉ I j := by
  intro n
  induction n with
  | zero => intro i hi; exact ⟨hi, fun j hj => absurd hj (Nat.not_lt_zero j)⟩
  | succ n ih =>
    intro i hi
    rw [Cert.Route.Book.Sc_succ] at hi
    by_cases h : c n
    · rw [if_pos h] at hi
      obtain ⟨h1, h2⟩ := Finset.mem_sdiff.mp hi
      obtain ⟨hS, hI⟩ := ih i h1
      refine ⟨hS, fun j hj hc => ?_⟩
      rcases Nat.lt_succ_iff_lt_or_eq.mp hj with hlt | rfl
      · exact hI j hlt hc
      · exact h2
    · rw [if_neg h] at hi
      obtain ⟨hS, hI⟩ := ih i hi
      refine ⟨hS, fun j hj hc => ?_⟩
      rcases Nat.lt_succ_iff_lt_or_eq.mp hj with hlt | rfl
      · exact hI j hlt hc
      · exact absurd hc h

/-- The task's first row. -/
abbrev baseRow (L : grid1.Coords) : ℕ := ((L 1).val * 2 + (L 0).val) * 512

/-- The result after n trips: the routed result on the rows of the trips done, the early-exit rows on the rest. -/
def tripFn (L : grid1.Coords) (Tb : S65536x1000.Idx → Elt F .f32) (Pc : S16384x1000.Idx → Elt F .f32) (R : S16384.Idx → BitVec 32) (n : ℕ) :
    S16384x1000.Idx → Elt F .f32 :=
  fun i => if (i 0).val < baseRow L + 16 * n then outSpec (F := F) Tb Pc R i else Pc i

/-- An element of the task's rows: its row is one of the task's 512. -/
theorem mem_outSet (d : Dev nD) (L : grid1.Coords) (i : S16384x1000.Idx) :
    i ∈ outSet d L ↔ baseRow L ≤ (i 0).val ∧ (i 0).val < baseRow L + 512 := by
  rw [outSet_eq, Rect.mem_set_unit, off2_eq]
  have h1 : (i 1).val < 1000 := (i 1).isLt
  constructor
  · intro hi
    exact hi 0
  · intro hi a
    match a with
    | ⟨0, _⟩ => exact hi
    | ⟨1, _⟩ =>
      show 0 ≤ (i 1).val ∧ (i 1).val < 0 + 1000
      omega

/-- Before the first trip the task's rows hold the early-exit rows; -/
theorem tripFn_zero (d : Dev nD) (L : grid1.Coords) (Tb : S65536x1000.Idx → Elt F .f32) (Pc : S16384x1000.Idx → Elt F .f32) (R : S16384.Idx → BitVec 32)
    (i : S16384x1000.Idx) (hi : i ∈ outSet d L) : tripFn (F := F) L Tb Pc R 0 i = Pc i := by
  have h := (mem_outSet d L i).mp hi
  unfold tripFn
  rw [if_neg (by omega)]

/-- after the last they hold the routed result. -/
theorem tripFn_last (d : Dev nD) (L : grid1.Coords) (Tb : S65536x1000.Idx → Elt F .f32) (Pc : S16384x1000.Idx → Elt F .f32) (R : S16384.Idx → BitVec 32)
    (i : S16384x1000.Idx) (hi : i ∈ outSet d L) : tripFn (F := F) L Tb Pc R 32 i = outSpec (F := F) Tb Pc R i := by
  have h := (mem_outSet d L i).mp hi
  unfold tripFn
  rw [if_pos (by omega)]

/-- A taken lane's row copy, over the result after k trips, leaves on its row the result after k + 1 trips. -/
theorem trip_taken [FloatOps F] (d : Dev nD) (L : grid1.Coords) (k : Fin k1_t1_loop.trips)
    (Tb : S65536x1000.Idx → Elt F .f32) (Pc : S16384x1000.Idx → Elt F .f32) (R : S16384.Idx → BitVec 32) (fx : S512.Idx → BitVec 32)
    (hwd : ∀ r, (wd (k1_pay1 (tripVec (F := F) L k R fx)) r).toNat < 65536)
    (j : ℕ) (hj : j < 16) (hc : cnd (k1_pay1 (tripVec (F := F) L k R fx)) j) (i : S16384x1000.Idx) (hi : i ∈ laneSet d L k j) :
    (dstU L k j).view.write (Elt F) (tripFn (F := F) L Tb Pc R k.val)
        (ReadAs.same.apply ((srcU (wd (k1_pay1 (tripVec (F := F) L k R fx)) j) (hwd j)).view.read (Elt F) Tb)) Finset.univ i
      = tripFn (F := F) L Tb Pc R (k.val + 1) i := by
  have hrow := (mem_laneSet d L k j hj i).mp hi
  have hb : baseRow L = ((L 1).val * 2 + (L 0).val) * 512 := rfl
  have hf : tripFn (F := F) L Tb Pc R k.val i = Pc i := by
    unfold tripFn; rw [if_neg (by show ¬ (i 0).val < baseRow L + 16 * k.val; omega)]
  have hv := lane_value d L k j Tb Pc R (tripFn (F := F) L Tb Pc R k.val) i hi hf
    (wd (k1_pay1 (tripVec (F := F) L k R fx)) j) (hwd j) (tripWord_eq d L k R fx j hj i hi)
  have hn : tripFn (F := F) L Tb Pc R (k.val + 1) i = outSpec (F := F) Tb Pc R i := by
    unfold tripFn; rw [if_pos (by show (i 0).val < baseRow L + 16 * (k.val + 1); omega)]
  exact ((congrFun (if_pos hc) i).symm.trans hv).trans hn.symm

/-- What a trip's taken lanes leave untouched is the same after k and after k + 1 trips. -/
theorem trip_rest [FloatOps F] (d : Dev nD) (L : grid1.Coords) (k : Fin k1_t1_loop.trips)
    (Tb : S65536x1000.Idx → Elt F .f32) (Pc : S16384x1000.Idx → Elt F .f32) (R : S16384.Idx → BitVec 32) (fx : S512.Idx → BitVec 32)
    (i : S16384x1000.Idx) (hi : i ∈ Sc (cnd (k1_pay1 (tripVec (F := F) L k R fx))) (outSet d L) (laneSet d L k) 16) :
    tripFn (F := F) L Tb Pc R k.val i = tripFn (F := F) L Tb Pc R (k.val + 1) i := by
  obtain ⟨hS, hI⟩ := mem_Sc (cnd (k1_pay1 (tripVec (F := F) L k R fx))) (outSet d L) (laneSet d L k) 16 i hi
  have hb : baseRow L = ((L 1).val * 2 + (L 0).val) * 512 := rfl
  unfold tripFn
  by_cases h1 : (i 0).val < baseRow L + 16 * k.val
  · rw [if_pos h1, if_pos (by omega)]
  · by_cases h2 : (i 0).val < baseRow L + 16 * (k.val + 1)
    · rw [if_neg h1, if_pos h2]
      -- the row is lane j's of this trip, and lane j is not taken
      have hj : (i 0).val - baseRow L - 16 * k.val < 16 := by omega
      have hmem : i ∈ laneSet d L k ((i 0).val - baseRow L - 16 * k.val) :=
        (mem_laneSet d L k _ hj i).mpr (by show (i 0).val = baseRow L + 16 * k.val + ((i 0).val - baseRow L - 16 * k.val); omega)
      have hnc : ¬ cnd (k1_pay1 (tripVec (F := F) L k R fx)) ((i 0).val - baseRow L - 16 * k.val) := fun hc => hI _ hj hc hmem
      have hw := tripWord_eq (F := F) d L k R fx _ hj i hmem
      rw [outSpec_apply, ← hw]
      exact (if_neg hnc).symm
    · rw [if_neg h1, if_neg h2]

end Cert.Kernel.Route.Tile

end
-- ==== Proof.RouteTileK.lean ====
/-
  The SparseCore routing kernel, one vector subcore's task: fetch the task's 512 row indices, copy the task's
  512 rows of the early-exit rows into the result, then, sixteen rows at a time, overwrite every row whose index
  names the last head's table (index ≥ 49152) by that table row — the copies of a group all started before any
  is waited for, each to a row of its own, nothing touching those rows in between.
-/
import proofs.«215259_g58411555225873_cont_9to1_m_859_22_alg».proof.Proof.RouteLaneK
import proofs.«215259_g58411555225873_cont_9to1_m_859_22_alg».proof.Proof.TripFactsK
import proofs.«215259_g58411555225873_cont_9to1_m_859_22_alg».proof.Proof.RouteReadK
import proofs.«215259_g58411555225873_cont_9to1_m_859_22_alg».proof.Proof.RouteTripK
import proofs.«215259_g58411555225873_cont_9to1_m_859_22_alg».proof.Proof.RouteLaunchK

noncomputable section

namespace Cert.Kernel.Route.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batched copyDelivery Draining wp_guardedIssue wp_guardedWait shareDrop shareTokN)
open Cert.Route.Book (cntTo DsTo Sc)
open Cert.Kernel.Route

variable {F : FTy → Type}

local notation "𝕄" => MT nD τ sig (HIx 1) (Elt F) ℕ UU ℕ

/-! ## One task -/

variable (d : Dev nD) (L : grid1.Coords)

-- the kernel's memrefs, spelt as the body table passes them
local notation "tabW" => (Memref.whole Cert.Kernel.main_v1_scv : Memref Cert.Kernel.sig Kind.scVector Space.hbm Cert.Kernel.S65536x1000 EltTy.f32)
local notation "pW" => (Memref.whole Cert.Kernel.main_v0_2_scv : Memref Cert.Kernel.sig Kind.scVector Space.hbm Cert.Kernel.S16384x1000 EltTy.f32)
local notation "rW" => (Memref.whole Cert.Kernel.main_v0_1_scv : Memref Cert.Kernel.sig Kind.scVector Space.hbm Cert.Kernel.S16384 EltTy.i32)
local notation "oW" => (Memref.whole Cert.Kernel.main_v2_scv : Memref Cert.Kernel.sig Kind.scVector Space.hbm Cert.Kernel.S16384x1000 EltTy.f32)
local notation "xW" => (Memref.whole Cert.Kernel.cc1_scratch0 : Memref Cert.Kernel.sig Kind.scVector Space.vmem Cert.Kernel.S512 EltTy.i32)

variable [FloatOps F]

omit [FloatOps F] in
theorem ownSems0_V :
    (ownSems0 (thr d L) : sProp 𝕄)
      = iprop(semVal (cIcell d L) 0 ∗ semVal (cBcell d L) 0 ∗ semVal (cRcell d L) 0
          ∗ bigSep ((((ownCells (thr d L)).erase (cIcell d L)).erase (cBcell d L)).erase (cRcell d L)) fun g => semVal g 0) := by
  unfold SparseCore.Cfg.ownSems0
  rw [SparseCore.bigSep_erase' ((mem_ownCells (g := cIcell d L)).mpr ⟨rfl, by
      show (SemLoc.dma cc1_scoped0.sem : SemLoc sig).isScoped .scVector = true; decide⟩),
    SparseCore.bigSep_erase' (Finset.mem_erase.mpr ⟨by simp [cIcell, cBcell]; decide, (mem_ownCells (g := cBcell d L)).mpr ⟨rfl, by
      show (SemLoc.dma cc1_scratch1.sem : SemLoc sig).isScoped .scVector = true; decide⟩⟩),
    SparseCore.bigSep_erase' (Finset.mem_erase.mpr ⟨by simp [cBcell, cRcell]; decide, Finset.mem_erase.mpr ⟨by simp [cIcell, cRcell]; decide,
      (mem_ownCells (g := cRcell d L)).mpr ⟨rfl, by show (SemLoc.dma cc1_scratch2.sem : SemLoc sig).isScoped .scVector = true; decide⟩⟩⟩)]

omit [FloatOps F] in
/-- The index scratch is among the subcore's own buffers. -/
theorem ownBufs_V :
    (ownBufs (thr d L) : sProp 𝕄)
      = iprop((∃ f, (thr d L).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

omit [FloatOps F] in
theorem pts_x (f : Buf (Elt F) ((thr d L).loc cc1_scratch0)) :
    ((xW).view.loc (thr d L) ↦{fullShare} f : sProp 𝕄) = (thr d L).loc cc1_scratch0 ↦{fullShare} f := rfl

set_option hygiene false in
/-- Step the check of a lane's row index (an `assume` at the head of the block) with its proof. -/
local macro "lane_assume " c:ident r:num : tactic =>
  `(tactic| (
    iapply (wp_assume_prog (F := F) d L _ ?hp ?h)
    case hp => exact rfl
    case h => exact $c _ (hwd $r)))

set_option hygiene false in
/-- One lane of the issuing half: the block's local definitions out of the way, the guarded copy by `issue_lane'`, the
    state handed over and taken back, the rest of the block unfolded. -/
local macro "lane_issue " r:num : tactic =>
  `(tactic| (
    try lift_lets
    try extract_lets
    iapply (issue_lane' (F := F) d L k (tile_bodyV.sl.v11 d L R fx k) hwd q Tb (tripFn (F := F) L Tb Pc R k.val) $r (by decide) _ _
      (View.wordExact_bits rfl) (View.wordExact_bits rfl) ⟨Or.inl rfl, trivial⟩ _ ?hp)
    case hp => exact rfl
    isplitl [Hst]
    · iexact Hst
    iintro Hst
    unfold_jp))

set_option hygiene false in
/-- One lane of the waiting half. -/
local macro "lane_wait " r:num : tactic =>
  `(tactic| (
    try lift_lets
    try extract_lets
    iapply (wait_lane' (F := F) d L k (tile_bodyV.sl.v11 d L R fx k) hwd q Tb (tripFn (F := F) L Tb Pc R k.val) O W $r (by decide) _ _
      (View.wordExact_bits rfl) (View.wordExact_bits rfl) _ ?hp)
    case hp => exact rfl
    isplitl [Hst]
    · iexact Hst
    isplitr
    · iexact Hmw
    iintro Hst
    unfold_jp))

/-- The loop's invariant before trip `n`: the table's read share, the fetched indices in the task's scratch, the task's
    result rows at the routed result on the rows of the trips done and at the early-exit rows elsewhere, the row copies'
    semaphore at zero, and what the task owes. -/
def inv (O : CellTallies nD τ sig (HIx 1)) (W : Waits sig (HIx 1)) (q : PosShare TreeShare)
    (Tb : Buf (Elt F) (tabLoc d)) (Pc : Buf (Elt F) (pLoc d)) (R : Buf (Elt F) (rLoc d))
    (X : Buf (Elt F) ((xW).view.loc (thr d L))) (n : Nat) (_ : PUnit) : sProp 𝕄 :=
  iprop(Transfers.MayWaits (thr d L) (none : HIx 1) O
    ∗ ((tabW).view.loc (thr d L) ↦{q} Tb)
    ∗ ((xW).view.loc (thr d L) ↦{fullShare} X)
    ∗ ((oSl L).view.loc (thr d L) ↦[(oSl L).view.set]{fullShare} tripFn (F := F) L Tb Pc R n)
    ∗ semVal (thr d L, SemLoc.dma cc1_scratch2.sem) 0
    ∗ ∃ W', ⌜∀ p ∈ W', p ∈ W ∨ p.2 = none⌝ ∗ owes (thr d L) O W')

set_option maxHeartbeats 40000000 in
/-- One routing task, at value strength: handed the table, its early-exit rows and its row indices at known contents,
    every index naming a table row, it leaves its 512 result rows at the routed result of those contents. -/
theorem tile_bodyV : Cert.Kernel.Route.Launch.TileBodyV (F := F) (fun _ Tb Pc R => outSpec Tb Pc R) := by
  intro d L hF O W hO q Tb Pc R hR
  rw [cc1_sc_route_eq_skeleton]; unfold cc1_sc_route_skel Cert.Kernel.Route.Launch.tileIn Cert.Kernel.Route.Launch.tileOut
  rw [(K (F := F)).scopedBufs_V hF d (cV L) (jV L), SparseCore.Cfg.scopedSems0_V (Val := Elt F) d (cV L) (jV L), ownSems0_V, ownBufs_V]
  iintro ⟨#Hlv, -, ⟨Htab, Hp, Hr, ⟨%f0, Ho⟩⟩, ⟨⟨%fx, Hx⟩, Hbufs⟩, ⟨HsemI, HsemB, HsemR, Hsems⟩, HO⟩
  ihave Hmw := ((K (F := F)).mayWaits_none (thr := thr d L) hO) $$ Hlv
  ihave Hx' := (Entails.of_eq (pts_x (F := F) d L _).symm) $$ Hx
  sl_exec
  -- the result rows now hold the early-exit rows: the invariant before the first trip
  ihave Ho' := (Entails.of_eq (pointsTo_congr (ℓ := (oSl L).view.loc (thr d L)) (I := (oSl L).view.set) (q := fullShare)
      (f := (oSl L).view.writes (Elt F) (oSl L).view.junk [⟨Rect.whole S512x1000, tile_bodyV.sl.dma0_1 d L Pc⟩])
      (g := tripFn (F := F) L Tb Pc R 0)
      (fun i hi => (copyRows_writes_apply (F := F) d L Pc (oSl L).view.junk i hi).trans (tripFn_zero (F := F) d L Tb Pc R i hi).symm))) $$ Ho
  sl_for (inv d L O W q Tb Pc R (View.write (Elt F) (xW).view fx (tile_bodyV.sl.dma0 d L R) Finset.univ)) $$ [Hmw Htab Hx' Ho' HsemR HO]
  case region =>
    intro k _
    unfold inv
    iintro ⟨#Hmw, Htab, Hx, Ho, Hsem, %W', %hW', HO⟩
    sl_exec
    have hwd : ∀ r, (wd (tile_bodyV.sl.v11 d L R fx k) r).toNat < 65536 := tripWords_lt (F := F) d L k R fx hR
    imod (trip_start (F := F) d L k (tile_bodyV.sl.v11 d L R fx k) hwd q Tb (tripFn (F := F) L Tb Pc R k.val)) $$ [Hsem Ho Htab] with Hst
    · isplitl [Hsem]; · iexact Hsem
      isplitl [Ho]; · iexact Ho
      iexact Htab
    -- lane 0
    rw [wp_assume_of _ _ _ _ (show k1_chk1 (tile_bodyV.sl.v13 d L R fx k) from chk1_of_lt _ (hwd 0))]
    lane_issue 0
    lane_assume chk2_of_lt 1
    lane_issue 1
    lane_assume chk3_of_lt 2
    lane_issue 2
    lane_assume chk4_of_lt 3
    set_option sl_exec.stopBefore "k1_cond4" in sl_exec
    lane_issue 3
    lane_assume chk5_of_lt 4
    lane_issue 4
    lane_assume chk6_of_lt 5
    lane_issue 5
    lane_assume chk7_of_lt 6
    lane_issue 6
    lane_assume chk8_of_lt 7
    lane_issue 7
    sl_exec
    lane_assume chk9_of_lt 8
    lane_issue 8
    lane_assume chk10_of_lt 9
    lane_issue 9
    lane_assume chk11_of_lt 10
    lane_issue 10
    lane_assume chk12_of_lt 11
    lane_issue 11
    lane_assume chk13_of_lt 12
    set_option sl_exec.stopBefore "k1_cond13" in sl_exec
    lane_issue 12
    lane_assume chk14_of_lt 13
    lane_issue 13
    lane_assume chk15_of_lt 14
    lane_issue 14
    lane_assume chk16_of_lt 15
    lane_issue 15
    -- every lane has issued: the batch recorded is the batch to drain
    ihave Hsw := (phase_switch (F := F) d L k (tile_bodyV.sl.v11 d L R fx k) hwd q Tb (tripFn (F := F) L Tb Pc R k.val) O W) $$ [Hst HO]
    · isplitl [Hst]; · iexact Hst
      unfold owesSt
      iexists W'; isplitr
      · ipureintro; exact hW'
      iexact HO
    icases Hsw with ⟨Hheld, Hst⟩
    lane_wait 0
    sl_exec
    lift_lets
    extract_lets
    beta_reduce
    set_option sl_exec.stopBefore "k1_cond18" in sl_exec
    lane_wait 1
    lane_wait 2
    lane_wait 3
    lane_wait 4
    lane_wait 5
    lane_wait 6
    lane_wait 7
    lane_wait 8
    lane_wait 9
    lane_wait 10
    sl_exec
    dsimp -zeta only
    lane_wait 11
    lane_wait 12
    lane_wait 13
    lane_wait 14
    lane_wait 15
    -- every copy has landed: the rows of this trip are at the routed result
    rw [wp_pure]
    imodintro
    ihave Hc := (trip_collect_to (F := F) d L k (tile_bodyV.sl.v11 d L R fx k) hwd q Tb (tripFn (F := F) L Tb Pc R k.val) O W
        (tripFn (F := F) L Tb Pc R (k.val + 1))
        (fun i hi => trip_rest (F := F) d L k Tb Pc R fx i hi)
        (fun j hj hc i hi => trip_taken (F := F) d L k Tb Pc R fx hwd j hj hc i hi)) $$ [Hheld Hst]
    · isplitl [Hheld]; · iexact Hheld
      iexact Hst
    icases Hc with ⟨Ho, Htab, Hsem, HO⟩
    unfold owesSt
    icases HO with ⟨%W'', %hW'', HO⟩
    isplitr; · iexact Hmw
    isplitl [Htab]; · iexact Htab
    isplitl [Hx]; · iexact Hx
    isplitl [Ho]; · iexact Ho
    isplitl [Hsem]; · iexact Hsem
    iexists W''; isplitr
    · ipureintro; exact hW''
    iexact HO
  · -- the invariant before the first trip: the two prologue waits are recorded at the call's own index
    unfold inv
    isplitr; · iexact Hmw
    isplitl [Htab]; · iexact Htab
    isplitl [Hx']; · iexact Hx'
    isplitl [Ho']; · iexact Ho'
    isplitl [HsemR]; · iexact HsemR
    iexists _; isplitr
    swap
    · iexact HO
    · ipureintro; intro p hp
      rcases Finset.mem_insert.mp hp with rfl | hp
      · exact .inr rfl
      rcases Finset.mem_insert.mp hp with rfl | hp
      · exact .inr rfl
      · exact .inl hp
  -- after the last trip every row of the task is at the routed result
  unfold inv
  iintro %acc ⟨-, Htab, Hx, Ho, HsemR, %W', %hW', HO⟩
  sl_exec
  have h32 : Scf.trips k1_t1_loop.lb k1_t1_loop.ub k1_t1_loop.st = 32 := trips_eq
  ihave Ho' := (Entails.of_eq (pointsTo_congr (ℓ := (oSl L).view.loc (thr d L)) (I := (oSl L).view.set) (q := fullShare)
      (f := tripFn (F := F) L Tb Pc R (Scf.trips k1_t1_loop.lb k1_t1_loop.ub k1_t1_loop.st))
      (g := outSpec Tb Pc R)
      (fun i hi => by rw [h32]; exact tripFn_last (F := F) d L Tb Pc R i hi))) $$ Ho
  rw [wp_ret]
  imodintro
  isplitl [Htab Hp Hr Ho']
  · isplitl [Htab]; · iexact Htab
    isplitl [Hp]; · iexact Hp
    isplitl [Hr]; · iexact Hr
    iexact Ho'
  ihave Hx0 := (Entails.of_eq (pts_x (F := F) d L _)) $$ Hx
  isplitl [Hx0 Hbufs]
  · isplitl [Hx0]
    · iexists _; iexact Hx0
    iexact Hbufs
  isplitl [HsemI HsemB HsemR Hsems]
  · isplitl [HsemI]; · iexact HsemI
    isplitl [HsemB]; · iexact HsemB
    isplitl [HsemR]; · iexact HsemR
    iexact Hsems
  iexists W'; isplitr
  · ipureintro; exact hW'
  iexact HO

end Cert.Kernel.Route.Tile

end
-- ==== Proof.lean ====
/- Early-exit routing over four heads of logits A : [4, 16384, 1000].

   For a row r of 1000 logits the confidence is the largest softmax probability; for a finite row it
   is 1 / (sum over c of exp (r c - max r)), because the largest numerator is exp 0 = 1 and the
   denominator is a positive real. A sample leaves at the first of heads 0, 1, 2 whose confidence
   reaches the threshold, and at head 3 otherwise; the results are, per sample, that head's number
   and that head's row of logits.

   The kernel computes the confidence as the reciprocal of the denominator, picks the head per sample
   and copies the chosen rows; the reference loops over the heads with masked overwrites and masked
   scatters. Both are proved equal to the one specification (RouteSpec), index by index, so they are
   equal to each other. Finiteness of the logits is what the precondition gives and what the softmax
   law needs.

   The three frames say each program runs to the end, faults nowhere and leaves the logits unchanged:
   the reference's is its run with the results dropped; the kernel's two are its launch theorem at the
   two float instances, each from one task's body. The idealized kernel is the kernel's own text read
   at the extended reals: the ideal pass rewrote nothing. -/
import proofs.«215259_g58411555225873_cont_9to1_m_859_22_alg».proof.Defs
import proofs.«215259_g58411555225873_cont_9to1_m_859_22_alg».proof.Proof.Gen.Kernel
import proofs.«215259_g58411555225873_cont_9to1_m_859_22_alg».proof.Proof.Gen.KernelIdeal
import proofs.«215259_g58411555225873_cont_9to1_m_859_22_alg».proof.Proof.Gen.ReferenceIdeal
import proofs.«215259_g58411555225873_cont_9to1_m_859_22_alg».proof.Proof.Gen.Pre_finite_inputs
import proofs.«215259_g58411555225873_cont_9to1_m_859_22_alg».proof.Proof.RefFrame
import proofs.«215259_g58411555225873_cont_9to1_m_859_22_alg».proof.Proof.RefRun
import proofs.«215259_g58411555225873_cont_9to1_m_859_22_alg».proof.Proof.RefPre
import proofs.«215259_g58411555225873_cont_9to1_m_859_22_alg».proof.Proof.RouteLaunchI
import proofs.«215259_g58411555225873_cont_9to1_m_859_22_alg».proof.Proof.RouteFrameK
import proofs.«215259_g58411555225873_cont_9to1_m_859_22_alg».proof.Proof.RouteTile
import proofs.«215259_g58411555225873_cont_9to1_m_859_22_alg».proof.Proof.RouteTileK

noncomputable section

namespace Cert.Proof

open Idealize.ShloMosaic Idealize.SL.Sem Cert.Route.Spec Cert.Route.Ref

/-- The two idealized programs, from memories that agree on the logits, end with the same results: both
    are the specification's routed logits and exit heads of that one array. The reference's array is
    finite because it is the kernel's, which the precondition makes finite. -/
theorem algebraic : Cert.algebraic_KernelIdeal_ReferenceIdeal := fun m g m' g' hpre hagree =>
  have hfin' : ∀ (c : Dev Cert.ReferenceIdeal.nD) (i : Cert.ReferenceIdeal.S4x16384x1000.Idx),
      ∃ r : ℝ, argOf m' c i = (r : EReal) := fun c i => by
    have e : argOf m' c = (m ((c.tc : Thread Cert.KernelIdeal.nD Cert.KernelIdeal.τ).loc Cert.KernelIdeal.main_arg0)
        : FVec Ideal Cert.KernelIdeal.S4x16384x1000 .f32) := hagree c
    rw [e]
    exact ker_finite m hpre c i
  ⟨fun c => routed (m ((c.tc : Thread Cert.KernelIdeal.nD Cert.KernelIdeal.τ).loc Cert.KernelIdeal.main_arg0)),
   fun c => fun i => exitHead (m ((c.tc : Thread Cert.KernelIdeal.nD Cert.KernelIdeal.τ).loc Cert.KernelIdeal.main_arg0)) (i 0),
   Cert.KernelIdeal.Route.Launch.run_main_val Cert.KernelIdeal.Route.Tile.tile_bodyV m g (ker_finite m hpre),
   (θ_run Cert.ReferenceIdeal.defs _ _).mono
     (fun _ h c => ⟨(h c).1.trans (congrArg routed (hagree c)),
       (h c).2.1.trans (congrArg (fun A : FVec Ideal Cert.ReferenceIdeal.S4x16384x1000 .f32 => fun i : Cert.ReferenceIdeal.S16384.Idx => exitHead A (i 0)) (hagree c)),
       (h c).2.2⟩)
     (ref_run m' g' hfin')⟩

theorem claim : Cert.Claim :=
  ⟨Cert.Kernel.Gen.facts, Cert.KernelIdeal.Gen.facts, Cert.ReferenceIdeal.Gen.facts, Cert.Pre_finite_inputs.Gen.facts,
    Cert.Kernel.Route.Launch.frame_k (Cert.Kernel.Route.Launch.tileBody_of_V Cert.Kernel.Route.Tile.tile_bodyV), Cert.KernelIdeal.Route.Launch.frame_ki (Cert.KernelIdeal.Route.Launch.tileBody_of_V Cert.KernelIdeal.Route.Tile.tile_bodyV), frame_ri, trivial, algebraic⟩

end Cert.Proof

end
